-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x5 : Shape := ⟨2, ![8192, 5]⟩
abbrev S4096x4096 : Shape := ⟨2, ![4096, 4096]⟩
abbrev S4096x2048 : Shape := ⟨2, ![4096, 2048]⟩
abbrev S2048 : Shape := ⟨1, ![2048]⟩
abbrev S2048x2048 : Shape := ⟨2, ![2048, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part4 {F : FTy → Type} [FloatOps F] (main_arg16 : FVec F S2048 .f32) (main_arg17 : FVec F S2048 .f32) (main_arg18 : FVec F S2048 .f32) (main_v63 : IVec S_ 1) (main_v67 : IVec S_ 1) : IVec S_ 1 :=
  let main_v68 : IVec S_ 1 := andi main_v63 main_v67
  let main_v69 : FVec F S2048 .f32 := Host.absf main_arg16
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048 .f32 := Host.absf main_arg17
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048 .f32 := Host.absf main_arg18
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  main_v83

def fn_part3 {F : FTy → Type} [FloatOps F] (main_arg13 : FVec F S2048 .f32) (main_arg14 : FVec F S2048 .f32) (main_arg15 : FVec F S2048x2048 .f32) (main_arg16 : FVec F S2048 .f32) (main_arg17 : FVec F S2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg13
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg14
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg15
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg16 main_arg17 main_arg18 main_v63 main_v67

def fn_part2 {F : FTy → Type} [FloatOps F] (main_arg9 : FVec F S2048 .f32) (main_arg10 : FVec F S2048 .f32) (main_arg11 : FVec F S2048x2048 .f32) (main_arg12 : FVec F S2048 .f32) (main_arg13 : FVec F S2048 .f32) (main_arg14 : FVec F S2048 .f32) (main_arg15 : FVec F S2048x2048 .f32) (main_arg16 : FVec F S2048 .f32) (main_arg17 : FVec F S2048 .f32) (main_arg18 : FVec F S2048 .f32) (main_v33 : IVec S_ 1) : IVec S_ 1 :=
  let main_v34 : FVec F S2048 .f32 := Host.absf main_arg9
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg10
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg11
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg12
  let main_cst_18 : FVec F S_ .f32 := constant S_ .f32 0x7F800000#32
  let main_v50 : FVec F S2048 .f32 := broadcastInDim S2048 ![] bcast_S_S2048 main_cst_18
  fn_part3 (F := F) main_arg13 main_arg14 main_arg15 main_arg16 main_arg17 main_arg18 main_v48 main_v49 main_v50

def fn_part1 {F : FTy → Type} [FloatOps F] (main_arg6 : FVec F S2048 .f32) (main_arg7 : FVec F S2048x2048 .f32) (main_arg8 : FVec F S2048 .f32) (main_arg9 : FVec F S2048 .f32) (main_arg10 : FVec F S2048 .f32) (main_arg11 : FVec F S2048x2048 .f32) (main_arg12 : FVec F S2048 .f32) (main_arg13 : FVec F S2048 .f32) (main_arg14 : FVec F S2048 .f32) (main_arg15 : FVec F S2048x2048 .f32) (main_arg16 : FVec F S2048 .f32) (main_arg17 : FVec F S2048 .f32) (main_arg18 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg6
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg7
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg8
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : IVec S8192 32) (main_arg1 : IVec S8192x5 32) (main_arg2 : FVec F S4096x4096 .f32) (main_arg3 : FVec F S4096x2048 .f32) (main_arg4 : FVec F S2048 .f32) (main_arg5 : FVec F S2048 .f32) (main_arg6 : FVec F S2048 .f32) (main_arg7 : FVec F S2048x2048 .f32) (main_arg8 : FVec F S2048 .f32) (main_arg9 : FVec F S2048 .f32) (main_arg10 : FVec F S2048 .f32) (main_arg11 : FVec F S2048x2048 .f32) (main_arg12 : FVec F S2048 .f32) (main_arg13 : FVec F S2048 .f32) (main_arg14 : FVec F S2048 .f32) (main_arg15 : FVec F S2048x2048 .f32) (main_arg16 : FVec F S2048 .f32) (main_arg17 : FVec F S2048 .f32) (main_arg18 : FVec F S2048 .f32) : IVec S_ 1 :=
  let main_v0 : FVec F S4096x4096 .f32 := Host.absf main_arg2
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg3
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S8192 : Shape := ⟨1, ![8192]⟩
abbrev S8192x5 : Shape := ⟨2, ![8192, 5]⟩
abbrev S4096x4096 : Shape := ⟨2, ![4096, 4096]⟩
abbrev S4096x2048 : Shape := ⟨2, ![4096, 2048]⟩
abbrev S2048 : Shape := ⟨1, ![2048]⟩
abbrev S2048x2048 : Shape := ⟨2, ![2048, 2048]⟩
abbrev S_ : Shape := ⟨0, ![]⟩
abbrev S8192x1 : Shape := ⟨2, ![8192, 1]⟩
abbrev S8192x4096 : Shape := ⟨2, ![8192, 4096]⟩
abbrev S8192x5x1 : Shape := ⟨3, ![8192, 5, 1]⟩
abbrev S8192x5x4096 : Shape := ⟨3, ![8192, 5, 4096]⟩
abbrev S1x2048 : Shape := ⟨2, ![1, 2048]⟩
abbrev S8192x2048 : Shape := ⟨2, ![8192, 2048]⟩
abbrev S256x4096 : Shape := ⟨2, ![256, 4096]⟩
abbrev S4096x1024 : Shape := ⟨2, ![4096, 1024]⟩
abbrev S1x1024 : Shape := ⟨2, ![1, 1024]⟩
abbrev S256x1024 : Shape := ⟨2, ![256, 1024]⟩
abbrev S1024 : Shape := ⟨1, ![1024]⟩
abbrev S512x2048 : Shape := ⟨2, ![512, 2048]⟩
abbrev S2048x1024 : Shape := ⟨2, ![2048, 1024]⟩
abbrev S512x1024 : Shape := ⟨2, ![512, 1024]⟩
abbrev S2048x8192 : Shape := ⟨2, ![2048, 8192]⟩
abbrev S2048x512 : Shape := ⟨2, ![2048, 512]⟩

abbrev nBuf : Space → Nat
  | .hbm => 151
  | .vmem => 72
  | .smem => 0
  | _ => 0

abbrev hbmTy0_0 (i : Nat) : BufTy := match i % 128 with
  | 0 => ⟨S8192, .i32⟩
  | 1 => ⟨S8192x5, .i32⟩
  | 2 => ⟨S4096x4096, .f32⟩
  | 3 => ⟨S4096x2048, .f32⟩
  | 4 => ⟨S2048, .f32⟩
  | 5 => ⟨S2048, .f32⟩
  | 6 => ⟨S2048, .f32⟩
  | 7 => ⟨S2048x2048, .f32⟩
  | 8 => ⟨S2048, .f32⟩
  | 9 => ⟨S2048, .f32⟩
  | 10 => ⟨S2048, .f32⟩
  | 11 => ⟨S2048x2048, .f32⟩
  | 12 => ⟨S2048, .f32⟩
  | 13 => ⟨S2048, .f32⟩
  | 14 => ⟨S2048, .f32⟩
  | 15 => ⟨S2048x2048, .f32⟩
  | 16 => ⟨S2048, .f32⟩
  | 17 => ⟨S2048, .f32⟩
  | 18 => ⟨S2048, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x4096, .f32⟩
  | 28 => ⟨S_, .i32⟩
  | 29 => ⟨S8192x5, .i32⟩
  | 30 => ⟨S8192x5, .i1⟩
  | 31 => ⟨S_, .i32⟩
  | 32 => ⟨S8192x5, .i32⟩
  | 33 => ⟨S8192x5, .i32⟩
  | 34 => ⟨S8192x5, .i32⟩
  | 35 => ⟨S8192x5x1, .i32⟩
  | 36 => ⟨S8192x5x4096, .f32⟩
  | 37 => ⟨S_, .f32⟩
  | 38 => ⟨S8192x4096, .f32⟩
  | 39 => ⟨S_, .f32⟩
  | 40 => ⟨S8192x4096, .f32⟩
  | 41 => ⟨S8192x4096, .f32⟩
  | 42 => ⟨S8192x4096, .f32⟩
  | 43 => ⟨S4096x2048, .bf16⟩
  | 44 => ⟨S1x2048, .f32⟩
  | 45 => ⟨S8192x2048, .bf16⟩
  | 46 => ⟨S1x2048, .f32⟩
  | 47 => ⟨S1x2048, .f32⟩
  | 48 => ⟨S2048, .f32⟩
  | 49 => ⟨S_, .f32⟩
  | 50 => ⟨S2048, .f32⟩
  | 51 => ⟨S2048, .f32⟩
  | 52 => ⟨S2048, .f32⟩
  | 53 => ⟨S_, .f32⟩
  | 54 => ⟨S2048, .f32⟩
  | 55 => ⟨S2048, .f32⟩
  | 56 => ⟨S2048, .f32⟩
  | 57 => ⟨S2048, .f32⟩
  | 58 => ⟨S_, .f32⟩
  | 59 => ⟨S2048, .f32⟩
  | 60 => ⟨S2048, .f32⟩
  | 61 => ⟨S_, .f32⟩
  | 62 => ⟨S2048, .f32⟩
  | 63 => ⟨S2048, .f32⟩
  | 64 => ⟨S2048, .f32⟩
  | 65 => ⟨S1x2048, .f32⟩
  | 66 => ⟨S1x2048, .f32⟩
  | 67 => ⟨S1x2048, .f32⟩
  | 68 => ⟨S1x2048, .f32⟩
  | 69 => ⟨S8192x2048, .bf16⟩
  | 70 => ⟨S2048x2048, .bf16⟩
  | 71 => ⟨S1x2048, .f32⟩
  | 72 => ⟨S8192x2048, .bf16⟩
  | 73 => ⟨S1x2048, .f32⟩
  | 74 => ⟨S1x2048, .f32⟩
  | 75 => ⟨S2048, .f32⟩
  | 76 => ⟨S_, .f32⟩
  | 77 => ⟨S2048, .f32⟩
  | 78 => ⟨S2048, .f32⟩
  | 79 => ⟨S2048, .f32⟩
  | 80 => ⟨S_, .f32⟩
  | 81 => ⟨S2048, .f32⟩
  | 82 => ⟨S2048, .f32⟩
  | 83 => ⟨S2048, .f32⟩
  | 84 => ⟨S2048, .f32⟩
  | 85 => ⟨S_, .f32⟩
  | 86 => ⟨S2048, .f32⟩
  | 87 => ⟨S2048, .f32⟩
  | 88 => ⟨S_, .f32⟩
  | 89 => ⟨S2048, .f32⟩
  | 90 => ⟨S2048, .f32⟩
  | 91 => ⟨S2048, .f32⟩
  | 92 => ⟨S1x2048, .f32⟩
  | 93 => ⟨S1x2048, .f32⟩
  | 94 => ⟨S1x2048, .f32⟩
  | 95 => ⟨S1x2048, .f32⟩
  | 96 => ⟨S8192x2048, .bf16⟩
  | 97 => ⟨S2048x2048, .bf16⟩
  | 98 => ⟨S1x2048, .f32⟩
  | 99 => ⟨S8192x2048, .bf16⟩
  | 100 => ⟨S1x2048, .f32⟩
  | 101 => ⟨S1x2048, .f32⟩
  | 102 => ⟨S2048, .f32⟩
  | 103 => ⟨S_, .f32⟩
  | 104 => ⟨S2048, .f32⟩
  | 105 => ⟨S2048, .f32⟩
  | 106 => ⟨S2048, .f32⟩
  | 107 => ⟨S_, .f32⟩
  | 108 => ⟨S2048, .f32⟩
  | 109 => ⟨S2048, .f32⟩
  | 110 => ⟨S2048, .f32⟩
  | 111 => ⟨S2048, .f32⟩
  | 112 => ⟨S_, .f32⟩
  | 113 => ⟨S2048, .f32⟩
  | 114 => ⟨S2048, .f32⟩
  | 115 => ⟨S_, .f32⟩
  | 116 => ⟨S2048, .f32⟩
  | 117 => ⟨S2048, .f32⟩
  | 118 => ⟨S2048, .f32⟩
  | 119 => ⟨S1x2048, .f32⟩
  | 120 => ⟨S1x2048, .f32⟩
  | 121 => ⟨S1x2048, .f32⟩
  | 122 => ⟨S1x2048, .f32⟩
  | 123 => ⟨S8192x2048, .bf16⟩
  | 124 => ⟨S2048x2048, .bf16⟩
  | 125 => ⟨S1x2048, .f32⟩
  | 126 => ⟨S8192x2048, .bf16⟩
  | 127 => ⟨S1x2048, .f32⟩
  | _ => ⟨S8192, .i32⟩

abbrev hbmTy0_1 (i : Nat) : BufTy := match i % 128 with
  | 0 => ⟨S1x2048, .f32⟩
  | 1 => ⟨S2048, .f32⟩
  | 2 => ⟨S_, .f32⟩
  | 3 => ⟨S2048, .f32⟩
  | 4 => ⟨S2048, .f32⟩
  | 5 => ⟨S2048, .f32⟩
  | 6 => ⟨S_, .f32⟩
  | 7 => ⟨S2048, .f32⟩
  | 8 => ⟨S2048, .f32⟩
  | 9 => ⟨S2048, .f32⟩
  | 10 => ⟨S2048, .f32⟩
  | 11 => ⟨S_, .f32⟩
  | 12 => ⟨S2048, .f32⟩
  | 13 => ⟨S2048, .f32⟩
  | 14 => ⟨S_, .f32⟩
  | 15 => ⟨S2048, .f32⟩
  | 16 => ⟨S2048, .f32⟩
  | 17 => ⟨S2048, .f32⟩
  | 18 => ⟨S1x2048, .f32⟩
  | 19 => ⟨S1x2048, .f32⟩
  | 20 => ⟨S1x2048, .f32⟩
  | 21 => ⟨S1x2048, .f32⟩
  | 22 => ⟨S2048x8192, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S2048x1024, .bf16⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S512x2048, .bf16⟩
  | .local _ .vmem, ⟨29, _⟩ => ⟨S512x2048, .bf16⟩
  | .local _ .vmem, ⟨30, _⟩ => ⟨S1x2048, .f32⟩
  | .local _ .vmem, ⟨31, _⟩ => ⟨S1x2048, .f32⟩
  | .local _ .vmem, ⟨32, _⟩ => ⟨S1x2048, .f32⟩
  | .local _ .vmem, ⟨33, _⟩ => ⟨S1x2048, .f32⟩
  | .local _ .vmem, ⟨34, _⟩ => ⟨S512x2048, .bf16⟩
  | .local _ .vmem, ⟨35, _⟩ => ⟨S512x2048, .bf16⟩
  | .local _ .vmem, ⟨36, _⟩ => ⟨S512x2048, .bf16⟩
  | .local _ .vmem, ⟨37, _⟩ => ⟨S512x2048, .bf16⟩
  | .local _ .vmem, ⟨38, _⟩ => ⟨S2048x1024, .bf16⟩
  | .local _ .vmem, ⟨39, _⟩ => ⟨S1x1024, .f32⟩
  | .local _ .vmem, ⟨40, _⟩ => ⟨S512x1024, .bf16⟩
  | .local _ .vmem, ⟨41, _⟩ => ⟨S512x1024, .bf16⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S512x2048, .bf16⟩
  | .local _ .vmem, ⟨47, _⟩ => ⟨S512x2048, .bf16⟩
  | .local _ .vmem, ⟨48, _⟩ => ⟨S1x2048, .f32⟩
  | .local _ .vmem, ⟨49, _⟩ => ⟨S1x2048, .f32⟩
  | .local _ .vmem, ⟨50, _⟩ => ⟨S1x2048, .f32⟩
  | .local _ .vmem, ⟨51, _⟩ => ⟨S1x2048, .f32⟩
  | .local _ .vmem, ⟨52, _⟩ => ⟨S512x2048, .bf16⟩
  | .local _ .vmem, ⟨53, _⟩ => ⟨S512x2048, .bf16⟩
  | .local _ .vmem, ⟨54, _⟩ => ⟨S512x2048, .bf16⟩
  | .local _ .vmem, ⟨55, _⟩ => ⟨S512x2048, .bf16⟩
  | .local _ .vmem, ⟨56, _⟩ => ⟨S2048x1024, .bf16⟩
  | .local _ .vmem, ⟨57, _⟩ => ⟨S1x1024, .f32⟩
  | .local _ .vmem, ⟨58, _⟩ => ⟨S512x1024, .bf16⟩
  | .local _ .vmem, ⟨59, _⟩ => ⟨S512x1024, .bf16⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | .local _ .vmem, ⟨63, _⟩ => ⟨S1x1024, .f32⟩
  | .local _ .vmem, ⟨64, _⟩ => ⟨S512x2048, .bf16⟩
  | .local _ .vmem, ⟨65, _⟩ => ⟨S512x2048, .bf16⟩
  | .local _ .vmem, ⟨66, _⟩ => ⟨S1x2048, .f32⟩
  | .local _ .vmem, ⟨67, _⟩ => ⟨S1x2048, .f32⟩
  | .local _ .vmem, ⟨68, _⟩ => ⟨S1x2048, .f32⟩
  | .local _ .vmem, ⟨69, _⟩ => ⟨S1x2048, .f32⟩
  | .local _ .vmem, ⟨70, _⟩ => ⟨S2048x512, .f32⟩
  | .local _ .vmem, ⟨71, _⟩ => ⟨S2048x512, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_cst_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20_0 : Ref sig .tc := ⟨.hbm, 45, rfl⟩
abbrev main_v20_1 : Ref sig .tc := ⟨.hbm, 46, rfl⟩
abbrev main_v20_2 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_6 : Ref sig .tc := ⟨.hbm, 58, rfl⟩
abbrev main_v29 : Ref sig .tc := ⟨.hbm, 59, rfl⟩
abbrev main_v30 : Ref sig .tc := ⟨.hbm, 60, rfl⟩
abbrev main_cst_7 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41_0 : Ref sig .tc := ⟨.hbm, 72, rfl⟩
abbrev main_v41_1 : Ref sig .tc := ⟨.hbm, 73, rfl⟩
abbrev main_v41_2 : Ref sig .tc := ⟨.hbm, 74, rfl⟩
abbrev main_v42 : Ref sig .tc := ⟨.hbm, 75, rfl⟩
abbrev main_cst_8 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_9 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_10 : Ref sig .tc := ⟨.hbm, 85, rfl⟩
abbrev main_v50 : Ref sig .tc := ⟨.hbm, 86, rfl⟩
abbrev main_v51 : Ref sig .tc := ⟨.hbm, 87, rfl⟩
abbrev main_cst_11 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62_0 : Ref sig .tc := ⟨.hbm, 99, rfl⟩
abbrev main_v62_1 : Ref sig .tc := ⟨.hbm, 100, rfl⟩
abbrev main_v62_2 : Ref sig .tc := ⟨.hbm, 101, rfl⟩
abbrev main_v63 : Ref sig .tc := ⟨.hbm, 102, rfl⟩
abbrev main_cst_12 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_13 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_14 : Ref sig .tc := ⟨.hbm, 112, rfl⟩
abbrev main_v71 : Ref sig .tc := ⟨.hbm, 113, rfl⟩
abbrev main_v72 : Ref sig .tc := ⟨.hbm, 114, rfl⟩
abbrev main_cst_15 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83_0 : Ref sig .tc := ⟨.hbm, 126, rfl⟩
abbrev main_v83_1 : Ref sig .tc := ⟨.hbm, 127, rfl⟩
abbrev main_v83_2 : Ref sig .tc := ⟨.hbm, 128, rfl⟩
abbrev main_v84 : Ref sig .tc := ⟨.hbm, 129, rfl⟩
abbrev main_cst_16 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_17 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_18 : Ref sig .tc := ⟨.hbm, 139, rfl⟩
abbrev main_v92 : Ref sig .tc := ⟨.hbm, 140, rfl⟩
abbrev main_v93 : Ref sig .tc := ⟨.hbm, 141, rfl⟩
abbrev main_cst_19 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc6_stg4_0 : Ref sig .tc := ⟨.vmem, 60, rfl⟩
abbrev cc6_stg4_1 : Ref sig .tc := ⟨.vmem, 61, rfl⟩
abbrev cc6_stg5_0 : Ref sig .tc := ⟨.vmem, 62, rfl⟩
abbrev cc6_stg5_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc4_sem4_0 : DmaSem sig := 42
abbrev cc4_sem4_1 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59
abbrev cc6_sem4_0 : DmaSem sig := 60
abbrev cc6_sem4_1 : DmaSem sig := 61
abbrev cc6_sem5_0 : DmaSem sig := 62
abbrev cc6_sem5_1 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x2048 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![2, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S1x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x2048 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x2048 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x2048 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![2, 16], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S512x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 1 → Memref sig .tc .vmem S2048x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, false]

abbrev stage6_3 : Fin 2 → Memref sig .tc .vmem S512x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S1x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 2 → Memref sig .tc .vmem S1x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S512x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x2048 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x2048 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x2048 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x2048 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2048x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x5 : S_.BroadcastsInDim S8192x5 (![] : Fin 0 → Fin S8192x5.rank)
  bcast_S8192x5_S8192x5x1_0_1 : S8192x5.BroadcastsInDim S8192x5x1 (![0, 1] : Fin 2 → Fin S8192x5x1.rank)
  reducesTo_S8192x5x4096_S8192x4096_d1 : S8192x5x4096.ReducesTo [1] S8192x4096
  h_S_ : 0 < S_.numel
  bcast_S_S8192x4096 : S_.BroadcastsInDim S8192x4096 (![] : Fin 0 → Fin S8192x4096.rank)
  bitsLt_bf16_f32 : FTy.bits .bf16 < FTy.bits .f32
  shapeCasts_S2048_S1x2048 : S2048.ShapeCasts S1x2048
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S1024 : S256x1024.Reduces [0] S1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  shapeCasts_S1x2048_S2048 : S1x2048.ShapeCasts S2048
  bcast_S_S2048 : S_.BroadcastsInDim S2048 (![] : Fin 0 → Fin S2048.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  broadcasts_S1x1024_S512x1024 : S1x1024.Broadcasts S512x1024
  reduces_S512x1024_S1024 : S512x1024.Reduces [0] S1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  transposes_S512x2048_p1_0_S2048x512 : S512x2048.Transposes [1, 0] S2048x512
  inb_S2048x512_S2048x512_0_0 : ∀ a, (![0, 0] : Fin 2 → Nat) a + S2048x512.size a ≤ S2048x512.size a
  h_S2048x512 : 0 < S2048x512.numel
  gather_S4096x4096_S8192x1_S8192x4096_1_0_n_n_0_1_14096_wf : GatherDims.WF S4096x4096 S8192x1 S8192x4096 [1] [0] [] [0] [] 1 ![1, 4096]
  gather_S4096x4096_S8192x5x1_S8192x5x4096_2_0_n_n_0_2_14096_wf : GatherDims.WF S4096x4096 S8192x5x1 S8192x5x4096 [2] [0] [] [0] [] 2 ![1, 4096]
  dot_S256x4096_S4096x1024_S256x1024_1_0_0_1_n_n_wf : DotDims.WF S256x4096 S4096x1024 S256x1024 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x2048.size a
  hwx0_1 : ∀ i : grid0.Coords, EltTy.bits .bf16 = 32 ∨ (Rect.block (s := S4096x2048) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x2048.size a
  hwx0_3 : ∀ i : grid0.Coords, EltTy.bits .bf16 = 32 ∨ (Rect.block (s := S8192x2048) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x2048.size a
  hwx0_4 : ∀ i : grid0.Coords, EltTy.bits .f32 = 32 ∨ (Rect.block (s := S1x2048) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x2048.size a
  hwx0_5 : ∀ i : grid0.Coords, EltTy.bits .f32 = 32 ∨ (Rect.block (s := S1x2048) S1x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .bf16 = 32 ∨ (Rect.block (s := S8192x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S8192x2048.size a
  hwx1_5 : ∀ i : grid1.Coords, EltTy.bits .bf16 = 32 ∨ (Rect.block (s := S8192x2048) S512x2048.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x2048.size a
  hwx2_0 : ∀ i : grid2.Coords, EltTy.bits .bf16 = 32 ∨ (Rect.block (s := S8192x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S2048x2048.size a
  hwx2_1 : ∀ i : grid2.Coords, EltTy.bits .bf16 = 32 ∨ (Rect.block (s := S2048x2048) S2048x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x2048.size a
  hwx2_2 : ∀ i : grid2.Coords, EltTy.bits .f32 = 32 ∨ (Rect.block (s := S1x2048) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x2048.size a
  hwx2_3 : ∀ i : grid2.Coords, EltTy.bits .bf16 = 32 ∨ (Rect.block (s := S8192x2048) S512x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x2048.size a
  hwx2_4 : ∀ i : grid2.Coords, EltTy.bits .f32 = 32 ∨ (Rect.block (s := S1x2048) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x2048.size a
  hwx2_5 : ∀ i : grid2.Coords, EltTy.bits .f32 = 32 ∨ (Rect.block (s := S1x2048) S1x1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S8192x2048.size a
  hwx3_0 : ∀ i : grid3.Coords, EltTy.bits .bf16 = 32 ∨ (Rect.block (s := S8192x2048) S512x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x2048.size a
  hwx3_1 : ∀ i : grid3.Coords, EltTy.bits .f32 = 32 ∨ (Rect.block (s := S1x2048) S1x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2048.size a ≤ S1x2048.size a
  hwx3_3 : ∀ i : grid3.Coords, EltTy.bits .f32 = 32 ∨ (Rect.block (s := S1x2048) S1x2048.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2048.size a ≤ S1x2048.size a
  hwx3_4 : ∀ i : grid3.Coords, EltTy.bits .f32 = 32 ∨ (Rect.block (s := S1x2048) S1x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x2048.size a ≤ S8192x2048.size a
  hwx3_5 : ∀ i : grid3.Coords, EltTy.bits .bf16 = 32 ∨ (Rect.block (s := S8192x2048) S512x2048.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S8192x2048.size a
  hwx4_0 : ∀ i : grid4.Coords, EltTy.bits .bf16 = 32 ∨ (Rect.block (s := S8192x2048) S512x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x1024.size a ≤ S2048x2048.size a
  hwx4_1 : ∀ i : grid4.Coords, EltTy.bits .bf16 = 32 ∨ (Rect.block (s := S2048x2048) S2048x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x2048.size a
  hwx4_2 : ∀ i : grid4.Coords, EltTy.bits .f32 = 32 ∨ (Rect.block (s := S1x2048) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x2048.size a
  hwx4_3 : ∀ i : grid4.Coords, EltTy.bits .bf16 = 32 ∨ (Rect.block (s := S8192x2048) S512x1024.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x2048.size a
  hwx4_4 : ∀ i : grid4.Coords, EltTy.bits .f32 = 32 ∨ (Rect.block (s := S1x2048) S1x1024.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1024.size a ≤ S1x2048.size a
  hwx4_5 : ∀ i : grid4.Coords, EltTy.bits .f32 = 32 ∨ (Rect.block (s := S1x2048) S1x1024.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x2048.size a ≤ S8192x2048.size a
  hwx5_0 : ∀ i : grid5.Coords, EltTy.bits .bf16 = 32 ∨ (Rect.block (s := S8192x2048) S512x2048.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2048.size a ≤ S1x2048.size a
  hwx5_1 : ∀ i : grid5.Coords, EltTy.bits .f32 = 32 ∨ (Rect.block (s := S1x2048) S1x2048.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2048.size a ≤ S1x2048.size a
  hwx5_2 : ∀ i : grid5.Coords, EltTy.bits .f32 = 32 ∨ (Rect.block (s := S1x2048) S1x2048.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2048.size a ≤ S1x2048.size a
  hwx5_3 : ∀ i : grid5.Coords, EltTy.bits .f32 = 32 ∨ (Rect.block (s := S1x2048) S1x2048.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x2048.size a ≤ S1x2048.size a
  hwx5_4 : ∀ i : grid5.Coords, EltTy.bits .f32 = 32 ∨ (Rect.block (s := S1x2048) S1x2048.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x2048.size a ≤ S8192x2048.size a
  hwx5_5 : ∀ i : grid5.Coords, EltTy.bits .bf16 = 32 ∨ (Rect.block (s := S8192x2048) S512x2048.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x2048.size a ≤ S8192x2048.size a
  hwx6_0 : ∀ i : grid6.Coords, EltTy.bits .bf16 = 32 ∨ (Rect.block (s := S8192x2048) S512x2048.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x1024.size a ≤ S2048x2048.size a
  hwx6_1 : ∀ i : grid6.Coords, EltTy.bits .bf16 = 32 ∨ (Rect.block (s := S2048x2048) S2048x1024.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x2048.size a
  hwx6_2 : ∀ i : grid6.Coords, EltTy.bits .f32 = 32 ∨ (Rect.block (s := S1x2048) S1x1024.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x1024.size a ≤ S8192x2048.size a
  hwx6_3 : ∀ i : grid6.Coords, EltTy.bits .bf16 = 32 ∨ (Rect.block (s := S8192x2048) S512x1024.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x1024.size a ≤ S1x2048.size a
  hwx6_4 : ∀ i : grid6.Coords, EltTy.bits .f32 = 32 ∨ (Rect.block (s := S1x2048) S1x1024.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x1024.size a ≤ S1x2048.size a
  hwx6_5 : ∀ i : grid6.Coords, EltTy.bits .f32 = 32 ∨ (Rect.block (s := S1x2048) S1x1024.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x2048.size a ≤ S8192x2048.size a
  hwx7_0 : ∀ i : grid7.Coords, EltTy.bits .bf16 = 32 ∨ (Rect.block (s := S8192x2048) S512x2048.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x2048.size a ≤ S1x2048.size a
  hwx7_1 : ∀ i : grid7.Coords, EltTy.bits .f32 = 32 ∨ (Rect.block (s := S1x2048) S1x2048.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x2048.size a ≤ S1x2048.size a
  hwx7_2 : ∀ i : grid7.Coords, EltTy.bits .f32 = 32 ∨ (Rect.block (s := S1x2048) S1x2048.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x2048.size a ≤ S1x2048.size a
  hwx7_3 : ∀ i : grid7.Coords, EltTy.bits .f32 = 32 ∨ (Rect.block (s := S1x2048) S1x2048.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x2048.size a ≤ S1x2048.size a
  hwx7_4 : ∀ i : grid7.Coords, EltTy.bits .f32 = 32 ∨ (Rect.block (s := S1x2048) S1x2048.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2048x512.size a ≤ S2048x8192.size a
  hwx7_5 : ∀ i : grid7.Coords, EltTy.bits .f32 = 32 ∨ (Rect.block (s := S2048x8192) S2048x512.size (cc7_transform_5 i) (hinb7_5 i)).WholeWords (EltTy.packing .f32)

variable [Facts₀]

def gather_S4096x4096_S8192x1_S8192x4096_1_0_n_n_0_1_14096 : GatherDims S4096x4096 S8192x1 S8192x4096 where
  offsetDims := [1]
  collapsedSliceDims := [0]
  operandBatchingDims := []
  startIndicesBatchingDims := []
  startIndexMap := [0]
  indexVectorDim := 1
  sliceSizes := ![1, 4096]
  wf := gather_S4096x4096_S8192x1_S8192x4096_1_0_n_n_0_1_14096_wf
def gather_S4096x4096_S8192x5x1_S8192x5x4096_2_0_n_n_0_2_14096 : GatherDims S4096x4096 S8192x5x1 S8192x5x4096 where
  offsetDims := [2]
  collapsedSliceDims := [0]
  operandBatchingDims := []
  startIndicesBatchingDims := []
  startIndexMap := [0]
  indexVectorDim := 2
  sliceSizes := ![1, 4096]
  wf := gather_S4096x4096_S8192x5x1_S8192x5x4096_2_0_n_n_0_2_14096_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v17) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_2) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20_0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S512x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2048x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41_0) S512x1024.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41_1) S1x1024.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v41_2) S1x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41_0) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x2048.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S512x2048.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S2048x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62_0) S512x1024.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v62_1) S1x1024.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v62_2) S1x1024.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v62_0) S512x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S1x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x2048.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S1x2048.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S512x2048.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v80) S512x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S2048x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83_0) S512x1024.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v83_1) S1x1024.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v83_2) S1x1024.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v83_0) S512x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v97) S1x2048.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v98) S1x2048.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v99) S1x2048.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v100) S1x2048.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v101) S2048x512.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S8192 : Shape := ⟨1, ![8192]⟩
abbrev S8192x5 : Shape := ⟨2, ![8192, 5]⟩
abbrev S4096x4096 : Shape := ⟨2, ![4096, 4096]⟩
abbrev S4096x2048 : Shape := ⟨2, ![4096, 2048]⟩
abbrev S2048 : Shape := ⟨1, ![2048]⟩
abbrev S2048x2048 : Shape := ⟨2, ![2048, 2048]⟩
abbrev S_ : Shape := ⟨0, ![]⟩
abbrev S8192x1 : Shape := ⟨2, ![8192, 1]⟩
abbrev S8192x4096 : Shape := ⟨2, ![8192, 4096]⟩
abbrev S8192x5x1 : Shape := ⟨3, ![8192, 5, 1]⟩
abbrev S8192x5x4096 : Shape := ⟨3, ![8192, 5, 4096]⟩
abbrev S8192x2048 : Shape := ⟨2, ![8192, 2048]⟩
abbrev S1x2048 : Shape := ⟨2, ![1, 2048]⟩
abbrev S2048x8192 : Shape := ⟨2, ![2048, 8192]⟩

abbrev nBuf : Space → Nat
  | .hbm => 246
  | .vmem => 0
  | .smem => 0
  | _ => 0

abbrev hbmTy0_0 (i : Nat) : BufTy := match i % 128 with
  | 0 => ⟨S8192, .i32⟩
  | 1 => ⟨S8192x5, .i32⟩
  | 2 => ⟨S4096x4096, .f32⟩
  | 3 => ⟨S4096x2048, .f32⟩
  | 4 => ⟨S2048, .f32⟩
  | 5 => ⟨S2048, .f32⟩
  | 6 => ⟨S2048, .f32⟩
  | 7 => ⟨S2048x2048, .f32⟩
  | 8 => ⟨S2048, .f32⟩
  | 9 => ⟨S2048, .f32⟩
  | 10 => ⟨S2048, .f32⟩
  | 11 => ⟨S2048x2048, .f32⟩
  | 12 => ⟨S2048, .f32⟩
  | 13 => ⟨S2048, .f32⟩
  | 14 => ⟨S2048, .f32⟩
  | 15 => ⟨S2048x2048, .f32⟩
  | 16 => ⟨S2048, .f32⟩
  | 17 => ⟨S2048, .f32⟩
  | 18 => ⟨S2048, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x4096, .f32⟩
  | 28 => ⟨S_, .i32⟩
  | 29 => ⟨S8192x5, .i32⟩
  | 30 => ⟨S8192x5, .i1⟩
  | 31 => ⟨S_, .i32⟩
  | 32 => ⟨S8192x5, .i32⟩
  | 33 => ⟨S8192x5, .i32⟩
  | 34 => ⟨S8192x5, .i32⟩
  | 35 => ⟨S8192x5x1, .i32⟩
  | 36 => ⟨S8192x5x4096, .f32⟩
  | 37 => ⟨S_, .f32⟩
  | 38 => ⟨S8192x4096, .f32⟩
  | 39 => ⟨S8192x4096, .f32⟩
  | 40 => ⟨S8192x4096, .f32⟩
  | 41 => ⟨S8192x2048, .f32⟩
  | 42 => ⟨S1x2048, .f32⟩
  | 43 => ⟨S8192x2048, .f32⟩
  | 44 => ⟨S8192x2048, .f32⟩
  | 45 => ⟨S_, .f32⟩
  | 46 => ⟨S2048, .f32⟩
  | 47 => ⟨S_, .f32⟩
  | 48 => ⟨S2048, .f32⟩
  | 49 => ⟨S2048, .f32⟩
  | 50 => ⟨S_, .i32⟩
  | 51 => ⟨S_, .f32⟩
  | 52 => ⟨S2048, .f32⟩
  | 53 => ⟨S1x2048, .f32⟩
  | 54 => ⟨S_, .f32⟩
  | 55 => ⟨S1x2048, .f32⟩
  | 56 => ⟨S1x2048, .f32⟩
  | 57 => ⟨S8192x2048, .f32⟩
  | 58 => ⟨S8192x2048, .f32⟩
  | 59 => ⟨S8192x2048, .f32⟩
  | 60 => ⟨S_, .f32⟩
  | 61 => ⟨S_, .f32⟩
  | 62 => ⟨S_, .f32⟩
  | 63 => ⟨S_, .f32⟩
  | 64 => ⟨S2048, .f32⟩
  | 65 => ⟨S2048, .f32⟩
  | 66 => ⟨S2048, .f32⟩
  | 67 => ⟨S_, .f32⟩
  | 68 => ⟨S_, .i1⟩
  | 69 => ⟨S_, .f32⟩
  | 70 => ⟨S_, .f32⟩
  | 71 => ⟨S2048, .f32⟩
  | 72 => ⟨S2048, .f32⟩
  | 73 => ⟨S1x2048, .f32⟩
  | 74 => ⟨S8192x2048, .f32⟩
  | 75 => ⟨S8192x2048, .f32⟩
  | 76 => ⟨S_, .f32⟩
  | 77 => ⟨S2048, .f32⟩
  | 78 => ⟨S2048, .f32⟩
  | 79 => ⟨S2048, .f32⟩
  | 80 => ⟨S1x2048, .f32⟩
  | 81 => ⟨S8192x2048, .f32⟩
  | 82 => ⟨S8192x2048, .f32⟩
  | 83 => ⟨S1x2048, .f32⟩
  | 84 => ⟨S8192x2048, .f32⟩
  | 85 => ⟨S8192x2048, .f32⟩
  | 86 => ⟨S1x2048, .f32⟩
  | 87 => ⟨S8192x2048, .f32⟩
  | 88 => ⟨S8192x2048, .f32⟩
  | 89 => ⟨S_, .f32⟩
  | 90 => ⟨S8192x2048, .f32⟩
  | 91 => ⟨S8192x2048, .f32⟩
  | 92 => ⟨S8192x2048, .f32⟩
  | 93 => ⟨S1x2048, .f32⟩
  | 94 => ⟨S8192x2048, .f32⟩
  | 95 => ⟨S8192x2048, .f32⟩
  | 96 => ⟨S_, .f32⟩
  | 97 => ⟨S2048, .f32⟩
  | 98 => ⟨S_, .f32⟩
  | 99 => ⟨S2048, .f32⟩
  | 100 => ⟨S2048, .f32⟩
  | 101 => ⟨S_, .i32⟩
  | 102 => ⟨S_, .f32⟩
  | 103 => ⟨S2048, .f32⟩
  | 104 => ⟨S1x2048, .f32⟩
  | 105 => ⟨S_, .f32⟩
  | 106 => ⟨S1x2048, .f32⟩
  | 107 => ⟨S1x2048, .f32⟩
  | 108 => ⟨S8192x2048, .f32⟩
  | 109 => ⟨S8192x2048, .f32⟩
  | 110 => ⟨S8192x2048, .f32⟩
  | 111 => ⟨S_, .f32⟩
  | 112 => ⟨S_, .f32⟩
  | 113 => ⟨S_, .f32⟩
  | 114 => ⟨S_, .f32⟩
  | 115 => ⟨S2048, .f32⟩
  | 116 => ⟨S2048, .f32⟩
  | 117 => ⟨S2048, .f32⟩
  | 118 => ⟨S_, .f32⟩
  | 119 => ⟨S_, .i1⟩
  | 120 => ⟨S_, .f32⟩
  | 121 => ⟨S_, .f32⟩
  | 122 => ⟨S2048, .f32⟩
  | 123 => ⟨S2048, .f32⟩
  | 124 => ⟨S1x2048, .f32⟩
  | 125 => ⟨S8192x2048, .f32⟩
  | 126 => ⟨S8192x2048, .f32⟩
  | 127 => ⟨S_, .f32⟩
  | _ => ⟨S8192, .i32⟩

abbrev hbmTy0_1 (i : Nat) : BufTy := match i % 128 with
  | 0 => ⟨S2048, .f32⟩
  | 1 => ⟨S2048, .f32⟩
  | 2 => ⟨S2048, .f32⟩
  | 3 => ⟨S1x2048, .f32⟩
  | 4 => ⟨S8192x2048, .f32⟩
  | 5 => ⟨S8192x2048, .f32⟩
  | 6 => ⟨S1x2048, .f32⟩
  | 7 => ⟨S8192x2048, .f32⟩
  | 8 => ⟨S8192x2048, .f32⟩
  | 9 => ⟨S1x2048, .f32⟩
  | 10 => ⟨S8192x2048, .f32⟩
  | 11 => ⟨S8192x2048, .f32⟩
  | 12 => ⟨S_, .f32⟩
  | 13 => ⟨S8192x2048, .f32⟩
  | 14 => ⟨S8192x2048, .f32⟩
  | 15 => ⟨S8192x2048, .f32⟩
  | 16 => ⟨S1x2048, .f32⟩
  | 17 => ⟨S8192x2048, .f32⟩
  | 18 => ⟨S8192x2048, .f32⟩
  | 19 => ⟨S_, .f32⟩
  | 20 => ⟨S2048, .f32⟩
  | 21 => ⟨S_, .f32⟩
  | 22 => ⟨S2048, .f32⟩
  | 23 => ⟨S2048, .f32⟩
  | 24 => ⟨S_, .i32⟩
  | 25 => ⟨S_, .f32⟩
  | 26 => ⟨S2048, .f32⟩
  | 27 => ⟨S1x2048, .f32⟩
  | 28 => ⟨S_, .f32⟩
  | 29 => ⟨S1x2048, .f32⟩
  | 30 => ⟨S1x2048, .f32⟩
  | 31 => ⟨S8192x2048, .f32⟩
  | 32 => ⟨S8192x2048, .f32⟩
  | 33 => ⟨S8192x2048, .f32⟩
  | 34 => ⟨S_, .f32⟩
  | 35 => ⟨S_, .f32⟩
  | 36 => ⟨S_, .f32⟩
  | 37 => ⟨S_, .f32⟩
  | 38 => ⟨S2048, .f32⟩
  | 39 => ⟨S2048, .f32⟩
  | 40 => ⟨S2048, .f32⟩
  | 41 => ⟨S_, .f32⟩
  | 42 => ⟨S_, .i1⟩
  | 43 => ⟨S_, .f32⟩
  | 44 => ⟨S_, .f32⟩
  | 45 => ⟨S2048, .f32⟩
  | 46 => ⟨S2048, .f32⟩
  | 47 => ⟨S1x2048, .f32⟩
  | 48 => ⟨S8192x2048, .f32⟩
  | 49 => ⟨S8192x2048, .f32⟩
  | 50 => ⟨S_, .f32⟩
  | 51 => ⟨S2048, .f32⟩
  | 52 => ⟨S2048, .f32⟩
  | 53 => ⟨S2048, .f32⟩
  | 54 => ⟨S1x2048, .f32⟩
  | 55 => ⟨S8192x2048, .f32⟩
  | 56 => ⟨S8192x2048, .f32⟩
  | 57 => ⟨S1x2048, .f32⟩
  | 58 => ⟨S8192x2048, .f32⟩
  | 59 => ⟨S8192x2048, .f32⟩
  | 60 => ⟨S1x2048, .f32⟩
  | 61 => ⟨S8192x2048, .f32⟩
  | 62 => ⟨S8192x2048, .f32⟩
  | 63 => ⟨S_, .f32⟩
  | 64 => ⟨S8192x2048, .f32⟩
  | 65 => ⟨S8192x2048, .f32⟩
  | 66 => ⟨S8192x2048, .f32⟩
  | 67 => ⟨S1x2048, .f32⟩
  | 68 => ⟨S8192x2048, .f32⟩
  | 69 => ⟨S8192x2048, .f32⟩
  | 70 => ⟨S_, .f32⟩
  | 71 => ⟨S2048, .f32⟩
  | 72 => ⟨S_, .f32⟩
  | 73 => ⟨S2048, .f32⟩
  | 74 => ⟨S2048, .f32⟩
  | 75 => ⟨S_, .i32⟩
  | 76 => ⟨S_, .f32⟩
  | 77 => ⟨S2048, .f32⟩
  | 78 => ⟨S1x2048, .f32⟩
  | 79 => ⟨S_, .f32⟩
  | 80 => ⟨S1x2048, .f32⟩
  | 81 => ⟨S1x2048, .f32⟩
  | 82 => ⟨S8192x2048, .f32⟩
  | 83 => ⟨S8192x2048, .f32⟩
  | 84 => ⟨S8192x2048, .f32⟩
  | 85 => ⟨S_, .f32⟩
  | 86 => ⟨S_, .f32⟩
  | 87 => ⟨S_, .f32⟩
  | 88 => ⟨S_, .f32⟩
  | 89 => ⟨S2048, .f32⟩
  | 90 => ⟨S2048, .f32⟩
  | 91 => ⟨S2048, .f32⟩
  | 92 => ⟨S_, .f32⟩
  | 93 => ⟨S_, .i1⟩
  | 94 => ⟨S_, .f32⟩
  | 95 => ⟨S_, .f32⟩
  | 96 => ⟨S2048, .f32⟩
  | 97 => ⟨S2048, .f32⟩
  | 98 => ⟨S1x2048, .f32⟩
  | 99 => ⟨S8192x2048, .f32⟩
  | 100 => ⟨S8192x2048, .f32⟩
  | 101 => ⟨S_, .f32⟩
  | 102 => ⟨S2048, .f32⟩
  | 103 => ⟨S2048, .f32⟩
  | 104 => ⟨S2048, .f32⟩
  | 105 => ⟨S1x2048, .f32⟩
  | 106 => ⟨S8192x2048, .f32⟩
  | 107 => ⟨S8192x2048, .f32⟩
  | 108 => ⟨S1x2048, .f32⟩
  | 109 => ⟨S8192x2048, .f32⟩
  | 110 => ⟨S8192x2048, .f32⟩
  | 111 => ⟨S1x2048, .f32⟩
  | 112 => ⟨S8192x2048, .f32⟩
  | 113 => ⟨S8192x2048, .f32⟩
  | 114 => ⟨S_, .f32⟩
  | 115 => ⟨S8192x2048, .f32⟩
  | 116 => ⟨S8192x2048, .f32⟩
  | 117 => ⟨S2048x8192, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_6 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_call1_cst : Ref sig .tc := ⟨.hbm, 89, rfl⟩
abbrev main_call1_v0 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_cst_7 : Ref sig .tc := ⟨.hbm, 96, rfl⟩
abbrev main_v45 : Ref sig .tc := ⟨.hbm, 97, rfl⟩
abbrev main_cst_8 : Ref sig .tc := ⟨.hbm, 98, rfl⟩
abbrev main_v46 : Ref sig .tc := ⟨.hbm, 99, rfl⟩
abbrev main_v47 : Ref sig .tc := ⟨.hbm, 100, rfl⟩
abbrev main_c_9 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_cst_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_cst_1 : Ref sig .tc := ⟨.hbm, 112, rfl⟩
abbrev main_call2_v8 : Ref sig .tc := ⟨.hbm, 113, rfl⟩
abbrev main_call2_cst_2 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_cst_3 : Ref sig .tc := ⟨.hbm, 118, rfl⟩
abbrev main_call2_v12 : Ref sig .tc := ⟨.hbm, 119, rfl⟩
abbrev main_call2_cst_4 : Ref sig .tc := ⟨.hbm, 120, rfl⟩
abbrev main_call2_call0_v0 : Ref sig .tc := ⟨.hbm, 121, rfl⟩
abbrev main_call2_call0_v1 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_cst_10 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_call3_cst : Ref sig .tc := ⟨.hbm, 140, rfl⟩
abbrev main_call3_v0 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_cst_11 : Ref sig .tc := ⟨.hbm, 147, rfl⟩
abbrev main_v69 : Ref sig .tc := ⟨.hbm, 148, rfl⟩
abbrev main_cst_12 : Ref sig .tc := ⟨.hbm, 149, rfl⟩
abbrev main_v70 : Ref sig .tc := ⟨.hbm, 150, rfl⟩
abbrev main_v71 : Ref sig .tc := ⟨.hbm, 151, rfl⟩
abbrev main_c_13 : Ref sig .tc := ⟨.hbm, 152, rfl⟩
abbrev main_call4_cst : Ref sig .tc := ⟨.hbm, 153, rfl⟩
abbrev main_call4_v0 : Ref sig .tc := ⟨.hbm, 154, rfl⟩
abbrev main_call4_v1 : Ref sig .tc := ⟨.hbm, 155, rfl⟩
abbrev main_call4_cst_0 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_call4_v5 : Ref sig .tc := ⟨.hbm, 160, rfl⟩
abbrev main_call4_v6 : Ref sig .tc := ⟨.hbm, 161, rfl⟩
abbrev main_call4_v7 : Ref sig .tc := ⟨.hbm, 162, rfl⟩
abbrev main_call4_cst_1 : Ref sig .tc := ⟨.hbm, 163, rfl⟩
abbrev main_call4_v8 : Ref sig .tc := ⟨.hbm, 164, rfl⟩
abbrev main_call4_cst_2 : Ref sig .tc := ⟨.hbm, 165, rfl⟩
abbrev main_call4_v9 : Ref sig .tc := ⟨.hbm, 166, rfl⟩
abbrev main_call4_v10 : Ref sig .tc := ⟨.hbm, 167, rfl⟩
abbrev main_call4_v11 : Ref sig .tc := ⟨.hbm, 168, rfl⟩
abbrev main_call4_cst_3 : Ref sig .tc := ⟨.hbm, 169, rfl⟩
abbrev main_call4_v12 : Ref sig .tc := ⟨.hbm, 170, rfl⟩
abbrev main_call4_cst_4 : Ref sig .tc := ⟨.hbm, 171, rfl⟩
abbrev main_call4_call0_v0 : Ref sig .tc := ⟨.hbm, 172, rfl⟩
abbrev main_call4_call0_v1 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_cst_14 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_call5_cst : Ref sig .tc := ⟨.hbm, 191, rfl⟩
abbrev main_call5_v0 : Ref sig .tc := ⟨.hbm, 192, rfl⟩
abbrev main_v88 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩
abbrev main_cst_15 : Ref sig .tc := ⟨.hbm, 198, rfl⟩
abbrev main_v93 : Ref sig .tc := ⟨.hbm, 199, rfl⟩
abbrev main_cst_16 : Ref sig .tc := ⟨.hbm, 200, rfl⟩
abbrev main_v94 : Ref sig .tc := ⟨.hbm, 201, rfl⟩
abbrev main_v95 : Ref sig .tc := ⟨.hbm, 202, rfl⟩
abbrev main_c_17 : Ref sig .tc := ⟨.hbm, 203, rfl⟩
abbrev main_call6_cst : Ref sig .tc := ⟨.hbm, 204, rfl⟩
abbrev main_call6_v0 : Ref sig .tc := ⟨.hbm, 205, rfl⟩
abbrev main_call6_v1 : Ref sig .tc := ⟨.hbm, 206, rfl⟩
abbrev main_call6_cst_0 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_v6 : Ref sig .tc := ⟨.hbm, 212, rfl⟩
abbrev main_call6_v7 : Ref sig .tc := ⟨.hbm, 213, rfl⟩
abbrev main_call6_cst_1 : Ref sig .tc := ⟨.hbm, 214, rfl⟩
abbrev main_call6_v8 : Ref sig .tc := ⟨.hbm, 215, rfl⟩
abbrev main_call6_cst_2 : Ref sig .tc := ⟨.hbm, 216, rfl⟩
abbrev main_call6_v9 : Ref sig .tc := ⟨.hbm, 217, rfl⟩
abbrev main_call6_v10 : Ref sig .tc := ⟨.hbm, 218, rfl⟩
abbrev main_call6_v11 : Ref sig .tc := ⟨.hbm, 219, rfl⟩
abbrev main_call6_cst_3 : Ref sig .tc := ⟨.hbm, 220, rfl⟩
abbrev main_call6_v12 : Ref sig .tc := ⟨.hbm, 221, rfl⟩
abbrev main_call6_cst_4 : Ref sig .tc := ⟨.hbm, 222, rfl⟩
abbrev main_call6_call0_v0 : Ref sig .tc := ⟨.hbm, 223, rfl⟩
abbrev main_call6_call0_v1 : Ref sig .tc := ⟨.hbm, 224, rfl⟩
abbrev main_v96 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_cst_18 : Ref sig .tc := ⟨.hbm, 229, rfl⟩
abbrev main_v100 : Ref sig .tc := ⟨.hbm, 230, rfl⟩
abbrev main_v101 : Ref sig .tc := ⟨.hbm, 231, rfl⟩
abbrev main_v102 : Ref sig .tc := ⟨.hbm, 232, rfl⟩
abbrev main_v103 : Ref sig .tc := ⟨.hbm, 233, rfl⟩
abbrev main_v104 : Ref sig .tc := ⟨.hbm, 234, rfl⟩
abbrev main_v105 : Ref sig .tc := ⟨.hbm, 235, rfl⟩
abbrev main_v106 : Ref sig .tc := ⟨.hbm, 236, rfl⟩
abbrev main_v107 : Ref sig .tc := ⟨.hbm, 237, rfl⟩
abbrev main_v108 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_call7_cst : Ref sig .tc := ⟨.hbm, 242, rfl⟩
abbrev main_call7_v0 : Ref sig .tc := ⟨.hbm, 243, rfl⟩
abbrev main_v112 : Ref sig .tc := ⟨.hbm, 244, rfl⟩
abbrev main_v113 : Ref sig .tc := ⟨.hbm, 245, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x5 : S_.BroadcastsInDim S8192x5 (![] : Fin 0 → Fin S8192x5.rank)
  bcast_S8192x5_S8192x5x1_0_1 : S8192x5.BroadcastsInDim S8192x5x1 (![0, 1] : Fin 2 → Fin S8192x5x1.rank)
  reducesTo_S8192x5x4096_S8192x4096_d1 : S8192x5x4096.ReducesTo [1] S8192x4096
  h_S_ : 0 < S_.numel
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S2048_d0 : S8192x2048.ReducesTo [0] S2048
  bcast_S_S2048 : S_.BroadcastsInDim S2048 (![] : Fin 0 → Fin S2048.rank)
  bcast_S_S1x2048 : S_.BroadcastsInDim S1x2048 (![] : Fin 0 → Fin S1x2048.rank)
  bcast_S_S8192x2048 : S_.BroadcastsInDim S8192x2048 (![] : Fin 0 → Fin S8192x2048.rank)
  transposes_S8192x2048_S2048x8192_1_0 : S8192x2048.Transposes [1, 0] S2048x8192
  gather_S4096x4096_S8192x1_S8192x4096_1_0_n_n_0_1_14096_wf : GatherDims.WF S4096x4096 S8192x1 S8192x4096 [1] [0] [] [0] [] 1 ![1, 4096]
  gather_S4096x4096_S8192x5x1_S8192x5x4096_2_0_n_n_0_2_14096_wf : GatherDims.WF S4096x4096 S8192x5x1 S8192x5x4096 [2] [0] [] [0] [] 2 ![1, 4096]
  dot_S8192x4096_S4096x2048_S8192x2048_1_0_0_1_n_n_wf : DotDims.WF S8192x4096 S4096x2048 S8192x2048 [1] [0] [0] [1] [] []
  dot_S8192x2048_S2048x2048_S8192x2048_1_0_0_1_n_n_wf : DotDims.WF S8192x2048 S2048x2048 S8192x2048 [1] [0] [0] [1] [] []

variable [Facts₀]

def gather_S4096x4096_S8192x1_S8192x4096_1_0_n_n_0_1_14096 : GatherDims S4096x4096 S8192x1 S8192x4096 where
  offsetDims := [1]
  collapsedSliceDims := [0]
  operandBatchingDims := []
  startIndicesBatchingDims := []
  startIndexMap := [0]
  indexVectorDim := 1
  sliceSizes := ![1, 4096]
  wf := gather_S4096x4096_S8192x1_S8192x4096_1_0_n_n_0_1_14096_wf
def gather_S4096x4096_S8192x5x1_S8192x5x4096_2_0_n_n_0_2_14096 : GatherDims S4096x4096 S8192x5x1 S8192x5x4096 where
  offsetDims := [2]
  collapsedSliceDims := [0]
  operandBatchingDims := []
  startIndicesBatchingDims := []
  startIndexMap := [0]
  indexVectorDim := 2
  sliceSizes := ![1, 4096]
  wf := gather_S4096x4096_S8192x5x1_S8192x5x4096_2_0_n_n_0_2_14096_wf
def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.KernelKept.lean ====
/-
  The idealized kernel's arguments at the boundaries between its regions.

  No host operation before a region writes an argument of @main, and no region's write-back does: an argument read
  at the boundary before its use holds what was launched. One step per boundary: across a stretch of host operations
  (none of them writes the buffer) or across a region (the buffer is none of its arrays).
-/
import proofs.«152490_j70686571758165_2_alg».proof.Proof.Gen.KernelIdeal.Frame
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem
open Cert.KernelIdeal Cert.KernelIdeal.Gen

/-- A buffer none of a stretch's operations writes holds after the stretch what it held before. -/
macro "kept_by " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg)

theorem W1_arg5 (c : Dev nD) : W1 (F := Ideal) m ρ c (Proc.devRef .tc main_arg5) = m ((c : Thread nD τ).loc main_arg5) :=
  (show W1 (F := Ideal) m ρ c (Proc.devRef .tc main_arg5) = W0 (F := Ideal) m ρ c (Proc.devRef .tc main_arg5) by kept_by hostOps0).trans rfl
theorem W2_arg5 (c : Dev nD) : W2 (F := Ideal) m ρ c (Proc.devRef .tc main_arg5) = m ((c : Thread nD τ).loc main_arg5) :=
  (W2_of_ne m ρ c main_arg5 (by decide)).trans (W1_arg5 m ρ c)
theorem W1_arg6 (c : Dev nD) : W1 (F := Ideal) m ρ c (Proc.devRef .tc main_arg6) = m ((c : Thread nD τ).loc main_arg6) :=
  (show W1 (F := Ideal) m ρ c (Proc.devRef .tc main_arg6) = W0 (F := Ideal) m ρ c (Proc.devRef .tc main_arg6) by kept_by hostOps0).trans rfl
theorem W2_arg6 (c : Dev nD) : W2 (F := Ideal) m ρ c (Proc.devRef .tc main_arg6) = m ((c : Thread nD τ).loc main_arg6) :=
  (W2_of_ne m ρ c main_arg6 (by decide)).trans (W1_arg6 m ρ c)
theorem W1_arg7 (c : Dev nD) : W1 (F := Ideal) m ρ c (Proc.devRef .tc main_arg7) = m ((c : Thread nD τ).loc main_arg7) :=
  (show W1 (F := Ideal) m ρ c (Proc.devRef .tc main_arg7) = W0 (F := Ideal) m ρ c (Proc.devRef .tc main_arg7) by kept_by hostOps0).trans rfl
theorem W2_arg7 (c : Dev nD) : W2 (F := Ideal) m ρ c (Proc.devRef .tc main_arg7) = m ((c : Thread nD τ).loc main_arg7) :=
  (W2_of_ne m ρ c main_arg7 (by decide)).trans (W1_arg7 m ρ c)
theorem W3_arg7 (c : Dev nD) : W3 (F := Ideal) m ρ c (Proc.devRef .tc main_arg7) = m ((c : Thread nD τ).loc main_arg7) :=
  (show W3 (F := Ideal) m ρ c (Proc.devRef .tc main_arg7) = W2 (F := Ideal) m ρ c (Proc.devRef .tc main_arg7) by kept_by hostOps1).trans (W2_arg7 m ρ c)
theorem W4_arg7 (c : Dev nD) : W4 (F := Ideal) m ρ c (Proc.devRef .tc main_arg7) = m ((c : Thread nD τ).loc main_arg7) :=
  (W4_of_ne m ρ c main_arg7 (by decide)).trans (W3_arg7 m ρ c)
theorem W1_arg8 (c : Dev nD) : W1 (F := Ideal) m ρ c (Proc.devRef .tc main_arg8) = m ((c : Thread nD τ).loc main_arg8) :=
  (show W1 (F := Ideal) m ρ c (Proc.devRef .tc main_arg8) = W0 (F := Ideal) m ρ c (Proc.devRef .tc main_arg8) by kept_by hostOps0).trans rfl
theorem W2_arg8 (c : Dev nD) : W2 (F := Ideal) m ρ c (Proc.devRef .tc main_arg8) = m ((c : Thread nD τ).loc main_arg8) :=
  (W2_of_ne m ρ c main_arg8 (by decide)).trans (W1_arg8 m ρ c)
theorem W3_arg8 (c : Dev nD) : W3 (F := Ideal) m ρ c (Proc.devRef .tc main_arg8) = m ((c : Thread nD τ).loc main_arg8) :=
  (show W3 (F := Ideal) m ρ c (Proc.devRef .tc main_arg8) = W2 (F := Ideal) m ρ c (Proc.devRef .tc main_arg8) by kept_by hostOps1).trans (W2_arg8 m ρ c)
theorem W4_arg8 (c : Dev nD) : W4 (F := Ideal) m ρ c (Proc.devRef .tc main_arg8) = m ((c : Thread nD τ).loc main_arg8) :=
  (W4_of_ne m ρ c main_arg8 (by decide)).trans (W3_arg8 m ρ c)
theorem W1_arg9 (c : Dev nD) : W1 (F := Ideal) m ρ c (Proc.devRef .tc main_arg9) = m ((c : Thread nD τ).loc main_arg9) :=
  (show W1 (F := Ideal) m ρ c (Proc.devRef .tc main_arg9) = W0 (F := Ideal) m ρ c (Proc.devRef .tc main_arg9) by kept_by hostOps0).trans rfl
theorem W2_arg9 (c : Dev nD) : W2 (F := Ideal) m ρ c (Proc.devRef .tc main_arg9) = m ((c : Thread nD τ).loc main_arg9) :=
  (W2_of_ne m ρ c main_arg9 (by decide)).trans (W1_arg9 m ρ c)
theorem W3_arg9 (c : Dev nD) : W3 (F := Ideal) m ρ c (Proc.devRef .tc main_arg9) = m ((c : Thread nD τ).loc main_arg9) :=
  (show W3 (F := Ideal) m ρ c (Proc.devRef .tc main_arg9) = W2 (F := Ideal) m ρ c (Proc.devRef .tc main_arg9) by kept_by hostOps1).trans (W2_arg9 m ρ c)
theorem W4_arg9 (c : Dev nD) : W4 (F := Ideal) m ρ c (Proc.devRef .tc main_arg9) = m ((c : Thread nD τ).loc main_arg9) :=
  (W4_of_ne m ρ c main_arg9 (by decide)).trans (W3_arg9 m ρ c)
theorem W5_arg9 (c : Dev nD) : W5 (F := Ideal) m ρ c (Proc.devRef .tc main_arg9) = m ((c : Thread nD τ).loc main_arg9) :=
  (show W5 (F := Ideal) m ρ c (Proc.devRef .tc main_arg9) = W4 (F := Ideal) m ρ c (Proc.devRef .tc main_arg9) by kept_by hostOps2).trans (W4_arg9 m ρ c)
theorem W6_arg9 (c : Dev nD) : W6 (F := Ideal) m ρ c (Proc.devRef .tc main_arg9) = m ((c : Thread nD τ).loc main_arg9) :=
  (W6_of_ne m ρ c main_arg9 (by decide)).trans (W5_arg9 m ρ c)
theorem W1_arg10 (c : Dev nD) : W1 (F := Ideal) m ρ c (Proc.devRef .tc main_arg10) = m ((c : Thread nD τ).loc main_arg10) :=
  (show W1 (F := Ideal) m ρ c (Proc.devRef .tc main_arg10) = W0 (F := Ideal) m ρ c (Proc.devRef .tc main_arg10) by kept_by hostOps0).trans rfl
theorem W2_arg10 (c : Dev nD) : W2 (F := Ideal) m ρ c (Proc.devRef .tc main_arg10) = m ((c : Thread nD τ).loc main_arg10) :=
  (W2_of_ne m ρ c main_arg10 (by decide)).trans (W1_arg10 m ρ c)
theorem W3_arg10 (c : Dev nD) : W3 (F := Ideal) m ρ c (Proc.devRef .tc main_arg10) = m ((c : Thread nD τ).loc main_arg10) :=
  (show W3 (F := Ideal) m ρ c (Proc.devRef .tc main_arg10) = W2 (F := Ideal) m ρ c (Proc.devRef .tc main_arg10) by kept_by hostOps1).trans (W2_arg10 m ρ c)
theorem W4_arg10 (c : Dev nD) : W4 (F := Ideal) m ρ c (Proc.devRef .tc main_arg10) = m ((c : Thread nD τ).loc main_arg10) :=
  (W4_of_ne m ρ c main_arg10 (by decide)).trans (W3_arg10 m ρ c)
theorem W5_arg10 (c : Dev nD) : W5 (F := Ideal) m ρ c (Proc.devRef .tc main_arg10) = m ((c : Thread nD τ).loc main_arg10) :=
  (show W5 (F := Ideal) m ρ c (Proc.devRef .tc main_arg10) = W4 (F := Ideal) m ρ c (Proc.devRef .tc main_arg10) by kept_by hostOps2).trans (W4_arg10 m ρ c)
theorem W6_arg10 (c : Dev nD) : W6 (F := Ideal) m ρ c (Proc.devRef .tc main_arg10) = m ((c : Thread nD τ).loc main_arg10) :=
  (W6_of_ne m ρ c main_arg10 (by decide)).trans (W5_arg10 m ρ c)
theorem W1_arg11 (c : Dev nD) : W1 (F := Ideal) m ρ c (Proc.devRef .tc main_arg11) = m ((c : Thread nD τ).loc main_arg11) :=
  (show W1 (F := Ideal) m ρ c (Proc.devRef .tc main_arg11) = W0 (F := Ideal) m ρ c (Proc.devRef .tc main_arg11) by kept_by hostOps0).trans rfl
theorem W2_arg11 (c : Dev nD) : W2 (F := Ideal) m ρ c (Proc.devRef .tc main_arg11) = m ((c : Thread nD τ).loc main_arg11) :=
  (W2_of_ne m ρ c main_arg11 (by decide)).trans (W1_arg11 m ρ c)
theorem W3_arg11 (c : Dev nD) : W3 (F := Ideal) m ρ c (Proc.devRef .tc main_arg11) = m ((c : Thread nD τ).loc main_arg11) :=
  (show W3 (F := Ideal) m ρ c (Proc.devRef .tc main_arg11) = W2 (F := Ideal) m ρ c (Proc.devRef .tc main_arg11) by kept_by hostOps1).trans (W2_arg11 m ρ c)
theorem W4_arg11 (c : Dev nD) : W4 (F := Ideal) m ρ c (Proc.devRef .tc main_arg11) = m ((c : Thread nD τ).loc main_arg11) :=
  (W4_of_ne m ρ c main_arg11 (by decide)).trans (W3_arg11 m ρ c)
theorem W5_arg11 (c : Dev nD) : W5 (F := Ideal) m ρ c (Proc.devRef .tc main_arg11) = m ((c : Thread nD τ).loc main_arg11) :=
  (show W5 (F := Ideal) m ρ c (Proc.devRef .tc main_arg11) = W4 (F := Ideal) m ρ c (Proc.devRef .tc main_arg11) by kept_by hostOps2).trans (W4_arg11 m ρ c)
theorem W6_arg11 (c : Dev nD) : W6 (F := Ideal) m ρ c (Proc.devRef .tc main_arg11) = m ((c : Thread nD τ).loc main_arg11) :=
  (W6_of_ne m ρ c main_arg11 (by decide)).trans (W5_arg11 m ρ c)
theorem W7_arg11 (c : Dev nD) : W7 (F := Ideal) m ρ c (Proc.devRef .tc main_arg11) = m ((c : Thread nD τ).loc main_arg11) :=
  (show W7 (F := Ideal) m ρ c (Proc.devRef .tc main_arg11) = W6 (F := Ideal) m ρ c (Proc.devRef .tc main_arg11) by kept_by hostOps3).trans (W6_arg11 m ρ c)
theorem W8_arg11 (c : Dev nD) : W8 (F := Ideal) m ρ c (Proc.devRef .tc main_arg11) = m ((c : Thread nD τ).loc main_arg11) :=
  (W8_of_ne m ρ c main_arg11 (by decide)).trans (W7_arg11 m ρ c)
theorem W1_arg12 (c : Dev nD) : W1 (F := Ideal) m ρ c (Proc.devRef .tc main_arg12) = m ((c : Thread nD τ).loc main_arg12) :=
  (show W1 (F := Ideal) m ρ c (Proc.devRef .tc main_arg12) = W0 (F := Ideal) m ρ c (Proc.devRef .tc main_arg12) by kept_by hostOps0).trans rfl
theorem W2_arg12 (c : Dev nD) : W2 (F := Ideal) m ρ c (Proc.devRef .tc main_arg12) = m ((c : Thread nD τ).loc main_arg12) :=
  (W2_of_ne m ρ c main_arg12 (by decide)).trans (W1_arg12 m ρ c)
theorem W3_arg12 (c : Dev nD) : W3 (F := Ideal) m ρ c (Proc.devRef .tc main_arg12) = m ((c : Thread nD τ).loc main_arg12) :=
  (show W3 (F := Ideal) m ρ c (Proc.devRef .tc main_arg12) = W2 (F := Ideal) m ρ c (Proc.devRef .tc main_arg12) by kept_by hostOps1).trans (W2_arg12 m ρ c)
theorem W4_arg12 (c : Dev nD) : W4 (F := Ideal) m ρ c (Proc.devRef .tc main_arg12) = m ((c : Thread nD τ).loc main_arg12) :=
  (W4_of_ne m ρ c main_arg12 (by decide)).trans (W3_arg12 m ρ c)
theorem W5_arg12 (c : Dev nD) : W5 (F := Ideal) m ρ c (Proc.devRef .tc main_arg12) = m ((c : Thread nD τ).loc main_arg12) :=
  (show W5 (F := Ideal) m ρ c (Proc.devRef .tc main_arg12) = W4 (F := Ideal) m ρ c (Proc.devRef .tc main_arg12) by kept_by hostOps2).trans (W4_arg12 m ρ c)
theorem W6_arg12 (c : Dev nD) : W6 (F := Ideal) m ρ c (Proc.devRef .tc main_arg12) = m ((c : Thread nD τ).loc main_arg12) :=
  (W6_of_ne m ρ c main_arg12 (by decide)).trans (W5_arg12 m ρ c)
theorem W7_arg12 (c : Dev nD) : W7 (F := Ideal) m ρ c (Proc.devRef .tc main_arg12) = m ((c : Thread nD τ).loc main_arg12) :=
  (show W7 (F := Ideal) m ρ c (Proc.devRef .tc main_arg12) = W6 (F := Ideal) m ρ c (Proc.devRef .tc main_arg12) by kept_by hostOps3).trans (W6_arg12 m ρ c)
theorem W8_arg12 (c : Dev nD) : W8 (F := Ideal) m ρ c (Proc.devRef .tc main_arg12) = m ((c : Thread nD τ).loc main_arg12) :=
  (W8_of_ne m ρ c main_arg12 (by decide)).trans (W7_arg12 m ρ c)
theorem W1_arg13 (c : Dev nD) : W1 (F := Ideal) m ρ c (Proc.devRef .tc main_arg13) = m ((c : Thread nD τ).loc main_arg13) :=
  (show W1 (F := Ideal) m ρ c (Proc.devRef .tc main_arg13) = W0 (F := Ideal) m ρ c (Proc.devRef .tc main_arg13) by kept_by hostOps0).trans rfl
theorem W2_arg13 (c : Dev nD) : W2 (F := Ideal) m ρ c (Proc.devRef .tc main_arg13) = m ((c : Thread nD τ).loc main_arg13) :=
  (W2_of_ne m ρ c main_arg13 (by decide)).trans (W1_arg13 m ρ c)
theorem W3_arg13 (c : Dev nD) : W3 (F := Ideal) m ρ c (Proc.devRef .tc main_arg13) = m ((c : Thread nD τ).loc main_arg13) :=
  (show W3 (F := Ideal) m ρ c (Proc.devRef .tc main_arg13) = W2 (F := Ideal) m ρ c (Proc.devRef .tc main_arg13) by kept_by hostOps1).trans (W2_arg13 m ρ c)
theorem W4_arg13 (c : Dev nD) : W4 (F := Ideal) m ρ c (Proc.devRef .tc main_arg13) = m ((c : Thread nD τ).loc main_arg13) :=
  (W4_of_ne m ρ c main_arg13 (by decide)).trans (W3_arg13 m ρ c)
theorem W5_arg13 (c : Dev nD) : W5 (F := Ideal) m ρ c (Proc.devRef .tc main_arg13) = m ((c : Thread nD τ).loc main_arg13) :=
  (show W5 (F := Ideal) m ρ c (Proc.devRef .tc main_arg13) = W4 (F := Ideal) m ρ c (Proc.devRef .tc main_arg13) by kept_by hostOps2).trans (W4_arg13 m ρ c)
theorem W6_arg13 (c : Dev nD) : W6 (F := Ideal) m ρ c (Proc.devRef .tc main_arg13) = m ((c : Thread nD τ).loc main_arg13) :=
  (W6_of_ne m ρ c main_arg13 (by decide)).trans (W5_arg13 m ρ c)
theorem W7_arg13 (c : Dev nD) : W7 (F := Ideal) m ρ c (Proc.devRef .tc main_arg13) = m ((c : Thread nD τ).loc main_arg13) :=
  (show W7 (F := Ideal) m ρ c (Proc.devRef .tc main_arg13) = W6 (F := Ideal) m ρ c (Proc.devRef .tc main_arg13) by kept_by hostOps3).trans (W6_arg13 m ρ c)
theorem W8_arg13 (c : Dev nD) : W8 (F := Ideal) m ρ c (Proc.devRef .tc main_arg13) = m ((c : Thread nD τ).loc main_arg13) :=
  (W8_of_ne m ρ c main_arg13 (by decide)).trans (W7_arg13 m ρ c)
theorem W9_arg13 (c : Dev nD) : W9 (F := Ideal) m ρ c (Proc.devRef .tc main_arg13) = m ((c : Thread nD τ).loc main_arg13) :=
  (show W9 (F := Ideal) m ρ c (Proc.devRef .tc main_arg13) = W8 (F := Ideal) m ρ c (Proc.devRef .tc main_arg13) by kept_by hostOps4).trans (W8_arg13 m ρ c)
theorem W10_arg13 (c : Dev nD) : W10 (F := Ideal) m ρ c (Proc.devRef .tc main_arg13) = m ((c : Thread nD τ).loc main_arg13) :=
  (W10_of_ne m ρ c main_arg13 (by decide)).trans (W9_arg13 m ρ c)
theorem W1_arg14 (c : Dev nD) : W1 (F := Ideal) m ρ c (Proc.devRef .tc main_arg14) = m ((c : Thread nD τ).loc main_arg14) :=
  (show W1 (F := Ideal) m ρ c (Proc.devRef .tc main_arg14) = W0 (F := Ideal) m ρ c (Proc.devRef .tc main_arg14) by kept_by hostOps0).trans rfl
theorem W2_arg14 (c : Dev nD) : W2 (F := Ideal) m ρ c (Proc.devRef .tc main_arg14) = m ((c : Thread nD τ).loc main_arg14) :=
  (W2_of_ne m ρ c main_arg14 (by decide)).trans (W1_arg14 m ρ c)
theorem W3_arg14 (c : Dev nD) : W3 (F := Ideal) m ρ c (Proc.devRef .tc main_arg14) = m ((c : Thread nD τ).loc main_arg14) :=
  (show W3 (F := Ideal) m ρ c (Proc.devRef .tc main_arg14) = W2 (F := Ideal) m ρ c (Proc.devRef .tc main_arg14) by kept_by hostOps1).trans (W2_arg14 m ρ c)
theorem W4_arg14 (c : Dev nD) : W4 (F := Ideal) m ρ c (Proc.devRef .tc main_arg14) = m ((c : Thread nD τ).loc main_arg14) :=
  (W4_of_ne m ρ c main_arg14 (by decide)).trans (W3_arg14 m ρ c)
theorem W5_arg14 (c : Dev nD) : W5 (F := Ideal) m ρ c (Proc.devRef .tc main_arg14) = m ((c : Thread nD τ).loc main_arg14) :=
  (show W5 (F := Ideal) m ρ c (Proc.devRef .tc main_arg14) = W4 (F := Ideal) m ρ c (Proc.devRef .tc main_arg14) by kept_by hostOps2).trans (W4_arg14 m ρ c)
theorem W6_arg14 (c : Dev nD) : W6 (F := Ideal) m ρ c (Proc.devRef .tc main_arg14) = m ((c : Thread nD τ).loc main_arg14) :=
  (W6_of_ne m ρ c main_arg14 (by decide)).trans (W5_arg14 m ρ c)
theorem W7_arg14 (c : Dev nD) : W7 (F := Ideal) m ρ c (Proc.devRef .tc main_arg14) = m ((c : Thread nD τ).loc main_arg14) :=
  (show W7 (F := Ideal) m ρ c (Proc.devRef .tc main_arg14) = W6 (F := Ideal) m ρ c (Proc.devRef .tc main_arg14) by kept_by hostOps3).trans (W6_arg14 m ρ c)
theorem W8_arg14 (c : Dev nD) : W8 (F := Ideal) m ρ c (Proc.devRef .tc main_arg14) = m ((c : Thread nD τ).loc main_arg14) :=
  (W8_of_ne m ρ c main_arg14 (by decide)).trans (W7_arg14 m ρ c)
theorem W9_arg14 (c : Dev nD) : W9 (F := Ideal) m ρ c (Proc.devRef .tc main_arg14) = m ((c : Thread nD τ).loc main_arg14) :=
  (show W9 (F := Ideal) m ρ c (Proc.devRef .tc main_arg14) = W8 (F := Ideal) m ρ c (Proc.devRef .tc main_arg14) by kept_by hostOps4).trans (W8_arg14 m ρ c)
theorem W10_arg14 (c : Dev nD) : W10 (F := Ideal) m ρ c (Proc.devRef .tc main_arg14) = m ((c : Thread nD τ).loc main_arg14) :=
  (W10_of_ne m ρ c main_arg14 (by decide)).trans (W9_arg14 m ρ c)
theorem W1_arg15 (c : Dev nD) : W1 (F := Ideal) m ρ c (Proc.devRef .tc main_arg15) = m ((c : Thread nD τ).loc main_arg15) :=
  (show W1 (F := Ideal) m ρ c (Proc.devRef .tc main_arg15) = W0 (F := Ideal) m ρ c (Proc.devRef .tc main_arg15) by kept_by hostOps0).trans rfl
theorem W2_arg15 (c : Dev nD) : W2 (F := Ideal) m ρ c (Proc.devRef .tc main_arg15) = m ((c : Thread nD τ).loc main_arg15) :=
  (W2_of_ne m ρ c main_arg15 (by decide)).trans (W1_arg15 m ρ c)
theorem W3_arg15 (c : Dev nD) : W3 (F := Ideal) m ρ c (Proc.devRef .tc main_arg15) = m ((c : Thread nD τ).loc main_arg15) :=
  (show W3 (F := Ideal) m ρ c (Proc.devRef .tc main_arg15) = W2 (F := Ideal) m ρ c (Proc.devRef .tc main_arg15) by kept_by hostOps1).trans (W2_arg15 m ρ c)
theorem W4_arg15 (c : Dev nD) : W4 (F := Ideal) m ρ c (Proc.devRef .tc main_arg15) = m ((c : Thread nD τ).loc main_arg15) :=
  (W4_of_ne m ρ c main_arg15 (by decide)).trans (W3_arg15 m ρ c)
theorem W5_arg15 (c : Dev nD) : W5 (F := Ideal) m ρ c (Proc.devRef .tc main_arg15) = m ((c : Thread nD τ).loc main_arg15) :=
  (show W5 (F := Ideal) m ρ c (Proc.devRef .tc main_arg15) = W4 (F := Ideal) m ρ c (Proc.devRef .tc main_arg15) by kept_by hostOps2).trans (W4_arg15 m ρ c)
theorem W6_arg15 (c : Dev nD) : W6 (F := Ideal) m ρ c (Proc.devRef .tc main_arg15) = m ((c : Thread nD τ).loc main_arg15) :=
  (W6_of_ne m ρ c main_arg15 (by decide)).trans (W5_arg15 m ρ c)
theorem W7_arg15 (c : Dev nD) : W7 (F := Ideal) m ρ c (Proc.devRef .tc main_arg15) = m ((c : Thread nD τ).loc main_arg15) :=
  (show W7 (F := Ideal) m ρ c (Proc.devRef .tc main_arg15) = W6 (F := Ideal) m ρ c (Proc.devRef .tc main_arg15) by kept_by hostOps3).trans (W6_arg15 m ρ c)
theorem W8_arg15 (c : Dev nD) : W8 (F := Ideal) m ρ c (Proc.devRef .tc main_arg15) = m ((c : Thread nD τ).loc main_arg15) :=
  (W8_of_ne m ρ c main_arg15 (by decide)).trans (W7_arg15 m ρ c)
theorem W9_arg15 (c : Dev nD) : W9 (F := Ideal) m ρ c (Proc.devRef .tc main_arg15) = m ((c : Thread nD τ).loc main_arg15) :=
  (show W9 (F := Ideal) m ρ c (Proc.devRef .tc main_arg15) = W8 (F := Ideal) m ρ c (Proc.devRef .tc main_arg15) by kept_by hostOps4).trans (W8_arg15 m ρ c)
theorem W10_arg15 (c : Dev nD) : W10 (F := Ideal) m ρ c (Proc.devRef .tc main_arg15) = m ((c : Thread nD τ).loc main_arg15) :=
  (W10_of_ne m ρ c main_arg15 (by decide)).trans (W9_arg15 m ρ c)
theorem W11_arg15 (c : Dev nD) : W11 (F := Ideal) m ρ c (Proc.devRef .tc main_arg15) = m ((c : Thread nD τ).loc main_arg15) :=
  (show W11 (F := Ideal) m ρ c (Proc.devRef .tc main_arg15) = W10 (F := Ideal) m ρ c (Proc.devRef .tc main_arg15) by kept_by hostOps5).trans (W10_arg15 m ρ c)
theorem W12_arg15 (c : Dev nD) : W12 (F := Ideal) m ρ c (Proc.devRef .tc main_arg15) = m ((c : Thread nD τ).loc main_arg15) :=
  (W12_of_ne m ρ c main_arg15 (by decide)).trans (W11_arg15 m ρ c)
theorem W1_arg16 (c : Dev nD) : W1 (F := Ideal) m ρ c (Proc.devRef .tc main_arg16) = m ((c : Thread nD τ).loc main_arg16) :=
  (show W1 (F := Ideal) m ρ c (Proc.devRef .tc main_arg16) = W0 (F := Ideal) m ρ c (Proc.devRef .tc main_arg16) by kept_by hostOps0).trans rfl
theorem W2_arg16 (c : Dev nD) : W2 (F := Ideal) m ρ c (Proc.devRef .tc main_arg16) = m ((c : Thread nD τ).loc main_arg16) :=
  (W2_of_ne m ρ c main_arg16 (by decide)).trans (W1_arg16 m ρ c)
theorem W3_arg16 (c : Dev nD) : W3 (F := Ideal) m ρ c (Proc.devRef .tc main_arg16) = m ((c : Thread nD τ).loc main_arg16) :=
  (show W3 (F := Ideal) m ρ c (Proc.devRef .tc main_arg16) = W2 (F := Ideal) m ρ c (Proc.devRef .tc main_arg16) by kept_by hostOps1).trans (W2_arg16 m ρ c)
theorem W4_arg16 (c : Dev nD) : W4 (F := Ideal) m ρ c (Proc.devRef .tc main_arg16) = m ((c : Thread nD τ).loc main_arg16) :=
  (W4_of_ne m ρ c main_arg16 (by decide)).trans (W3_arg16 m ρ c)
theorem W5_arg16 (c : Dev nD) : W5 (F := Ideal) m ρ c (Proc.devRef .tc main_arg16) = m ((c : Thread nD τ).loc main_arg16) :=
  (show W5 (F := Ideal) m ρ c (Proc.devRef .tc main_arg16) = W4 (F := Ideal) m ρ c (Proc.devRef .tc main_arg16) by kept_by hostOps2).trans (W4_arg16 m ρ c)
theorem W6_arg16 (c : Dev nD) : W6 (F := Ideal) m ρ c (Proc.devRef .tc main_arg16) = m ((c : Thread nD τ).loc main_arg16) :=
  (W6_of_ne m ρ c main_arg16 (by decide)).trans (W5_arg16 m ρ c)
theorem W7_arg16 (c : Dev nD) : W7 (F := Ideal) m ρ c (Proc.devRef .tc main_arg16) = m ((c : Thread nD τ).loc main_arg16) :=
  (show W7 (F := Ideal) m ρ c (Proc.devRef .tc main_arg16) = W6 (F := Ideal) m ρ c (Proc.devRef .tc main_arg16) by kept_by hostOps3).trans (W6_arg16 m ρ c)
theorem W8_arg16 (c : Dev nD) : W8 (F := Ideal) m ρ c (Proc.devRef .tc main_arg16) = m ((c : Thread nD τ).loc main_arg16) :=
  (W8_of_ne m ρ c main_arg16 (by decide)).trans (W7_arg16 m ρ c)
theorem W9_arg16 (c : Dev nD) : W9 (F := Ideal) m ρ c (Proc.devRef .tc main_arg16) = m ((c : Thread nD τ).loc main_arg16) :=
  (show W9 (F := Ideal) m ρ c (Proc.devRef .tc main_arg16) = W8 (F := Ideal) m ρ c (Proc.devRef .tc main_arg16) by kept_by hostOps4).trans (W8_arg16 m ρ c)
theorem W10_arg16 (c : Dev nD) : W10 (F := Ideal) m ρ c (Proc.devRef .tc main_arg16) = m ((c : Thread nD τ).loc main_arg16) :=
  (W10_of_ne m ρ c main_arg16 (by decide)).trans (W9_arg16 m ρ c)
theorem W11_arg16 (c : Dev nD) : W11 (F := Ideal) m ρ c (Proc.devRef .tc main_arg16) = m ((c : Thread nD τ).loc main_arg16) :=
  (show W11 (F := Ideal) m ρ c (Proc.devRef .tc main_arg16) = W10 (F := Ideal) m ρ c (Proc.devRef .tc main_arg16) by kept_by hostOps5).trans (W10_arg16 m ρ c)
theorem W12_arg16 (c : Dev nD) : W12 (F := Ideal) m ρ c (Proc.devRef .tc main_arg16) = m ((c : Thread nD τ).loc main_arg16) :=
  (W12_of_ne m ρ c main_arg16 (by decide)).trans (W11_arg16 m ρ c)
theorem W1_arg17 (c : Dev nD) : W1 (F := Ideal) m ρ c (Proc.devRef .tc main_arg17) = m ((c : Thread nD τ).loc main_arg17) :=
  (show W1 (F := Ideal) m ρ c (Proc.devRef .tc main_arg17) = W0 (F := Ideal) m ρ c (Proc.devRef .tc main_arg17) by kept_by hostOps0).trans rfl
theorem W2_arg17 (c : Dev nD) : W2 (F := Ideal) m ρ c (Proc.devRef .tc main_arg17) = m ((c : Thread nD τ).loc main_arg17) :=
  (W2_of_ne m ρ c main_arg17 (by decide)).trans (W1_arg17 m ρ c)
theorem W3_arg17 (c : Dev nD) : W3 (F := Ideal) m ρ c (Proc.devRef .tc main_arg17) = m ((c : Thread nD τ).loc main_arg17) :=
  (show W3 (F := Ideal) m ρ c (Proc.devRef .tc main_arg17) = W2 (F := Ideal) m ρ c (Proc.devRef .tc main_arg17) by kept_by hostOps1).trans (W2_arg17 m ρ c)
theorem W4_arg17 (c : Dev nD) : W4 (F := Ideal) m ρ c (Proc.devRef .tc main_arg17) = m ((c : Thread nD τ).loc main_arg17) :=
  (W4_of_ne m ρ c main_arg17 (by decide)).trans (W3_arg17 m ρ c)
theorem W5_arg17 (c : Dev nD) : W5 (F := Ideal) m ρ c (Proc.devRef .tc main_arg17) = m ((c : Thread nD τ).loc main_arg17) :=
  (show W5 (F := Ideal) m ρ c (Proc.devRef .tc main_arg17) = W4 (F := Ideal) m ρ c (Proc.devRef .tc main_arg17) by kept_by hostOps2).trans (W4_arg17 m ρ c)
theorem W6_arg17 (c : Dev nD) : W6 (F := Ideal) m ρ c (Proc.devRef .tc main_arg17) = m ((c : Thread nD τ).loc main_arg17) :=
  (W6_of_ne m ρ c main_arg17 (by decide)).trans (W5_arg17 m ρ c)
theorem W7_arg17 (c : Dev nD) : W7 (F := Ideal) m ρ c (Proc.devRef .tc main_arg17) = m ((c : Thread nD τ).loc main_arg17) :=
  (show W7 (F := Ideal) m ρ c (Proc.devRef .tc main_arg17) = W6 (F := Ideal) m ρ c (Proc.devRef .tc main_arg17) by kept_by hostOps3).trans (W6_arg17 m ρ c)
theorem W8_arg17 (c : Dev nD) : W8 (F := Ideal) m ρ c (Proc.devRef .tc main_arg17) = m ((c : Thread nD τ).loc main_arg17) :=
  (W8_of_ne m ρ c main_arg17 (by decide)).trans (W7_arg17 m ρ c)
theorem W9_arg17 (c : Dev nD) : W9 (F := Ideal) m ρ c (Proc.devRef .tc main_arg17) = m ((c : Thread nD τ).loc main_arg17) :=
  (show W9 (F := Ideal) m ρ c (Proc.devRef .tc main_arg17) = W8 (F := Ideal) m ρ c (Proc.devRef .tc main_arg17) by kept_by hostOps4).trans (W8_arg17 m ρ c)
theorem W10_arg17 (c : Dev nD) : W10 (F := Ideal) m ρ c (Proc.devRef .tc main_arg17) = m ((c : Thread nD τ).loc main_arg17) :=
  (W10_of_ne m ρ c main_arg17 (by decide)).trans (W9_arg17 m ρ c)
theorem W11_arg17 (c : Dev nD) : W11 (F := Ideal) m ρ c (Proc.devRef .tc main_arg17) = m ((c : Thread nD τ).loc main_arg17) :=
  (show W11 (F := Ideal) m ρ c (Proc.devRef .tc main_arg17) = W10 (F := Ideal) m ρ c (Proc.devRef .tc main_arg17) by kept_by hostOps5).trans (W10_arg17 m ρ c)
theorem W12_arg17 (c : Dev nD) : W12 (F := Ideal) m ρ c (Proc.devRef .tc main_arg17) = m ((c : Thread nD τ).loc main_arg17) :=
  (W12_of_ne m ρ c main_arg17 (by decide)).trans (W11_arg17 m ρ c)
theorem W13_arg17 (c : Dev nD) : W13 (F := Ideal) m ρ c (Proc.devRef .tc main_arg17) = m ((c : Thread nD τ).loc main_arg17) :=
  (show W13 (F := Ideal) m ρ c (Proc.devRef .tc main_arg17) = W12 (F := Ideal) m ρ c (Proc.devRef .tc main_arg17) by kept_by hostOps6).trans (W12_arg17 m ρ c)
theorem W14_arg17 (c : Dev nD) : W14 (F := Ideal) m ρ c (Proc.devRef .tc main_arg17) = m ((c : Thread nD τ).loc main_arg17) :=
  (W14_of_ne m ρ c main_arg17 (by decide)).trans (W13_arg17 m ρ c)
theorem W1_arg18 (c : Dev nD) : W1 (F := Ideal) m ρ c (Proc.devRef .tc main_arg18) = m ((c : Thread nD τ).loc main_arg18) :=
  (show W1 (F := Ideal) m ρ c (Proc.devRef .tc main_arg18) = W0 (F := Ideal) m ρ c (Proc.devRef .tc main_arg18) by kept_by hostOps0).trans rfl
theorem W2_arg18 (c : Dev nD) : W2 (F := Ideal) m ρ c (Proc.devRef .tc main_arg18) = m ((c : Thread nD τ).loc main_arg18) :=
  (W2_of_ne m ρ c main_arg18 (by decide)).trans (W1_arg18 m ρ c)
theorem W3_arg18 (c : Dev nD) : W3 (F := Ideal) m ρ c (Proc.devRef .tc main_arg18) = m ((c : Thread nD τ).loc main_arg18) :=
  (show W3 (F := Ideal) m ρ c (Proc.devRef .tc main_arg18) = W2 (F := Ideal) m ρ c (Proc.devRef .tc main_arg18) by kept_by hostOps1).trans (W2_arg18 m ρ c)
theorem W4_arg18 (c : Dev nD) : W4 (F := Ideal) m ρ c (Proc.devRef .tc main_arg18) = m ((c : Thread nD τ).loc main_arg18) :=
  (W4_of_ne m ρ c main_arg18 (by decide)).trans (W3_arg18 m ρ c)
theorem W5_arg18 (c : Dev nD) : W5 (F := Ideal) m ρ c (Proc.devRef .tc main_arg18) = m ((c : Thread nD τ).loc main_arg18) :=
  (show W5 (F := Ideal) m ρ c (Proc.devRef .tc main_arg18) = W4 (F := Ideal) m ρ c (Proc.devRef .tc main_arg18) by kept_by hostOps2).trans (W4_arg18 m ρ c)
theorem W6_arg18 (c : Dev nD) : W6 (F := Ideal) m ρ c (Proc.devRef .tc main_arg18) = m ((c : Thread nD τ).loc main_arg18) :=
  (W6_of_ne m ρ c main_arg18 (by decide)).trans (W5_arg18 m ρ c)
theorem W7_arg18 (c : Dev nD) : W7 (F := Ideal) m ρ c (Proc.devRef .tc main_arg18) = m ((c : Thread nD τ).loc main_arg18) :=
  (show W7 (F := Ideal) m ρ c (Proc.devRef .tc main_arg18) = W6 (F := Ideal) m ρ c (Proc.devRef .tc main_arg18) by kept_by hostOps3).trans (W6_arg18 m ρ c)
theorem W8_arg18 (c : Dev nD) : W8 (F := Ideal) m ρ c (Proc.devRef .tc main_arg18) = m ((c : Thread nD τ).loc main_arg18) :=
  (W8_of_ne m ρ c main_arg18 (by decide)).trans (W7_arg18 m ρ c)
theorem W9_arg18 (c : Dev nD) : W9 (F := Ideal) m ρ c (Proc.devRef .tc main_arg18) = m ((c : Thread nD τ).loc main_arg18) :=
  (show W9 (F := Ideal) m ρ c (Proc.devRef .tc main_arg18) = W8 (F := Ideal) m ρ c (Proc.devRef .tc main_arg18) by kept_by hostOps4).trans (W8_arg18 m ρ c)
theorem W10_arg18 (c : Dev nD) : W10 (F := Ideal) m ρ c (Proc.devRef .tc main_arg18) = m ((c : Thread nD τ).loc main_arg18) :=
  (W10_of_ne m ρ c main_arg18 (by decide)).trans (W9_arg18 m ρ c)
theorem W11_arg18 (c : Dev nD) : W11 (F := Ideal) m ρ c (Proc.devRef .tc main_arg18) = m ((c : Thread nD τ).loc main_arg18) :=
  (show W11 (F := Ideal) m ρ c (Proc.devRef .tc main_arg18) = W10 (F := Ideal) m ρ c (Proc.devRef .tc main_arg18) by kept_by hostOps5).trans (W10_arg18 m ρ c)
theorem W12_arg18 (c : Dev nD) : W12 (F := Ideal) m ρ c (Proc.devRef .tc main_arg18) = m ((c : Thread nD τ).loc main_arg18) :=
  (W12_of_ne m ρ c main_arg18 (by decide)).trans (W11_arg18 m ρ c)
theorem W13_arg18 (c : Dev nD) : W13 (F := Ideal) m ρ c (Proc.devRef .tc main_arg18) = m ((c : Thread nD τ).loc main_arg18) :=
  (show W13 (F := Ideal) m ρ c (Proc.devRef .tc main_arg18) = W12 (F := Ideal) m ρ c (Proc.devRef .tc main_arg18) by kept_by hostOps6).trans (W12_arg18 m ρ c)
theorem W14_arg18 (c : Dev nD) : W14 (F := Ideal) m ρ c (Proc.devRef .tc main_arg18) = m ((c : Thread nD τ).loc main_arg18) :=
  (W14_of_ne m ρ c main_arg18 (by decide)).trans (W13_arg18 m ρ c)

end Cert.KernelIdeal.Chain

end
-- ==== Proof.StatsPieces0.lean ====
/-
  Region 0 of the idealized kernel: what one run of the matmul-and-column-statistics body leaves in its three output
  blocks, as pure functions of the blocks it loads.

  At a point whose row-tile coordinate is 0 the body first stores zeros into the two accumulator blocks; at every point
  it then adds the block's column sums (of `y = x · w + b` and of `y · y`) onto what the accumulators hold and stores
  `y`. So the `y` block ends at the body's product-plus-bias term; the accumulators end at `0-row + column sums` at a
  first point and at `previous contents + column sums` at any other.
-/
import proofs.«152490_j70686571758165_2_alg».proof.Proof.Gen.KernelIdeal.Frame
import Idealize.ShloMosaic.Lib.Pipeline.Value

set_option maxRecDepth 16384

noncomputable section

namespace Cert.KernelIdeal.Stats0

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

section Pieces

variable (c : Dev nD) (i : grid0.Coords) (arg2 : Memref sig .tc .vmem S256x4096 .f32) (harg2 : arg2.IsWhole)
  (arg3 : Memref sig .tc .vmem S4096x1024 .bf16) (harg3 : arg3.IsWhole)
  (arg4 : Memref sig .tc .vmem S1x1024 .f32) (harg4 : arg4.IsWhole)
  (arg5 : Memref sig .tc .vmem S256x1024 .bf16) (harg5 : arg5.IsWhole)
  (arg6 : Memref sig .tc .vmem S1x1024 .f32) (harg6 : arg6.IsWhole)
  (arg7 : Memref sig .tc .vmem S1x1024 .f32) (harg7 : arg7.IsWhole)
  (x0 : Vec F S256x4096 .f32) (x1 : Vec F S4096x1024 .bf16) (x2 : Vec F S1x1024 .f32)

set_option maxHeartbeats 1000000 in
/-- First point of a column tile: the `y` block. -/
theorem first_y (hc0 : cond0_0 i) :
    out0_A_3 c i arg2 harg2 arg3 harg3 arg4 harg4 arg5 harg5 arg6 harg6 arg7 harg7 hc0 x0 x1 x2 = k0_pay6 x0 x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, harg2.read_unread, harg3.read_unread, harg4.read_unread,
    View.ld_unit_zero (S := S256x4096) hz, View.ld_unit_zero (S := S4096x1024) hz, View.ld_unit_zero (S := S1x1024) hz]

set_option maxHeartbeats 1000000 in
/-- First point of a column tile: the running column sums start from the zero row. -/
theorem first_sum (hc0 : cond0_0 i) :
    out0_A_4 c i arg2 harg2 arg3 harg3 arg4 harg4 arg5 harg5 arg6 harg6 arg7 harg7 hc0 x0 x1 x2 = k0_pay4 x0 x1 x2 k0_pay2 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero hz]
  simp only [View.readAt_eq_ld, harg2.read_unread, harg3.read_unread, harg4.read_unread,
    View.ld_unit_zero (S := S256x4096) hz, View.ld_unit_zero (S := S4096x1024) hz, View.ld_unit_zero (S := S1x1024) hz]
  rw [View.readCov_unit_zero _ hz]

set_option maxHeartbeats 1000000 in
/-- First point of a column tile: the running column sums of squares start from the zero row. -/
theorem first_sumsq (hc0 : cond0_0 i) :
    out0_A_5 c i arg2 harg2 arg3 harg3 arg4 harg4 arg5 harg5 arg6 harg6 arg7 harg7 hc0 x0 x1 x2 = k0_pay5 x0 x1 x2 k0_pay3 := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero hz]
  simp only [View.readAt_eq_ld, harg2.read_unread, harg3.read_unread, harg4.read_unread,
    View.ld_unit_zero (S := S256x4096) hz, View.ld_unit_zero (S := S4096x1024) hz, View.ld_unit_zero (S := S1x1024) hz]
  rw [View.readCov_unit_zero _ hz]

variable (x4 x5 : Vec F S1x1024 .f32)

set_option maxHeartbeats 1000000 in
/-- A later point: the `y` block. -/
theorem later_y (hc0 : ¬cond0_0 i) :
    out0_B_3 c i arg2 harg2 arg3 harg3 arg4 harg4 arg5 harg5 arg6 harg6 arg7 harg7 hc0 x0 x1 x2 x4 x5 = k0_pay6 x0 x1 x2 := by
  unfold out0_B_3
  rw [View.read_writes_eq_canon _ _ _ (cover0_B_3 c i arg2 harg2 arg3 harg3 arg4 harg4 arg5 harg5 arg6 harg6 arg7 harg7 hc0 x0 x1 x2 x4 x5)]
  unfold kernelRun0_B
  dsimp only
  sl_unfold_words
  rw [View.canon_unit_zero hz]
  simp only [View.readAt_eq_ld, harg2.read_unread, harg3.read_unread, harg4.read_unread,
    View.ld_unit_zero (S := S256x4096) hz, View.ld_unit_zero (S := S4096x1024) hz, View.ld_unit_zero (S := S1x1024) hz]

set_option maxHeartbeats 1000000 in
/-- A later point: the column sums are added onto what the accumulator held. -/
theorem later_sum (hc0 : ¬cond0_0 i) :
    out0_B_4 c i arg2 harg2 arg3 harg3 arg4 harg4 arg5 harg5 arg6 harg6 arg7 harg7 hc0 x0 x1 x2 x4 x5 = k0_pay4 x0 x1 x2 x4 := by
  unfold out0_B_4
  rw [View.read_writes_eq_canon _ _ _ (cover0_B_4 c i arg2 harg2 arg3 harg3 arg4 harg4 arg5 harg5 arg6 harg6 arg7 harg7 hc0 x0 x1 x2 x4 x5)]
  unfold kernelRun0_B
  dsimp only
  sl_unfold_words
  rw [View.canon_unit_zero hz]
  simp only [View.readAt_eq_ld, harg2.read_unread, harg3.read_unread, harg4.read_unread, harg6.read_unread,
    View.ld_unit_zero (S := S256x4096) hz, View.ld_unit_zero (S := S4096x1024) hz, View.ld_unit_zero (S := S1x1024) hz]

set_option maxHeartbeats 1000000 in
/-- A later point: the column sums of squares are added onto what the accumulator held. -/
theorem later_sumsq (hc0 : ¬cond0_0 i) :
    out0_B_5 c i arg2 harg2 arg3 harg3 arg4 harg4 arg5 harg5 arg6 harg6 arg7 harg7 hc0 x0 x1 x2 x4 x5 = k0_pay5 x0 x1 x2 x5 := by
  unfold out0_B_5
  rw [View.read_writes_eq_canon _ _ _ (cover0_B_5 c i arg2 harg2 arg3 harg3 arg4 harg4 arg5 harg5 arg6 harg6 arg7 harg7 hc0 x0 x1 x2 x4 x5)]
  unfold kernelRun0_B
  dsimp only
  sl_unfold_words
  rw [View.canon_unit_zero hz]
  simp only [View.readAt_eq_ld, harg2.read_unread, harg3.read_unread, harg4.read_unread, harg7.read_unread,
    View.ld_unit_zero (S := S256x4096) hz, View.ld_unit_zero (S := S4096x1024) hz, View.ld_unit_zero (S := S1x1024) hz]

end Pieces

end Cert.KernelIdeal.Stats0

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibPlainProduct.lean ====
/-
  A matrix unit's product with the plain dimension numbers, read on the extended reals — general in the
  extents M, K, N.

  The plain dimension numbers contract the second axis of an [M, K] left operand against the first axis of a
  [K, N] right operand, with no batch axis. At an output index (r, j) and contraction coordinate k the two
  operand indices are then (r, k) and (k, j), so the product accumulated into the zero array is, entry by entry,
  the sum over k of l (r, k) · w (k, j): the array `rowsTimes l w`. The same holds of any record of dimension
  numbers equal to the plain one, whatever its own well-formedness proof.
-/
import proofs.«152490_j70686571758165_2_alg».proof.Proof.LibRowsTimes

noncomputable section

namespace Cert.Dense

open Idealize.ShloMosaic Idealize.ShloMosaic.ValueIdx

variable {M K N : Nat}

/-- The left operand's row coordinate is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The left operand's index at output index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0 : Fin M) k := by
  have hk := contrEquiv1_symm_val (DotDims.plain M K N) K rfl rfl k
  funext a
  apply Fin.ext
  match a with
  | ⟨0, _⟩ => exact plain_lhs_row j _
  | ⟨1, _⟩ => exact (plain_lhs_col j _).trans hk

/-- The right operand's index there is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1 : Fin N) := by
  have hk := contrEquiv1_symm_val (DotDims.plain M K N) K rfl rfl k
  funext a
  apply Fin.ext
  match a with
  | ⟨0, _⟩ => exact (plain_rhs_row j _).trans hk
  | ⟨1, _⟩ => exact plain_rhs_col j _

/-- The product into the zero array is `rowsTimes`, whatever the two operands' float formats. -/
theorem matmul_plain_zero {φ₁ φ₂ : FTy} (prec : Option ContractPrecision)
    (l : FVec Ideal ⟨2, ![M, K]⟩ φ₁) (w : FVec Ideal ⟨2, ![K, N]⟩ φ₂) :
    matmul (DotDims.plain M K N) prec l w (constant (F := Ideal) ⟨2, ![M, N]⟩ .f32 0x00000000#32) = rowsTimes l w := by
  funext j
  simp only [matmul]
  rw [Ideal.matmul_constant_zero_apply]
  exact contraction_eq (DotDims.plain M K N) rfl rfl l w l w j j
    (fun k => congrArg l (plain_lhsIdx j k)) (fun k => congrArg w (plain_rhsIdx j k))

/-- The same of a record `d` of dimension numbers that is the plain one. -/
theorem matmul_zero_of_plain {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (w : FVec Ideal ⟨2, ![K, N]⟩ φ₂) :
    matmul d prec l w (constant (F := Ideal) ⟨2, ![M, N]⟩ .f32 0x00000000#32) = rowsTimes l w := by
  subst hd
  exact matmul_plain_zero prec l w

end Cert.Dense

end
-- ==== Proof.StatsAt0.lean ====
/-
  Region 0 of the idealized kernel (a matrix product plus bias, with running column sums): the body's three stored
  values read at an index, and the blocks of a grid point read off the whole arrays.

  Grid point `t` is column tile `t / 32` (1024 columns) and row tile `t % 32` (256 rows). Its `y` block is the product
  of the row tile of `x` (all 4096 columns) with the column tile of `w`, plus the bias row's tile: entry `(p, q)` is
  `∑ k, x (row, k) · w (k, col) + b (0, col)` at the array's row `256 · (t % 32) + p` and column `1024 · (t / 32) + q`.
  Its column sums are `∑ p` of that over the tile's 256 rows (and of its squares), added onto what the accumulator holds.
-/
import proofs.«152490_j70686571758165_2_alg».proof.Proof.StatsPieces0
import proofs.«152490_j70686571758165_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stats0

open Idealize.ShloMosaic Idealize.ShloMosaic.TcCoe Idealize.SL.Sem Idealize.ShloMosaic.ValueIdx
open Cert.KernelIdeal Cert.KernelIdeal.Gen Cert.Dense

/-- The bias row's index under an entry of the `y` array: row 0, the entry's column. -/
abbrev under (i : S8192x2048.Idx) : S1x2048.Idx := ix2 (0 : Fin 1) (⟨(i 1).val, idx2_lt1 i⟩ : Fin 2048)

/-- `y = x · w + b` on the whole arrays, index by index. -/
def yOf (x : S8192x4096.Idx → EReal) (w : S4096x2048.Idx → EReal) (b : S1x2048.Idx → EReal) : S8192x2048.Idx → EReal :=
  fun i => rowsTimes x w i + b (under i)

/-- The column sums of `y`, as a 1×2048 row. -/
def colSum (y : S8192x2048.Idx → EReal) : S1x2048.Idx → EReal :=
  fun i => ∑ r : Fin 8192, y (ix2 r (⟨(i 1).val, idx2_lt1 i⟩ : Fin 2048))

/-- The column sums of `y · y`, as a 1×2048 row. -/
def colSumSq (y : S8192x2048.Idx → EReal) : S1x2048.Idx → EReal :=
  fun i => ∑ r : Fin 8192, y (ix2 r (⟨(i 1).val, idx2_lt1 i⟩ : Fin 2048)) * y (ix2 r (⟨(i 1).val, idx2_lt1 i⟩ : Fin 2048))

/-! ## The body's values at an index -/

/-- The product-plus-bias block at `(p, q)` (the operands' float formats do not matter on the extended reals). -/
theorem y_at (x0 : FVec Ideal S256x4096 .f32) (x1 : FVec Ideal S4096x1024 .bf16) (x2 : FVec Ideal S1x1024 .f32)
    (p : Fin 256) (q : Fin 1024) :
    k0_pay1 (F := Ideal) x0 x1 x2 (ix2 p q) = rowsTimes x0 x1 (ix2 p q) + x2 (ix2 (0 : Fin 1) q) := by
  unfold k0_pay1
  simp only [shapeCast_self]
  rw [addf_apply, broadcastTo_1b_ab_apply]
  refine congrArg (· + x2 (ix2 (0 : Fin 1) q)) ?_
  exact congrFun (matmul_zero_of_plain dot_S256x4096_S4096x1024_S256x1024_1_0_0_1_n_n rfl none _ x1) (ix2 p q)

/-- A sum over the rows of a two-axis block, read at column `q`. -/
theorem rowsSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) := by
  refine (Ideal.multiReduction_add_single src 0x00000000#32 h hφ hacc (ix1 q)).trans ?_
  refine Finset.sum_congr rfl fun p _ => congrArg src ?_
  funext cc; apply Fin.ext
  match cc with
  | ⟨0, _⟩ => rfl
  | ⟨1, _⟩ => rfl

/-- The running column sums after the body: what the accumulator held plus the block's column sums. -/
theorem sum_at (x0 : FVec Ideal S256x4096 .f32) (x1 : FVec Ideal S4096x1024 .bf16) (x2 : FVec Ideal S1x1024 .f32)
    (v : FVec Ideal S1x1024 .f32) (q : Fin 1024) :
    k0_pay4 (F := Ideal) x0 x1 x2 v (ix2 (0 : Fin 1) q)
      = v (ix2 (0 : Fin 1) q) + ∑ p : Fin 256, k0_pay1 (F := Ideal) x0 x1 x2 (ix2 p q) := by
  unfold k0_pay4
  simp only [shapeCast_self]
  rw [addf_apply, shapeCast_a_1a_apply]
  exact congrArg (v (ix2 (0 : Fin 1) q) + ·) (rowsSum_apply _ _ _ _ q)

/-- The running column sums of squares after the body. -/
theorem sumsq_at (x0 : FVec Ideal S256x4096 .f32) (x1 : FVec Ideal S4096x1024 .bf16) (x2 : FVec Ideal S1x1024 .f32)
    (v : FVec Ideal S1x1024 .f32) (q : Fin 1024) :
    k0_pay5 (F := Ideal) x0 x1 x2 v (ix2 (0 : Fin 1) q)
      = v (ix2 (0 : Fin 1) q) + ∑ p : Fin 256, k0_pay1 (F := Ideal) x0 x1 x2 (ix2 p q) * k0_pay1 (F := Ideal) x0 x1 x2 (ix2 p q) := by
  unfold k0_pay5
  simp only [shapeCast_self]
  rw [addf_apply, shapeCast_a_1a_apply]
  refine congrArg (v (ix2 (0 : Fin 1) q) + ·) ((rowsSum_apply _ _ _ _ q).trans ?_)
  rfl

/-- The zero rows the accumulators start from are the extended real 0. -/
theorem zero_row_sum (q : Fin 1024) : k0_pay2 (F := Ideal) (ix2 (0 : Fin 1) q) = 0 := by
  unfold k0_pay2; exact Ideal.ofBits_zero_f32
theorem zero_row_sumsq (q : Fin 1024) : k0_pay3 (F := Ideal) (ix2 (0 : Fin 1) q) = 0 := by
  unfold k0_pay3; exact Ideal.ofBits_zero_f32

end Cert.KernelIdeal.Stats0

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.LibChunkFold.lean ====
/-
  A running total over chunks. A sum over `N = (n + 1) * m` consecutive indices is cut into `n + 1` chunks of `m`.
  A total that starts as zero plus the sum of chunk 0, and to which the sum of chunk `c + 1` is added at step
  `c + 1`, is after the last step the sum over all `N` indices: by induction the total after step `c` is the sum of
  the chunk sums 0 … c, and the sum of all the chunk sums is the whole sum. Only the laws of a commutative monoid
  are used, so nothing has to be finite on the extended reals.
-/
import proofs.«152490_j70686571758165_2_alg».proof.Proof.LibChunkSum

namespace ChunkSum

/-- The running total after step `c` is the sum of the chunk sums `0 … c`. -/
theorem fold_partial {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    ∀ c (_ : c < n + 1), acc c = ∑ i ∈ Finset.range (c + 1), if hi : i < n + 1 then g ⟨i, hi⟩ else 0 := by
  intro c
  induction c with
  | zero =>
    intro _
    rw [h0, zero_add, Finset.sum_range_one, dif_pos (Nat.succ_pos n)]
  | succ c ih =>
    intro hc
    rw [hs c hc, ih (by omega), Finset.sum_range_succ _ (c + 1), dif_pos hc]

/-- Terms added one after the other onto a zero are their sum. -/
theorem fold_terms {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    acc n = ∑ c : Fin (n + 1), g c := by
  rw [fold_partial g acc h0 hs n (Nat.lt_succ_self n),
    ← Fin.sum_univ_eq_sum_range (fun i => if hi : i < n + 1 then g ⟨i, hi⟩ else 0) (n + 1)]
  exact Finset.sum_congr rfl fun c _ => dif_pos c.isLt

/-- A running total that starts from zero plus chunk 0 and adds chunk `c + 1` at step `c + 1` is, after the last
    chunk, the sum over all `N = (n + 1) * m` indices. -/
theorem fold_chunks {M : Type*} [AddCommMonoid M] {n m N : ℕ} (h : (n + 1) * m = N) (f : Fin N → M) (acc : ℕ → M)
    (h0 : acc 0 = 0 + ∑ k : Fin m, f (at_ h ⟨0, Nat.succ_pos n⟩ k))
    (hs : ∀ c (hc : c + 1 < n + 1), acc (c + 1) = acc c + ∑ k : Fin m, f (at_ h ⟨c + 1, hc⟩ k)) :
    acc n = ∑ j : Fin N, f j :=
  (fold_terms (fun c => ∑ k : Fin m, f (at_ h c k)) acc h0 hs).trans (sum_chunks h f)

end ChunkSum
-- ==== Proof.StatsValue0.lean ====
/-
  Region 0 of the idealized kernel: its three output arrays after the region, as functions of the arrays it finds.

  The `y` array is written one block per grid point and the blocks tile it, so it ends at `x · w + b`. An accumulator's
  block for column tile `jt` stays in its staging buffer over the 32 row tiles of that column tile: the first one
  starts it from the zero row, each adds its 256 rows' column sums, and only the last one writes it back — by then it
  is the sum over all 32 · 256 = 8192 rows. So the two accumulator arrays end at the column sums of `y` and of `y · y`.
-/
import proofs.«152490_j70686571758165_2_alg».proof.Proof.StatsAt0
import proofs.«152490_j70686571758165_2_alg».proof.Proof.LibChunkFold

set_option maxRecDepth 16384

noncomputable section

namespace Cert.KernelIdeal.Stats0

open Idealize.ShloMosaic Idealize.ShloMosaic.TcCoe Idealize.SL.Sem Idealize.ShloMosaic.ValueIdx
open Idealize.ShloMosaic.Pipeline (Dat)
open Cert.KernelIdeal Cert.KernelIdeal.Gen Cert.Dense

variable (V : (c : Dev nD) → (b : Ref sig .tc) → Buf (Elt Ideal) ((c : Thread nD τ).loc b))

/-- The printed index maps over the grid: row tile `t % 32`, column tile `t / 32`. -/
theorem idx_facts : ∀ t : Fin cfg0.N,
    win0_0.index t (0 : Fin 2) = t.val % 32 ∧ win0_0.index t (1 : Fin 2) = 0
    ∧ win0_1.index t (0 : Fin 2) = 0 ∧ win0_1.index t (1 : Fin 2) = t.val / 32
    ∧ win0_2.index t (0 : Fin 2) = 0 ∧ win0_2.index t (1 : Fin 2) = t.val / 32
    ∧ win0_3.index t (0 : Fin 2) = t.val % 32 ∧ win0_3.index t (1 : Fin 2) = t.val / 32
    ∧ win0_4.index t (0 : Fin 2) = 0 ∧ win0_4.index t (1 : Fin 2) = t.val / 32
    ∧ win0_5.index t (0 : Fin 2) = 0 ∧ win0_5.index t (1 : Fin 2) = t.val / 32 :=
  (by decide +kernel : ∀ t : Fin grid0.N, _)

set_option maxHeartbeats 1000000 in
/-- The body's product-plus-bias block at point `t`, entry `(p, q)`, is `y` of the whole arrays at the entry's place. -/
theorem yblk_eq (c : Dev nD) (t : Fin cfg0.N) (p : Fin 256) (q : Fin 1024) :
    k0_pay1 (F := Ideal) (iblk0 V c 0 t) (iblk0 V c 1 t) (iblk0 V c 2 t) (ix2 p q)
      = yOf (V c (Pipeline.arrRef spec0 0)) (V c (Pipeline.arrRef spec0 1)) (V c (Pipeline.arrRef spec0 2)) (((cfg0.win 3).blk t).view.emb (ix2 p q)) := by
  obtain ⟨e00, e01, e10, e11, e20, e21, e30, e31, e40, e41, e50, e51⟩ := idx_facts t
  refine (y_at (iblk0 V c 0 t) (iblk0 V c 1 t) (iblk0 V c 2 t) p q).trans ?_
  unfold yOf
  have hp : p.val < 256 := p.isLt
  have hq : q.val < 1024 := q.isLt
  have hrt : rowsTimes (iblk0 V c 0 t) (iblk0 V c 1 t) (ix2 p q)
      = rowsTimes (V c (Pipeline.arrRef spec0 0)) (V c (Pipeline.arrRef spec0 1)) (((cfg0.win 3).blk t).view.emb (ix2 p q)) := by
    refine rowsTimes_of_rows _ _ _ _ _ _ (fun kk => ?_) (fun kk => ?_)
    · show V c (Pipeline.arrRef spec0 0) (((cfg0.win 0).blk t).view.emb (ix2 p kk)) = _
      refine congrArg (V c (Pipeline.arrRef spec0 0)) ?_
      funext a; apply Fin.ext
      match a with
      | ⟨0, _⟩ => show win0_0.index t (0 : Fin 2) * 256 + 1 * p.val = win0_3.index t (0 : Fin 2) * 256 + 1 * p.val; omega
      | ⟨1, _⟩ => show win0_0.index t (1 : Fin 2) * 4096 + 1 * kk.val = kk.val; omega
    · show V c (Pipeline.arrRef spec0 1) (((cfg0.win 1).blk t).view.emb (ix2 kk q)) = _
      refine congrArg (V c (Pipeline.arrRef spec0 1)) ?_
      funext a; apply Fin.ext
      match a with
      | ⟨0, _⟩ => show win0_1.index t (0 : Fin 2) * 4096 + 1 * kk.val = kk.val; omega
      | ⟨1, _⟩ => show win0_1.index t (1 : Fin 2) * 1024 + 1 * q.val = win0_3.index t (1 : Fin 2) * 1024 + 1 * q.val; omega
  have hb : iblk0 V c 2 t (ix2 (0 : Fin 1) q)
      = V c (Pipeline.arrRef spec0 2) (under (((cfg0.win 3).blk t).view.emb (ix2 p q))) := by
    show V c (Pipeline.arrRef spec0 2) (((cfg0.win 2).blk t).view.emb (ix2 (0 : Fin 1) q)) = _
    refine congrArg (V c (Pipeline.arrRef spec0 2)) ?_
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  rw [hrt, hb]

/-! ## The `y` array -/

theorem mem_blk3 (t : Fin cfg0.N) (i : S8192x2048.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v20_0).slice (win0_3.rect t)).set ↔ _
  rw [View.set_slice_whole, Rect.mem_set_unit]
  exact Iff.rfl

set_option maxHeartbeats 1000000 in
/-- WHAT POINT `t` WRITES BACK of `y` is block `t` of `x · w + b` (a change of float format is the identity). -/
theorem flushed3_eq (c : Dev nD) (t : Fin cfg0.N) :
    (dat0 V c).flushed 3 t = ((cfg0.win 3).blk t).view.read (Elt Ideal) (yOf (V c (Pipeline.arrRef spec0 0)) (V c (Pipeline.arrRef spec0 1)) (V c (Pipeline.arrRef spec0 2))) := by
  show (cfg0.win 3).cut (grid0.coords t) ((dat0 V c).after 3 t) = _
  rw [after0_3]
  funext j
  obtain ⟨p, q, rfl⟩ : ∃ (p : Fin 256) (q : Fin 1024), j = ix2 p q := ⟨j 0, j 1, eq_ix2 j⟩
  show (outsAt0 V c t.val t.isLt).1 (ix2 p q) = yOf (V c (Pipeline.arrRef spec0 0)) (V c (Pipeline.arrRef spec0 1)) (V c (Pipeline.arrRef spec0 2)) (((cfg0.win 3).blk t).view.emb (ix2 p q))
  by_cases h0 : t.val % 32 = 0
  · rw [outsAt0_A V c t h0]
    dsimp only
    rw [first_y c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) ((hcond0_0 t).mpr h0)]
    exact yblk_eq V c t p q
  · rw [outsAt0_B V c t h0]
    dsimp only
    rw [later_y c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) _ _ (fun h => h0 ((hcond0_0 t).mp h))]
    exact yblk_eq V c t p q

/-- Every index of `y` is in some point's block. -/
theorem cover3 (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 64 := N_0
  have hlt : (i 1).val / 1024 * 32 + (i 0).val / 256 < cfg0.N := by rw [hN]; omega
  refine ⟨⟨(i 1).val / 1024 * 32 + (i 0).val / 256, hlt⟩, flush0_3 _, ?_⟩
  rw [mem_blk3]
  obtain ⟨e00, e01, e10, e11, e20, e21, e30, e31, e40, e41, e50, e51⟩ := idx_facts ⟨(i 1).val / 1024 * 32 + (i 0).val / 256, hlt⟩
  intro a
  match a with
  | ⟨0, _⟩ =>
    show win0_3.index _ (0 : Fin 2) * 256 ≤ (i 0).val ∧ (i 0).val < win0_3.index _ (0 : Fin 2) * 256 + 256
    rw [e30]; show ((i 1).val / 1024 * 32 + (i 0).val / 256) % 32 * 256 ≤ (i 0).val ∧ (i 0).val < ((i 1).val / 1024 * 32 + (i 0).val / 256) % 32 * 256 + 256; omega
  | ⟨1, _⟩ =>
    show win0_3.index _ (1 : Fin 2) * 1024 ≤ (i 1).val ∧ (i 1).val < win0_3.index _ (1 : Fin 2) * 1024 + 1024
    rw [e31]; show ((i 1).val / 1024 * 32 + (i 0).val / 256) / 32 * 1024 ≤ (i 1).val ∧ (i 1).val < ((i 1).val / 1024 * 32 + (i 0).val / 256) / 32 * 1024 + 1024; omega

/-- THE `y` ARRAY after the region. -/
theorem final3 (c : Dev nD) : (dat0 V c).arrAt 3 cfg0.N = yOf (V c (Pipeline.arrRef spec0 0)) (V c (Pipeline.arrRef spec0 1)) (V c (Pipeline.arrRef spec0 2)) :=
  (dat0 V c).arrAt_eq_of_cover 3 _ (fun t _ => flushed3_eq V c t) (cover3)

/-! ## The accumulators: one column tile's 32 row tiles -/

/-- Row tile `n` of column tile `jt`, as a grid point. -/
def tOf (jt : Fin 2) (n : ℕ) (h : n < 32) : Fin cfg0.N :=
  ⟨jt.val * 32 + n, by have := jt.isLt; rw [show cfg0.N = 64 from N_0]; omega⟩

theorem hchunks : (31 + 1) * 256 = 8192 := by norm_num

/-- The accumulation's value depends on the point's number only. -/
theorem outsAt_congr (c : Dev nD) {a b : ℕ} (e : a = b) (ha : a < cfg0.N) (hb : b < cfg0.N) :
    outsAt0 V c a ha = outsAt0 V c b hb := by subst e; rfl

/-- The output block's entry `(p, q)` at row tile `n` of column tile `jt` is the array's row `n · 256 + p`, column
    `jt · 1024 + q`. -/
theorem emb_y (c : Dev nD) (jt : Fin 2) (n : ℕ) (h : n < 32) (p : Fin 256) (q : Fin 1024) :
    ((cfg0.win 3).blk (tOf jt n h)).view.emb (ix2 p q)
      = ix2 (ChunkSum.at_ hchunks ⟨n, h⟩ p) (⟨jt.val * 1024 + q.val, by have := jt.isLt; have := q.isLt; omega⟩ : Fin 2048) := by
  obtain ⟨e00, e01, e10, e11, e20, e21, e30, e31, e40, e41, e50, e51⟩ := idx_facts (tOf jt n h)
  have hj : jt.val < 2 := jt.isLt
  have hv : (tOf jt n h).val = jt.val * 32 + n := rfl
  funext a; apply Fin.ext
  match a with
  | ⟨0, _⟩ => show win0_3.index (tOf jt n h) (0 : Fin 2) * 256 + 1 * p.val = n * 256 + p.val; rw [e30, hv]; omega
  | ⟨1, _⟩ => show win0_3.index (tOf jt n h) (1 : Fin 2) * 1024 + 1 * q.val = jt.val * 1024 + q.val; rw [e31, hv]; omega

/-- The body's product-plus-bias block at row tile `n` of column tile `jt`, entry `(p, q)`: `y` at the array's row
    `n · 256 + p` and column `jt · 1024 + q`. -/
theorem yblk_row (c : Dev nD) (jt : Fin 2) (n : ℕ) (h : n < 32) (p : Fin 256) (q : Fin 1024) :
    k0_pay1 (F := Ideal) (iblk0 V c 0 (tOf jt n h)) (iblk0 V c 1 (tOf jt n h)) (iblk0 V c 2 (tOf jt n h)) (ix2 p q)
      = yOf (V c (Pipeline.arrRef spec0 0)) (V c (Pipeline.arrRef spec0 1)) (V c (Pipeline.arrRef spec0 2)) (ix2 (ChunkSum.at_ hchunks ⟨n, h⟩ p)
          (⟨jt.val * 1024 + q.val, by have := jt.isLt; have := q.isLt; omega⟩ : Fin 2048)) :=
  (yblk_eq V c (tOf jt n h) p q).trans (congrArg (yOf (V c (Pipeline.arrRef spec0 0)) (V c (Pipeline.arrRef spec0 1)) (V c (Pipeline.arrRef spec0 2))) (emb_y c jt n h p q))

/-! ## The running column sums -/

/-- What accumulator 4's block holds at column `q` after row tile `n` of column tile `jt`. -/
def acc4 (c : Dev nD) (jt : Fin 2) (q : Fin 1024) (n : ℕ) : EReal :=
  if h : n < 32 then (outsAt0 V c (tOf jt n h).val (tOf jt n h).isLt).2.1 (ix2 (0 : Fin 1) q) else 0

set_option maxHeartbeats 1000000 in
theorem acc4_zero (c : Dev nD) (jt : Fin 2) (q : Fin 1024) :
    acc4 V c jt q 0 = 0 + ∑ p : Fin 256, yOf (V c (Pipeline.arrRef spec0 0)) (V c (Pipeline.arrRef spec0 1)) (V c (Pipeline.arrRef spec0 2)) (ix2 (ChunkSum.at_ hchunks ⟨0, Nat.succ_pos 31⟩ p) (⟨jt.val * 1024 + q.val, by have := jt.isLt; have := q.isLt; omega⟩ : Fin 2048)) := by
  unfold acc4
  rw [dif_pos (by omega : 0 < 32)]
  have h0 : (tOf jt 0 (by omega)).val % 32 = 0 := by show (jt.val * 32 + 0) % 32 = 0; omega
  rw [outsAt0_A V c (tOf jt 0 (by omega)) h0]
  dsimp only
  rw [first_sum c (grid0.coords (tOf jt 0 (by omega))) (ms0_0 (tOf jt 0 (by omega))) (hs0_0 (tOf jt 0 (by omega))) (ms0_1 (tOf jt 0 (by omega))) (hs0_1 (tOf jt 0 (by omega))) (ms0_2 (tOf jt 0 (by omega))) (hs0_2 (tOf jt 0 (by omega))) (ms0_3 (tOf jt 0 (by omega))) (hs0_3 (tOf jt 0 (by omega))) (ms0_4 (tOf jt 0 (by omega))) (hs0_4 (tOf jt 0 (by omega))) (ms0_5 (tOf jt 0 (by omega))) (hs0_5 (tOf jt 0 (by omega))) (iblk0 V c 0 (tOf jt 0 (by omega))) (iblk0 V c 1 (tOf jt 0 (by omega))) (iblk0 V c 2 (tOf jt 0 (by omega))) ((hcond0_0 (tOf jt 0 (by omega))).mpr h0)]
  refine (sum_at _ _ _ _ q).trans ?_
  rw [zero_row_sum]
  refine congrArg (0 + ·) (Finset.sum_congr rfl fun p _ => ?_)
  rw [yblk_row V c jt 0 (by omega) p q]

set_option maxHeartbeats 1000000 in
theorem acc4_succ (c : Dev nD) (jt : Fin 2) (q : Fin 1024) (n : ℕ) (hn : n + 1 < 31 + 1) :
    acc4 V c jt q (n + 1) = acc4 V c jt q n + ∑ p : Fin 256, yOf (V c (Pipeline.arrRef spec0 0)) (V c (Pipeline.arrRef spec0 1)) (V c (Pipeline.arrRef spec0 2)) (ix2 (ChunkSum.at_ hchunks ⟨n + 1, hn⟩ p) (⟨jt.val * 1024 + q.val, by have := jt.isLt; have := q.isLt; omega⟩ : Fin 2048)) := by
  have hn1 : n + 1 < 32 := hn
  have hn0 : n < 32 := by omega
  unfold acc4
  rw [dif_pos hn1, dif_pos hn0]
  have h0 : ¬(tOf jt (n + 1) hn1).val % 32 = 0 := by show ¬(jt.val * 32 + (n + 1)) % 32 = 0; omega
  rw [outsAt0_B V c (tOf jt (n + 1) hn1) h0]
  dsimp only
  rw [later_sum c (grid0.coords (tOf jt (n + 1) hn1)) (ms0_0 (tOf jt (n + 1) hn1)) (hs0_0 (tOf jt (n + 1) hn1)) (ms0_1 (tOf jt (n + 1) hn1)) (hs0_1 (tOf jt (n + 1) hn1)) (ms0_2 (tOf jt (n + 1) hn1)) (hs0_2 (tOf jt (n + 1) hn1)) (ms0_3 (tOf jt (n + 1) hn1)) (hs0_3 (tOf jt (n + 1) hn1)) (ms0_4 (tOf jt (n + 1) hn1)) (hs0_4 (tOf jt (n + 1) hn1)) (ms0_5 (tOf jt (n + 1) hn1)) (hs0_5 (tOf jt (n + 1) hn1)) (iblk0 V c 0 (tOf jt (n + 1) hn1)) (iblk0 V c 1 (tOf jt (n + 1) hn1)) (iblk0 V c 2 (tOf jt (n + 1) hn1)) _ _ (fun h => h0 ((hcond0_0 (tOf jt (n + 1) hn1)).mp h))]
  refine (sum_at _ _ _ _ q).trans ?_
  rw [outsAt_congr V c (show (tOf jt (n + 1) hn1).val - 1 = (tOf jt n hn0).val by show jt.val * 32 + (n + 1) - 1 = jt.val * 32 + n; omega) _ (tOf jt n hn0).isLt]
  refine congrArg (_ + ·) (Finset.sum_congr rfl fun p _ => ?_)
  rw [yblk_row V c jt (n + 1) hn1 p q]

/-- After the last row tile the accumulator holds the whole column's sum. -/
theorem acc4_last (c : Dev nD) (jt : Fin 2) (q : Fin 1024) :
    acc4 V c jt q 31 = ∑ r : Fin 8192, yOf (V c (Pipeline.arrRef spec0 0)) (V c (Pipeline.arrRef spec0 1)) (V c (Pipeline.arrRef spec0 2)) (ix2 r (⟨jt.val * 1024 + q.val, by have := jt.isLt; have := q.isLt; omega⟩ : Fin 2048)) :=
  ChunkSum.fold_chunks hchunks (fun r => yOf (V c (Pipeline.arrRef spec0 0)) (V c (Pipeline.arrRef spec0 1)) (V c (Pipeline.arrRef spec0 2)) (ix2 r (⟨jt.val * 1024 + q.val, by have := jt.isLt; have := q.isLt; omega⟩ : Fin 2048))) (acc4 V c jt q) (acc4_zero V c jt q) (acc4_succ V c jt q)

theorem mem_blk4 (t : Fin cfg0.N) (i : S1x2048.Idx) :
    i ∈ ((cfg0.win 4).blk t).view.set ↔ ∀ a : Fin 2, win0_4.index t a * S1x1024.size a ≤ (i a).val
      ∧ (i a).val < win0_4.index t a * S1x1024.size a + S1x1024.size a := by
  show i ∈ ((View.whole main_v20_1).slice (win0_4.rect t)).set ↔ _
  rw [View.set_slice_whole, Rect.mem_set_unit]
  exact Iff.rfl

set_option maxHeartbeats 1000000 in
/-- WHAT A LAST ROW TILE WRITES BACK of accumulator 4 is its block of the whole array's column sums. -/
theorem flushed4_eq (c : Dev nD) (t : Fin cfg0.N) (hf : (cfg0.win 4).flush t = true) :
    (dat0 V c).flushed 4 t = ((cfg0.win 4).blk t).view.read (Elt Ideal) (colSum (yOf (V c (Pipeline.arrRef spec0 0)) (V c (Pipeline.arrRef spec0 1)) (V c (Pipeline.arrRef spec0 2)))) := by
  have hN : cfg0.N = 64 := N_0
  have ht : t.val < 64 := lt_of_lt_of_eq t.isLt hN
  have h31 : t.val % 32 = 31 := (flush0_4 t).mp hf
  obtain ⟨e00, e01, e10, e11, e20, e21, e30, e31, e40, e41, e50, e51⟩ := idx_facts t
  have hjt : t.val / 32 < 2 := by omega
  have htt : t = tOf ⟨t.val / 32, hjt⟩ 31 (by omega) := Fin.ext (by show t.val = t.val / 32 * 32 + 31; omega)
  show (cfg0.win 4).cut (grid0.coords t) ((dat0 V c).after 4 t) = _
  rw [after0_4]
  funext j
  obtain ⟨z, q, rfl⟩ : ∃ (z : Fin 1) (q : Fin 1024), j = ix2 z q := ⟨j 0, j 1, eq_ix2 j⟩
  obtain rfl : z = 0 := Subsingleton.elim _ _
  show (outsAt0 V c t.val t.isLt).2.1 (ix2 (0 : Fin 1) q) = colSum (yOf (V c (Pipeline.arrRef spec0 0)) (V c (Pipeline.arrRef spec0 1)) (V c (Pipeline.arrRef spec0 2))) (((cfg0.win 4).blk t).view.emb (ix2 (0 : Fin 1) q))
  have hacc : (outsAt0 V c t.val t.isLt).2.1 (ix2 (0 : Fin 1) q) = acc4 V c ⟨t.val / 32, hjt⟩ q 31 := by
    unfold acc4
    rw [dif_pos (by omega : 31 < 32)]
    rw [outsAt_congr V c (congrArg Fin.val htt) t.isLt (tOf ⟨t.val / 32, hjt⟩ 31 (by omega)).isLt]
  rw [hacc, acc4_last]
  unfold colSum
  refine Finset.sum_congr rfl fun r _ => ?_
  have hcol : (⟨(⟨t.val / 32, hjt⟩ : Fin 2).val * 1024 + q.val, by have := q.isLt; omega⟩ : Fin 2048)
      = ⟨((((cfg0.win 4).blk t).view.emb (ix2 (0 : Fin 1) q)) 1).val, idx2_lt1 _⟩ := by
    apply Fin.ext
    show t.val / 32 * 1024 + q.val = win0_4.index t (1 : Fin 2) * 1024 + 1 * q.val
    omega
  rw [hcol]

/-- Every index of accumulator 4's array is in the block a last row tile writes back. -/
theorem cover4 (i : S1x2048.Idx) :
    ∃ t : Fin cfg0.N, (cfg0.win 4).flush t = true ∧ i ∈ ((cfg0.win 4).blk t).view.set := by
  have hi0 : (i 0).val < 1 := (i 0).isLt
  have hi1 : (i 1).val < 2048 := (i 1).isLt
  have hN : cfg0.N = 64 := N_0
  have hlt : (i 1).val / 1024 * 32 + 31 < cfg0.N := by rw [hN]; omega
  refine ⟨⟨(i 1).val / 1024 * 32 + 31, hlt⟩, (flush0_4 _).mpr (by show ((i 1).val / 1024 * 32 + 31) % 32 = 31; omega), ?_⟩
  rw [mem_blk4]
  obtain ⟨e00, e01, e10, e11, e20, e21, e30, e31, e40, e41, e50, e51⟩ := idx_facts ⟨(i 1).val / 1024 * 32 + 31, hlt⟩
  intro a
  match a with
  | ⟨0, _⟩ =>
    show win0_4.index _ (0 : Fin 2) * 1 ≤ (i 0).val ∧ (i 0).val < win0_4.index _ (0 : Fin 2) * 1 + 1
    rw [e40]; omega
  | ⟨1, _⟩ =>
    show win0_4.index _ (1 : Fin 2) * 1024 ≤ (i 1).val ∧ (i 1).val < win0_4.index _ (1 : Fin 2) * 1024 + 1024
    rw [e41]; show ((i 1).val / 1024 * 32 + 31) / 32 * 1024 ≤ (i 1).val ∧ (i 1).val < ((i 1).val / 1024 * 32 + 31) / 32 * 1024 + 1024; omega

/-- ACCUMULATOR 4'S ARRAY after the region: the column sums of `y`. -/
theorem final4 (c : Dev nD) : (dat0 V c).arrAt 4 cfg0.N = colSum (yOf (V c (Pipeline.arrRef spec0 0)) (V c (Pipeline.arrRef spec0 1)) (V c (Pipeline.arrRef spec0 2))) :=
  (dat0 V c).arrAt_eq_of_cover 4 _ (fun t hf => flushed4_eq V c t hf) (cover4)

/-! ## The running column sums of squares -/

/-- What accumulator 5's block holds at column `q` after row tile `n` of column tile `jt`. -/
def acc5 (c : Dev nD) (jt : Fin 2) (q : Fin 1024) (n : ℕ) : EReal :=
  if h : n < 32 then (outsAt0 V c (tOf jt n h).val (tOf jt n h).isLt).2.2 (ix2 (0 : Fin 1) q) else 0

set_option maxHeartbeats 1000000 in
theorem acc5_zero (c : Dev nD) (jt : Fin 2) (q : Fin 1024) :
    acc5 V c jt q 0 = 0 + ∑ p : Fin 256, yOf (V c (Pipeline.arrRef spec0 0)) (V c (Pipeline.arrRef spec0 1)) (V c (Pipeline.arrRef spec0 2)) (ix2 (ChunkSum.at_ hchunks ⟨0, Nat.succ_pos 31⟩ p) (⟨jt.val * 1024 + q.val, by have := jt.isLt; have := q.isLt; omega⟩ : Fin 2048)) * yOf (V c (Pipeline.arrRef spec0 0)) (V c (Pipeline.arrRef spec0 1)) (V c (Pipeline.arrRef spec0 2)) (ix2 (ChunkSum.at_ hchunks ⟨0, Nat.succ_pos 31⟩ p) (⟨jt.val * 1024 + q.val, by have := jt.isLt; have := q.isLt; omega⟩ : Fin 2048)) := by
  unfold acc5
  rw [dif_pos (by omega : 0 < 32)]
  have h0 : (tOf jt 0 (by omega)).val % 32 = 0 := by show (jt.val * 32 + 0) % 32 = 0; omega
  rw [outsAt0_A V c (tOf jt 0 (by omega)) h0]
  dsimp only
  rw [first_sumsq c (grid0.coords (tOf jt 0 (by omega))) (ms0_0 (tOf jt 0 (by omega))) (hs0_0 (tOf jt 0 (by omega))) (ms0_1 (tOf jt 0 (by omega))) (hs0_1 (tOf jt 0 (by omega))) (ms0_2 (tOf jt 0 (by omega))) (hs0_2 (tOf jt 0 (by omega))) (ms0_3 (tOf jt 0 (by omega))) (hs0_3 (tOf jt 0 (by omega))) (ms0_4 (tOf jt 0 (by omega))) (hs0_4 (tOf jt 0 (by omega))) (ms0_5 (tOf jt 0 (by omega))) (hs0_5 (tOf jt 0 (by omega))) (iblk0 V c 0 (tOf jt 0 (by omega))) (iblk0 V c 1 (tOf jt 0 (by omega))) (iblk0 V c 2 (tOf jt 0 (by omega))) ((hcond0_0 (tOf jt 0 (by omega))).mpr h0)]
  refine (sumsq_at _ _ _ _ q).trans ?_
  rw [zero_row_sumsq]
  refine congrArg (0 + ·) (Finset.sum_congr rfl fun p _ => ?_)
  rw [yblk_row V c jt 0 (by omega) p q]

set_option maxHeartbeats 1000000 in
theorem acc5_succ (c : Dev nD) (jt : Fin 2) (q : Fin 1024) (n : ℕ) (hn : n + 1 < 31 + 1) :
    acc5 V c jt q (n + 1) = acc5 V c jt q n + ∑ p : Fin 256, yOf (V c (Pipeline.arrRef spec0 0)) (V c (Pipeline.arrRef spec0 1)) (V c (Pipeline.arrRef spec0 2)) (ix2 (ChunkSum.at_ hchunks ⟨n + 1, hn⟩ p) (⟨jt.val * 1024 + q.val, by have := jt.isLt; have := q.isLt; omega⟩ : Fin 2048)) * yOf (V c (Pipeline.arrRef spec0 0)) (V c (Pipeline.arrRef spec0 1)) (V c (Pipeline.arrRef spec0 2)) (ix2 (ChunkSum.at_ hchunks ⟨n + 1, hn⟩ p) (⟨jt.val * 1024 + q.val, by have := jt.isLt; have := q.isLt; omega⟩ : Fin 2048)) := by
  have hn1 : n + 1 < 32 := hn
  have hn0 : n < 32 := by omega
  unfold acc5
  rw [dif_pos hn1, dif_pos hn0]
  have h0 : ¬(tOf jt (n + 1) hn1).val % 32 = 0 := by show ¬(jt.val * 32 + (n + 1)) % 32 = 0; omega
  rw [outsAt0_B V c (tOf jt (n + 1) hn1) h0]
  dsimp only
  rw [later_sumsq c (grid0.coords (tOf jt (n + 1) hn1)) (ms0_0 (tOf jt (n + 1) hn1)) (hs0_0 (tOf jt (n + 1) hn1)) (ms0_1 (tOf jt (n + 1) hn1)) (hs0_1 (tOf jt (n + 1) hn1)) (ms0_2 (tOf jt (n + 1) hn1)) (hs0_2 (tOf jt (n + 1) hn1)) (ms0_3 (tOf jt (n + 1) hn1)) (hs0_3 (tOf jt (n + 1) hn1)) (ms0_4 (tOf jt (n + 1) hn1)) (hs0_4 (tOf jt (n + 1) hn1)) (ms0_5 (tOf jt (n + 1) hn1)) (hs0_5 (tOf jt (n + 1) hn1)) (iblk0 V c 0 (tOf jt (n + 1) hn1)) (iblk0 V c 1 (tOf jt (n + 1) hn1)) (iblk0 V c 2 (tOf jt (n + 1) hn1)) _ _ (fun h => h0 ((hcond0_0 (tOf jt (n + 1) hn1)).mp h))]
  refine (sumsq_at _ _ _ _ q).trans ?_
  rw [outsAt_congr V c (show (tOf jt (n + 1) hn1).val - 1 = (tOf jt n hn0).val by show jt.val * 32 + (n + 1) - 1 = jt.val * 32 + n; omega) _ (tOf jt n hn0).isLt]
  refine congrArg (_ + ·) (Finset.sum_congr rfl fun p _ => ?_)
  rw [yblk_row V c jt (n + 1) hn1 p q]

/-- After the last row tile the accumulator holds the whole column's sum. -/
theorem acc5_last (c : Dev nD) (jt : Fin 2) (q : Fin 1024) :
    acc5 V c jt q 31 = ∑ r : Fin 8192, yOf (V c (Pipeline.arrRef spec0 0)) (V c (Pipeline.arrRef spec0 1)) (V c (Pipeline.arrRef spec0 2)) (ix2 r (⟨jt.val * 1024 + q.val, by have := jt.isLt; have := q.isLt; omega⟩ : Fin 2048)) * yOf (V c (Pipeline.arrRef spec0 0)) (V c (Pipeline.arrRef spec0 1)) (V c (Pipeline.arrRef spec0 2)) (ix2 r (⟨jt.val * 1024 + q.val, by have := jt.isLt; have := q.isLt; omega⟩ : Fin 2048)) :=
  ChunkSum.fold_chunks hchunks (fun r => yOf (V c (Pipeline.arrRef spec0 0)) (V c (Pipeline.arrRef spec0 1)) (V c (Pipeline.arrRef spec0 2)) (ix2 r (⟨jt.val * 1024 + q.val, by have := jt.isLt; have := q.isLt; omega⟩ : Fin 2048)) * yOf (V c (Pipeline.arrRef spec0 0)) (V c (Pipeline.arrRef spec0 1)) (V c (Pipeline.arrRef spec0 2)) (ix2 r (⟨jt.val * 1024 + q.val, by have := jt.isLt; have := q.isLt; omega⟩ : Fin 2048))) (acc5 V c jt q) (acc5_zero V c jt q) (acc5_succ V c jt q)

theorem mem_blk5 (t : Fin cfg0.N) (i : S1x2048.Idx) :
    i ∈ ((cfg0.win 5).blk t).view.set ↔ ∀ a : Fin 2, win0_5.index t a * S1x1024.size a ≤ (i a).val
      ∧ (i a).val < win0_5.index t a * S1x1024.size a + S1x1024.size a := by
  show i ∈ ((View.whole main_v20_2).slice (win0_5.rect t)).set ↔ _
  rw [View.set_slice_whole, Rect.mem_set_unit]
  exact Iff.rfl

set_option maxHeartbeats 1000000 in
/-- WHAT A LAST ROW TILE WRITES BACK of accumulator 5 is its block of the whole array's column sums of squares. -/
theorem flushed5_eq (c : Dev nD) (t : Fin cfg0.N) (hf : (cfg0.win 5).flush t = true) :
    (dat0 V c).flushed 5 t = ((cfg0.win 5).blk t).view.read (Elt Ideal) (colSumSq (yOf (V c (Pipeline.arrRef spec0 0)) (V c (Pipeline.arrRef spec0 1)) (V c (Pipeline.arrRef spec0 2)))) := by
  have hN : cfg0.N = 64 := N_0
  have ht : t.val < 64 := lt_of_lt_of_eq t.isLt hN
  have h31 : t.val % 32 = 31 := (flush0_5 t).mp hf
  obtain ⟨e00, e01, e10, e11, e20, e21, e30, e31, e40, e41, e50, e51⟩ := idx_facts t
  have hjt : t.val / 32 < 2 := by omega
  have htt : t = tOf ⟨t.val / 32, hjt⟩ 31 (by omega) := Fin.ext (by show t.val = t.val / 32 * 32 + 31; omega)
  show (cfg0.win 5).cut (grid0.coords t) ((dat0 V c).after 5 t) = _
  rw [after0_5]
  funext j
  obtain ⟨z, q, rfl⟩ : ∃ (z : Fin 1) (q : Fin 1024), j = ix2 z q := ⟨j 0, j 1, eq_ix2 j⟩
  obtain rfl : z = 0 := Subsingleton.elim _ _
  show (outsAt0 V c t.val t.isLt).2.2 (ix2 (0 : Fin 1) q) = colSumSq (yOf (V c (Pipeline.arrRef spec0 0)) (V c (Pipeline.arrRef spec0 1)) (V c (Pipeline.arrRef spec0 2))) (((cfg0.win 5).blk t).view.emb (ix2 (0 : Fin 1) q))
  have hacc : (outsAt0 V c t.val t.isLt).2.2 (ix2 (0 : Fin 1) q) = acc5 V c ⟨t.val / 32, hjt⟩ q 31 := by
    unfold acc5
    rw [dif_pos (by omega : 31 < 32)]
    rw [outsAt_congr V c (congrArg Fin.val htt) t.isLt (tOf ⟨t.val / 32, hjt⟩ 31 (by omega)).isLt]
  rw [hacc, acc5_last]
  unfold colSumSq
  refine Finset.sum_congr rfl fun r _ => ?_
  have hcol : (⟨(⟨t.val / 32, hjt⟩ : Fin 2).val * 1024 + q.val, by have := q.isLt; omega⟩ : Fin 2048)
      = ⟨((((cfg0.win 5).blk t).view.emb (ix2 (0 : Fin 1) q)) 1).val, idx2_lt1 _⟩ := by
    apply Fin.ext
    show t.val / 32 * 1024 + q.val = win0_5.index t (1 : Fin 2) * 1024 + 1 * q.val
    omega
  rw [hcol]

/-- Every index of accumulator 5's array is in the block a last row tile writes back. -/
theorem cover5 (i : S1x2048.Idx) :
    ∃ t : Fin cfg0.N, (cfg0.win 5).flush t = true ∧ i ∈ ((cfg0.win 5).blk t).view.set := by
  have hi0 : (i 0).val < 1 := (i 0).isLt
  have hi1 : (i 1).val < 2048 := (i 1).isLt
  have hN : cfg0.N = 64 := N_0
  have hlt : (i 1).val / 1024 * 32 + 31 < cfg0.N := by rw [hN]; omega
  refine ⟨⟨(i 1).val / 1024 * 32 + 31, hlt⟩, (flush0_5 _).mpr (by show ((i 1).val / 1024 * 32 + 31) % 32 = 31; omega), ?_⟩
  rw [mem_blk5]
  obtain ⟨e00, e01, e10, e11, e20, e21, e30, e31, e40, e41, e50, e51⟩ := idx_facts ⟨(i 1).val / 1024 * 32 + 31, hlt⟩
  intro a
  match a with
  | ⟨0, _⟩ =>
    show win0_5.index _ (0 : Fin 2) * 1 ≤ (i 0).val ∧ (i 0).val < win0_5.index _ (0 : Fin 2) * 1 + 1
    rw [e50]; omega
  | ⟨1, _⟩ =>
    show win0_5.index _ (1 : Fin 2) * 1024 ≤ (i 1).val ∧ (i 1).val < win0_5.index _ (1 : Fin 2) * 1024 + 1024
    rw [e51]; show ((i 1).val / 1024 * 32 + 31) / 32 * 1024 ≤ (i 1).val ∧ (i 1).val < ((i 1).val / 1024 * 32 + 31) / 32 * 1024 + 1024; omega

/-- ACCUMULATOR 5'S ARRAY after the region: the column sums of squares of `y`. -/
theorem final5 (c : Dev nD) : (dat0 V c).arrAt 5 cfg0.N = colSumSq (yOf (V c (Pipeline.arrRef spec0 0)) (V c (Pipeline.arrRef spec0 1)) (V c (Pipeline.arrRef spec0 2))) :=
  (dat0 V c).arrAt_eq_of_cover 5 _ (fun t hf => flushed5_eq V c t hf) (cover5)

end Cert.KernelIdeal.Stats0

end
-- ==== Proof.StatsPieces2.lean ====
/-
  Region 2 of the idealized kernel: what one run of the matmul-and-column-statistics body leaves in its three output
  blocks, as pure functions of the blocks it loads.

  At a point whose row-tile coordinate is 0 the body first stores zeros into the two accumulator blocks; at every point
  it then adds the block's column sums (of `y = x · w + b` and of `y · y`) onto what the accumulators hold and stores
  `y`. So the `y` block ends at the body's product-plus-bias term; the accumulators end at `0-row + column sums` at a
  first point and at `previous contents + column sums` at any other.
-/
import proofs.«152490_j70686571758165_2_alg».proof.Proof.Gen.KernelIdeal.Frame
import Idealize.ShloMosaic.Lib.Pipeline.Value

set_option maxRecDepth 16384

noncomputable section

namespace Cert.KernelIdeal.Stats2

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

section Pieces

variable (c : Dev nD) (i : grid2.Coords) (arg2 : Memref sig .tc .vmem S512x2048 .bf16) (harg2 : arg2.IsWhole)
  (arg3 : Memref sig .tc .vmem S2048x1024 .bf16) (harg3 : arg3.IsWhole)
  (arg4 : Memref sig .tc .vmem S1x1024 .f32) (harg4 : arg4.IsWhole)
  (arg5 : Memref sig .tc .vmem S512x1024 .bf16) (harg5 : arg5.IsWhole)
  (arg6 : Memref sig .tc .vmem S1x1024 .f32) (harg6 : arg6.IsWhole)
  (arg7 : Memref sig .tc .vmem S1x1024 .f32) (harg7 : arg7.IsWhole)
  (x0 : Vec F S512x2048 .bf16) (x1 : Vec F S2048x1024 .bf16) (x2 : Vec F S1x1024 .f32)

set_option maxHeartbeats 1000000 in
/-- First point of a column tile: the `y` block. -/
theorem first_y (hc0 : cond2_0 i) :
    out2_A_3 c i arg2 harg2 arg3 harg3 arg4 harg4 arg5 harg5 arg6 harg6 arg7 harg7 hc0 x0 x1 x2 = k2_pay6 x0 x1 x2 := by
  unfold out2_A_3
  rw [View.read_writes_eq_canon _ _ _ (cover2_A_3 c i arg2 harg2 arg3 harg3 arg4 harg4 arg5 harg5 arg6 harg6 arg7 harg7 hc0 x0 x1 x2)]
  unfold kernelRun2_A
  dsimp only
  sl_unfold_words
  rw [View.canon_unit_zero hz]
  simp only [View.readAt_eq_ld, harg2.read_unread, harg3.read_unread, harg4.read_unread,
    View.ld_unit_zero (S := S512x2048) hz, View.ld_unit_zero (S := S2048x1024) hz, View.ld_unit_zero (S := S1x1024) hz]

set_option maxHeartbeats 1000000 in
/-- First point of a column tile: the running column sums start from the zero row. -/
theorem first_sum (hc0 : cond2_0 i) :
    out2_A_4 c i arg2 harg2 arg3 harg3 arg4 harg4 arg5 harg5 arg6 harg6 arg7 harg7 hc0 x0 x1 x2 = k2_pay4 x0 x1 x2 k2_pay2 := by
  unfold out2_A_4
  rw [View.read_writes_eq_canon _ _ _ (cover2_A_4 c i arg2 harg2 arg3 harg3 arg4 harg4 arg5 harg5 arg6 harg6 arg7 harg7 hc0 x0 x1 x2)]
  unfold kernelRun2_A
  dsimp only
  sl_unfold_words
  rw [View.canon_cons_unit_zero hz]
  simp only [View.readAt_eq_ld, harg2.read_unread, harg3.read_unread, harg4.read_unread,
    View.ld_unit_zero (S := S512x2048) hz, View.ld_unit_zero (S := S2048x1024) hz, View.ld_unit_zero (S := S1x1024) hz]
  rw [View.readCov_unit_zero _ hz]

set_option maxHeartbeats 1000000 in
/-- First point of a column tile: the running column sums of squares start from the zero row. -/
theorem first_sumsq (hc0 : cond2_0 i) :
    out2_A_5 c i arg2 harg2 arg3 harg3 arg4 harg4 arg5 harg5 arg6 harg6 arg7 harg7 hc0 x0 x1 x2 = k2_pay5 x0 x1 x2 k2_pay3 := by
  unfold out2_A_5
  rw [View.read_writes_eq_canon _ _ _ (cover2_A_5 c i arg2 harg2 arg3 harg3 arg4 harg4 arg5 harg5 arg6 harg6 arg7 harg7 hc0 x0 x1 x2)]
  unfold kernelRun2_A
  dsimp only
  sl_unfold_words
  rw [View.canon_cons_unit_zero hz]
  simp only [View.readAt_eq_ld, harg2.read_unread, harg3.read_unread, harg4.read_unread,
    View.ld_unit_zero (S := S512x2048) hz, View.ld_unit_zero (S := S2048x1024) hz, View.ld_unit_zero (S := S1x1024) hz]
  rw [View.readCov_unit_zero _ hz]

variable (x4 x5 : Vec F S1x1024 .f32)

set_option maxHeartbeats 1000000 in
/-- A later point: the `y` block. -/
theorem later_y (hc0 : ¬cond2_0 i) :
    out2_B_3 c i arg2 harg2 arg3 harg3 arg4 harg4 arg5 harg5 arg6 harg6 arg7 harg7 hc0 x0 x1 x2 x4 x5 = k2_pay6 x0 x1 x2 := by
  unfold out2_B_3
  rw [View.read_writes_eq_canon _ _ _ (cover2_B_3 c i arg2 harg2 arg3 harg3 arg4 harg4 arg5 harg5 arg6 harg6 arg7 harg7 hc0 x0 x1 x2 x4 x5)]
  unfold kernelRun2_B
  dsimp only
  sl_unfold_words
  rw [View.canon_unit_zero hz]
  simp only [View.readAt_eq_ld, harg2.read_unread, harg3.read_unread, harg4.read_unread,
    View.ld_unit_zero (S := S512x2048) hz, View.ld_unit_zero (S := S2048x1024) hz, View.ld_unit_zero (S := S1x1024) hz]

set_option maxHeartbeats 1000000 in
/-- A later point: the column sums are added onto what the accumulator held. -/
theorem later_sum (hc0 : ¬cond2_0 i) :
    out2_B_4 c i arg2 harg2 arg3 harg3 arg4 harg4 arg5 harg5 arg6 harg6 arg7 harg7 hc0 x0 x1 x2 x4 x5 = k2_pay4 x0 x1 x2 x4 := by
  unfold out2_B_4
  rw [View.read_writes_eq_canon _ _ _ (cover2_B_4 c i arg2 harg2 arg3 harg3 arg4 harg4 arg5 harg5 arg6 harg6 arg7 harg7 hc0 x0 x1 x2 x4 x5)]
  unfold kernelRun2_B
  dsimp only
  sl_unfold_words
  rw [View.canon_unit_zero hz]
  simp only [View.readAt_eq_ld, harg2.read_unread, harg3.read_unread, harg4.read_unread, harg6.read_unread,
    View.ld_unit_zero (S := S512x2048) hz, View.ld_unit_zero (S := S2048x1024) hz, View.ld_unit_zero (S := S1x1024) hz]

set_option maxHeartbeats 1000000 in
/-- A later point: the column sums of squares are added onto what the accumulator held. -/
theorem later_sumsq (hc0 : ¬cond2_0 i) :
    out2_B_5 c i arg2 harg2 arg3 harg3 arg4 harg4 arg5 harg5 arg6 harg6 arg7 harg7 hc0 x0 x1 x2 x4 x5 = k2_pay5 x0 x1 x2 x5 := by
  unfold out2_B_5
  rw [View.read_writes_eq_canon _ _ _ (cover2_B_5 c i arg2 harg2 arg3 harg3 arg4 harg4 arg5 harg5 arg6 harg6 arg7 harg7 hc0 x0 x1 x2 x4 x5)]
  unfold kernelRun2_B
  dsimp only
  sl_unfold_words
  rw [View.canon_unit_zero hz]
  simp only [View.readAt_eq_ld, harg2.read_unread, harg3.read_unread, harg4.read_unread, harg7.read_unread,
    View.ld_unit_zero (S := S512x2048) hz, View.ld_unit_zero (S := S2048x1024) hz, View.ld_unit_zero (S := S1x1024) hz]

end Pieces

end Cert.KernelIdeal.Stats2

end
-- ==== Proof.StatsAt2.lean ====
/-
  Region 2 of the idealized kernel (a matrix product plus bias, with running column sums): the body's three stored
  values read at an index, and the blocks of a grid point read off the whole arrays.

  Grid point `t` is column tile `t / 16` (1024 columns) and row tile `t % 16` (512 rows). Its `y` block is the product
  of the row tile of `x` (all 2048 columns) with the column tile of `w`, plus the bias row's tile: entry `(p, q)` is
  `∑ k, x (row, k) · w (k, col) + b (0, col)` at the array's row `512 · (t % 16) + p` and column `1024 · (t / 16) + q`.
  Its column sums are `∑ p` of that over the tile's 512 rows (and of its squares), added onto what the accumulator holds.
-/
import proofs.«152490_j70686571758165_2_alg».proof.Proof.StatsPieces2
import proofs.«152490_j70686571758165_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stats2

open Idealize.ShloMosaic Idealize.ShloMosaic.TcCoe Idealize.SL.Sem Idealize.ShloMosaic.ValueIdx
open Cert.KernelIdeal Cert.KernelIdeal.Gen Cert.Dense

/-- The bias row's index under an entry of the `y` array: row 0, the entry's column. -/
abbrev under (i : S8192x2048.Idx) : S1x2048.Idx := ix2 (0 : Fin 1) (⟨(i 1).val, idx2_lt1 i⟩ : Fin 2048)

/-- `y = x · w + b` on the whole arrays, index by index. -/
def yOf (x : S8192x2048.Idx → EReal) (w : S2048x2048.Idx → EReal) (b : S1x2048.Idx → EReal) : S8192x2048.Idx → EReal :=
  fun i => rowsTimes x w i + b (under i)

/-- The column sums of `y`, as a 1×2048 row. -/
def colSum (y : S8192x2048.Idx → EReal) : S1x2048.Idx → EReal :=
  fun i => ∑ r : Fin 8192, y (ix2 r (⟨(i 1).val, idx2_lt1 i⟩ : Fin 2048))

/-- The column sums of `y · y`, as a 1×2048 row. -/
def colSumSq (y : S8192x2048.Idx → EReal) : S1x2048.Idx → EReal :=
  fun i => ∑ r : Fin 8192, y (ix2 r (⟨(i 1).val, idx2_lt1 i⟩ : Fin 2048)) * y (ix2 r (⟨(i 1).val, idx2_lt1 i⟩ : Fin 2048))

/-! ## The body's values at an index -/

/-- The product-plus-bias block at `(p, q)` (the operands' float formats do not matter on the extended reals). -/
theorem y_at (x0 : FVec Ideal S512x2048 .bf16) (x1 : FVec Ideal S2048x1024 .bf16) (x2 : FVec Ideal S1x1024 .f32)
    (p : Fin 512) (q : Fin 1024) :
    k2_pay1 (F := Ideal) x0 x1 x2 (ix2 p q) = rowsTimes x0 x1 (ix2 p q) + x2 (ix2 (0 : Fin 1) q) := by
  unfold k2_pay1
  simp only [shapeCast_self]
  rw [addf_apply, broadcastTo_1b_ab_apply]
  refine congrArg (· + x2 (ix2 (0 : Fin 1) q)) ?_
  exact congrFun (matmul_zero_of_plain dot_S512x2048_S2048x1024_S512x1024_1_0_0_1_n_n rfl none _ x1) (ix2 p q)

/-- A sum over the rows of a two-axis block, read at column `q`. -/
theorem rowsSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) := by
  refine (Ideal.multiReduction_add_single src 0x00000000#32 h hφ hacc (ix1 q)).trans ?_
  refine Finset.sum_congr rfl fun p _ => congrArg src ?_
  funext cc; apply Fin.ext
  match cc with
  | ⟨0, _⟩ => rfl
  | ⟨1, _⟩ => rfl

/-- The running column sums after the body: what the accumulator held plus the block's column sums. -/
theorem sum_at (x0 : FVec Ideal S512x2048 .bf16) (x1 : FVec Ideal S2048x1024 .bf16) (x2 : FVec Ideal S1x1024 .f32)
    (v : FVec Ideal S1x1024 .f32) (q : Fin 1024) :
    k2_pay4 (F := Ideal) x0 x1 x2 v (ix2 (0 : Fin 1) q)
      = v (ix2 (0 : Fin 1) q) + ∑ p : Fin 512, k2_pay1 (F := Ideal) x0 x1 x2 (ix2 p q) := by
  unfold k2_pay4
  simp only [shapeCast_self]
  rw [addf_apply, shapeCast_a_1a_apply]
  exact congrArg (v (ix2 (0 : Fin 1) q) + ·) (rowsSum_apply _ _ _ _ q)

/-- The running column sums of squares after the body. -/
theorem sumsq_at (x0 : FVec Ideal S512x2048 .bf16) (x1 : FVec Ideal S2048x1024 .bf16) (x2 : FVec Ideal S1x1024 .f32)
    (v : FVec Ideal S1x1024 .f32) (q : Fin 1024) :
    k2_pay5 (F := Ideal) x0 x1 x2 v (ix2 (0 : Fin 1) q)
      = v (ix2 (0 : Fin 1) q) + ∑ p : Fin 512, k2_pay1 (F := Ideal) x0 x1 x2 (ix2 p q) * k2_pay1 (F := Ideal) x0 x1 x2 (ix2 p q) := by
  unfold k2_pay5
  simp only [shapeCast_self]
  rw [addf_apply, shapeCast_a_1a_apply]
  refine congrArg (v (ix2 (0 : Fin 1) q) + ·) ((rowsSum_apply _ _ _ _ q).trans ?_)
  rfl

/-- The zero rows the accumulators start from are the extended real 0. -/
theorem zero_row_sum (q : Fin 1024) : k2_pay2 (F := Ideal) (ix2 (0 : Fin 1) q) = 0 := by
  unfold k2_pay2; exact Ideal.ofBits_zero_f32
theorem zero_row_sumsq (q : Fin 1024) : k2_pay3 (F := Ideal) (ix2 (0 : Fin 1) q) = 0 := by
  unfold k2_pay3; exact Ideal.ofBits_zero_f32

end Cert.KernelIdeal.Stats2

end
-- ==== Proof.StatsValue2.lean ====
/-
  Region 2 of the idealized kernel: its three output arrays after the region, as functions of the arrays it finds.

  The `y` array is written one block per grid point and the blocks tile it, so it ends at `x · w + b`. An accumulator's
  block for column tile `jt` stays in its staging buffer over the 16 row tiles of that column tile: the first one
  starts it from the zero row, each adds its 512 rows' column sums, and only the last one writes it back — by then it
  is the sum over all 16 · 512 = 8192 rows. So the two accumulator arrays end at the column sums of `y` and of `y · y`.
-/
import proofs.«152490_j70686571758165_2_alg».proof.Proof.StatsAt2
import proofs.«152490_j70686571758165_2_alg».proof.Proof.LibChunkFold

set_option maxRecDepth 16384

noncomputable section

namespace Cert.KernelIdeal.Stats2

open Idealize.ShloMosaic Idealize.ShloMosaic.TcCoe Idealize.SL.Sem Idealize.ShloMosaic.ValueIdx
open Idealize.ShloMosaic.Pipeline (Dat)
open Cert.KernelIdeal Cert.KernelIdeal.Gen Cert.Dense

variable (V : (c : Dev nD) → (b : Ref sig .tc) → Buf (Elt Ideal) ((c : Thread nD τ).loc b))

/-- The printed index maps over the grid: row tile `t % 16`, column tile `t / 16`. -/
theorem idx_facts : ∀ t : Fin cfg2.N,
    win2_0.index t (0 : Fin 2) = t.val % 16 ∧ win2_0.index t (1 : Fin 2) = 0
    ∧ win2_1.index t (0 : Fin 2) = 0 ∧ win2_1.index t (1 : Fin 2) = t.val / 16
    ∧ win2_2.index t (0 : Fin 2) = 0 ∧ win2_2.index t (1 : Fin 2) = t.val / 16
    ∧ win2_3.index t (0 : Fin 2) = t.val % 16 ∧ win2_3.index t (1 : Fin 2) = t.val / 16
    ∧ win2_4.index t (0 : Fin 2) = 0 ∧ win2_4.index t (1 : Fin 2) = t.val / 16
    ∧ win2_5.index t (0 : Fin 2) = 0 ∧ win2_5.index t (1 : Fin 2) = t.val / 16 :=
  (by decide +kernel : ∀ t : Fin grid2.N, _)

set_option maxHeartbeats 1000000 in
/-- The body's product-plus-bias block at point `t`, entry `(p, q)`, is `y` of the whole arrays at the entry's place. -/
theorem yblk_eq (c : Dev nD) (t : Fin cfg2.N) (p : Fin 512) (q : Fin 1024) :
    k2_pay1 (F := Ideal) (iblk2 V c 0 t) (iblk2 V c 1 t) (iblk2 V c 2 t) (ix2 p q)
      = yOf (V c (Pipeline.arrRef spec2 0)) (V c (Pipeline.arrRef spec2 1)) (V c (Pipeline.arrRef spec2 2)) (((cfg2.win 3).blk t).view.emb (ix2 p q)) := by
  obtain ⟨e00, e01, e10, e11, e20, e21, e30, e31, e40, e41, e50, e51⟩ := idx_facts t
  refine (y_at (iblk2 V c 0 t) (iblk2 V c 1 t) (iblk2 V c 2 t) p q).trans ?_
  unfold yOf
  have hp : p.val < 512 := p.isLt
  have hq : q.val < 1024 := q.isLt
  have hrt : rowsTimes (iblk2 V c 0 t) (iblk2 V c 1 t) (ix2 p q)
      = rowsTimes (V c (Pipeline.arrRef spec2 0)) (V c (Pipeline.arrRef spec2 1)) (((cfg2.win 3).blk t).view.emb (ix2 p q)) := by
    refine rowsTimes_of_rows _ _ _ _ _ _ (fun kk => ?_) (fun kk => ?_)
    · show V c (Pipeline.arrRef spec2 0) (((cfg2.win 0).blk t).view.emb (ix2 p kk)) = _
      refine congrArg (V c (Pipeline.arrRef spec2 0)) ?_
      funext a; apply Fin.ext
      match a with
      | ⟨0, _⟩ => show win2_0.index t (0 : Fin 2) * 512 + 1 * p.val = win2_3.index t (0 : Fin 2) * 512 + 1 * p.val; omega
      | ⟨1, _⟩ => show win2_0.index t (1 : Fin 2) * 2048 + 1 * kk.val = kk.val; omega
    · show V c (Pipeline.arrRef spec2 1) (((cfg2.win 1).blk t).view.emb (ix2 kk q)) = _
      refine congrArg (V c (Pipeline.arrRef spec2 1)) ?_
      funext a; apply Fin.ext
      match a with
      | ⟨0, _⟩ => show win2_1.index t (0 : Fin 2) * 2048 + 1 * kk.val = kk.val; omega
      | ⟨1, _⟩ => show win2_1.index t (1 : Fin 2) * 1024 + 1 * q.val = win2_3.index t (1 : Fin 2) * 1024 + 1 * q.val; omega
  have hb : iblk2 V c 2 t (ix2 (0 : Fin 1) q)
      = V c (Pipeline.arrRef spec2 2) (under (((cfg2.win 3).blk t).view.emb (ix2 p q))) := by
    show V c (Pipeline.arrRef spec2 2) (((cfg2.win 2).blk t).view.emb (ix2 (0 : Fin 1) q)) = _
    refine congrArg (V c (Pipeline.arrRef spec2 2)) ?_
    funext a; apply Fin.ext
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega
  rw [hrt, hb]

/-! ## The `y` array -/

theorem mem_blk3 (t : Fin cfg2.N) (i : S8192x2048.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v41_0).slice (win2_3.rect t)).set ↔ _
  rw [View.set_slice_whole, Rect.mem_set_unit]
  exact Iff.rfl

set_option maxHeartbeats 1000000 in
/-- WHAT POINT `t` WRITES BACK of `y` is block `t` of `x · w + b` (a change of float format is the identity). -/
theorem flushed3_eq (c : Dev nD) (t : Fin cfg2.N) :
    (dat2 V c).flushed 3 t = ((cfg2.win 3).blk t).view.read (Elt Ideal) (yOf (V c (Pipeline.arrRef spec2 0)) (V c (Pipeline.arrRef spec2 1)) (V c (Pipeline.arrRef spec2 2))) := by
  show (cfg2.win 3).cut (grid2.coords t) ((dat2 V c).after 3 t) = _
  rw [after2_3]
  funext j
  obtain ⟨p, q, rfl⟩ : ∃ (p : Fin 512) (q : Fin 1024), j = ix2 p q := ⟨j 0, j 1, eq_ix2 j⟩
  show (outsAt2 V c t.val t.isLt).1 (ix2 p q) = yOf (V c (Pipeline.arrRef spec2 0)) (V c (Pipeline.arrRef spec2 1)) (V c (Pipeline.arrRef spec2 2)) (((cfg2.win 3).blk t).view.emb (ix2 p q))
  by_cases h0 : t.val % 16 = 0
  · rw [outsAt2_A V c t h0]
    dsimp only
    rw [first_y c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) ((hcond2_0 t).mpr h0)]
    exact yblk_eq V c t p q
  · rw [outsAt2_B V c t h0]
    dsimp only
    rw [later_y c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) _ _ (fun h => h0 ((hcond2_0 t).mp h))]
    exact yblk_eq V c t p q

/-- Every index of `y` is in some point's block. -/
theorem cover3 (i : S8192x2048.Idx) :
    ∃ t : Fin cfg2.N, (cfg2.win 3).flush t = true ∧ i ∈ ((cfg2.win 3).blk t).view.set := by
  have hi0 : (i 0).val < 8192 := (i 0).isLt
  have hi1 : (i 1).val < 2048 := (i 1).isLt
  have hN : cfg2.N = 32 := N_2
  have hlt : (i 1).val / 1024 * 16 + (i 0).val / 512 < cfg2.N := by rw [hN]; omega
  refine ⟨⟨(i 1).val / 1024 * 16 + (i 0).val / 512, hlt⟩, flush2_3 _, ?_⟩
  rw [mem_blk3]
  obtain ⟨e00, e01, e10, e11, e20, e21, e30, e31, e40, e41, e50, e51⟩ := idx_facts ⟨(i 1).val / 1024 * 16 + (i 0).val / 512, hlt⟩
  intro a
  match a with
  | ⟨0, _⟩ =>
    show win2_3.index _ (0 : Fin 2) * 512 ≤ (i 0).val ∧ (i 0).val < win2_3.index _ (0 : Fin 2) * 512 + 512
    rw [e30]; show ((i 1).val / 1024 * 16 + (i 0).val / 512) % 16 * 512 ≤ (i 0).val ∧ (i 0).val < ((i 1).val / 1024 * 16 + (i 0).val / 512) % 16 * 512 + 512; omega
  | ⟨1, _⟩ =>
    show win2_3.index _ (1 : Fin 2) * 1024 ≤ (i 1).val ∧ (i 1).val < win2_3.index _ (1 : Fin 2) * 1024 + 1024
    rw [e31]; show ((i 1).val / 1024 * 16 + (i 0).val / 512) / 16 * 1024 ≤ (i 1).val ∧ (i 1).val < ((i 1).val / 1024 * 16 + (i 0).val / 512) / 16 * 1024 + 1024; omega

/-- THE `y` ARRAY after the region. -/
theorem final3 (c : Dev nD) : (dat2 V c).arrAt 3 cfg2.N = yOf (V c (Pipeline.arrRef spec2 0)) (V c (Pipeline.arrRef spec2 1)) (V c (Pipeline.arrRef spec2 2)) :=
  (dat2 V c).arrAt_eq_of_cover 3 _ (fun t _ => flushed3_eq V c t) (cover3)

/-! ## The accumulators: one column tile's 16 row tiles -/

/-- Row tile `n` of column tile `jt`, as a grid point. -/
def tOf (jt : Fin 2) (n : ℕ) (h : n < 16) : Fin cfg2.N :=
  ⟨jt.val * 16 + n, by have := jt.isLt; rw [show cfg2.N = 32 from N_2]; omega⟩

theorem hchunks : (15 + 1) * 512 = 8192 := by norm_num

/-- The accumulation's value depends on the point's number only. -/
theorem outsAt_congr (c : Dev nD) {a b : ℕ} (e : a = b) (ha : a < cfg2.N) (hb : b < cfg2.N) :
    outsAt2 V c a ha = outsAt2 V c b hb := by subst e; rfl

/-- The output block's entry `(p, q)` at row tile `n` of column tile `jt` is the array's row `n · 512 + p`, column
    `jt · 1024 + q`. -/
theorem emb_y (c : Dev nD) (jt : Fin 2) (n : ℕ) (h : n < 16) (p : Fin 512) (q : Fin 1024) :
    ((cfg2.win 3).blk (tOf jt n h)).view.emb (ix2 p q)
      = ix2 (ChunkSum.at_ hchunks ⟨n, h⟩ p) (⟨jt.val * 1024 + q.val, by have := jt.isLt; have := q.isLt; omega⟩ : Fin 2048) := by
  obtain ⟨e00, e01, e10, e11, e20, e21, e30, e31, e40, e41, e50, e51⟩ := idx_facts (tOf jt n h)
  have hj : jt.val < 2 := jt.isLt
  have hv : (tOf jt n h).val = jt.val * 16 + n := rfl
  funext a; apply Fin.ext
  match a with
  | ⟨0, _⟩ => show win2_3.index (tOf jt n h) (0 : Fin 2) * 512 + 1 * p.val = n * 512 + p.val; rw [e30, hv]; omega
  | ⟨1, _⟩ => show win2_3.index (tOf jt n h) (1 : Fin 2) * 1024 + 1 * q.val = jt.val * 1024 + q.val; rw [e31, hv]; omega

/-- The body's product-plus-bias block at row tile `n` of column tile `jt`, entry `(p, q)`: `y` at the array's row
    `n · 512 + p` and column `jt · 1024 + q`. -/
theorem yblk_row (c : Dev nD) (jt : Fin 2) (n : ℕ) (h : n < 16) (p : Fin 512) (q : Fin 1024) :
    k2_pay1 (F := Ideal) (iblk2 V c 0 (tOf jt n h)) (iblk2 V c 1 (tOf jt n h)) (iblk2 V c 2 (tOf jt n h)) (ix2 p q)
      = yOf (V c (Pipeline.arrRef spec2 0)) (V c (Pipeline.arrRef spec2 1)) (V c (Pipeline.arrRef spec2 2)) (ix2 (ChunkSum.at_ hchunks ⟨n, h⟩ p)
          (⟨jt.val * 1024 + q.val, by have := jt.isLt; have := q.isLt; omega⟩ : Fin 2048)) :=
  (yblk_eq V c (tOf jt n h) p q).trans (congrArg (yOf (V c (Pipeline.arrRef spec2 0)) (V c (Pipeline.arrRef spec2 1)) (V c (Pipeline.arrRef spec2 2))) (emb_y c jt n h p q))

/-! ## The running column sums -/

/-- What accumulator 4's block holds at column `q` after row tile `n` of column tile `jt`. -/
def acc4 (c : Dev nD) (jt : Fin 2) (q : Fin 1024) (n : ℕ) : EReal :=
  if h : n < 16 then (outsAt2 V c (tOf jt n h).val (tOf jt n h).isLt).2.1 (ix2 (0 : Fin 1) q) else 0

set_option maxHeartbeats 1000000 in
theorem acc4_zero (c : Dev nD) (jt : Fin 2) (q : Fin 1024) :
    acc4 V c jt q 0 = 0 + ∑ p : Fin 512, yOf (V c (Pipeline.arrRef spec2 0)) (V c (Pipeline.arrRef spec2 1)) (V c (Pipeline.arrRef spec2 2)) (ix2 (ChunkSum.at_ hchunks ⟨0, Nat.succ_pos 15⟩ p) (⟨jt.val * 1024 + q.val, by have := jt.isLt; have := q.isLt; omega⟩ : Fin 2048)) := by
  unfold acc4
  rw [dif_pos (by omega : 0 < 16)]
  have h0 : (tOf jt 0 (by omega)).val % 16 = 0 := by show (jt.val * 16 + 0) % 16 = 0; omega
  rw [outsAt2_A V c (tOf jt 0 (by omega)) h0]
  dsimp only
  rw [first_sum c (grid2.coords (tOf jt 0 (by omega))) (ms2_0 (tOf jt 0 (by omega))) (hs2_0 (tOf jt 0 (by omega))) (ms2_1 (tOf jt 0 (by omega))) (hs2_1 (tOf jt 0 (by omega))) (ms2_2 (tOf jt 0 (by omega))) (hs2_2 (tOf jt 0 (by omega))) (ms2_3 (tOf jt 0 (by omega))) (hs2_3 (tOf jt 0 (by omega))) (ms2_4 (tOf jt 0 (by omega))) (hs2_4 (tOf jt 0 (by omega))) (ms2_5 (tOf jt 0 (by omega))) (hs2_5 (tOf jt 0 (by omega))) (iblk2 V c 0 (tOf jt 0 (by omega))) (iblk2 V c 1 (tOf jt 0 (by omega))) (iblk2 V c 2 (tOf jt 0 (by omega))) ((hcond2_0 (tOf jt 0 (by omega))).mpr h0)]
  refine (sum_at _ _ _ _ q).trans ?_
  rw [zero_row_sum]
  refine congrArg (0 + ·) (Finset.sum_congr rfl fun p _ => ?_)
  rw [yblk_row V c jt 0 (by omega) p q]

set_option maxHeartbeats 1000000 in
theorem acc4_succ (c : Dev nD) (jt : Fin 2) (q : Fin 1024) (n : ℕ) (hn : n + 1 < 15 + 1) :
    acc4 V c jt q (n + 1) = acc4 V c jt q n + ∑ p : Fin 512, yOf (V c (Pipeline.arrRef spec2 0)) (V c (Pipeline.arrRef spec2 1)) (V c (Pipeline.arrRef spec2 2)) (ix2 (ChunkSum.at_ hchunks ⟨n + 1, hn⟩ p) (⟨jt.val * 1024 + q.val, by have := jt.isLt; have := q.isLt; omega⟩ : Fin 2048)) := by
  have hn1 : n + 1 < 16 := hn
  have hn0 : n < 16 := by omega
  unfold acc4
  rw [dif_pos hn1, dif_pos hn0]
  have h0 : ¬(tOf jt (n + 1) hn1).val % 16 = 0 := by show ¬(jt.val * 16 + (n + 1)) % 16 = 0; omega
  rw [outsAt2_B V c (tOf jt (n + 1) hn1) h0]
  dsimp only
  rw [later_sum c (grid2.coords (tOf jt (n + 1) hn1)) (ms2_0 (tOf jt (n + 1) hn1)) (hs2_0 (tOf jt (n + 1) hn1)) (ms2_1 (tOf jt (n + 1) hn1)) (hs2_1 (tOf jt (n + 1) hn1)) (ms2_2 (tOf jt (n + 1) hn1)) (hs2_2 (tOf jt (n + 1) hn1)) (ms2_3 (tOf jt (n + 1) hn1)) (hs2_3 (tOf jt (n + 1) hn1)) (ms2_4 (tOf jt (n + 1) hn1)) (hs2_4 (tOf jt (n + 1) hn1)) (ms2_5 (tOf jt (n + 1) hn1)) (hs2_5 (tOf jt (n + 1) hn1)) (iblk2 V c 0 (tOf jt (n + 1) hn1)) (iblk2 V c 1 (tOf jt (n + 1) hn1)) (iblk2 V c 2 (tOf jt (n + 1) hn1)) _ _ (fun h => h0 ((hcond2_0 (tOf jt (n + 1) hn1)).mp h))]
  refine (sum_at _ _ _ _ q).trans ?_
  rw [outsAt_congr V c (show (tOf jt (n + 1) hn1).val - 1 = (tOf jt n hn0).val by show jt.val * 16 + (n + 1) - 1 = jt.val * 16 + n; omega) _ (tOf jt n hn0).isLt]
  refine congrArg (_ + ·) (Finset.sum_congr rfl fun p _ => ?_)
  rw [yblk_row V c jt (n + 1) hn1 p q]

/-- After the last row tile the accumulator holds the whole column's sum. -/
theorem acc4_last (c : Dev nD) (jt : Fin 2) (q : Fin 1024) :
    acc4 V c jt q 15 = ∑ r : Fin 8192, yOf (V c (Pipeline.arrRef spec2 0)) (V c (Pipeline.arrRef spec2 1)) (V c (Pipeline.arrRef spec2 2)) (ix2 r (⟨jt.val * 1024 + q.val, by have := jt.isLt; have := q.isLt; omega⟩ : Fin 2048)) :=
  ChunkSum.fold_chunks hchunks (fun r => yOf (V c (Pipeline.arrRef spec2 0)) (V c (Pipeline.arrRef spec2 1)) (V c (Pipeline.arrRef spec2 2)) (ix2 r (⟨jt.val * 1024 + q.val, by have := jt.isLt; have := q.isLt; omega⟩ : Fin 2048))) (acc4 V c jt q) (acc4_zero V c jt q) (acc4_succ V c jt q)

theorem mem_blk4 (t : Fin cfg2.N) (i : S1x2048.Idx) :
    i ∈ ((cfg2.win 4).blk t).view.set ↔ ∀ a : Fin 2, win2_4.index t a * S1x1024.size a ≤ (i a).val
      ∧ (i a).val < win2_4.index t a * S1x1024.size a + S1x1024.size a := by
  show i ∈ ((View.whole main_v41_1).slice (win2_4.rect t)).set ↔ _
  rw [View.set_slice_whole, Rect.mem_set_unit]
  exact Iff.rfl

set_option maxHeartbeats 1000000 in
/-- WHAT A LAST ROW TILE WRITES BACK of accumulator 4 is its block of the whole array's column sums. -/
theorem flushed4_eq (c : Dev nD) (t : Fin cfg2.N) (hf : (cfg2.win 4).flush t = true) :
    (dat2 V c).flushed 4 t = ((cfg2.win 4).blk t).view.read (Elt Ideal) (colSum (yOf (V c (Pipeline.arrRef spec2 0)) (V c (Pipeline.arrRef spec2 1)) (V c (Pipeline.arrRef spec2 2)))) := by
  have hN : cfg2.N = 32 := N_2
  have ht : t.val < 32 := lt_of_lt_of_eq t.isLt hN
  have h31 : t.val % 16 = 15 := (flush2_4 t).mp hf
  obtain ⟨e00, e01, e10, e11, e20, e21, e30, e31, e40, e41, e50, e51⟩ := idx_facts t
  have hjt : t.val / 16 < 2 := by omega
  have htt : t = tOf ⟨t.val / 16, hjt⟩ 15 (by omega) := Fin.ext (by show t.val = t.val / 16 * 16 + 15; omega)
  show (cfg2.win 4).cut (grid2.coords t) ((dat2 V c).after 4 t) = _
  rw [after2_4]
  funext j
  obtain ⟨z, q, rfl⟩ : ∃ (z : Fin 1) (q : Fin 1024), j = ix2 z q := ⟨j 0, j 1, eq_ix2 j⟩
  obtain rfl : z = 0 := Subsingleton.elim _ _
  show (outsAt2 V c t.val t.isLt).2.1 (ix2 (0 : Fin 1) q) = colSum (yOf (V c (Pipeline.arrRef spec2 0)) (V c (Pipeline.arrRef spec2 1)) (V c (Pipeline.arrRef spec2 2))) (((cfg2.win 4).blk t).view.emb (ix2 (0 : Fin 1) q))
  have hacc : (outsAt2 V c t.val t.isLt).2.1 (ix2 (0 : Fin 1) q) = acc4 V c ⟨t.val / 16, hjt⟩ q 15 := by
    unfold acc4
    rw [dif_pos (by omega : 15 < 16)]
    rw [outsAt_congr V c (congrArg Fin.val htt) t.isLt (tOf ⟨t.val / 16, hjt⟩ 15 (by omega)).isLt]
  rw [hacc, acc4_last]
  unfold colSum
  refine Finset.sum_congr rfl fun r _ => ?_
  have hcol : (⟨(⟨t.val / 16, hjt⟩ : Fin 2).val * 1024 + q.val, by have := q.isLt; omega⟩ : Fin 2048)
      = ⟨((((cfg2.win 4).blk t).view.emb (ix2 (0 : Fin 1) q)) 1).val, idx2_lt1 _⟩ := by
    apply Fin.ext
    show t.val / 16 * 1024 + q.val = win2_4.index t (1 : Fin 2) * 1024 + 1 * q.val
    omega
  rw [hcol]

/-- Every index of accumulator 4's array is in the block a last row tile writes back. -/
theorem cover4 (i : S1x2048.Idx) :
    ∃ t : Fin cfg2.N, (cfg2.win 4).flush t = true ∧ i ∈ ((cfg2.win 4).blk t).view.set := by
  have hi0 : (i 0).val < 1 := (i 0).isLt
  have hi1 : (i 1).val < 2048 := (i 1).isLt
  have hN : cfg2.N = 32 := N_2
  have hlt : (i 1).val / 1024 * 16 + 15 < cfg2.N := by rw [hN]; omega
  refine ⟨⟨(i 1).val / 1024 * 16 + 15, hlt⟩, (flush2_4 _).mpr (by show ((i 1).val / 1024 * 16 + 15) % 16 = 15; omega), ?_⟩
  rw [mem_blk4]
  obtain ⟨e00, e01, e10, e11, e20, e21, e30, e31, e40, e41, e50, e51⟩ := idx_facts ⟨(i 1).val / 1024 * 16 + 15, hlt⟩
  intro a
  match a with
  | ⟨0, _⟩ =>
    show win2_4.index _ (0 : Fin 2) * 1 ≤ (i 0).val ∧ (i 0).val < win2_4.index _ (0 : Fin 2) * 1 + 1
    rw [e40]; omega
  | ⟨1, _⟩ =>
    show win2_4.index _ (1 : Fin 2) * 1024 ≤ (i 1).val ∧ (i 1).val < win2_4.index _ (1 : Fin 2) * 1024 + 1024
    rw [e41]; show ((i 1).val / 1024 * 16 + 15) / 16 * 1024 ≤ (i 1).val ∧ (i 1).val < ((i 1).val / 1024 * 16 + 15) / 16 * 1024 + 1024; omega

/-- ACCUMULATOR 4'S ARRAY after the region: the column sums of `y`. -/
theorem final4 (c : Dev nD) : (dat2 V c).arrAt 4 cfg2.N = colSum (yOf (V c (Pipeline.arrRef spec2 0)) (V c (Pipeline.arrRef spec2 1)) (V c (Pipeline.arrRef spec2 2))) :=
  (dat2 V c).arrAt_eq_of_cover 4 _ (fun t hf => flushed4_eq V c t hf) (cover4)

/-! ## The running column sums of squares -/

/-- What accumulator 5's block holds at column `q` after row tile `n` of column tile `jt`. -/
def acc5 (c : Dev nD) (jt : Fin 2) (q : Fin 1024) (n : ℕ) : EReal :=
  if h : n < 16 then (outsAt2 V c (tOf jt n h).val (tOf jt n h).isLt).2.2 (ix2 (0 : Fin 1) q) else 0

set_option maxHeartbeats 1000000 in
theorem acc5_zero (c : Dev nD) (jt : Fin 2) (q : Fin 1024) :
    acc5 V c jt q 0 = 0 + ∑ p : Fin 512, yOf (V c (Pipeline.arrRef spec2 0)) (V c (Pipeline.arrRef spec2 1)) (V c (Pipeline.arrRef spec2 2)) (ix2 (ChunkSum.at_ hchunks ⟨0, Nat.succ_pos 15⟩ p) (⟨jt.val * 1024 + q.val, by have := jt.isLt; have := q.isLt; omega⟩ : Fin 2048)) * yOf (V c (Pipeline.arrRef spec2 0)) (V c (Pipeline.arrRef spec2 1)) (V c (Pipeline.arrRef spec2 2)) (ix2 (ChunkSum.at_ hchunks ⟨0, Nat.succ_pos 15⟩ p) (⟨jt.val * 1024 + q.val, by have := jt.isLt; have := q.isLt; omega⟩ : Fin 2048)) := by
  unfold acc5
  rw [dif_pos (by omega : 0 < 16)]
  have h0 : (tOf jt 0 (by omega)).val % 16 = 0 := by show (jt.val * 16 + 0) % 16 = 0; omega
  rw [outsAt2_A V c (tOf jt 0 (by omega)) h0]
  dsimp only
  rw [first_sumsq c (grid2.coords (tOf jt 0 (by omega))) (ms2_0 (tOf jt 0 (by omega))) (hs2_0 (tOf jt 0 (by omega))) (ms2_1 (tOf jt 0 (by omega))) (hs2_1 (tOf jt 0 (by omega))) (ms2_2 (tOf jt 0 (by omega))) (hs2_2 (tOf jt 0 (by omega))) (ms2_3 (tOf jt 0 (by omega))) (hs2_3 (tOf jt 0 (by omega))) (ms2_4 (tOf jt 0 (by omega))) (hs2_4 (tOf jt 0 (by omega))) (ms2_5 (tOf jt 0 (by omega))) (hs2_5 (tOf jt 0 (by omega))) (iblk2 V c 0 (tOf jt 0 (by omega))) (iblk2 V c 1 (tOf jt 0 (by omega))) (iblk2 V c 2 (tOf jt 0 (by omega))) ((hcond2_0 (tOf jt 0 (by omega))).mpr h0)]
  refine (sumsq_at _ _ _ _ q).trans ?_
  rw [zero_row_sumsq]
  refine congrArg (0 + ·) (Finset.sum_congr rfl fun p _ => ?_)
  rw [yblk_row V c jt 0 (by omega) p q]

set_option maxHeartbeats 1000000 in
theorem acc5_succ (c : Dev nD) (jt : Fin 2) (q : Fin 1024) (n : ℕ) (hn : n + 1 < 15 + 1) :
    acc5 V c jt q (n + 1) = acc5 V c jt q n + ∑ p : Fin 512, yOf (V c (Pipeline.arrRef spec2 0)) (V c (Pipeline.arrRef spec2 1)) (V c (Pipeline.arrRef spec2 2)) (ix2 (ChunkSum.at_ hchunks ⟨n + 1, hn⟩ p) (⟨jt.val * 1024 + q.val, by have := jt.isLt; have := q.isLt; omega⟩ : Fin 2048)) * yOf (V c (Pipeline.arrRef spec2 0)) (V c (Pipeline.arrRef spec2 1)) (V c (Pipeline.arrRef spec2 2)) (ix2 (ChunkSum.at_ hchunks ⟨n + 1, hn⟩ p) (⟨jt.val * 1024 + q.val, by have := jt.isLt; have := q.isLt; omega⟩ : Fin 2048)) := by
  have hn1 : n + 1 < 16 := hn
  have hn0 : n < 16 := by omega
  unfold acc5
  rw [dif_pos hn1, dif_pos hn0]
  have h0 : ¬(tOf jt (n + 1) hn1).val % 16 = 0 := by show ¬(jt.val * 16 + (n + 1)) % 16 = 0; omega
  rw [outsAt2_B V c (tOf jt (n + 1) hn1) h0]
  dsimp only
  rw [later_sumsq c (grid2.coords (tOf jt (n + 1) hn1)) (ms2_0 (tOf jt (n + 1) hn1)) (hs2_0 (tOf jt (n + 1) hn1)) (ms2_1 (tOf jt (n + 1) hn1)) (hs2_1 (tOf jt (n + 1) hn1)) (ms2_2 (tOf jt (n + 1) hn1)) (hs2_2 (tOf jt (n + 1) hn1)) (ms2_3 (tOf jt (n + 1) hn1)) (hs2_3 (tOf jt (n + 1) hn1)) (ms2_4 (tOf jt (n + 1) hn1)) (hs2_4 (tOf jt (n + 1) hn1)) (ms2_5 (tOf jt (n + 1) hn1)) (hs2_5 (tOf jt (n + 1) hn1)) (iblk2 V c 0 (tOf jt (n + 1) hn1)) (iblk2 V c 1 (tOf jt (n + 1) hn1)) (iblk2 V c 2 (tOf jt (n + 1) hn1)) _ _ (fun h => h0 ((hcond2_0 (tOf jt (n + 1) hn1)).mp h))]
  refine (sumsq_at _ _ _ _ q).trans ?_
  rw [outsAt_congr V c (show (tOf jt (n + 1) hn1).val - 1 = (tOf jt n hn0).val by show jt.val * 16 + (n + 1) - 1 = jt.val * 16 + n; omega) _ (tOf jt n hn0).isLt]
  refine congrArg (_ + ·) (Finset.sum_congr rfl fun p _ => ?_)
  rw [yblk_row V c jt (n + 1) hn1 p q]

/-- After the last row tile the accumulator holds the whole column's sum. -/
theorem acc5_last (c : Dev nD) (jt : Fin 2) (q : Fin 1024) :
    acc5 V c jt q 15 = ∑ r : Fin 8192, yOf (V c (Pipeline.arrRef spec2 0)) (V c (Pipeline.arrRef spec2 1)) (V c (Pipeline.arrRef spec2 2)) (ix2 r (⟨jt.val * 1024 + q.val, by have := jt.isLt; have := q.isLt; omega⟩ : Fin 2048)) * yOf (V c (Pipeline.arrRef spec2 0)) (V c (Pipeline.arrRef spec2 1)) (V c (Pipeline.arrRef spec2 2)) (ix2 r (⟨jt.val * 1024 + q.val, by have := jt.isLt; have := q.isLt; omega⟩ : Fin 2048)) :=
  ChunkSum.fold_chunks hchunks (fun r => yOf (V c (Pipeline.arrRef spec2 0)) (V c (Pipeline.arrRef spec2 1)) (V c (Pipeline.arrRef spec2 2)) (ix2 r (⟨jt.val * 1024 + q.val, by have := jt.isLt; have := q.isLt; omega⟩ : Fin 2048)) * yOf (V c (Pipeline.arrRef spec2 0)) (V c (Pipeline.arrRef spec2 1)) (V c (Pipeline.arrRef spec2 2)) (ix2 r (⟨jt.val * 1024 + q.val, by have := jt.isLt; have := q.isLt; omega⟩ : Fin 2048))) (acc5 V c jt q) (acc5_zero V c jt q) (acc5_succ V c jt q)

theorem mem_blk5 (t : Fin cfg2.N) (i : S1x2048.Idx) :
    i ∈ ((cfg2.win 5).blk t).view.set ↔ ∀ a : Fin 2, win2_5.index t a * S1x1024.size a ≤ (i a).val
      ∧ (i a).val < win2_5.index t a * S1x1024.size a + S1x1024.size a := by
  show i ∈ ((View.whole main_v41_2).slice (win2_5.rect t)).set ↔ _
  rw [View.set_slice_whole, Rect.mem_set_unit]
  exact Iff.rfl

set_option maxHeartbeats 1000000 in
/-- WHAT A LAST ROW TILE WRITES BACK of accumulator 5 is its block of the whole array's column sums of squares. -/
theorem flushed5_eq (c : Dev nD) (t : Fin cfg2.N) (hf : (cfg2.win 5).flush t = true) :
    (dat2 V c).flushed 5 t = ((cfg2.win 5).blk t).view.read (Elt Ideal) (colSumSq (yOf (V c (Pipeline.arrRef spec2 0)) (V c (Pipeline.arrRef spec2 1)) (V c (Pipeline.arrRef spec2 2)))) := by
  have hN : cfg2.N = 32 := N_2
  have ht : t.val < 32 := lt_of_lt_of_eq t.isLt hN
  have h31 : t.val % 16 = 15 := (flush2_5 t).mp hf
  obtain ⟨e00, e01, e10, e11, e20, e21, e30, e31, e40, e41, e50, e51⟩ := idx_facts t
  have hjt : t.val / 16 < 2 := by omega
  have htt : t = tOf ⟨t.val / 16, hjt⟩ 15 (by omega) := Fin.ext (by show t.val = t.val / 16 * 16 + 15; omega)
  show (cfg2.win 5).cut (grid2.coords t) ((dat2 V c).after 5 t) = _
  rw [after2_5]
  funext j
  obtain ⟨z, q, rfl⟩ : ∃ (z : Fin 1) (q : Fin 1024), j = ix2 z q := ⟨j 0, j 1, eq_ix2 j⟩
  obtain rfl : z = 0 := Subsingleton.elim _ _
  show (outsAt2 V c t.val t.isLt).2.2 (ix2 (0 : Fin 1) q) = colSumSq (yOf (V c (Pipeline.arrRef spec2 0)) (V c (Pipeline.arrRef spec2 1)) (V c (Pipeline.arrRef spec2 2))) (((cfg2.win 5).blk t).view.emb (ix2 (0 : Fin 1) q))
  have hacc : (outsAt2 V c t.val t.isLt).2.2 (ix2 (0 : Fin 1) q) = acc5 V c ⟨t.val / 16, hjt⟩ q 15 := by
    unfold acc5
    rw [dif_pos (by omega : 15 < 16)]
    rw [outsAt_congr V c (congrArg Fin.val htt) t.isLt (tOf ⟨t.val / 16, hjt⟩ 15 (by omega)).isLt]
  rw [hacc, acc5_last]
  unfold colSumSq
  refine Finset.sum_congr rfl fun r _ => ?_
  have hcol : (⟨(⟨t.val / 16, hjt⟩ : Fin 2).val * 1024 + q.val, by have := q.isLt; omega⟩ : Fin 2048)
      = ⟨((((cfg2.win 5).blk t).view.emb (ix2 (0 : Fin 1) q)) 1).val, idx2_lt1 _⟩ := by
    apply Fin.ext
    show t.val / 16 * 1024 + q.val = win2_5.index t (1 : Fin 2) * 1024 + 1 * q.val
    omega
  rw [hcol]

/-- Every index of accumulator 5's array is in the block a last row tile writes back. -/
theorem cover5 (i : S1x2048.Idx) :
    ∃ t : Fin cfg2.N, (cfg2.win 5).flush t = true ∧ i ∈ ((cfg2.win 5).blk t).view.set := by
  have hi0 : (i 0).val < 1 := (i 0).isLt
  have hi1 : (i 1).val < 2048 := (i 1).isLt
  have hN : cfg2.N = 32 := N_2
  have hlt : (i 1).val / 1024 * 16 + 15 < cfg2.N := by rw [hN]; omega
  refine ⟨⟨(i 1).val / 1024 * 16 + 15, hlt⟩, (flush2_5 _).mpr (by show ((i 1).val / 1024 * 16 + 15) % 16 = 15; omega), ?_⟩
  rw [mem_blk5]
  obtain ⟨e00, e01, e10, e11, e20, e21, e30, e31, e40, e41, e50, e51⟩ := idx_facts ⟨(i 1).val / 1024 * 16 + 15, hlt⟩
  intro a
  match a with
  | ⟨0, _⟩ =>
    show win2_5.index _ (0 : Fin 2) * 1 ≤ (i 0).val ∧ (i 0).val < win2_5.index _ (0 : Fin 2) * 1 + 1
    rw [e50]; omega
  | ⟨1, _⟩ =>
    show win2_5.index _ (1 : Fin 2) * 1024 ≤ (i 1).val ∧ (i 1).val < win2_5.index _ (1 : Fin 2) * 1024 + 1024
    rw [e51]; show ((i 1).val / 1024 * 16 + 15) / 16 * 1024 ≤ (i 1).val ∧ (i 1).val < ((i 1).val / 1024 * 16 + 15) / 16 * 1024 + 1024; omega

/-- ACCUMULATOR 5'S ARRAY after the region: the column sums of squares of `y`. -/
theorem final5 (c : Dev nD) : (dat2 V c).arrAt 5 cfg2.N = colSumSq (yOf (V c (Pipeline.arrRef spec2 0)) (V c (Pipeline.arrRef spec2 1)) (V c (Pipeline.arrRef spec2 2))) :=
  (dat2 V c).arrAt_eq_of_cover 5 _ (fun t hf => flushed5_eq V c t hf) (cover5)

end Cert.KernelIdeal.Stats2

end
-- ==== Proof.StatsPieces4.lean ====
/-
  Region 4 of the idealized kernel: what one run of the matmul-and-column-statistics body leaves in its three output
  blocks, as pure functions of the blocks it loads.

  At a point whose row-tile coordinate is 0 the body first stores zeros into the two accumulator blocks; at every point
  it then adds the block's column sums (of `y = x · w + b` and of `y · y`) onto what the accumulators hold and stores
  `y`. So the `y` block ends at the body's product-plus-bias term; the accumulators end at `0-row + column sums` at a
  first point and at `previous contents + column sums` at any other.
-/
import proofs.«152490_j70686571758165_2_alg».proof.Proof.Gen.KernelIdeal.Frame
import Idealize.ShloMosaic.Lib.Pipeline.Value

set_option maxRecDepth 16384

noncomputable section

namespace Cert.KernelIdeal.Stats4

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

section Pieces

variable (c : Dev nD) (i : grid4.Coords) (arg2 : Memref sig .tc .vmem S512x2048 .bf16) (harg2 : arg2.IsWhole)
  (arg3 : Memref sig .tc .vmem S2048x1024 .bf16) (harg3 : arg3.IsWhole)
  (arg4 : Memref sig .tc .vmem S1x1024 .f32) (harg4 : arg4.IsWhole)
  (arg5 : Memref sig .tc .vmem S512x1024 .bf16) (harg5 : arg5.IsWhole)
  (arg6 : Memref sig .tc .vmem S1x1024 .f32) (harg6 : arg6.IsWhole)
  (arg7 : Memref sig .tc .vmem S1x1024 .f32) (harg7 : arg7.IsWhole)
  (x0 : Vec F S512x2048 .bf16) (x1 : Vec F S2048x1024 .bf16) (x2 : Vec F S1x1024 .f32)

set_option maxHeartbeats 1000000 in
/-- First point of a column tile: the `y` block. -/
theorem first_y (hc0 : cond4_0 i) :
    out4_A_3 c i arg2 harg2 arg3 harg3 arg4 harg4 arg5 harg5 arg6 harg6 arg7 harg7 hc0 x0 x1 x2 = k4_pay6 x0 x1 x2 := by
  unfold out4_A_3
  rw [View.read_writes_eq_canon _ _ _ (cover4_A_3 c i arg2 harg2 arg3 harg3 arg4 harg4 arg5 harg5 arg6 harg6 arg7 harg7 hc0 x0 x1 x2)]
  unfold kernelRun4_A
  dsimp only
  sl_unfold_words
  rw [View.canon_unit_zero hz]
  simp only [View.readAt_eq_ld, harg2.read_unread, harg3.read_unread, harg4.read_unread,
    View.ld_unit_zero (S := S512x2048) hz, View.ld_unit_zero (S := S2048x1024) hz, View.ld_unit_zero (S := S1x1024) hz]

set_option maxHeartbeats 1000000 in
/-- First point of a column tile: the running column sums start from the zero row. -/
theorem first_sum (hc0 : cond4_0 i) :
    out4_A_4 c i arg2 harg2 arg3 harg3 arg4 harg4 arg5 harg5 arg6 harg6 arg7 harg7 hc0 x0 x1 x2 = k4_pay4 x0 x1 x2 k4_pay2 := by
  unfold out4_A_4
  rw [View.read_writes_eq_canon _ _ _ (cover4_A_4 c i arg2 harg2 arg3 harg3 arg4 harg4 arg5 harg5 arg6 harg6 arg7 harg7 hc0 x0 x1 x2)]
  unfold kernelRun4_A
  dsimp only
  sl_unfold_words
  rw [View.canon_cons_unit_zero hz]
  simp only [View.readAt_eq_ld, harg2.read_unread, harg3.read_unread, harg4.read_unread,
    View.ld_unit_zero (S := S512x2048) hz, View.ld_unit_zero (S := S2048x1024) hz, View.ld_unit_zero (S := S1x1024) hz]
  rw [View.readCov_unit_zero _ hz]

set_option maxHeartbeats 1000000 in
/-- First point of a column tile: the running column sums of squares start from the zero row. -/
theorem first_sumsq (hc0 : cond4_0 i) :
    out4_A_5 c i arg2 harg2 arg3 harg3 arg4 harg4 arg5 harg5 arg6 harg6 arg7 harg7 hc0 x0 x1 x2 = k4_pay5 x0 x1 x2 k4_pay3 := by
  unfold out4_A_5
  rw [View.read_writes_eq_canon _ _ _ (cover4_A_5 c i arg2 harg2 arg3 harg3 arg4 harg4 arg5 harg5 arg6 harg6 arg7 harg7 hc0 x0 x1 x2)]
  unfold kernelRun4_A
  dsimp only
  sl_unfold_words
  rw [View.canon_cons_unit_zero hz]
  simp only [View.readAt_eq_ld, harg2.read_unread, harg3.read_unread, harg4.read_unread,
    View.ld_unit_zero (S := S512x2048) hz, View.ld_unit_zero (S := S2048x1024) hz, View.ld_unit_zero (S := S1x1024) hz]
  rw [View.readCov_unit_zero _ hz]

variable (x4 x5 : Vec F S1x1024 .f32)

set_option maxHeartbeats 1000000 in
/-- A later point: the `y` block. -/
theorem later_y (hc0 : ¬cond4_0 i) :
    out4_B_3 c i arg2 harg2 arg3 harg3 arg4 harg4 arg5 harg5 arg6 harg6 arg7 harg7 hc0 x0 x1 x2 x4 x5 = k4_pay6 x0 x1 x2 := by
  unfold out4_B_3
  rw [View.read_writes_eq_canon _ _ _ (cover4_B_3 c i arg2 harg2 arg3 harg3 arg4 harg4 arg5 harg5 arg6 harg6 arg7 harg7 hc0 x0 x1 x2 x4 x5)]
  unfold kernelRun4_B
  dsimp only
  sl_unfold_words
  rw [View.canon_unit_zero hz]
  simp only [View.readAt_eq_ld, harg2.read_unread, harg3.read_unread, harg4.read_unread,
    View.ld_unit_zero (S := S512x2048) hz, View.ld_unit_zero (S := S2048x1024) hz, View.ld_unit_zero (S := S1x1024) hz]

set_option maxHeartbeats 1000000 in
/-- A later point: the column sums are added onto what the accumulator held. -/
theorem later_sum (hc0 : ¬cond4_0 i) :
    out4_B_4 c i arg2 harg2 arg3 harg3 arg4 harg4 arg5 harg5 arg6 harg6 arg7 harg7 hc0 x0 x1 x2 x4 x5 = k4_pay4 x0 x1 x2 x4 := by
  unfold out4_B_4
  rw [View.read_writes_eq_canon _ _ _ (cover4_B_4 c i arg2 harg2 arg3 harg3 arg4 harg4 arg5 harg5 arg6 harg6 arg7 harg7 hc0 x0 x1 x2 x4 x5)]
  unfold kernelRun4_B
  dsimp only
  sl_unfold_words
  rw [View.canon_unit_zero hz]
  simp only [View.readAt_eq_ld, harg2.read_unread, harg3.read_unread, harg4.read_unread, harg6.read_unread,
    View.ld_unit_zero (S := S512x2048) hz, View.ld_unit_zero (S := S2048x1024) hz, View.ld_unit_zero (S := S1x1024) hz]

set_option maxHeartbeats 1000000 in
/-- A later point: the column sums of squares are added onto what the accumulator held. -/
theorem later_sumsq (hc0 : ¬cond4_0 i) :
    out4_B_5 c i arg2 harg2 arg3 harg3 arg4 harg4 arg5 harg5 arg6 harg6 arg7 harg7 hc0 x0 x1 x2 x4 x5 = k4_pay5 x0 x1 x2 x5 := by
  unfold out4_B_5
  rw [View.read_writes_eq_canon _ _ _ (cover4_B_5 c i arg2 harg2 arg3 harg3 arg4 harg4 arg5 harg5 arg6 harg6 arg7 harg7 hc0 x0 x1 x2 x4 x5)]
  unfold kernelRun4_B
  dsimp only
  sl_unfold_words
  rw [View.canon_unit_zero hz]
  simp only [View.readAt_eq_ld, harg2.read_unread, harg3.read_unread, harg4.read_unread, harg7.read_unread,
    View.ld_unit_zero (S := S512x2048) hz, View.ld_unit_zero (S := S2048x1024) hz, View.ld_unit_zero (S := S1x1024) hz]

end Pieces

end Cert.KernelIdeal.Stats4

end
-- ==== Proof.StatsAt4.lean ====
/-
  Region 4 of the idealized kernel (a matrix product plus bias, with running column sums): the body's three stored
  values read at an index, and the blocks of a grid point read off the whole arrays.

  Grid point `t` is column tile `t / 16` (1024 columns) and row tile `t % 16` (512 rows). Its `y` block is the product
  of the row tile of `x` (all 2048 columns) with the column tile of `w`, plus the bias row's tile: entry `(p, q)` is
  `∑ k, x (row, k) · w (k, col) + b (0, col)` at the array's row `512 · (t % 16) + p` and column `1024 · (t / 16) + q`.
  Its column sums are `∑ p` of that over the tile's 512 rows (and of its squares), added onto what the accumulator holds.
-/
import proofs.«152490_j70686571758165_2_alg».proof.Proof.StatsPieces4
import proofs.«152490_j70686571758165_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stats4

open Idealize.ShloMosaic Idealize.ShloMosaic.TcCoe Idealize.SL.Sem Idealize.ShloMosaic.ValueIdx
open Cert.KernelIdeal Cert.KernelIdeal.Gen Cert.Dense

/-- The bias row's index under an entry of the `y` array: row 0, the entry's column. -/
abbrev under (i : S8192x2048.Idx) : S1x2048.Idx := ix2 (0 : Fin 1) (⟨(i 1).val, idx2_lt1 i⟩ : Fin 2048)

/-- `y = x · w + b` on the whole arrays, index by index. -/
def yOf (x : S8192x2048.Idx → EReal) (w : S2048x2048.Idx → EReal) (b : S1x2048.Idx → EReal) : S8192x2048.Idx → EReal :=
  fun i => rowsTimes x w i + b (under i)

/-- The column sums of `y`, as a 1×2048 row. -/
def colSum (y : S8192x2048.Idx → EReal) : S1x2048.Idx → EReal :=
  fun i => ∑ r : Fin 8192, y (ix2 r (⟨(i 1).val, idx2_lt1 i⟩ : Fin 2048))

/-- The column sums of `y · y`, as a 1×2048 row. -/
def colSumSq (y : S8192x2048.Idx → EReal) : S1x2048.Idx → EReal :=
  fun i => ∑ r : Fin 8192, y (ix2 r (⟨(i 1).val, idx2_lt1 i⟩ : Fin 2048)) * y (ix2 r (⟨(i 1).val, idx2_lt1 i⟩ : Fin 2048))

/-! ## The body's values at an index -/

/-- The product-plus-bias block at `(p, q)` (the operands' float formats do not matter on the extended reals). -/
theorem y_at (x0 : FVec Ideal S512x2048 .bf16) (x1 : FVec Ideal S2048x1024 .bf16) (x2 : FVec Ideal S1x1024 .f32)
    (p : Fin 512) (q : Fin 1024) :
    k4_pay1 (F := Ideal) x0 x1 x2 (ix2 p q) = rowsTimes x0 x1 (ix2 p q) + x2 (ix2 (0 : Fin 1) q) := by
  unfold k4_pay1
  simp only [shapeCast_self]
  rw [addf_apply, broadcastTo_1b_ab_apply]
  refine congrArg (· + x2 (ix2 (0 : Fin 1) q)) ?_
  exact congrFun (matmul_zero_of_plain dot_S512x2048_S2048x1024_S512x1024_1_0_0_1_n_n rfl none _ x1) (ix2 p q)

/-- A sum over the rows of a two-axis block, read at column `q`. -/
theorem rowsSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) := by
  refine (Ideal.multiReduction_add_single src 0x00000000#32 h hφ hacc (ix1 q)).trans ?_
  refine Finset.sum_congr rfl fun p _ => congrArg src ?_
  funext cc; apply Fin.ext
  match cc with
  | ⟨0, _⟩ => rfl
  | ⟨1, _⟩ => rfl

/-- The running column sums after the body: what the accumulator held plus the block's column sums. -/
theorem sum_at (x0 : FVec Ideal S512x2048 .bf16) (x1 : FVec Ideal S2048x1024 .bf16) (x2 : FVec Ideal S1x1024 .f32)
    (v : FVec Ideal S1x1024 .f32) (q : Fin 1024) :
    k4_pay4 (F := Ideal) x0 x1 x2 v (ix2 (0 : Fin 1) q)
      = v (ix2 (0 : Fin 1) q) + ∑ p : Fin 512, k4_pay1 (F := Ideal) x0 x1 x2 (ix2 p q) := by
  unfold k4_pay4
  simp only [shapeCast_self]
  rw [addf_apply, shapeCast_a_1a_apply]
  exact congrArg (v (ix2 (0 : Fin 1) q) + ·) (rowsSum_apply _ _ _ _ q)

/-- The running column sums of squares after the body. -/
theorem sumsq_at (x0 : FVec Ideal S512x2048 .bf16) (x1 : FVec Ideal S2048x1024 .bf16) (x2 : FVec Ideal S1x1024 .f32)
    (v : FVec Ideal S1x1024 .f32) (q : Fin 1024) :
    k4_pay5 (F := Ideal) x0 x1 x2 v (ix2 (0 : Fin 1) q)
      = v (ix2 (0 : Fin 1) q) + ∑ p : Fin 512, k4_pay1 (F := Ideal) x0 x1 x2 (ix2 p q) * k4_pay1 (F := Ideal) x0 x1 x2 (ix2 p q) := by
  unfold k4_pay5
  simp only [shapeCast_self]
  rw [addf_apply, shapeCast_a_1a_apply]
  refine congrArg (v (ix2 (0 : Fin 1) q) + ·) ((rowsSum_apply _ _ _ _ q).trans ?_)
  rfl

/-- The zero rows the accumulators start from are the extended real 0. -/
theorem zero_row_sum (q : Fin 1024) : k4_pay2 (F := Ideal) (ix2 (0 : Fin 1) q) = 0 := by
  unfold k4_pay2; exact Ideal.ofBits_zero_f32
theorem zero_row_sumsq (q : Fin 1024) : k4_pay3 (F := Ideal) (ix2 (0 : Fin 1) q) = 0 := by
  unfold k4_pay3; exact Ideal.ofBits_zero_f32

end Cert.KernelIdeal.Stats4

end
-- ==== Proof.StatsValue4.lean ====
/-
  Region 4 of the idealized kernel: its three output arrays after the region, as functions of the arrays it finds.

  The `y` array is written one block per grid point and the blocks tile it, so it ends at `x · w + b`. An accumulator's
  block for column tile `jt` stays in its staging buffer over the 16 row tiles of that column tile: the first one
  starts it from the zero row, each adds its 512 rows' column sums, and only the last one writes it back — by then it
  is the sum over all 16 · 512 = 8192 rows. So the two accumulator arrays end at the column sums of `y` and of `y · y`.
-/
import proofs.«152490_j70686571758165_2_alg».proof.Proof.StatsAt4
import proofs.«152490_j70686571758165_2_alg».proof.Proof.LibChunkFold

set_option maxRecDepth 16384

noncomputable section

namespace Cert.KernelIdeal.Stats4

open Idealize.ShloMosaic Idealize.ShloMosaic.TcCoe Idealize.SL.Sem Idealize.ShloMosaic.ValueIdx
open Idealize.ShloMosaic.Pipeline (Dat)
open Cert.KernelIdeal Cert.KernelIdeal.Gen Cert.Dense

variable (V : (c : Dev nD) → (b : Ref sig .tc) → Buf (Elt Ideal) ((c : Thread nD τ).loc b))

/-- The printed index maps over the grid: row tile `t % 16`, column tile `t / 16`. -/
theorem idx_facts : ∀ t : Fin cfg4.N,
    win4_0.index t (0 : Fin 2) = t.val % 16 ∧ win4_0.index t (1 : Fin 2) = 0
    ∧ win4_1.index t (0 : Fin 2) = 0 ∧ win4_1.index t (1 : Fin 2) = t.val / 16
    ∧ win4_2.index t (0 : Fin 2) = 0 ∧ win4_2.index t (1 : Fin 2) = t.val / 16
    ∧ win4_3.index t (0 : Fin 2) = t.val % 16 ∧ win4_3.index t (1 : Fin 2) = t.val / 16
    ∧ win4_4.index t (0 : Fin 2) = 0 ∧ win4_4.index t (1 : Fin 2) = t.val / 16
    ∧ win4_5.index t (0 : Fin 2) = 0 ∧ win4_5.index t (1 : Fin 2) = t.val / 16 :=
  (by decide +kernel : ∀ t : Fin grid4.N, _)

set_option maxHeartbeats 1000000 in
/-- The body's product-plus-bias block at point `t`, entry `(p, q)`, is `y` of the whole arrays at the entry's place. -/
theorem yblk_eq (c : Dev nD) (t : Fin cfg4.N) (p : Fin 512) (q : Fin 1024) :
    k4_pay1 (F := Ideal) (iblk4 V c 0 t) (iblk4 V c 1 t) (iblk4 V c 2 t) (ix2 p q)
      = yOf (V c (Pipeline.arrRef spec4 0)) (V c (Pipeline.arrRef spec4 1)) (V c (Pipeline.arrRef spec4 2)) (((cfg4.win 3).blk t).view.emb (ix2 p q)) := by
  obtain ⟨e00, e01, e10, e11, e20, e21, e30, e31, e40, e41, e50, e51⟩ := idx_facts t
  refine (y_at (iblk4 V c 0 t) (iblk4 V c 1 t) (iblk4 V c 2 t) p q).trans ?_
  unfold yOf
  have hp : p.val < 512 := p.isLt
  have hq : q.val < 1024 := q.isLt
  have hrt : rowsTimes (iblk4 V c 0 t) (iblk4 V c 1 t) (ix2 p q)
      = rowsTimes (V c (Pipeline.arrRef spec4 0)) (V c (Pipeline.arrRef spec4 1)) (((cfg4.win 3).blk t).view.emb (ix2 p q)) := by
    refine rowsTimes_of_rows _ _ _ _ _ _ (fun kk => ?_) (fun kk => ?_)
    · show V c (Pipeline.arrRef spec4 0) (((cfg4.win 0).blk t).view.emb (ix2 p kk)) = _
      refine congrArg (V c (Pipeline.arrRef spec4 0)) ?_
      funext a; apply Fin.ext
      match a with
      | ⟨0, _⟩ => show win4_0.index t (0 : Fin 2) * 512 + 1 * p.val = win4_3.index t (0 : Fin 2) * 512 + 1 * p.val; omega
      | ⟨1, _⟩ => show win4_0.index t (1 : Fin 2) * 2048 + 1 * kk.val = kk.val; omega
    · show V c (Pipeline.arrRef spec4 1) (((cfg4.win 1).blk t).view.emb (ix2 kk q)) = _
      refine congrArg (V c (Pipeline.arrRef spec4 1)) ?_
      funext a; apply Fin.ext
      match a with
      | ⟨0, _⟩ => show win4_1.index t (0 : Fin 2) * 2048 + 1 * kk.val = kk.val; omega
      | ⟨1, _⟩ => show win4_1.index t (1 : Fin 2) * 1024 + 1 * q.val = win4_3.index t (1 : Fin 2) * 1024 + 1 * q.val; omega
  have hb : iblk4 V c 2 t (ix2 (0 : Fin 1) q)
      = V c (Pipeline.arrRef spec4 2) (under (((cfg4.win 3).blk t).view.emb (ix2 p q))) := by
    show V c (Pipeline.arrRef spec4 2) (((cfg4.win 2).blk t).view.emb (ix2 (0 : Fin 1) q)) = _
    refine congrArg (V c (Pipeline.arrRef spec4 2)) ?_
    funext a; apply Fin.ext
    match a with
    | ⟨0, _⟩ => show win4_2.index t (0 : Fin 2) * 1 + 1 * 0 = 0; omega
    | ⟨1, _⟩ => show win4_2.index t (1 : Fin 2) * 1024 + 1 * q.val = win4_3.index t (1 : Fin 2) * 1024 + 1 * q.val; omega
  rw [hrt, hb]

/-! ## The `y` array -/

theorem mem_blk3 (t : Fin cfg4.N) (i : S8192x2048.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v62_0).slice (win4_3.rect t)).set ↔ _
  rw [View.set_slice_whole, Rect.mem_set_unit]
  exact Iff.rfl

set_option maxHeartbeats 1000000 in
/-- WHAT POINT `t` WRITES BACK of `y` is block `t` of `x · w + b` (a change of float format is the identity). -/
theorem flushed3_eq (c : Dev nD) (t : Fin cfg4.N) :
    (dat4 V c).flushed 3 t = ((cfg4.win 3).blk t).view.read (Elt Ideal) (yOf (V c (Pipeline.arrRef spec4 0)) (V c (Pipeline.arrRef spec4 1)) (V c (Pipeline.arrRef spec4 2))) := by
  show (cfg4.win 3).cut (grid4.coords t) ((dat4 V c).after 3 t) = _
  rw [after4_3]
  funext j
  obtain ⟨p, q, rfl⟩ : ∃ (p : Fin 512) (q : Fin 1024), j = ix2 p q := ⟨j 0, j 1, eq_ix2 j⟩
  show (outsAt4 V c t.val t.isLt).1 (ix2 p q) = yOf (V c (Pipeline.arrRef spec4 0)) (V c (Pipeline.arrRef spec4 1)) (V c (Pipeline.arrRef spec4 2)) (((cfg4.win 3).blk t).view.emb (ix2 p q))
  by_cases h0 : t.val % 16 = 0
  · rw [outsAt4_A V c t h0]
    dsimp only
    rw [first_y c (grid4.coords t) (ms4_0 t) (hs4_0 t) (ms4_1 t) (hs4_1 t) (ms4_2 t) (hs4_2 t) (ms4_3 t) (hs4_3 t) (ms4_4 t) (hs4_4 t) (ms4_5 t) (hs4_5 t) (iblk4 V c 0 t) (iblk4 V c 1 t) (iblk4 V c 2 t) ((hcond4_0 t).mpr h0)]
    exact yblk_eq V c t p q
  · rw [outsAt4_B V c t h0]
    dsimp only
    rw [later_y c (grid4.coords t) (ms4_0 t) (hs4_0 t) (ms4_1 t) (hs4_1 t) (ms4_2 t) (hs4_2 t) (ms4_3 t) (hs4_3 t) (ms4_4 t) (hs4_4 t) (ms4_5 t) (hs4_5 t) (iblk4 V c 0 t) (iblk4 V c 1 t) (iblk4 V c 2 t) _ _ (fun h => h0 ((hcond4_0 t).mp h))]
    exact yblk_eq V c t p q

/-- Every index of `y` is in some point's block. -/
theorem cover3 (i : S8192x2048.Idx) :
    ∃ t : Fin cfg4.N, (cfg4.win 3).flush t = true ∧ i ∈ ((cfg4.win 3).blk t).view.set := by
  have hi0 : (i 0).val < 8192 := (i 0).isLt
  have hi1 : (i 1).val < 2048 := (i 1).isLt
  have hN : cfg4.N = 32 := N_4
  have hlt : (i 1).val / 1024 * 16 + (i 0).val / 512 < cfg4.N := by rw [hN]; omega
  refine ⟨⟨(i 1).val / 1024 * 16 + (i 0).val / 512, hlt⟩, flush4_3 _, ?_⟩
  rw [mem_blk3]
  obtain ⟨e00, e01, e10, e11, e20, e21, e30, e31, e40, e41, e50, e51⟩ := idx_facts ⟨(i 1).val / 1024 * 16 + (i 0).val / 512, hlt⟩
  intro a
  match a with
  | ⟨0, _⟩ =>
    show win4_3.index _ (0 : Fin 2) * 512 ≤ (i 0).val ∧ (i 0).val < win4_3.index _ (0 : Fin 2) * 512 + 512
    rw [e30]; show ((i 1).val / 1024 * 16 + (i 0).val / 512) % 16 * 512 ≤ (i 0).val ∧ (i 0).val < ((i 1).val / 1024 * 16 + (i 0).val / 512) % 16 * 512 + 512; omega
  | ⟨1, _⟩ =>
    show win4_3.index _ (1 : Fin 2) * 1024 ≤ (i 1).val ∧ (i 1).val < win4_3.index _ (1 : Fin 2) * 1024 + 1024
    rw [e31]; show ((i 1).val / 1024 * 16 + (i 0).val / 512) / 16 * 1024 ≤ (i 1).val ∧ (i 1).val < ((i 1).val / 1024 * 16 + (i 0).val / 512) / 16 * 1024 + 1024; omega

/-- THE `y` ARRAY after the region. -/
theorem final3 (c : Dev nD) : (dat4 V c).arrAt 3 cfg4.N = yOf (V c (Pipeline.arrRef spec4 0)) (V c (Pipeline.arrRef spec4 1)) (V c (Pipeline.arrRef spec4 2)) :=
  (dat4 V c).arrAt_eq_of_cover 3 _ (fun t _ => flushed3_eq V c t) (cover3)

/-! ## The accumulators: one column tile's 16 row tiles -/

/-- Row tile `n` of column tile `jt`, as a grid point. -/
def tOf (jt : Fin 2) (n : ℕ) (h : n < 16) : Fin cfg4.N :=
  ⟨jt.val * 16 + n, by have := jt.isLt; rw [show cfg4.N = 32 from N_4]; omega⟩

theorem hchunks : (15 + 1) * 512 = 8192 := by norm_num

/-- The accumulation's value depends on the point's number only. -/
theorem outsAt_congr (c : Dev nD) {a b : ℕ} (e : a = b) (ha : a < cfg4.N) (hb : b < cfg4.N) :
    outsAt4 V c a ha = outsAt4 V c b hb := by subst e; rfl

/-- The output block's entry `(p, q)` at row tile `n` of column tile `jt` is the array's row `n · 512 + p`, column
    `jt · 1024 + q`. -/
theorem emb_y (c : Dev nD) (jt : Fin 2) (n : ℕ) (h : n < 16) (p : Fin 512) (q : Fin 1024) :
    ((cfg4.win 3).blk (tOf jt n h)).view.emb (ix2 p q)
      = ix2 (ChunkSum.at_ hchunks ⟨n, h⟩ p) (⟨jt.val * 1024 + q.val, by have := jt.isLt; have := q.isLt; omega⟩ : Fin 2048) := by
  obtain ⟨e00, e01, e10, e11, e20, e21, e30, e31, e40, e41, e50, e51⟩ := idx_facts (tOf jt n h)
  have hj : jt.val < 2 := jt.isLt
  have hv : (tOf jt n h).val = jt.val * 16 + n := rfl
  funext a; apply Fin.ext
  match a with
  | ⟨0, _⟩ => show win4_3.index (tOf jt n h) (0 : Fin 2) * 512 + 1 * p.val = n * 512 + p.val; rw [e30, hv]; omega
  | ⟨1, _⟩ => show win4_3.index (tOf jt n h) (1 : Fin 2) * 1024 + 1 * q.val = jt.val * 1024 + q.val; rw [e31, hv]; omega

/-- The body's product-plus-bias block at row tile `n` of column tile `jt`, entry `(p, q)`: `y` at the array's row
    `n · 512 + p` and column `jt · 1024 + q`. -/
theorem yblk_row (c : Dev nD) (jt : Fin 2) (n : ℕ) (h : n < 16) (p : Fin 512) (q : Fin 1024) :
    k4_pay1 (F := Ideal) (iblk4 V c 0 (tOf jt n h)) (iblk4 V c 1 (tOf jt n h)) (iblk4 V c 2 (tOf jt n h)) (ix2 p q)
      = yOf (V c (Pipeline.arrRef spec4 0)) (V c (Pipeline.arrRef spec4 1)) (V c (Pipeline.arrRef spec4 2)) (ix2 (ChunkSum.at_ hchunks ⟨n, h⟩ p)
          (⟨jt.val * 1024 + q.val, by have := jt.isLt; have := q.isLt; omega⟩ : Fin 2048)) :=
  (yblk_eq V c (tOf jt n h) p q).trans (congrArg (yOf (V c (Pipeline.arrRef spec4 0)) (V c (Pipeline.arrRef spec4 1)) (V c (Pipeline.arrRef spec4 2))) (emb_y c jt n h p q))

/-! ## The running column sums -/

/-- What accumulator 4's block holds at column `q` after row tile `n` of column tile `jt`. -/
def acc4 (c : Dev nD) (jt : Fin 2) (q : Fin 1024) (n : ℕ) : EReal :=
  if h : n < 16 then (outsAt4 V c (tOf jt n h).val (tOf jt n h).isLt).2.1 (ix2 (0 : Fin 1) q) else 0

set_option maxHeartbeats 1000000 in
theorem acc4_zero (c : Dev nD) (jt : Fin 2) (q : Fin 1024) :
    acc4 V c jt q 0 = 0 + ∑ p : Fin 512, yOf (V c (Pipeline.arrRef spec4 0)) (V c (Pipeline.arrRef spec4 1)) (V c (Pipeline.arrRef spec4 2)) (ix2 (ChunkSum.at_ hchunks ⟨0, Nat.succ_pos 15⟩ p) (⟨jt.val * 1024 + q.val, by have := jt.isLt; have := q.isLt; omega⟩ : Fin 2048)) := by
  unfold acc4
  rw [dif_pos (by omega : 0 < 16)]
  have h0 : (tOf jt 0 (by omega)).val % 16 = 0 := by show (jt.val * 16 + 0) % 16 = 0; omega
  rw [outsAt4_A V c (tOf jt 0 (by omega)) h0]
  dsimp only
  rw [first_sum c (grid4.coords (tOf jt 0 (by omega))) (ms4_0 (tOf jt 0 (by omega))) (hs4_0 (tOf jt 0 (by omega))) (ms4_1 (tOf jt 0 (by omega))) (hs4_1 (tOf jt 0 (by omega))) (ms4_2 (tOf jt 0 (by omega))) (hs4_2 (tOf jt 0 (by omega))) (ms4_3 (tOf jt 0 (by omega))) (hs4_3 (tOf jt 0 (by omega))) (ms4_4 (tOf jt 0 (by omega))) (hs4_4 (tOf jt 0 (by omega))) (ms4_5 (tOf jt 0 (by omega))) (hs4_5 (tOf jt 0 (by omega))) (iblk4 V c 0 (tOf jt 0 (by omega))) (iblk4 V c 1 (tOf jt 0 (by omega))) (iblk4 V c 2 (tOf jt 0 (by omega))) ((hcond4_0 (tOf jt 0 (by omega))).mpr h0)]
  refine (sum_at _ _ _ _ q).trans ?_
  rw [zero_row_sum]
  refine congrArg (0 + ·) (Finset.sum_congr rfl fun p _ => ?_)
  rw [yblk_row V c jt 0 (by omega) p q]

set_option maxHeartbeats 1000000 in
theorem acc4_succ (c : Dev nD) (jt : Fin 2) (q : Fin 1024) (n : ℕ) (hn : n + 1 < 15 + 1) :
    acc4 V c jt q (n + 1) = acc4 V c jt q n + ∑ p : Fin 512, yOf (V c (Pipeline.arrRef spec4 0)) (V c (Pipeline.arrRef spec4 1)) (V c (Pipeline.arrRef spec4 2)) (ix2 (ChunkSum.at_ hchunks ⟨n + 1, hn⟩ p) (⟨jt.val * 1024 + q.val, by have := jt.isLt; have := q.isLt; omega⟩ : Fin 2048)) := by
  have hn1 : n + 1 < 16 := hn
  have hn0 : n < 16 := by omega
  unfold acc4
  rw [dif_pos hn1, dif_pos hn0]
  have h0 : ¬(tOf jt (n + 1) hn1).val % 16 = 0 := by show ¬(jt.val * 16 + (n + 1)) % 16 = 0; omega
  rw [outsAt4_B V c (tOf jt (n + 1) hn1) h0]
  dsimp only
  rw [later_sum c (grid4.coords (tOf jt (n + 1) hn1)) (ms4_0 (tOf jt (n + 1) hn1)) (hs4_0 (tOf jt (n + 1) hn1)) (ms4_1 (tOf jt (n + 1) hn1)) (hs4_1 (tOf jt (n + 1) hn1)) (ms4_2 (tOf jt (n + 1) hn1)) (hs4_2 (tOf jt (n + 1) hn1)) (ms4_3 (tOf jt (n + 1) hn1)) (hs4_3 (tOf jt (n + 1) hn1)) (ms4_4 (tOf jt (n + 1) hn1)) (hs4_4 (tOf jt (n + 1) hn1)) (ms4_5 (tOf jt (n + 1) hn1)) (hs4_5 (tOf jt (n + 1) hn1)) (iblk4 V c 0 (tOf jt (n + 1) hn1)) (iblk4 V c 1 (tOf jt (n + 1) hn1)) (iblk4 V c 2 (tOf jt (n + 1) hn1)) _ _ (fun h => h0 ((hcond4_0 (tOf jt (n + 1) hn1)).mp h))]
  refine (sum_at _ _ _ _ q).trans ?_
  rw [outsAt_congr V c (show (tOf jt (n + 1) hn1).val - 1 = (tOf jt n hn0).val by show jt.val * 16 + (n + 1) - 1 = jt.val * 16 + n; omega) _ (tOf jt n hn0).isLt]
  refine congrArg (_ + ·) (Finset.sum_congr rfl fun p _ => ?_)
  rw [yblk_row V c jt (n + 1) hn1 p q]

/-- After the last row tile the accumulator holds the whole column's sum. -/
theorem acc4_last (c : Dev nD) (jt : Fin 2) (q : Fin 1024) :
    acc4 V c jt q 15 = ∑ r : Fin 8192, yOf (V c (Pipeline.arrRef spec4 0)) (V c (Pipeline.arrRef spec4 1)) (V c (Pipeline.arrRef spec4 2)) (ix2 r (⟨jt.val * 1024 + q.val, by have := jt.isLt; have := q.isLt; omega⟩ : Fin 2048)) :=
  ChunkSum.fold_chunks hchunks (fun r => yOf (V c (Pipeline.arrRef spec4 0)) (V c (Pipeline.arrRef spec4 1)) (V c (Pipeline.arrRef spec4 2)) (ix2 r (⟨jt.val * 1024 + q.val, by have := jt.isLt; have := q.isLt; omega⟩ : Fin 2048))) (acc4 V c jt q) (acc4_zero V c jt q) (acc4_succ V c jt q)

theorem mem_blk4 (t : Fin cfg4.N) (i : S1x2048.Idx) :
    i ∈ ((cfg4.win 4).blk t).view.set ↔ ∀ a : Fin 2, win4_4.index t a * S1x1024.size a ≤ (i a).val
      ∧ (i a).val < win4_4.index t a * S1x1024.size a + S1x1024.size a := by
  show i ∈ ((View.whole main_v62_1).slice (win4_4.rect t)).set ↔ _
  rw [View.set_slice_whole, Rect.mem_set_unit]
  exact Iff.rfl

set_option maxHeartbeats 1000000 in
/-- WHAT A LAST ROW TILE WRITES BACK of accumulator 4 is its block of the whole array's column sums. -/
theorem flushed4_eq (c : Dev nD) (t : Fin cfg4.N) (hf : (cfg4.win 4).flush t = true) :
    (dat4 V c).flushed 4 t = ((cfg4.win 4).blk t).view.read (Elt Ideal) (colSum (yOf (V c (Pipeline.arrRef spec4 0)) (V c (Pipeline.arrRef spec4 1)) (V c (Pipeline.arrRef spec4 2)))) := by
  have hN : cfg4.N = 32 := N_4
  have ht : t.val < 32 := lt_of_lt_of_eq t.isLt hN
  have h31 : t.val % 16 = 15 := (flush4_4 t).mp hf
  obtain ⟨e00, e01, e10, e11, e20, e21, e30, e31, e40, e41, e50, e51⟩ := idx_facts t
  have hjt : t.val / 16 < 2 := by omega
  have htt : t = tOf ⟨t.val / 16, hjt⟩ 15 (by omega) := Fin.ext (by show t.val = t.val / 16 * 16 + 15; omega)
  show (cfg4.win 4).cut (grid4.coords t) ((dat4 V c).after 4 t) = _
  rw [after4_4]
  funext j
  obtain ⟨z, q, rfl⟩ : ∃ (z : Fin 1) (q : Fin 1024), j = ix2 z q := ⟨j 0, j 1, eq_ix2 j⟩
  obtain rfl : z = 0 := Subsingleton.elim _ _
  show (outsAt4 V c t.val t.isLt).2.1 (ix2 (0 : Fin 1) q) = colSum (yOf (V c (Pipeline.arrRef spec4 0)) (V c (Pipeline.arrRef spec4 1)) (V c (Pipeline.arrRef spec4 2))) (((cfg4.win 4).blk t).view.emb (ix2 (0 : Fin 1) q))
  have hacc : (outsAt4 V c t.val t.isLt).2.1 (ix2 (0 : Fin 1) q) = acc4 V c ⟨t.val / 16, hjt⟩ q 15 := by
    unfold acc4
    rw [dif_pos (by omega : 15 < 16)]
    rw [outsAt_congr V c (congrArg Fin.val htt) t.isLt (tOf ⟨t.val / 16, hjt⟩ 15 (by omega)).isLt]
  rw [hacc, acc4_last]
  unfold colSum
  refine Finset.sum_congr rfl fun r _ => ?_
  have hcol : (⟨(⟨t.val / 16, hjt⟩ : Fin 2).val * 1024 + q.val, by have := q.isLt; omega⟩ : Fin 2048)
      = ⟨((((cfg4.win 4).blk t).view.emb (ix2 (0 : Fin 1) q)) 1).val, idx2_lt1 _⟩ := by
    apply Fin.ext
    show t.val / 16 * 1024 + q.val = win4_4.index t (1 : Fin 2) * 1024 + 1 * q.val
    omega
  rw [hcol]

/-- Every index of accumulator 4's array is in the block a last row tile writes back. -/
theorem cover4 (i : S1x2048.Idx) :
    ∃ t : Fin cfg4.N, (cfg4.win 4).flush t = true ∧ i ∈ ((cfg4.win 4).blk t).view.set := by
  have hi0 : (i 0).val < 1 := (i 0).isLt
  have hi1 : (i 1).val < 2048 := (i 1).isLt
  have hN : cfg4.N = 32 := N_4
  have hlt : (i 1).val / 1024 * 16 + 15 < cfg4.N := by rw [hN]; omega
  refine ⟨⟨(i 1).val / 1024 * 16 + 15, hlt⟩, (flush4_4 _).mpr (by show ((i 1).val / 1024 * 16 + 15) % 16 = 15; omega), ?_⟩
  rw [mem_blk4]
  obtain ⟨e00, e01, e10, e11, e20, e21, e30, e31, e40, e41, e50, e51⟩ := idx_facts ⟨(i 1).val / 1024 * 16 + 15, hlt⟩
  intro a
  match a with
  | ⟨0, _⟩ =>
    show win4_4.index _ (0 : Fin 2) * 1 ≤ (i 0).val ∧ (i 0).val < win4_4.index _ (0 : Fin 2) * 1 + 1
    rw [e40]; omega
  | ⟨1, _⟩ =>
    show win4_4.index _ (1 : Fin 2) * 1024 ≤ (i 1).val ∧ (i 1).val < win4_4.index _ (1 : Fin 2) * 1024 + 1024
    rw [e41]; show ((i 1).val / 1024 * 16 + 15) / 16 * 1024 ≤ (i 1).val ∧ (i 1).val < ((i 1).val / 1024 * 16 + 15) / 16 * 1024 + 1024; omega

/-- ACCUMULATOR 4'S ARRAY after the region: the column sums of `y`. -/
theorem final4 (c : Dev nD) : (dat4 V c).arrAt 4 cfg4.N = colSum (yOf (V c (Pipeline.arrRef spec4 0)) (V c (Pipeline.arrRef spec4 1)) (V c (Pipeline.arrRef spec4 2))) :=
  (dat4 V c).arrAt_eq_of_cover 4 _ (fun t hf => flushed4_eq V c t hf) (cover4)

/-! ## The running column sums of squares -/

/-- What accumulator 5's block holds at column `q` after row tile `n` of column tile `jt`. -/
def acc5 (c : Dev nD) (jt : Fin 2) (q : Fin 1024) (n : ℕ) : EReal :=
  if h : n < 16 then (outsAt4 V c (tOf jt n h).val (tOf jt n h).isLt).2.2 (ix2 (0 : Fin 1) q) else 0

set_option maxHeartbeats 1000000 in
theorem acc5_zero (c : Dev nD) (jt : Fin 2) (q : Fin 1024) :
    acc5 V c jt q 0 = 0 + ∑ p : Fin 512, yOf (V c (Pipeline.arrRef spec4 0)) (V c (Pipeline.arrRef spec4 1)) (V c (Pipeline.arrRef spec4 2)) (ix2 (ChunkSum.at_ hchunks ⟨0, Nat.succ_pos 15⟩ p) (⟨jt.val * 1024 + q.val, by have := jt.isLt; have := q.isLt; omega⟩ : Fin 2048)) * yOf (V c (Pipeline.arrRef spec4 0)) (V c (Pipeline.arrRef spec4 1)) (V c (Pipeline.arrRef spec4 2)) (ix2 (ChunkSum.at_ hchunks ⟨0, Nat.succ_pos 15⟩ p) (⟨jt.val * 1024 + q.val, by have := jt.isLt; have := q.isLt; omega⟩ : Fin 2048)) := by
  unfold acc5
  rw [dif_pos (by omega : 0 < 16)]
  have h0 : (tOf jt 0 (by omega)).val % 16 = 0 := by show (jt.val * 16 + 0) % 16 = 0; omega
  rw [outsAt4_A V c (tOf jt 0 (by omega)) h0]
  dsimp only
  rw [first_sumsq c (grid4.coords (tOf jt 0 (by omega))) (ms4_0 (tOf jt 0 (by omega))) (hs4_0 (tOf jt 0 (by omega))) (ms4_1 (tOf jt 0 (by omega))) (hs4_1 (tOf jt 0 (by omega))) (ms4_2 (tOf jt 0 (by omega))) (hs4_2 (tOf jt 0 (by omega))) (ms4_3 (tOf jt 0 (by omega))) (hs4_3 (tOf jt 0 (by omega))) (ms4_4 (tOf jt 0 (by omega))) (hs4_4 (tOf jt 0 (by omega))) (ms4_5 (tOf jt 0 (by omega))) (hs4_5 (tOf jt 0 (by omega))) (iblk4 V c 0 (tOf jt 0 (by omega))) (iblk4 V c 1 (tOf jt 0 (by omega))) (iblk4 V c 2 (tOf jt 0 (by omega))) ((hcond4_0 (tOf jt 0 (by omega))).mpr h0)]
  refine (sumsq_at _ _ _ _ q).trans ?_
  rw [zero_row_sumsq]
  refine congrArg (0 + ·) (Finset.sum_congr rfl fun p _ => ?_)
  rw [yblk_row V c jt 0 (by omega) p q]

set_option maxHeartbeats 1000000 in
theorem acc5_succ (c : Dev nD) (jt : Fin 2) (q : Fin 1024) (n : ℕ) (hn : n + 1 < 15 + 1) :
    acc5 V c jt q (n + 1) = acc5 V c jt q n + ∑ p : Fin 512, yOf (V c (Pipeline.arrRef spec4 0)) (V c (Pipeline.arrRef spec4 1)) (V c (Pipeline.arrRef spec4 2)) (ix2 (ChunkSum.at_ hchunks ⟨n + 1, hn⟩ p) (⟨jt.val * 1024 + q.val, by have := jt.isLt; have := q.isLt; omega⟩ : Fin 2048)) * yOf (V c (Pipeline.arrRef spec4 0)) (V c (Pipeline.arrRef spec4 1)) (V c (Pipeline.arrRef spec4 2)) (ix2 (ChunkSum.at_ hchunks ⟨n + 1, hn⟩ p) (⟨jt.val * 1024 + q.val, by have := jt.isLt; have := q.isLt; omega⟩ : Fin 2048)) := by
  have hn1 : n + 1 < 16 := hn
  have hn0 : n < 16 := by omega
  unfold acc5
  rw [dif_pos hn1, dif_pos hn0]
  have h0 : ¬(tOf jt (n + 1) hn1).val % 16 = 0 := by show ¬(jt.val * 16 + (n + 1)) % 16 = 0; omega
  rw [outsAt4_B V c (tOf jt (n + 1) hn1) h0]
  dsimp only
  rw [later_sumsq c (grid4.coords (tOf jt (n + 1) hn1)) (ms4_0 (tOf jt (n + 1) hn1)) (hs4_0 (tOf jt (n + 1) hn1)) (ms4_1 (tOf jt (n + 1) hn1)) (hs4_1 (tOf jt (n + 1) hn1)) (ms4_2 (tOf jt (n + 1) hn1)) (hs4_2 (tOf jt (n + 1) hn1)) (ms4_3 (tOf jt (n + 1) hn1)) (hs4_3 (tOf jt (n + 1) hn1)) (ms4_4 (tOf jt (n + 1) hn1)) (hs4_4 (tOf jt (n + 1) hn1)) (ms4_5 (tOf jt (n + 1) hn1)) (hs4_5 (tOf jt (n + 1) hn1)) (iblk4 V c 0 (tOf jt (n + 1) hn1)) (iblk4 V c 1 (tOf jt (n + 1) hn1)) (iblk4 V c 2 (tOf jt (n + 1) hn1)) _ _ (fun h => h0 ((hcond4_0 (tOf jt (n + 1) hn1)).mp h))]
  refine (sumsq_at _ _ _ _ q).trans ?_
  rw [outsAt_congr V c (show (tOf jt (n + 1) hn1).val - 1 = (tOf jt n hn0).val by show jt.val * 16 + (n + 1) - 1 = jt.val * 16 + n; omega) _ (tOf jt n hn0).isLt]
  refine congrArg (_ + ·) (Finset.sum_congr rfl fun p _ => ?_)
  rw [yblk_row V c jt (n + 1) hn1 p q]

/-- After the last row tile the accumulator holds the whole column's sum. -/
theorem acc5_last (c : Dev nD) (jt : Fin 2) (q : Fin 1024) :
    acc5 V c jt q 15 = ∑ r : Fin 8192, yOf (V c (Pipeline.arrRef spec4 0)) (V c (Pipeline.arrRef spec4 1)) (V c (Pipeline.arrRef spec4 2)) (ix2 r (⟨jt.val * 1024 + q.val, by have := jt.isLt; have := q.isLt; omega⟩ : Fin 2048)) * yOf (V c (Pipeline.arrRef spec4 0)) (V c (Pipeline.arrRef spec4 1)) (V c (Pipeline.arrRef spec4 2)) (ix2 r (⟨jt.val * 1024 + q.val, by have := jt.isLt; have := q.isLt; omega⟩ : Fin 2048)) :=
  ChunkSum.fold_chunks hchunks (fun r => yOf (V c (Pipeline.arrRef spec4 0)) (V c (Pipeline.arrRef spec4 1)) (V c (Pipeline.arrRef spec4 2)) (ix2 r (⟨jt.val * 1024 + q.val, by have := jt.isLt; have := q.isLt; omega⟩ : Fin 2048)) * yOf (V c (Pipeline.arrRef spec4 0)) (V c (Pipeline.arrRef spec4 1)) (V c (Pipeline.arrRef spec4 2)) (ix2 r (⟨jt.val * 1024 + q.val, by have := jt.isLt; have := q.isLt; omega⟩ : Fin 2048))) (acc5 V c jt q) (acc5_zero V c jt q) (acc5_succ V c jt q)

theorem mem_blk5 (t : Fin cfg4.N) (i : S1x2048.Idx) :
    i ∈ ((cfg4.win 5).blk t).view.set ↔ ∀ a : Fin 2, win4_5.index t a * S1x1024.size a ≤ (i a).val
      ∧ (i a).val < win4_5.index t a * S1x1024.size a + S1x1024.size a := by
  show i ∈ ((View.whole main_v62_2).slice (win4_5.rect t)).set ↔ _
  rw [View.set_slice_whole, Rect.mem_set_unit]
  exact Iff.rfl

set_option maxHeartbeats 1000000 in
/-- WHAT A LAST ROW TILE WRITES BACK of accumulator 5 is its block of the whole array's column sums of squares. -/
theorem flushed5_eq (c : Dev nD) (t : Fin cfg4.N) (hf : (cfg4.win 5).flush t = true) :
    (dat4 V c).flushed 5 t = ((cfg4.win 5).blk t).view.read (Elt Ideal) (colSumSq (yOf (V c (Pipeline.arrRef spec4 0)) (V c (Pipeline.arrRef spec4 1)) (V c (Pipeline.arrRef spec4 2)))) := by
  have hN : cfg4.N = 32 := N_4
  have ht : t.val < 32 := lt_of_lt_of_eq t.isLt hN
  have h31 : t.val % 16 = 15 := (flush4_5 t).mp hf
  obtain ⟨e00, e01, e10, e11, e20, e21, e30, e31, e40, e41, e50, e51⟩ := idx_facts t
  have hjt : t.val / 16 < 2 := by omega
  have htt : t = tOf ⟨t.val / 16, hjt⟩ 15 (by omega) := Fin.ext (by show t.val = t.val / 16 * 16 + 15; omega)
  show (cfg4.win 5).cut (grid4.coords t) ((dat4 V c).after 5 t) = _
  rw [after4_5]
  funext j
  obtain ⟨z, q, rfl⟩ : ∃ (z : Fin 1) (q : Fin 1024), j = ix2 z q := ⟨j 0, j 1, eq_ix2 j⟩
  obtain rfl : z = 0 := Subsingleton.elim _ _
  show (outsAt4 V c t.val t.isLt).2.2 (ix2 (0 : Fin 1) q) = colSumSq (yOf (V c (Pipeline.arrRef spec4 0)) (V c (Pipeline.arrRef spec4 1)) (V c (Pipeline.arrRef spec4 2))) (((cfg4.win 5).blk t).view.emb (ix2 (0 : Fin 1) q))
  have hacc : (outsAt4 V c t.val t.isLt).2.2 (ix2 (0 : Fin 1) q) = acc5 V c ⟨t.val / 16, hjt⟩ q 15 := by
    unfold acc5
    rw [dif_pos (by omega : 15 < 16)]
    rw [outsAt_congr V c (congrArg Fin.val htt) t.isLt (tOf ⟨t.val / 16, hjt⟩ 15 (by omega)).isLt]
  rw [hacc, acc5_last]
  unfold colSumSq
  refine Finset.sum_congr rfl fun r _ => ?_
  have hcol : (⟨(⟨t.val / 16, hjt⟩ : Fin 2).val * 1024 + q.val, by have := q.isLt; omega⟩ : Fin 2048)
      = ⟨((((cfg4.win 5).blk t).view.emb (ix2 (0 : Fin 1) q)) 1).val, idx2_lt1 _⟩ := by
    apply Fin.ext
    show t.val / 16 * 1024 + q.val = win4_5.index t (1 : Fin 2) * 1024 + 1 * q.val
    omega
  rw [hcol]

/-- Every index of accumulator 5's array is in the block a last row tile writes back. -/
theorem cover5 (i : S1x2048.Idx) :
    ∃ t : Fin cfg4.N, (cfg4.win 5).flush t = true ∧ i ∈ ((cfg4.win 5).blk t).view.set := by
  have hi0 : (i 0).val < 1 := (i 0).isLt
  have hi1 : (i 1).val < 2048 := (i 1).isLt
  have hN : cfg4.N = 32 := N_4
  have hlt : (i 1).val / 1024 * 16 + 15 < cfg4.N := by rw [hN]; omega
  refine ⟨⟨(i 1).val / 1024 * 16 + 15, hlt⟩, (flush4_5 _).mpr (by show ((i 1).val / 1024 * 16 + 15) % 16 = 15; omega), ?_⟩
  rw [mem_blk5]
  obtain ⟨e00, e01, e10, e11, e20, e21, e30, e31, e40, e41, e50, e51⟩ := idx_facts ⟨(i 1).val / 1024 * 16 + 15, hlt⟩
  intro a
  match a with
  | ⟨0, _⟩ =>
    show win4_5.index _ (0 : Fin 2) * 1 ≤ (i 0).val ∧ (i 0).val < win4_5.index _ (0 : Fin 2) * 1 + 1
    rw [e50]; omega
  | ⟨1, _⟩ =>
    show win4_5.index _ (1 : Fin 2) * 1024 ≤ (i 1).val ∧ (i 1).val < win4_5.index _ (1 : Fin 2) * 1024 + 1024
    rw [e51]; show ((i 1).val / 1024 * 16 + 15) / 16 * 1024 ≤ (i 1).val ∧ (i 1).val < ((i 1).val / 1024 * 16 + 15) / 16 * 1024 + 1024; omega

/-- ACCUMULATOR 5'S ARRAY after the region: the column sums of squares of `y`. -/
theorem final5 (c : Dev nD) : (dat4 V c).arrAt 5 cfg4.N = colSumSq (yOf (V c (Pipeline.arrRef spec4 0)) (V c (Pipeline.arrRef spec4 1)) (V c (Pipeline.arrRef spec4 2))) :=
  (dat4 V c).arrAt_eq_of_cover 5 _ (fun t hf => flushed5_eq V c t hf) (cover5)

end Cert.KernelIdeal.Stats4

end
-- ==== Proof.StatsPieces6.lean ====
/-
  Region 6 of the idealized kernel: what one run of the matmul-and-column-statistics body leaves in its three output
  blocks, as pure functions of the blocks it loads.

  At a point whose row-tile coordinate is 0 the body first stores zeros into the two accumulator blocks; at every point
  it then adds the block's column sums (of `y = x · w + b` and of `y · y`) onto what the accumulators hold and stores
  `y`. So the `y` block ends at the body's product-plus-bias term; the accumulators end at `0-row + column sums` at a
  first point and at `previous contents + column sums` at any other.
-/
import proofs.«152490_j70686571758165_2_alg».proof.Proof.Gen.KernelIdeal.Frame
import Idealize.ShloMosaic.Lib.Pipeline.Value

set_option maxRecDepth 16384

noncomputable section

namespace Cert.KernelIdeal.Stats6

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

section Pieces

variable (c : Dev nD) (i : grid6.Coords) (arg2 : Memref sig .tc .vmem S512x2048 .bf16) (harg2 : arg2.IsWhole)
  (arg3 : Memref sig .tc .vmem S2048x1024 .bf16) (harg3 : arg3.IsWhole)
  (arg4 : Memref sig .tc .vmem S1x1024 .f32) (harg4 : arg4.IsWhole)
  (arg5 : Memref sig .tc .vmem S512x1024 .bf16) (harg5 : arg5.IsWhole)
  (arg6 : Memref sig .tc .vmem S1x1024 .f32) (harg6 : arg6.IsWhole)
  (arg7 : Memref sig .tc .vmem S1x1024 .f32) (harg7 : arg7.IsWhole)
  (x0 : Vec F S512x2048 .bf16) (x1 : Vec F S2048x1024 .bf16) (x2 : Vec F S1x1024 .f32)

set_option maxHeartbeats 1000000 in
/-- First point of a column tile: the `y` block. -/
theorem first_y (hc0 : cond6_0 i) :
    out6_A_3 c i arg2 harg2 arg3 harg3 arg4 harg4 arg5 harg5 arg6 harg6 arg7 harg7 hc0 x0 x1 x2 = k6_pay6 x0 x1 x2 := by
  unfold out6_A_3
  rw [View.read_writes_eq_canon _ _ _ (cover6_A_3 c i arg2 harg2 arg3 harg3 arg4 harg4 arg5 harg5 arg6 harg6 arg7 harg7 hc0 x0 x1 x2)]
  unfold kernelRun6_A
  dsimp only
  sl_unfold_words
  rw [View.canon_unit_zero hz]
  simp only [View.readAt_eq_ld, harg2.read_unread, harg3.read_unread, harg4.read_unread,
    View.ld_unit_zero (S := S512x2048) hz, View.ld_unit_zero (S := S2048x1024) hz, View.ld_unit_zero (S := S1x1024) hz]

set_option maxHeartbeats 1000000 in
/-- First point of a column tile: the running column sums start from the zero row. -/
theorem first_sum (hc0 : cond6_0 i) :
    out6_A_4 c i arg2 harg2 arg3 harg3 arg4 harg4 arg5 harg5 arg6 harg6 arg7 harg7 hc0 x0 x1 x2 = k6_pay4 x0 x1 x2 k6_pay2 := by
  unfold out6_A_4
  rw [View.read_writes_eq_canon _ _ _ (cover6_A_4 c i arg2 harg2 arg3 harg3 arg4 harg4 arg5 harg5 arg6 harg6 arg7 harg7 hc0 x0 x1 x2)]
  unfold kernelRun6_A
  dsimp only
  sl_unfold_words
  rw [View.canon_cons_unit_zero hz]
  simp only [View.readAt_eq_ld, harg2.read_unread, harg3.read_unread, harg4.read_unread,
    View.ld_unit_zero (S := S512x2048) hz, View.ld_unit_zero (S := S2048x1024) hz, View.ld_unit_zero (S := S1x1024) hz]
  rw [View.readCov_unit_zero _ hz]

set_option maxHeartbeats 1000000 in
/-- First point of a column tile: the running column sums of squares start from the zero row. -/
theorem first_sumsq (hc0 : cond6_0 i) :
    out6_A_5 c i arg2 harg2 arg3 harg3 arg4 harg4 arg5 harg5 arg6 harg6 arg7 harg7 hc0 x0 x1 x2 = k6_pay5 x0 x1 x2 k6_pay3 := by
  unfold out6_A_5
  rw [View.read_writes_eq_canon _ _ _ (cover6_A_5 c i arg2 harg2 arg3 harg3 arg4 harg4 arg5 harg5 arg6 harg6 arg7 harg7 hc0 x0 x1 x2)]
  unfold kernelRun6_A
  dsimp only
  sl_unfold_words
  rw [View.canon_cons_unit_zero hz]
  simp only [View.readAt_eq_ld, harg2.read_unread, harg3.read_unread, harg4.read_unread,
    View.ld_unit_zero (S := S512x2048) hz, View.ld_unit_zero (S := S2048x1024) hz, View.ld_unit_zero (S := S1x1024) hz]
  rw [View.readCov_unit_zero _ hz]

variable (x4 x5 : Vec F S1x1024 .f32)

set_option maxHeartbeats 1000000 in
/-- A later point: the `y` block. -/
theorem later_y (hc0 : ¬cond6_0 i) :
    out6_B_3 c i arg2 harg2 arg3 harg3 arg4 harg4 arg5 harg5 arg6 harg6 arg7 harg7 hc0 x0 x1 x2 x4 x5 = k6_pay6 x0 x1 x2 := by
  unfold out6_B_3
  rw [View.read_writes_eq_canon _ _ _ (cover6_B_3 c i arg2 harg2 arg3 harg3 arg4 harg4 arg5 harg5 arg6 harg6 arg7 harg7 hc0 x0 x1 x2 x4 x5)]
  unfold kernelRun6_B
  dsimp only
  sl_unfold_words
  rw [View.canon_unit_zero hz]
  simp only [View.readAt_eq_ld, harg2.read_unread, harg3.read_unread, harg4.read_unread,
    View.ld_unit_zero (S := S512x2048) hz, View.ld_unit_zero (S := S2048x1024) hz, View.ld_unit_zero (S := S1x1024) hz]

set_option maxHeartbeats 1000000 in
/-- A later point: the column sums are added onto what the accumulator held. -/
theorem later_sum (hc0 : ¬cond6_0 i) :
    out6_B_4 c i arg2 harg2 arg3 harg3 arg4 harg4 arg5 harg5 arg6 harg6 arg7 harg7 hc0 x0 x1 x2 x4 x5 = k6_pay4 x0 x1 x2 x4 := by
  unfold out6_B_4
  rw [View.read_writes_eq_canon _ _ _ (cover6_B_4 c i arg2 harg2 arg3 harg3 arg4 harg4 arg5 harg5 arg6 harg6 arg7 harg7 hc0 x0 x1 x2 x4 x5)]
  unfold kernelRun6_B
  dsimp only
  sl_unfold_words
  rw [View.canon_unit_zero hz]
  simp only [View.readAt_eq_ld, harg2.read_unread, harg3.read_unread, harg4.read_unread, harg6.read_unread,
    View.ld_unit_zero (S := S512x2048) hz, View.ld_unit_zero (S := S2048x1024) hz, View.ld_unit_zero (S := S1x1024) hz]

set_option maxHeartbeats 1000000 in
/-- A later point: the column sums of squares are added onto what the accumulator held. -/
theorem later_sumsq (hc0 : ¬cond6_0 i) :
    out6_B_5 c i arg2 harg2 arg3 harg3 arg4 harg4 arg5 harg5 arg6 harg6 arg7 harg7 hc0 x0 x1 x2 x4 x5 = k6_pay5 x0 x1 x2 x5 := by
  unfold out6_B_5
  rw [View.read_writes_eq_canon _ _ _ (cover6_B_5 c i arg2 harg2 arg3 harg3 arg4 harg4 arg5 harg5 arg6 harg6 arg7 harg7 hc0 x0 x1 x2 x4 x5)]
  unfold kernelRun6_B
  dsimp only
  sl_unfold_words
  rw [View.canon_unit_zero hz]
  simp only [View.readAt_eq_ld, harg2.read_unread, harg3.read_unread, harg4.read_unread, harg7.read_unread,
    View.ld_unit_zero (S := S512x2048) hz, View.ld_unit_zero (S := S2048x1024) hz, View.ld_unit_zero (S := S1x1024) hz]

end Pieces

end Cert.KernelIdeal.Stats6

end
-- ==== Proof.StatsAt6.lean ====
/-
  Region 6 of the idealized kernel (a matrix product plus bias, with running column sums): the body's three stored
  values read at an index, and the blocks of a grid point read off the whole arrays.

  Grid point `t` is column tile `t / 16` (1024 columns) and row tile `t % 16` (512 rows). Its `y` block is the product
  of the row tile of `x` (all 2048 columns) with the column tile of `w`, plus the bias row's tile: entry `(p, q)` is
  `∑ k, x (row, k) · w (k, col) + b (0, col)` at the array's row `512 · (t % 16) + p` and column `1024 · (t / 16) + q`.
  Its column sums are `∑ p` of that over the tile's 512 rows (and of its squares), added onto what the accumulator holds.
-/
import proofs.«152490_j70686571758165_2_alg».proof.Proof.StatsPieces6
import proofs.«152490_j70686571758165_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Stats6

open Idealize.ShloMosaic Idealize.ShloMosaic.TcCoe Idealize.SL.Sem Idealize.ShloMosaic.ValueIdx
open Cert.KernelIdeal Cert.KernelIdeal.Gen Cert.Dense

/-- The bias row's index under an entry of the `y` array: row 0, the entry's column. -/
abbrev under (i : S8192x2048.Idx) : S1x2048.Idx := ix2 (0 : Fin 1) (⟨(i 1).val, idx2_lt1 i⟩ : Fin 2048)

/-- `y = x · w + b` on the whole arrays, index by index. -/
def yOf (x : S8192x2048.Idx → EReal) (w : S2048x2048.Idx → EReal) (b : S1x2048.Idx → EReal) : S8192x2048.Idx → EReal :=
  fun i => rowsTimes x w i + b (under i)

/-- The column sums of `y`, as a 1×2048 row. -/
def colSum (y : S8192x2048.Idx → EReal) : S1x2048.Idx → EReal :=
  fun i => ∑ r : Fin 8192, y (ix2 r (⟨(i 1).val, idx2_lt1 i⟩ : Fin 2048))

/-- The column sums of `y · y`, as a 1×2048 row. -/
def colSumSq (y : S8192x2048.Idx → EReal) : S1x2048.Idx → EReal :=
  fun i => ∑ r : Fin 8192, y (ix2 r (⟨(i 1).val, idx2_lt1 i⟩ : Fin 2048)) * y (ix2 r (⟨(i 1).val, idx2_lt1 i⟩ : Fin 2048))

/-! ## The body's values at an index -/

/-- The product-plus-bias block at `(p, q)` (the operands' float formats do not matter on the extended reals). -/
theorem y_at (x0 : FVec Ideal S512x2048 .bf16) (x1 : FVec Ideal S2048x1024 .bf16) (x2 : FVec Ideal S1x1024 .f32)
    (p : Fin 512) (q : Fin 1024) :
    k6_pay1 (F := Ideal) x0 x1 x2 (ix2 p q) = rowsTimes x0 x1 (ix2 p q) + x2 (ix2 (0 : Fin 1) q) := by
  unfold k6_pay1
  simp only [shapeCast_self]
  rw [addf_apply, broadcastTo_1b_ab_apply]
  refine congrArg (· + x2 (ix2 (0 : Fin 1) q)) ?_
  exact congrFun (matmul_zero_of_plain dot_S512x2048_S2048x1024_S512x1024_1_0_0_1_n_n rfl none _ x1) (ix2 p q)

/-- A sum over the rows of a two-axis block, read at column `q`. -/
theorem rowsSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) := by
  refine (Ideal.multiReduction_add_single src 0x00000000#32 h hφ hacc (ix1 q)).trans ?_
  refine Finset.sum_congr rfl fun p _ => congrArg src ?_
  funext cc; apply Fin.ext
  match cc with
  | ⟨0, _⟩ => rfl
  | ⟨1, _⟩ => rfl

/-- The running column sums after the body: what the accumulator held plus the block's column sums. -/
theorem sum_at (x0 : FVec Ideal S512x2048 .bf16) (x1 : FVec Ideal S2048x1024 .bf16) (x2 : FVec Ideal S1x1024 .f32)
    (v : FVec Ideal S1x1024 .f32) (q : Fin 1024) :
    k6_pay4 (F := Ideal) x0 x1 x2 v (ix2 (0 : Fin 1) q)
      = v (ix2 (0 : Fin 1) q) + ∑ p : Fin 512, k6_pay1 (F := Ideal) x0 x1 x2 (ix2 p q) := by
  unfold k6_pay4
  simp only [shapeCast_self]
  rw [addf_apply, shapeCast_a_1a_apply]
  exact congrArg (v (ix2 (0 : Fin 1) q) + ·) (rowsSum_apply _ _ _ _ q)

/-- The running column sums of squares after the body. -/
theorem sumsq_at (x0 : FVec Ideal S512x2048 .bf16) (x1 : FVec Ideal S2048x1024 .bf16) (x2 : FVec Ideal S1x1024 .f32)
    (v : FVec Ideal S1x1024 .f32) (q : Fin 1024) :
    k6_pay5 (F := Ideal) x0 x1 x2 v (ix2 (0 : Fin 1) q)
      = v (ix2 (0 : Fin 1) q) + ∑ p : Fin 512, k6_pay1 (F := Ideal) x0 x1 x2 (ix2 p q) * k6_pay1 (F := Ideal) x0 x1 x2 (ix2 p q) := by
  unfold k6_pay5
  simp only [shapeCast_self]
  rw [addf_apply, shapeCast_a_1a_apply]
  refine congrArg (v (ix2 (0 : Fin 1) q) + ·) ((rowsSum_apply _ _ _ _ q).trans ?_)
  rfl

/-- The zero rows the accumulators start from are the extended real 0. -/
theorem zero_row_sum (q : Fin 1024) : k6_pay2 (F := Ideal) (ix2 (0 : Fin 1) q) = 0 := by
  unfold k6_pay2; exact Ideal.ofBits_zero_f32
theorem zero_row_sumsq (q : Fin 1024) : k6_pay3 (F := Ideal) (ix2 (0 : Fin 1) q) = 0 := by
  unfold k6_pay3; exact Ideal.ofBits_zero_f32

end Cert.KernelIdeal.Stats6

end
-- ==== Proof.StatsValue6.lean ====
/-
  Region 6 of the idealized kernel: its three output arrays after the region, as functions of the arrays it finds.

  The `y` array is written one block per grid point and the blocks tile it, so it ends at `x · w + b`. An accumulator's
  block for column tile `jt` stays in its staging buffer over the 16 row tiles of that column tile: the first one
  starts it from the zero row, each adds its 512 rows' column sums, and only the last one writes it back — by then it
  is the sum over all 16 · 512 = 8192 rows. So the two accumulator arrays end at the column sums of `y` and of `y · y`.
-/
import proofs.«152490_j70686571758165_2_alg».proof.Proof.StatsAt6
import proofs.«152490_j70686571758165_2_alg».proof.Proof.LibChunkFold

set_option maxRecDepth 16384

noncomputable section

namespace Cert.KernelIdeal.Stats6

open Idealize.ShloMosaic Idealize.ShloMosaic.TcCoe Idealize.SL.Sem Idealize.ShloMosaic.ValueIdx
open Idealize.ShloMosaic.Pipeline (Dat)
open Cert.KernelIdeal Cert.KernelIdeal.Gen Cert.Dense

variable (V : (c : Dev nD) → (b : Ref sig .tc) → Buf (Elt Ideal) ((c : Thread nD τ).loc b))

/-- The printed index maps over the grid: row tile `t % 16`, column tile `t / 16`. -/
theorem idx_facts : ∀ t : Fin cfg6.N,
    win6_0.index t (0 : Fin 2) = t.val % 16 ∧ win6_0.index t (1 : Fin 2) = 0
    ∧ win6_1.index t (0 : Fin 2) = 0 ∧ win6_1.index t (1 : Fin 2) = t.val / 16
    ∧ win6_2.index t (0 : Fin 2) = 0 ∧ win6_2.index t (1 : Fin 2) = t.val / 16
    ∧ win6_3.index t (0 : Fin 2) = t.val % 16 ∧ win6_3.index t (1 : Fin 2) = t.val / 16
    ∧ win6_4.index t (0 : Fin 2) = 0 ∧ win6_4.index t (1 : Fin 2) = t.val / 16
    ∧ win6_5.index t (0 : Fin 2) = 0 ∧ win6_5.index t (1 : Fin 2) = t.val / 16 :=
  (by decide +kernel : ∀ t : Fin grid6.N, _)

set_option maxHeartbeats 1000000 in
/-- The body's product-plus-bias block at point `t`, entry `(p, q)`, is `y` of the whole arrays at the entry's place. -/
theorem yblk_eq (c : Dev nD) (t : Fin cfg6.N) (p : Fin 512) (q : Fin 1024) :
    k6_pay1 (F := Ideal) (iblk6 V c 0 t) (iblk6 V c 1 t) (iblk6 V c 2 t) (ix2 p q)
      = yOf (V c (Pipeline.arrRef spec6 0)) (V c (Pipeline.arrRef spec6 1)) (V c (Pipeline.arrRef spec6 2)) (((cfg6.win 3).blk t).view.emb (ix2 p q)) := by
  obtain ⟨e00, e01, e10, e11, e20, e21, e30, e31, e40, e41, e50, e51⟩ := idx_facts t
  refine (y_at (iblk6 V c 0 t) (iblk6 V c 1 t) (iblk6 V c 2 t) p q).trans ?_
  unfold yOf
  have hp : p.val < 512 := p.isLt
  have hq : q.val < 1024 := q.isLt
  have hrt : rowsTimes (iblk6 V c 0 t) (iblk6 V c 1 t) (ix2 p q)
      = rowsTimes (V c (Pipeline.arrRef spec6 0)) (V c (Pipeline.arrRef spec6 1)) (((cfg6.win 3).blk t).view.emb (ix2 p q)) := by
    refine rowsTimes_of_rows _ _ _ _ _ _ (fun kk => ?_) (fun kk => ?_)
    · show V c (Pipeline.arrRef spec6 0) (((cfg6.win 0).blk t).view.emb (ix2 p kk)) = _
      refine congrArg (V c (Pipeline.arrRef spec6 0)) ?_
      funext a; apply Fin.ext
      match a with
      | ⟨0, _⟩ => show win6_0.index t (0 : Fin 2) * 512 + 1 * p.val = win6_3.index t (0 : Fin 2) * 512 + 1 * p.val; omega
      | ⟨1, _⟩ => show win6_0.index t (1 : Fin 2) * 2048 + 1 * kk.val = kk.val; omega
    · show V c (Pipeline.arrRef spec6 1) (((cfg6.win 1).blk t).view.emb (ix2 kk q)) = _
      refine congrArg (V c (Pipeline.arrRef spec6 1)) ?_
      funext a; apply Fin.ext
      match a with
      | ⟨0, _⟩ => show win6_1.index t (0 : Fin 2) * 2048 + 1 * kk.val = kk.val; omega
      | ⟨1, _⟩ => show win6_1.index t (1 : Fin 2) * 1024 + 1 * q.val = win6_3.index t (1 : Fin 2) * 1024 + 1 * q.val; omega
  have hb : iblk6 V c 2 t (ix2 (0 : Fin 1) q)
      = V c (Pipeline.arrRef spec6 2) (under (((cfg6.win 3).blk t).view.emb (ix2 p q))) := by
    show V c (Pipeline.arrRef spec6 2) (((cfg6.win 2).blk t).view.emb (ix2 (0 : Fin 1) q)) = _
    refine congrArg (V c (Pipeline.arrRef spec6 2)) ?_
    funext a; apply Fin.ext
    match a with
    | ⟨0, _⟩ => show win6_2.index t (0 : Fin 2) * 1 + 1 * 0 = 0; omega
    | ⟨1, _⟩ => show win6_2.index t (1 : Fin 2) * 1024 + 1 * q.val = win6_3.index t (1 : Fin 2) * 1024 + 1 * q.val; omega
  rw [hrt, hb]

/-! ## The `y` array -/

theorem mem_blk3 (t : Fin cfg6.N) (i : S8192x2048.Idx) :
    i ∈ ((cfg6.win 3).blk t).view.set ↔ ∀ a : Fin 2, win6_3.index t a * S512x1024.size a ≤ (i a).val
      ∧ (i a).val < win6_3.index t a * S512x1024.size a + S512x1024.size a := by
  show i ∈ ((View.whole main_v83_0).slice (win6_3.rect t)).set ↔ _
  rw [View.set_slice_whole, Rect.mem_set_unit]
  exact Iff.rfl

set_option maxHeartbeats 1000000 in
/-- WHAT POINT `t` WRITES BACK of `y` is block `t` of `x · w + b` (a change of float format is the identity). -/
theorem flushed3_eq (c : Dev nD) (t : Fin cfg6.N) :
    (dat6 V c).flushed 3 t = ((cfg6.win 3).blk t).view.read (Elt Ideal) (yOf (V c (Pipeline.arrRef spec6 0)) (V c (Pipeline.arrRef spec6 1)) (V c (Pipeline.arrRef spec6 2))) := by
  show (cfg6.win 3).cut (grid6.coords t) ((dat6 V c).after 3 t) = _
  rw [after6_3]
  funext j
  obtain ⟨p, q, rfl⟩ : ∃ (p : Fin 512) (q : Fin 1024), j = ix2 p q := ⟨j 0, j 1, eq_ix2 j⟩
  show (outsAt6 V c t.val t.isLt).1 (ix2 p q) = yOf (V c (Pipeline.arrRef spec6 0)) (V c (Pipeline.arrRef spec6 1)) (V c (Pipeline.arrRef spec6 2)) (((cfg6.win 3).blk t).view.emb (ix2 p q))
  by_cases h0 : t.val % 16 = 0
  · rw [outsAt6_A V c t h0]
    dsimp only
    rw [first_y c (grid6.coords t) (ms6_0 t) (hs6_0 t) (ms6_1 t) (hs6_1 t) (ms6_2 t) (hs6_2 t) (ms6_3 t) (hs6_3 t) (ms6_4 t) (hs6_4 t) (ms6_5 t) (hs6_5 t) (iblk6 V c 0 t) (iblk6 V c 1 t) (iblk6 V c 2 t) ((hcond6_0 t).mpr h0)]
    exact yblk_eq V c t p q
  · rw [outsAt6_B V c t h0]
    dsimp only
    rw [later_y c (grid6.coords t) (ms6_0 t) (hs6_0 t) (ms6_1 t) (hs6_1 t) (ms6_2 t) (hs6_2 t) (ms6_3 t) (hs6_3 t) (ms6_4 t) (hs6_4 t) (ms6_5 t) (hs6_5 t) (iblk6 V c 0 t) (iblk6 V c 1 t) (iblk6 V c 2 t) _ _ (fun h => h0 ((hcond6_0 t).mp h))]
    exact yblk_eq V c t p q

/-- Every index of `y` is in some point's block. -/
theorem cover3 (i : S8192x2048.Idx) :
    ∃ t : Fin cfg6.N, (cfg6.win 3).flush t = true ∧ i ∈ ((cfg6.win 3).blk t).view.set := by
  have hi0 : (i 0).val < 8192 := (i 0).isLt
  have hi1 : (i 1).val < 2048 := (i 1).isLt
  have hN : cfg6.N = 32 := N_6
  have hlt : (i 1).val / 1024 * 16 + (i 0).val / 512 < cfg6.N := by rw [hN]; omega
  refine ⟨⟨(i 1).val / 1024 * 16 + (i 0).val / 512, hlt⟩, flush6_3 _, ?_⟩
  rw [mem_blk3]
  obtain ⟨e00, e01, e10, e11, e20, e21, e30, e31, e40, e41, e50, e51⟩ := idx_facts ⟨(i 1).val / 1024 * 16 + (i 0).val / 512, hlt⟩
  intro a
  match a with
  | ⟨0, _⟩ =>
    show win6_3.index _ (0 : Fin 2) * 512 ≤ (i 0).val ∧ (i 0).val < win6_3.index _ (0 : Fin 2) * 512 + 512
    rw [e30]; show ((i 1).val / 1024 * 16 + (i 0).val / 512) % 16 * 512 ≤ (i 0).val ∧ (i 0).val < ((i 1).val / 1024 * 16 + (i 0).val / 512) % 16 * 512 + 512; omega
  | ⟨1, _⟩ =>
    show win6_3.index _ (1 : Fin 2) * 1024 ≤ (i 1).val ∧ (i 1).val < win6_3.index _ (1 : Fin 2) * 1024 + 1024
    rw [e31]; show ((i 1).val / 1024 * 16 + (i 0).val / 512) / 16 * 1024 ≤ (i 1).val ∧ (i 1).val < ((i 1).val / 1024 * 16 + (i 0).val / 512) / 16 * 1024 + 1024; omega

/-- THE `y` ARRAY after the region. -/
theorem final3 (c : Dev nD) : (dat6 V c).arrAt 3 cfg6.N = yOf (V c (Pipeline.arrRef spec6 0)) (V c (Pipeline.arrRef spec6 1)) (V c (Pipeline.arrRef spec6 2)) :=
  (dat6 V c).arrAt_eq_of_cover 3 _ (fun t _ => flushed3_eq V c t) (cover3)

/-! ## The accumulators: one column tile's 16 row tiles -/

/-- Row tile `n` of column tile `jt`, as a grid point. -/
def tOf (jt : Fin 2) (n : ℕ) (h : n < 16) : Fin cfg6.N :=
  ⟨jt.val * 16 + n, by have := jt.isLt; rw [show cfg6.N = 32 from N_6]; omega⟩

theorem hchunks : (15 + 1) * 512 = 8192 := by norm_num

/-- The accumulation's value depends on the point's number only. -/
theorem outsAt_congr (c : Dev nD) {a b : ℕ} (e : a = b) (ha : a < cfg6.N) (hb : b < cfg6.N) :
    outsAt6 V c a ha = outsAt6 V c b hb := by subst e; rfl

/-- The output block's entry `(p, q)` at row tile `n` of column tile `jt` is the array's row `n · 512 + p`, column
    `jt · 1024 + q`. -/
theorem emb_y (c : Dev nD) (jt : Fin 2) (n : ℕ) (h : n < 16) (p : Fin 512) (q : Fin 1024) :
    ((cfg6.win 3).blk (tOf jt n h)).view.emb (ix2 p q)
      = ix2 (ChunkSum.at_ hchunks ⟨n, h⟩ p) (⟨jt.val * 1024 + q.val, by have := jt.isLt; have := q.isLt; omega⟩ : Fin 2048) := by
  obtain ⟨e00, e01, e10, e11, e20, e21, e30, e31, e40, e41, e50, e51⟩ := idx_facts (tOf jt n h)
  have hj : jt.val < 2 := jt.isLt
  have hv : (tOf jt n h).val = jt.val * 16 + n := rfl
  funext a; apply Fin.ext
  match a with
  | ⟨0, _⟩ => show win6_3.index (tOf jt n h) (0 : Fin 2) * 512 + 1 * p.val = n * 512 + p.val; rw [e30, hv]; omega
  | ⟨1, _⟩ => show win6_3.index (tOf jt n h) (1 : Fin 2) * 1024 + 1 * q.val = jt.val * 1024 + q.val; rw [e31, hv]; omega

/-- The body's product-plus-bias block at row tile `n` of column tile `jt`, entry `(p, q)`: `y` at the array's row
    `n · 512 + p` and column `jt · 1024 + q`. -/
theorem yblk_row (c : Dev nD) (jt : Fin 2) (n : ℕ) (h : n < 16) (p : Fin 512) (q : Fin 1024) :
    k6_pay1 (F := Ideal) (iblk6 V c 0 (tOf jt n h)) (iblk6 V c 1 (tOf jt n h)) (iblk6 V c 2 (tOf jt n h)) (ix2 p q)
      = yOf (V c (Pipeline.arrRef spec6 0)) (V c (Pipeline.arrRef spec6 1)) (V c (Pipeline.arrRef spec6 2)) (ix2 (ChunkSum.at_ hchunks ⟨n, h⟩ p)
          (⟨jt.val * 1024 + q.val, by have := jt.isLt; have := q.isLt; omega⟩ : Fin 2048)) :=
  (yblk_eq V c (tOf jt n h) p q).trans (congrArg (yOf (V c (Pipeline.arrRef spec6 0)) (V c (Pipeline.arrRef spec6 1)) (V c (Pipeline.arrRef spec6 2))) (emb_y c jt n h p q))

/-! ## The running column sums -/

/-- What accumulator 4's block holds at column `q` after row tile `n` of column tile `jt`. -/
def acc4 (c : Dev nD) (jt : Fin 2) (q : Fin 1024) (n : ℕ) : EReal :=
  if h : n < 16 then (outsAt6 V c (tOf jt n h).val (tOf jt n h).isLt).2.1 (ix2 (0 : Fin 1) q) else 0

set_option maxHeartbeats 1000000 in
theorem acc4_zero (c : Dev nD) (jt : Fin 2) (q : Fin 1024) :
    acc4 V c jt q 0 = 0 + ∑ p : Fin 512, yOf (V c (Pipeline.arrRef spec6 0)) (V c (Pipeline.arrRef spec6 1)) (V c (Pipeline.arrRef spec6 2)) (ix2 (ChunkSum.at_ hchunks ⟨0, Nat.succ_pos 15⟩ p) (⟨jt.val * 1024 + q.val, by have := jt.isLt; have := q.isLt; omega⟩ : Fin 2048)) := by
  unfold acc4
  rw [dif_pos (by omega : 0 < 16)]
  have h0 : (tOf jt 0 (by omega)).val % 16 = 0 := by show (jt.val * 16 + 0) % 16 = 0; omega
  rw [outsAt6_A V c (tOf jt 0 (by omega)) h0]
  dsimp only
  rw [first_sum c (grid6.coords (tOf jt 0 (by omega))) (ms6_0 (tOf jt 0 (by omega))) (hs6_0 (tOf jt 0 (by omega))) (ms6_1 (tOf jt 0 (by omega))) (hs6_1 (tOf jt 0 (by omega))) (ms6_2 (tOf jt 0 (by omega))) (hs6_2 (tOf jt 0 (by omega))) (ms6_3 (tOf jt 0 (by omega))) (hs6_3 (tOf jt 0 (by omega))) (ms6_4 (tOf jt 0 (by omega))) (hs6_4 (tOf jt 0 (by omega))) (ms6_5 (tOf jt 0 (by omega))) (hs6_5 (tOf jt 0 (by omega))) (iblk6 V c 0 (tOf jt 0 (by omega))) (iblk6 V c 1 (tOf jt 0 (by omega))) (iblk6 V c 2 (tOf jt 0 (by omega))) ((hcond6_0 (tOf jt 0 (by omega))).mpr h0)]
  refine (sum_at _ _ _ _ q).trans ?_
  rw [zero_row_sum]
  refine congrArg (0 + ·) (Finset.sum_congr rfl fun p _ => ?_)
  rw [yblk_row V c jt 0 (by omega) p q]

set_option maxHeartbeats 1000000 in
theorem acc4_succ (c : Dev nD) (jt : Fin 2) (q : Fin 1024) (n : ℕ) (hn : n + 1 < 15 + 1) :
    acc4 V c jt q (n + 1) = acc4 V c jt q n + ∑ p : Fin 512, yOf (V c (Pipeline.arrRef spec6 0)) (V c (Pipeline.arrRef spec6 1)) (V c (Pipeline.arrRef spec6 2)) (ix2 (ChunkSum.at_ hchunks ⟨n + 1, hn⟩ p) (⟨jt.val * 1024 + q.val, by have := jt.isLt; have := q.isLt; omega⟩ : Fin 2048)) := by
  have hn1 : n + 1 < 16 := hn
  have hn0 : n < 16 := by omega
  unfold acc4
  rw [dif_pos hn1, dif_pos hn0]
  have h0 : ¬(tOf jt (n + 1) hn1).val % 16 = 0 := by show ¬(jt.val * 16 + (n + 1)) % 16 = 0; omega
  rw [outsAt6_B V c (tOf jt (n + 1) hn1) h0]
  dsimp only
  rw [later_sum c (grid6.coords (tOf jt (n + 1) hn1)) (ms6_0 (tOf jt (n + 1) hn1)) (hs6_0 (tOf jt (n + 1) hn1)) (ms6_1 (tOf jt (n + 1) hn1)) (hs6_1 (tOf jt (n + 1) hn1)) (ms6_2 (tOf jt (n + 1) hn1)) (hs6_2 (tOf jt (n + 1) hn1)) (ms6_3 (tOf jt (n + 1) hn1)) (hs6_3 (tOf jt (n + 1) hn1)) (ms6_4 (tOf jt (n + 1) hn1)) (hs6_4 (tOf jt (n + 1) hn1)) (ms6_5 (tOf jt (n + 1) hn1)) (hs6_5 (tOf jt (n + 1) hn1)) (iblk6 V c 0 (tOf jt (n + 1) hn1)) (iblk6 V c 1 (tOf jt (n + 1) hn1)) (iblk6 V c 2 (tOf jt (n + 1) hn1)) _ _ (fun h => h0 ((hcond6_0 (tOf jt (n + 1) hn1)).mp h))]
  refine (sum_at _ _ _ _ q).trans ?_
  rw [outsAt_congr V c (show (tOf jt (n + 1) hn1).val - 1 = (tOf jt n hn0).val by show jt.val * 16 + (n + 1) - 1 = jt.val * 16 + n; omega) _ (tOf jt n hn0).isLt]
  refine congrArg (_ + ·) (Finset.sum_congr rfl fun p _ => ?_)
  rw [yblk_row V c jt (n + 1) hn1 p q]

/-- After the last row tile the accumulator holds the whole column's sum. -/
theorem acc4_last (c : Dev nD) (jt : Fin 2) (q : Fin 1024) :
    acc4 V c jt q 15 = ∑ r : Fin 8192, yOf (V c (Pipeline.arrRef spec6 0)) (V c (Pipeline.arrRef spec6 1)) (V c (Pipeline.arrRef spec6 2)) (ix2 r (⟨jt.val * 1024 + q.val, by have := jt.isLt; have := q.isLt; omega⟩ : Fin 2048)) :=
  ChunkSum.fold_chunks hchunks (fun r => yOf (V c (Pipeline.arrRef spec6 0)) (V c (Pipeline.arrRef spec6 1)) (V c (Pipeline.arrRef spec6 2)) (ix2 r (⟨jt.val * 1024 + q.val, by have := jt.isLt; have := q.isLt; omega⟩ : Fin 2048))) (acc4 V c jt q) (acc4_zero V c jt q) (acc4_succ V c jt q)

theorem mem_blk4 (t : Fin cfg6.N) (i : S1x2048.Idx) :
    i ∈ ((cfg6.win 4).blk t).view.set ↔ ∀ a : Fin 2, win6_4.index t a * S1x1024.size a ≤ (i a).val
      ∧ (i a).val < win6_4.index t a * S1x1024.size a + S1x1024.size a := by
  show i ∈ ((View.whole main_v83_1).slice (win6_4.rect t)).set ↔ _
  rw [View.set_slice_whole, Rect.mem_set_unit]
  exact Iff.rfl

set_option maxHeartbeats 1000000 in
/-- WHAT A LAST ROW TILE WRITES BACK of accumulator 4 is its block of the whole array's column sums. -/
theorem flushed4_eq (c : Dev nD) (t : Fin cfg6.N) (hf : (cfg6.win 4).flush t = true) :
    (dat6 V c).flushed 4 t = ((cfg6.win 4).blk t).view.read (Elt Ideal) (colSum (yOf (V c (Pipeline.arrRef spec6 0)) (V c (Pipeline.arrRef spec6 1)) (V c (Pipeline.arrRef spec6 2)))) := by
  have hN : cfg6.N = 32 := N_6
  have ht : t.val < 32 := lt_of_lt_of_eq t.isLt hN
  have h31 : t.val % 16 = 15 := (flush6_4 t).mp hf
  obtain ⟨e00, e01, e10, e11, e20, e21, e30, e31, e40, e41, e50, e51⟩ := idx_facts t
  have hjt : t.val / 16 < 2 := by omega
  have htt : t = tOf ⟨t.val / 16, hjt⟩ 15 (by omega) := Fin.ext (by show t.val = t.val / 16 * 16 + 15; omega)
  show (cfg6.win 4).cut (grid6.coords t) ((dat6 V c).after 4 t) = _
  rw [after6_4]
  funext j
  obtain ⟨z, q, rfl⟩ : ∃ (z : Fin 1) (q : Fin 1024), j = ix2 z q := ⟨j 0, j 1, eq_ix2 j⟩
  obtain rfl : z = 0 := Subsingleton.elim _ _
  show (outsAt6 V c t.val t.isLt).2.1 (ix2 (0 : Fin 1) q) = colSum (yOf (V c (Pipeline.arrRef spec6 0)) (V c (Pipeline.arrRef spec6 1)) (V c (Pipeline.arrRef spec6 2))) (((cfg6.win 4).blk t).view.emb (ix2 (0 : Fin 1) q))
  have hacc : (outsAt6 V c t.val t.isLt).2.1 (ix2 (0 : Fin 1) q) = acc4 V c ⟨t.val / 16, hjt⟩ q 15 := by
    unfold acc4
    rw [dif_pos (by omega : 15 < 16)]
    rw [outsAt_congr V c (congrArg Fin.val htt) t.isLt (tOf ⟨t.val / 16, hjt⟩ 15 (by omega)).isLt]
  rw [hacc, acc4_last]
  unfold colSum
  refine Finset.sum_congr rfl fun r _ => ?_
  have hcol : (⟨(⟨t.val / 16, hjt⟩ : Fin 2).val * 1024 + q.val, by have := q.isLt; omega⟩ : Fin 2048)
      = ⟨((((cfg6.win 4).blk t).view.emb (ix2 (0 : Fin 1) q)) 1).val, idx2_lt1 _⟩ := by
    apply Fin.ext
    show t.val / 16 * 1024 + q.val = win6_4.index t (1 : Fin 2) * 1024 + 1 * q.val
    omega
  rw [hcol]

/-- Every index of accumulator 4's array is in the block a last row tile writes back. -/
theorem cover4 (i : S1x2048.Idx) :
    ∃ t : Fin cfg6.N, (cfg6.win 4).flush t = true ∧ i ∈ ((cfg6.win 4).blk t).view.set := by
  have hi0 : (i 0).val < 1 := (i 0).isLt
  have hi1 : (i 1).val < 2048 := (i 1).isLt
  have hN : cfg6.N = 32 := N_6
  have hlt : (i 1).val / 1024 * 16 + 15 < cfg6.N := by rw [hN]; omega
  refine ⟨⟨(i 1).val / 1024 * 16 + 15, hlt⟩, (flush6_4 _).mpr (by show ((i 1).val / 1024 * 16 + 15) % 16 = 15; omega), ?_⟩
  rw [mem_blk4]
  obtain ⟨e00, e01, e10, e11, e20, e21, e30, e31, e40, e41, e50, e51⟩ := idx_facts ⟨(i 1).val / 1024 * 16 + 15, hlt⟩
  intro a
  match a with
  | ⟨0, _⟩ =>
    show win6_4.index _ (0 : Fin 2) * 1 ≤ (i 0).val ∧ (i 0).val < win6_4.index _ (0 : Fin 2) * 1 + 1
    rw [e40]; omega
  | ⟨1, _⟩ =>
    show win6_4.index _ (1 : Fin 2) * 1024 ≤ (i 1).val ∧ (i 1).val < win6_4.index _ (1 : Fin 2) * 1024 + 1024
    rw [e41]; show ((i 1).val / 1024 * 16 + 15) / 16 * 1024 ≤ (i 1).val ∧ (i 1).val < ((i 1).val / 1024 * 16 + 15) / 16 * 1024 + 1024; omega

/-- ACCUMULATOR 4'S ARRAY after the region: the column sums of `y`. -/
theorem final4 (c : Dev nD) : (dat6 V c).arrAt 4 cfg6.N = colSum (yOf (V c (Pipeline.arrRef spec6 0)) (V c (Pipeline.arrRef spec6 1)) (V c (Pipeline.arrRef spec6 2))) :=
  (dat6 V c).arrAt_eq_of_cover 4 _ (fun t hf => flushed4_eq V c t hf) (cover4)

/-! ## The running column sums of squares -/

/-- What accumulator 5's block holds at column `q` after row tile `n` of column tile `jt`. -/
def acc5 (c : Dev nD) (jt : Fin 2) (q : Fin 1024) (n : ℕ) : EReal :=
  if h : n < 16 then (outsAt6 V c (tOf jt n h).val (tOf jt n h).isLt).2.2 (ix2 (0 : Fin 1) q) else 0

set_option maxHeartbeats 1000000 in
theorem acc5_zero (c : Dev nD) (jt : Fin 2) (q : Fin 1024) :
    acc5 V c jt q 0 = 0 + ∑ p : Fin 512, yOf (V c (Pipeline.arrRef spec6 0)) (V c (Pipeline.arrRef spec6 1)) (V c (Pipeline.arrRef spec6 2)) (ix2 (ChunkSum.at_ hchunks ⟨0, Nat.succ_pos 15⟩ p) (⟨jt.val * 1024 + q.val, by have := jt.isLt; have := q.isLt; omega⟩ : Fin 2048)) * yOf (V c (Pipeline.arrRef spec6 0)) (V c (Pipeline.arrRef spec6 1)) (V c (Pipeline.arrRef spec6 2)) (ix2 (ChunkSum.at_ hchunks ⟨0, Nat.succ_pos 15⟩ p) (⟨jt.val * 1024 + q.val, by have := jt.isLt; have := q.isLt; omega⟩ : Fin 2048)) := by
  unfold acc5
  rw [dif_pos (by omega : 0 < 16)]
  have h0 : (tOf jt 0 (by omega)).val % 16 = 0 := by show (jt.val * 16 + 0) % 16 = 0; omega
  rw [outsAt6_A V c (tOf jt 0 (by omega)) h0]
  dsimp only
  rw [first_sumsq c (grid6.coords (tOf jt 0 (by omega))) (ms6_0 (tOf jt 0 (by omega))) (hs6_0 (tOf jt 0 (by omega))) (ms6_1 (tOf jt 0 (by omega))) (hs6_1 (tOf jt 0 (by omega))) (ms6_2 (tOf jt 0 (by omega))) (hs6_2 (tOf jt 0 (by omega))) (ms6_3 (tOf jt 0 (by omega))) (hs6_3 (tOf jt 0 (by omega))) (ms6_4 (tOf jt 0 (by omega))) (hs6_4 (tOf jt 0 (by omega))) (ms6_5 (tOf jt 0 (by omega))) (hs6_5 (tOf jt 0 (by omega))) (iblk6 V c 0 (tOf jt 0 (by omega))) (iblk6 V c 1 (tOf jt 0 (by omega))) (iblk6 V c 2 (tOf jt 0 (by omega))) ((hcond6_0 (tOf jt 0 (by omega))).mpr h0)]
  refine (sumsq_at _ _ _ _ q).trans ?_
  rw [zero_row_sumsq]
  refine congrArg (0 + ·) (Finset.sum_congr rfl fun p _ => ?_)
  rw [yblk_row V c jt 0 (by omega) p q]

set_option maxHeartbeats 1000000 in
theorem acc5_succ (c : Dev nD) (jt : Fin 2) (q : Fin 1024) (n : ℕ) (hn : n + 1 < 15 + 1) :
    acc5 V c jt q (n + 1) = acc5 V c jt q n + ∑ p : Fin 512, yOf (V c (Pipeline.arrRef spec6 0)) (V c (Pipeline.arrRef spec6 1)) (V c (Pipeline.arrRef spec6 2)) (ix2 (ChunkSum.at_ hchunks ⟨n + 1, hn⟩ p) (⟨jt.val * 1024 + q.val, by have := jt.isLt; have := q.isLt; omega⟩ : Fin 2048)) * yOf (V c (Pipeline.arrRef spec6 0)) (V c (Pipeline.arrRef spec6 1)) (V c (Pipeline.arrRef spec6 2)) (ix2 (ChunkSum.at_ hchunks ⟨n + 1, hn⟩ p) (⟨jt.val * 1024 + q.val, by have := jt.isLt; have := q.isLt; omega⟩ : Fin 2048)) := by
  have hn1 : n + 1 < 16 := hn
  have hn0 : n < 16 := by omega
  unfold acc5
  rw [dif_pos hn1, dif_pos hn0]
  have h0 : ¬(tOf jt (n + 1) hn1).val % 16 = 0 := by show ¬(jt.val * 16 + (n + 1)) % 16 = 0; omega
  rw [outsAt6_B V c (tOf jt (n + 1) hn1) h0]
  dsimp only
  rw [later_sumsq c (grid6.coords (tOf jt (n + 1) hn1)) (ms6_0 (tOf jt (n + 1) hn1)) (hs6_0 (tOf jt (n + 1) hn1)) (ms6_1 (tOf jt (n + 1) hn1)) (hs6_1 (tOf jt (n + 1) hn1)) (ms6_2 (tOf jt (n + 1) hn1)) (hs6_2 (tOf jt (n + 1) hn1)) (ms6_3 (tOf jt (n + 1) hn1)) (hs6_3 (tOf jt (n + 1) hn1)) (ms6_4 (tOf jt (n + 1) hn1)) (hs6_4 (tOf jt (n + 1) hn1)) (ms6_5 (tOf jt (n + 1) hn1)) (hs6_5 (tOf jt (n + 1) hn1)) (iblk6 V c 0 (tOf jt (n + 1) hn1)) (iblk6 V c 1 (tOf jt (n + 1) hn1)) (iblk6 V c 2 (tOf jt (n + 1) hn1)) _ _ (fun h => h0 ((hcond6_0 (tOf jt (n + 1) hn1)).mp h))]
  refine (sumsq_at _ _ _ _ q).trans ?_
  rw [outsAt_congr V c (show (tOf jt (n + 1) hn1).val - 1 = (tOf jt n hn0).val by show jt.val * 16 + (n + 1) - 1 = jt.val * 16 + n; omega) _ (tOf jt n hn0).isLt]
  refine congrArg (_ + ·) (Finset.sum_congr rfl fun p _ => ?_)
  rw [yblk_row V c jt (n + 1) hn1 p q]

/-- After the last row tile the accumulator holds the whole column's sum. -/
theorem acc5_last (c : Dev nD) (jt : Fin 2) (q : Fin 1024) :
    acc5 V c jt q 15 = ∑ r : Fin 8192, yOf (V c (Pipeline.arrRef spec6 0)) (V c (Pipeline.arrRef spec6 1)) (V c (Pipeline.arrRef spec6 2)) (ix2 r (⟨jt.val * 1024 + q.val, by have := jt.isLt; have := q.isLt; omega⟩ : Fin 2048)) * yOf (V c (Pipeline.arrRef spec6 0)) (V c (Pipeline.arrRef spec6 1)) (V c (Pipeline.arrRef spec6 2)) (ix2 r (⟨jt.val * 1024 + q.val, by have := jt.isLt; have := q.isLt; omega⟩ : Fin 2048)) :=
  ChunkSum.fold_chunks hchunks (fun r => yOf (V c (Pipeline.arrRef spec6 0)) (V c (Pipeline.arrRef spec6 1)) (V c (Pipeline.arrRef spec6 2)) (ix2 r (⟨jt.val * 1024 + q.val, by have := jt.isLt; have := q.isLt; omega⟩ : Fin 2048)) * yOf (V c (Pipeline.arrRef spec6 0)) (V c (Pipeline.arrRef spec6 1)) (V c (Pipeline.arrRef spec6 2)) (ix2 r (⟨jt.val * 1024 + q.val, by have := jt.isLt; have := q.isLt; omega⟩ : Fin 2048))) (acc5 V c jt q) (acc5_zero V c jt q) (acc5_succ V c jt q)

theorem mem_blk5 (t : Fin cfg6.N) (i : S1x2048.Idx) :
    i ∈ ((cfg6.win 5).blk t).view.set ↔ ∀ a : Fin 2, win6_5.index t a * S1x1024.size a ≤ (i a).val
      ∧ (i a).val < win6_5.index t a * S1x1024.size a + S1x1024.size a := by
  show i ∈ ((View.whole main_v83_2).slice (win6_5.rect t)).set ↔ _
  rw [View.set_slice_whole, Rect.mem_set_unit]
  exact Iff.rfl

set_option maxHeartbeats 1000000 in
/-- WHAT A LAST ROW TILE WRITES BACK of accumulator 5 is its block of the whole array's column sums of squares. -/
theorem flushed5_eq (c : Dev nD) (t : Fin cfg6.N) (hf : (cfg6.win 5).flush t = true) :
    (dat6 V c).flushed 5 t = ((cfg6.win 5).blk t).view.read (Elt Ideal) (colSumSq (yOf (V c (Pipeline.arrRef spec6 0)) (V c (Pipeline.arrRef spec6 1)) (V c (Pipeline.arrRef spec6 2)))) := by
  have hN : cfg6.N = 32 := N_6
  have ht : t.val < 32 := lt_of_lt_of_eq t.isLt hN
  have h31 : t.val % 16 = 15 := (flush6_5 t).mp hf
  obtain ⟨e00, e01, e10, e11, e20, e21, e30, e31, e40, e41, e50, e51⟩ := idx_facts t
  have hjt : t.val / 16 < 2 := by omega
  have htt : t = tOf ⟨t.val / 16, hjt⟩ 15 (by omega) := Fin.ext (by show t.val = t.val / 16 * 16 + 15; omega)
  show (cfg6.win 5).cut (grid6.coords t) ((dat6 V c).after 5 t) = _
  rw [after6_5]
  funext j
  obtain ⟨z, q, rfl⟩ : ∃ (z : Fin 1) (q : Fin 1024), j = ix2 z q := ⟨j 0, j 1, eq_ix2 j⟩
  obtain rfl : z = 0 := Subsingleton.elim _ _
  show (outsAt6 V c t.val t.isLt).2.2 (ix2 (0 : Fin 1) q) = colSumSq (yOf (V c (Pipeline.arrRef spec6 0)) (V c (Pipeline.arrRef spec6 1)) (V c (Pipeline.arrRef spec6 2))) (((cfg6.win 5).blk t).view.emb (ix2 (0 : Fin 1) q))
  have hacc : (outsAt6 V c t.val t.isLt).2.2 (ix2 (0 : Fin 1) q) = acc5 V c ⟨t.val / 16, hjt⟩ q 15 := by
    unfold acc5
    rw [dif_pos (by omega : 15 < 16)]
    rw [outsAt_congr V c (congrArg Fin.val htt) t.isLt (tOf ⟨t.val / 16, hjt⟩ 15 (by omega)).isLt]
  rw [hacc, acc5_last]
  unfold colSumSq
  refine Finset.sum_congr rfl fun r _ => ?_
  have hcol : (⟨(⟨t.val / 16, hjt⟩ : Fin 2).val * 1024 + q.val, by have := q.isLt; omega⟩ : Fin 2048)
      = ⟨((((cfg6.win 5).blk t).view.emb (ix2 (0 : Fin 1) q)) 1).val, idx2_lt1 _⟩ := by
    apply Fin.ext
    show t.val / 16 * 1024 + q.val = win6_5.index t (1 : Fin 2) * 1024 + 1 * q.val
    omega
  rw [hcol]

/-- Every index of accumulator 5's array is in the block a last row tile writes back. -/
theorem cover5 (i : S1x2048.Idx) :
    ∃ t : Fin cfg6.N, (cfg6.win 5).flush t = true ∧ i ∈ ((cfg6.win 5).blk t).view.set := by
  have hi0 : (i 0).val < 1 := (i 0).isLt
  have hi1 : (i 1).val < 2048 := (i 1).isLt
  have hN : cfg6.N = 32 := N_6
  have hlt : (i 1).val / 1024 * 16 + 15 < cfg6.N := by rw [hN]; omega
  refine ⟨⟨(i 1).val / 1024 * 16 + 15, hlt⟩, (flush6_5 _).mpr (by show ((i 1).val / 1024 * 16 + 15) % 16 = 15; omega), ?_⟩
  rw [mem_blk5]
  obtain ⟨e00, e01, e10, e11, e20, e21, e30, e31, e40, e41, e50, e51⟩ := idx_facts ⟨(i 1).val / 1024 * 16 + 15, hlt⟩
  intro a
  match a with
  | ⟨0, _⟩ =>
    show win6_5.index _ (0 : Fin 2) * 1 ≤ (i 0).val ∧ (i 0).val < win6_5.index _ (0 : Fin 2) * 1 + 1
    rw [e50]; omega
  | ⟨1, _⟩ =>
    show win6_5.index _ (1 : Fin 2) * 1024 ≤ (i 1).val ∧ (i 1).val < win6_5.index _ (1 : Fin 2) * 1024 + 1024
    rw [e51]; show ((i 1).val / 1024 * 16 + 15) / 16 * 1024 ≤ (i 1).val ∧ (i 1).val < ((i 1).val / 1024 * 16 + 15) / 16 * 1024 + 1024; omega

/-- ACCUMULATOR 5'S ARRAY after the region: the column sums of squares of `y`. -/
theorem final5 (c : Dev nD) : (dat6 V c).arrAt 5 cfg6.N = colSumSq (yOf (V c (Pipeline.arrRef spec6 0)) (V c (Pipeline.arrRef spec6 1)) (V c (Pipeline.arrRef spec6 2))) :=
  (dat6 V c).arrAt_eq_of_cover 5 _ (fun t hf => flushed5_eq V c t hf) (cover5)

end Cert.KernelIdeal.Stats6

end
-- ==== Proof.NormRelu1.lean ====
/-
  Region 1 of the idealized kernel (normalise, scale, shift, clamp at zero) as one function of the arrays it finds.

  Every grid point `t` takes rows `512·t … 512·t + 511` of the activation array (all 2048 columns) and the four
  parameter rows (each a 1×2048 array, the same block at every point), and writes back, at the same rows, the
  entrywise value `max (((y − mean) · invstd) · gamma + beta) 0`, the parameters read at the entry's column. The
  sixteen blocks tile the 8192 rows, so after the region the output array is that function of the whole arrays, index
  by index.
-/
import proofs.«152490_j70686571758165_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.NormRelu1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- One entry: `max (((y − mean) · invstd) · gamma + beta) 0`, the zero the f32 zero word. -/
def entry (y mean inv g be : EReal) : EReal :=
  max (((y - mean) * inv) * g + be) (Ideal.ofBits .f32 0x00000000#32)

/-- The parameter rows' index under an entry of the activation array: row 0, the entry's column. -/
abbrev under (i : S8192x2048.Idx) : S1x2048.Idx := ix2 (0 : Fin 1) (⟨(i 1).val, idx2_lt1 i⟩ : Fin 2048)

/-- The region's output array as a function of the arrays it finds, index by index. -/
def G (y : S8192x2048.Idx → EReal) (mean inv g be : S1x2048.Idx → EReal) : S8192x2048.Idx → EReal :=
  fun i => entry (y i) (mean (under i)) (inv (under i)) (g (under i)) (be (under i))

/-- The body's stored value at `(p, q)` of the block: the entry of the activation block at `(p, q)` and the
    parameter rows at column `q` (a change of float format is the identity on the extended reals). -/
theorem pay_at (x0 : FVec Ideal S512x2048 .bf16) (x1 x2 x3 x4 : FVec Ideal S1x2048 .f32) (p : Fin 512) (q : Fin 2048) :
    k1_pay1 (F := Ideal) x0 x1 x2 x3 x4 (ix2 p q)
      = entry (x0 (ix2 p q)) (x1 (ix2 0 q)) (x2 (ix2 0 q)) (x3 (ix2 0 q)) (x4 (ix2 0 q)) := by
  unfold k1_pay1 entry
  simp only [shapeCast_self]
  rw [truncf_apply, maximumf_apply, addf_apply, mulf_apply, mulf_apply, subf_apply, extf_apply,
    broadcastTo_1b_ab_apply, broadcastTo_1b_ab_apply, broadcastTo_1b_ab_apply, broadcastTo_1b_ab_apply]
  rfl

theorem hz : (![0, 0] : Fin 2 → Nat) = fun _ => 0 := funext fun a => by fin_cases a <;> rfl

/-- The printed index maps over the grid: the activation's and the output's blocks are row block `t`, column
    block 0; every parameter's block is the one block (0, 0). -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

set_option maxHeartbeats 400000 in
/-- The activation window's block at point `t` read at `(p, q)` is the activation array at the output block's entry. -/
theorem read_act (c : Dev nD) (t : Fin cfg1.N) (p : Fin 512) (q : Fin 2048) :
    iblk1 V c 0 t (ix2 p q) = V c (Pipeline.arrRef spec1 0) (((cfg1.win 5).blk t).view.emb (ix2 p q)) := by
  obtain ⟨e00, e01, e50, e51, e10, e11, e20, e21, e30, e31, e40, e41⟩ := idx_facts t
  show V c (Pipeline.arrRef spec1 0) (((cfg1.win 0).blk t).view.emb (ix2 p q)) = _
  refine congrArg (V c (Pipeline.arrRef spec1 0)) ?_
  funext a; apply Fin.ext
  match a with
  | ⟨0, _⟩ => show win1_0.index t (0 : Fin 2) * 512 + 1 * p.val = win1_5.index t (0 : Fin 2) * 512 + 1 * p.val; omega
  | ⟨1, _⟩ => show win1_0.index t (1 : Fin 2) * 2048 + 1 * q.val = win1_5.index t (1 : Fin 2) * 2048 + 1 * q.val; omega

set_option maxHeartbeats 400000 in
/-- Parameter window 1's one block read at column `q` is the parameter array at row 0, the column of the output
    block's entry `(p, q)`. -/
theorem read_par1 (c : Dev nD) (t : Fin cfg1.N) (p : Fin 512) (q : Fin 2048) :
    iblk1 V c 1 t (ix2 (0 : Fin 1) q)
      = V c (Pipeline.arrRef spec1 1) (under (((cfg1.win 5).blk t).view.emb (ix2 p q))) := by
  obtain ⟨e00, e01, e50, e51, e10, e11, e20, e21, e30, e31, e40, e41⟩ := idx_facts t
  show V c (Pipeline.arrRef spec1 1) (((cfg1.win 1).blk t).view.emb (ix2 (0 : Fin 1) q)) = _
  refine congrArg (V c (Pipeline.arrRef spec1 1)) ?_
  funext a; apply Fin.ext
  match a with
  | ⟨0, _⟩ => show win1_1.index t (0 : Fin 2) * 1 + 1 * 0 = 0; omega
  | ⟨1, _⟩ => show win1_1.index t (1 : Fin 2) * 2048 + 1 * q.val = win1_5.index t (1 : Fin 2) * 2048 + 1 * q.val; omega

set_option maxHeartbeats 400000 in
/-- Parameter window 2's one block read at column `q` is the parameter array at row 0, the column of the output
    block's entry `(p, q)`. -/
theorem read_par2 (c : Dev nD) (t : Fin cfg1.N) (p : Fin 512) (q : Fin 2048) :
    iblk1 V c 2 t (ix2 (0 : Fin 1) q)
      = V c (Pipeline.arrRef spec1 2) (under (((cfg1.win 5).blk t).view.emb (ix2 p q))) := by
  obtain ⟨e00, e01, e50, e51, e10, e11, e20, e21, e30, e31, e40, e41⟩ := idx_facts t
  show V c (Pipeline.arrRef spec1 2) (((cfg1.win 2).blk t).view.emb (ix2 (0 : Fin 1) q)) = _
  refine congrArg (V c (Pipeline.arrRef spec1 2)) ?_
  funext a; apply Fin.ext
  match a with
  | ⟨0, _⟩ => show win1_2.index t (0 : Fin 2) * 1 + 1 * 0 = 0; omega
  | ⟨1, _⟩ => show win1_2.index t (1 : Fin 2) * 2048 + 1 * q.val = win1_5.index t (1 : Fin 2) * 2048 + 1 * q.val; omega

set_option maxHeartbeats 400000 in
/-- Parameter window 3's one block read at column `q` is the parameter array at row 0, the column of the output
    block's entry `(p, q)`. -/
theorem read_par3 (c : Dev nD) (t : Fin cfg1.N) (p : Fin 512) (q : Fin 2048) :
    iblk1 V c 3 t (ix2 (0 : Fin 1) q)
      = V c (Pipeline.arrRef spec1 3) (under (((cfg1.win 5).blk t).view.emb (ix2 p q))) := by
  obtain ⟨e00, e01, e50, e51, e10, e11, e20, e21, e30, e31, e40, e41⟩ := idx_facts t
  show V c (Pipeline.arrRef spec1 3) (((cfg1.win 3).blk t).view.emb (ix2 (0 : Fin 1) q)) = _
  refine congrArg (V c (Pipeline.arrRef spec1 3)) ?_
  funext a; apply Fin.ext
  match a with
  | ⟨0, _⟩ => show win1_3.index t (0 : Fin 2) * 1 + 1 * 0 = 0; omega
  | ⟨1, _⟩ => show win1_3.index t (1 : Fin 2) * 2048 + 1 * q.val = win1_5.index t (1 : Fin 2) * 2048 + 1 * q.val; omega

set_option maxHeartbeats 400000 in
/-- Parameter window 4's one block read at column `q` is the parameter array at row 0, the column of the output
    block's entry `(p, q)`. -/
theorem read_par4 (c : Dev nD) (t : Fin cfg1.N) (p : Fin 512) (q : Fin 2048) :
    iblk1 V c 4 t (ix2 (0 : Fin 1) q)
      = V c (Pipeline.arrRef spec1 4) (under (((cfg1.win 5).blk t).view.emb (ix2 p q))) := by
  obtain ⟨e00, e01, e50, e51, e10, e11, e20, e21, e30, e31, e40, e41⟩ := idx_facts t
  show V c (Pipeline.arrRef spec1 4) (((cfg1.win 4).blk t).view.emb (ix2 (0 : Fin 1) q)) = _
  refine congrArg (V c (Pipeline.arrRef spec1 4)) ?_
  funext a; apply Fin.ext
  match a with
  | ⟨0, _⟩ => show win1_4.index t (0 : Fin 2) * 1 + 1 * 0 = 0; omega
  | ⟨1, _⟩ => show win1_4.index t (1 : Fin 2) * 2048 + 1 * q.val = win1_5.index t (1 : Fin 2) * 2048 + 1 * q.val; omega

set_option maxHeartbeats 400000 in
/-- WHAT POINT `t` WRITES BACK is block `t` of `G` of the arrays the region finds. -/
theorem flushed_eq (c : Dev nD) (t : Fin cfg1.N) :
    (dat1 V c).flushed 5 t = ((cfg1.win 5).blk t).view.read (Elt Ideal)
      (G (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S512x2048) hz, View.ld_unit_zero (S := S1x2048) hz]
  funext j
  obtain ⟨p, q, rfl⟩ : ∃ (p : Fin 512) (q : Fin 2048), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = G (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb (ix2 p q))
  refine (pay_at (iblk1 V c 0 t) (iblk1 V c 1 t) (iblk1 V c 2 t) (iblk1 V c 3 t) (iblk1 V c 4 t) p q).trans ?_
  rw [read_act V c t p q, read_par1 V c t p q, read_par2 V c t p q, read_par3 V c t p q, read_par4 V c t p q]
  rfl

/-- An index of the array is in point `t`'s block iff each coordinate is in the block's range on its axis. -/
theorem mem_blk (t : Fin cfg1.N) (i : S8192x2048.Idx) :
    i ∈ ((cfg1.win 5).blk t).view.set ↔ ∀ a : Fin 2, win1_5.index t a * S512x2048.size a ≤ (i a).val
      ∧ (i a).val < win1_5.index t a * S512x2048.size a + S512x2048.size a := by
  show i ∈ ((View.whole main_v38).slice (win1_5.rect t)).set ↔ _
  rw [View.set_slice_whole, Rect.mem_set_unit]
  exact Iff.rfl

/-- Every index of the output array is in some point's block: row `r` is in block `r / 512`. -/
theorem cover (i : S8192x2048.Idx) :
    ∃ t : Fin cfg1.N, (cfg1.win 5).flush t = true ∧ i ∈ ((cfg1.win 5).blk t).view.set := by
  have hi0 : (i 0).val < 8192 := (i 0).isLt
  have hi1 : (i 1).val < 2048 := (i 1).isLt
  have hN : cfg1.N = 16 := N_1
  refine ⟨⟨(i 0).val / 512, by rw [hN]; omega⟩, flush1_5 _, ?_⟩
  rw [mem_blk]
  obtain ⟨-, -, e50, e51, -⟩ := idx_facts ⟨(i 0).val / 512, by rw [hN]; omega⟩
  intro a
  match a with
  | ⟨0, _⟩ =>
    show win1_5.index _ (0 : Fin 2) * 512 ≤ (i 0).val ∧ (i 0).val < win1_5.index _ (0 : Fin 2) * 512 + 512
    rw [e50]; show (i 0).val / 512 * 512 ≤ (i 0).val ∧ (i 0).val < (i 0).val / 512 * 512 + 512; omega
  | ⟨1, _⟩ =>
    show win1_5.index _ (1 : Fin 2) * 2048 ≤ (i 1).val ∧ (i 1).val < win1_5.index _ (1 : Fin 2) * 2048 + 2048
    rw [e51]; omega

/-- THE OUTPUT ARRAY after the region: `G` of the arrays the region finds. -/
theorem final (c : Dev nD) :
    (dat1 V c).arrAt 5 cfg1.N
      = G (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed_eq V c t) (cover)

end Cert.KernelIdeal.NormRelu1

end
-- ==== Proof.NormRelu3.lean ====
/-
  Region 3 of the idealized kernel (normalise, scale, shift, clamp at zero) as one function of the arrays it finds.

  Every grid point `t` takes rows `512·t … 512·t + 511` of the activation array (all 2048 columns) and the four
  parameter rows (each a 1×2048 array, the same block at every point), and writes back, at the same rows, the
  entrywise value `max (((y − mean) · invstd) · gamma + beta) 0`, the parameters read at the entry's column. The
  sixteen blocks tile the 8192 rows, so after the region the output array is that function of the whole arrays, index
  by index.
-/
import proofs.«152490_j70686571758165_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.NormRelu3

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- One entry: `max (((y − mean) · invstd) · gamma + beta) 0`, the zero the f32 zero word. -/
def entry (y mean inv g be : EReal) : EReal :=
  max (((y - mean) * inv) * g + be) (Ideal.ofBits .f32 0x00000000#32)

/-- The parameter rows' index under an entry of the activation array: row 0, the entry's column. -/
abbrev under (i : S8192x2048.Idx) : S1x2048.Idx := ix2 (0 : Fin 1) (⟨(i 1).val, idx2_lt1 i⟩ : Fin 2048)

/-- The region's output array as a function of the arrays it finds, index by index. -/
def G (y : S8192x2048.Idx → EReal) (mean inv g be : S1x2048.Idx → EReal) : S8192x2048.Idx → EReal :=
  fun i => entry (y i) (mean (under i)) (inv (under i)) (g (under i)) (be (under i))

/-- The body's stored value at `(p, q)` of the block: the entry of the activation block at `(p, q)` and the
    parameter rows at column `q` (a change of float format is the identity on the extended reals). -/
theorem pay_at (x0 : FVec Ideal S512x2048 .bf16) (x1 x2 x3 x4 : FVec Ideal S1x2048 .f32) (p : Fin 512) (q : Fin 2048) :
    k3_pay1 (F := Ideal) x0 x1 x2 x3 x4 (ix2 p q)
      = entry (x0 (ix2 p q)) (x1 (ix2 0 q)) (x2 (ix2 0 q)) (x3 (ix2 0 q)) (x4 (ix2 0 q)) := by
  unfold k3_pay1 entry
  simp only [shapeCast_self]
  rw [truncf_apply, maximumf_apply, addf_apply, mulf_apply, mulf_apply, subf_apply, extf_apply,
    broadcastTo_1b_ab_apply, broadcastTo_1b_ab_apply, broadcastTo_1b_ab_apply, broadcastTo_1b_ab_apply]
  rfl

theorem hz : (![0, 0] : Fin 2 → Nat) = fun _ => 0 := funext fun a => by fin_cases a <;> rfl

/-- The printed index maps over the grid: the activation's and the output's blocks are row block `t`, column
    block 0; every parameter's block is the one block (0, 0). -/
theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

set_option maxHeartbeats 400000 in
/-- The activation window's block at point `t` read at `(p, q)` is the activation array at the output block's entry. -/
theorem read_act (c : Dev nD) (t : Fin cfg3.N) (p : Fin 512) (q : Fin 2048) :
    iblk3 V c 0 t (ix2 p q) = V c (Pipeline.arrRef spec3 0) (((cfg3.win 5).blk t).view.emb (ix2 p q)) := by
  obtain ⟨e00, e01, e50, e51, e10, e11, e20, e21, e30, e31, e40, e41⟩ := idx_facts t
  show V c (Pipeline.arrRef spec3 0) (((cfg3.win 0).blk t).view.emb (ix2 p q)) = _
  refine congrArg (V c (Pipeline.arrRef spec3 0)) ?_
  funext a; apply Fin.ext
  match a with
  | ⟨0, _⟩ => show win3_0.index t (0 : Fin 2) * 512 + 1 * p.val = win3_5.index t (0 : Fin 2) * 512 + 1 * p.val; omega
  | ⟨1, _⟩ => show win3_0.index t (1 : Fin 2) * 2048 + 1 * q.val = win3_5.index t (1 : Fin 2) * 2048 + 1 * q.val; omega

set_option maxHeartbeats 400000 in
/-- Parameter window 1's one block read at column `q` is the parameter array at row 0, the column of the output
    block's entry `(p, q)`. -/
theorem read_par1 (c : Dev nD) (t : Fin cfg3.N) (p : Fin 512) (q : Fin 2048) :
    iblk3 V c 1 t (ix2 (0 : Fin 1) q)
      = V c (Pipeline.arrRef spec3 1) (under (((cfg3.win 5).blk t).view.emb (ix2 p q))) := by
  obtain ⟨e00, e01, e50, e51, e10, e11, e20, e21, e30, e31, e40, e41⟩ := idx_facts t
  show V c (Pipeline.arrRef spec3 1) (((cfg3.win 1).blk t).view.emb (ix2 (0 : Fin 1) q)) = _
  refine congrArg (V c (Pipeline.arrRef spec3 1)) ?_
  funext a; apply Fin.ext
  match a with
  | ⟨0, _⟩ => show win3_1.index t (0 : Fin 2) * 1 + 1 * 0 = 0; omega
  | ⟨1, _⟩ => show win3_1.index t (1 : Fin 2) * 2048 + 1 * q.val = win3_5.index t (1 : Fin 2) * 2048 + 1 * q.val; omega

set_option maxHeartbeats 400000 in
/-- Parameter window 2's one block read at column `q` is the parameter array at row 0, the column of the output
    block's entry `(p, q)`. -/
theorem read_par2 (c : Dev nD) (t : Fin cfg3.N) (p : Fin 512) (q : Fin 2048) :
    iblk3 V c 2 t (ix2 (0 : Fin 1) q)
      = V c (Pipeline.arrRef spec3 2) (under (((cfg3.win 5).blk t).view.emb (ix2 p q))) := by
  obtain ⟨e00, e01, e50, e51, e10, e11, e20, e21, e30, e31, e40, e41⟩ := idx_facts t
  show V c (Pipeline.arrRef spec3 2) (((cfg3.win 2).blk t).view.emb (ix2 (0 : Fin 1) q)) = _
  refine congrArg (V c (Pipeline.arrRef spec3 2)) ?_
  funext a; apply Fin.ext
  match a with
  | ⟨0, _⟩ => show win3_2.index t (0 : Fin 2) * 1 + 1 * 0 = 0; omega
  | ⟨1, _⟩ => show win3_2.index t (1 : Fin 2) * 2048 + 1 * q.val = win3_5.index t (1 : Fin 2) * 2048 + 1 * q.val; omega

set_option maxHeartbeats 400000 in
/-- Parameter window 3's one block read at column `q` is the parameter array at row 0, the column of the output
    block's entry `(p, q)`. -/
theorem read_par3 (c : Dev nD) (t : Fin cfg3.N) (p : Fin 512) (q : Fin 2048) :
    iblk3 V c 3 t (ix2 (0 : Fin 1) q)
      = V c (Pipeline.arrRef spec3 3) (under (((cfg3.win 5).blk t).view.emb (ix2 p q))) := by
  obtain ⟨e00, e01, e50, e51, e10, e11, e20, e21, e30, e31, e40, e41⟩ := idx_facts t
  show V c (Pipeline.arrRef spec3 3) (((cfg3.win 3).blk t).view.emb (ix2 (0 : Fin 1) q)) = _
  refine congrArg (V c (Pipeline.arrRef spec3 3)) ?_
  funext a; apply Fin.ext
  match a with
  | ⟨0, _⟩ => show win3_3.index t (0 : Fin 2) * 1 + 1 * 0 = 0; omega
  | ⟨1, _⟩ => show win3_3.index t (1 : Fin 2) * 2048 + 1 * q.val = win3_5.index t (1 : Fin 2) * 2048 + 1 * q.val; omega

set_option maxHeartbeats 400000 in
/-- Parameter window 4's one block read at column `q` is the parameter array at row 0, the column of the output
    block's entry `(p, q)`. -/
theorem read_par4 (c : Dev nD) (t : Fin cfg3.N) (p : Fin 512) (q : Fin 2048) :
    iblk3 V c 4 t (ix2 (0 : Fin 1) q)
      = V c (Pipeline.arrRef spec3 4) (under (((cfg3.win 5).blk t).view.emb (ix2 p q))) := by
  obtain ⟨e00, e01, e50, e51, e10, e11, e20, e21, e30, e31, e40, e41⟩ := idx_facts t
  show V c (Pipeline.arrRef spec3 4) (((cfg3.win 4).blk t).view.emb (ix2 (0 : Fin 1) q)) = _
  refine congrArg (V c (Pipeline.arrRef spec3 4)) ?_
  funext a; apply Fin.ext
  match a with
  | ⟨0, _⟩ => show win3_4.index t (0 : Fin 2) * 1 + 1 * 0 = 0; omega
  | ⟨1, _⟩ => show win3_4.index t (1 : Fin 2) * 2048 + 1 * q.val = win3_5.index t (1 : Fin 2) * 2048 + 1 * q.val; omega

set_option maxHeartbeats 400000 in
/-- WHAT POINT `t` WRITES BACK is block `t` of `G` of the arrays the region finds. -/
theorem flushed_eq (c : Dev nD) (t : Fin cfg3.N) :
    (dat3 V c).flushed 5 t = ((cfg3.win 5).blk t).view.read (Elt Ideal)
      (G (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S512x2048) hz, View.ld_unit_zero (S := S1x2048) hz]
  funext j
  obtain ⟨p, q, rfl⟩ : ∃ (p : Fin 512) (q : Fin 2048), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = G (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 p q))
  refine (pay_at (iblk3 V c 0 t) (iblk3 V c 1 t) (iblk3 V c 2 t) (iblk3 V c 3 t) (iblk3 V c 4 t) p q).trans ?_
  rw [read_act V c t p q, read_par1 V c t p q, read_par2 V c t p q, read_par3 V c t p q, read_par4 V c t p q]
  rfl

/-- An index of the array is in point `t`'s block iff each coordinate is in the block's range on its axis. -/
theorem mem_blk (t : Fin cfg3.N) (i : S8192x2048.Idx) :
    i ∈ ((cfg3.win 5).blk t).view.set ↔ ∀ a : Fin 2, win3_5.index t a * S512x2048.size a ≤ (i a).val
      ∧ (i a).val < win3_5.index t a * S512x2048.size a + S512x2048.size a := by
  show i ∈ ((View.whole main_v59).slice (win3_5.rect t)).set ↔ _
  rw [View.set_slice_whole, Rect.mem_set_unit]
  exact Iff.rfl

/-- Every index of the output array is in some point's block: row `r` is in block `r / 512`. -/
theorem cover (i : S8192x2048.Idx) :
    ∃ t : Fin cfg3.N, (cfg3.win 5).flush t = true ∧ i ∈ ((cfg3.win 5).blk t).view.set := by
  have hi0 : (i 0).val < 8192 := (i 0).isLt
  have hi1 : (i 1).val < 2048 := (i 1).isLt
  have hN : cfg3.N = 16 := N_3
  refine ⟨⟨(i 0).val / 512, by rw [hN]; omega⟩, flush3_5 _, ?_⟩
  rw [mem_blk]
  obtain ⟨-, -, e50, e51, -⟩ := idx_facts ⟨(i 0).val / 512, by rw [hN]; omega⟩
  intro a
  match a with
  | ⟨0, _⟩ =>
    show win3_5.index _ (0 : Fin 2) * 512 ≤ (i 0).val ∧ (i 0).val < win3_5.index _ (0 : Fin 2) * 512 + 512
    rw [e50]; show (i 0).val / 512 * 512 ≤ (i 0).val ∧ (i 0).val < (i 0).val / 512 * 512 + 512; omega
  | ⟨1, _⟩ =>
    show win3_5.index _ (1 : Fin 2) * 2048 ≤ (i 1).val ∧ (i 1).val < win3_5.index _ (1 : Fin 2) * 2048 + 2048
    rw [e51]; omega

/-- THE OUTPUT ARRAY after the region: `G` of the arrays the region finds. -/
theorem final (c : Dev nD) :
    (dat3 V c).arrAt 5 cfg3.N
      = G (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushed_eq V c t) (cover)

end Cert.KernelIdeal.NormRelu3

end
-- ==== Proof.NormRelu5.lean ====
/-
  Region 5 of the idealized kernel (normalise, scale, shift, clamp at zero) as one function of the arrays it finds.

  Every grid point `t` takes rows `512·t … 512·t + 511` of the activation array (all 2048 columns) and the four
  parameter rows (each a 1×2048 array, the same block at every point), and writes back, at the same rows, the
  entrywise value `max (((y − mean) · invstd) · gamma + beta) 0`, the parameters read at the entry's column. The
  sixteen blocks tile the 8192 rows, so after the region the output array is that function of the whole arrays, index
  by index.
-/
import proofs.«152490_j70686571758165_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.NormRelu5

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- One entry: `max (((y − mean) · invstd) · gamma + beta) 0`, the zero the f32 zero word. -/
def entry (y mean inv g be : EReal) : EReal :=
  max (((y - mean) * inv) * g + be) (Ideal.ofBits .f32 0x00000000#32)

/-- The parameter rows' index under an entry of the activation array: row 0, the entry's column. -/
abbrev under (i : S8192x2048.Idx) : S1x2048.Idx := ix2 (0 : Fin 1) (⟨(i 1).val, idx2_lt1 i⟩ : Fin 2048)

/-- The region's output array as a function of the arrays it finds, index by index. -/
def G (y : S8192x2048.Idx → EReal) (mean inv g be : S1x2048.Idx → EReal) : S8192x2048.Idx → EReal :=
  fun i => entry (y i) (mean (under i)) (inv (under i)) (g (under i)) (be (under i))

/-- The body's stored value at `(p, q)` of the block: the entry of the activation block at `(p, q)` and the
    parameter rows at column `q` (a change of float format is the identity on the extended reals). -/
theorem pay_at (x0 : FVec Ideal S512x2048 .bf16) (x1 x2 x3 x4 : FVec Ideal S1x2048 .f32) (p : Fin 512) (q : Fin 2048) :
    k5_pay1 (F := Ideal) x0 x1 x2 x3 x4 (ix2 p q)
      = entry (x0 (ix2 p q)) (x1 (ix2 0 q)) (x2 (ix2 0 q)) (x3 (ix2 0 q)) (x4 (ix2 0 q)) := by
  unfold k5_pay1 entry
  simp only [shapeCast_self]
  rw [truncf_apply, maximumf_apply, addf_apply, mulf_apply, mulf_apply, subf_apply, extf_apply,
    broadcastTo_1b_ab_apply, broadcastTo_1b_ab_apply, broadcastTo_1b_ab_apply, broadcastTo_1b_ab_apply]
  rfl

theorem hz : (![0, 0] : Fin 2 → Nat) = fun _ => 0 := funext fun a => by fin_cases a <;> rfl

/-- The printed index maps over the grid: the activation's and the output's blocks are row block `t`, column
    block 0; every parameter's block is the one block (0, 0). -/
theorem idx_facts : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

set_option maxHeartbeats 400000 in
/-- The activation window's block at point `t` read at `(p, q)` is the activation array at the output block's entry. -/
theorem read_act (c : Dev nD) (t : Fin cfg5.N) (p : Fin 512) (q : Fin 2048) :
    iblk5 V c 0 t (ix2 p q) = V c (Pipeline.arrRef spec5 0) (((cfg5.win 5).blk t).view.emb (ix2 p q)) := by
  obtain ⟨e00, e01, e50, e51, e10, e11, e20, e21, e30, e31, e40, e41⟩ := idx_facts t
  show V c (Pipeline.arrRef spec5 0) (((cfg5.win 0).blk t).view.emb (ix2 p q)) = _
  refine congrArg (V c (Pipeline.arrRef spec5 0)) ?_
  funext a; apply Fin.ext
  match a with
  | ⟨0, _⟩ => show win5_0.index t (0 : Fin 2) * 512 + 1 * p.val = win5_5.index t (0 : Fin 2) * 512 + 1 * p.val; omega
  | ⟨1, _⟩ => show win5_0.index t (1 : Fin 2) * 2048 + 1 * q.val = win5_5.index t (1 : Fin 2) * 2048 + 1 * q.val; omega

set_option maxHeartbeats 400000 in
/-- Parameter window 1's one block read at column `q` is the parameter array at row 0, the column of the output
    block's entry `(p, q)`. -/
theorem read_par1 (c : Dev nD) (t : Fin cfg5.N) (p : Fin 512) (q : Fin 2048) :
    iblk5 V c 1 t (ix2 (0 : Fin 1) q)
      = V c (Pipeline.arrRef spec5 1) (under (((cfg5.win 5).blk t).view.emb (ix2 p q))) := by
  obtain ⟨e00, e01, e50, e51, e10, e11, e20, e21, e30, e31, e40, e41⟩ := idx_facts t
  show V c (Pipeline.arrRef spec5 1) (((cfg5.win 1).blk t).view.emb (ix2 (0 : Fin 1) q)) = _
  refine congrArg (V c (Pipeline.arrRef spec5 1)) ?_
  funext a; apply Fin.ext
  match a with
  | ⟨0, _⟩ => show win5_1.index t (0 : Fin 2) * 1 + 1 * 0 = 0; omega
  | ⟨1, _⟩ => show win5_1.index t (1 : Fin 2) * 2048 + 1 * q.val = win5_5.index t (1 : Fin 2) * 2048 + 1 * q.val; omega

set_option maxHeartbeats 400000 in
/-- Parameter window 2's one block read at column `q` is the parameter array at row 0, the column of the output
    block's entry `(p, q)`. -/
theorem read_par2 (c : Dev nD) (t : Fin cfg5.N) (p : Fin 512) (q : Fin 2048) :
    iblk5 V c 2 t (ix2 (0 : Fin 1) q)
      = V c (Pipeline.arrRef spec5 2) (under (((cfg5.win 5).blk t).view.emb (ix2 p q))) := by
  obtain ⟨e00, e01, e50, e51, e10, e11, e20, e21, e30, e31, e40, e41⟩ := idx_facts t
  show V c (Pipeline.arrRef spec5 2) (((cfg5.win 2).blk t).view.emb (ix2 (0 : Fin 1) q)) = _
  refine congrArg (V c (Pipeline.arrRef spec5 2)) ?_
  funext a; apply Fin.ext
  match a with
  | ⟨0, _⟩ => show win5_2.index t (0 : Fin 2) * 1 + 1 * 0 = 0; omega
  | ⟨1, _⟩ => show win5_2.index t (1 : Fin 2) * 2048 + 1 * q.val = win5_5.index t (1 : Fin 2) * 2048 + 1 * q.val; omega

set_option maxHeartbeats 400000 in
/-- Parameter window 3's one block read at column `q` is the parameter array at row 0, the column of the output
    block's entry `(p, q)`. -/
theorem read_par3 (c : Dev nD) (t : Fin cfg5.N) (p : Fin 512) (q : Fin 2048) :
    iblk5 V c 3 t (ix2 (0 : Fin 1) q)
      = V c (Pipeline.arrRef spec5 3) (under (((cfg5.win 5).blk t).view.emb (ix2 p q))) := by
  obtain ⟨e00, e01, e50, e51, e10, e11, e20, e21, e30, e31, e40, e41⟩ := idx_facts t
  show V c (Pipeline.arrRef spec5 3) (((cfg5.win 3).blk t).view.emb (ix2 (0 : Fin 1) q)) = _
  refine congrArg (V c (Pipeline.arrRef spec5 3)) ?_
  funext a; apply Fin.ext
  match a with
  | ⟨0, _⟩ => show win5_3.index t (0 : Fin 2) * 1 + 1 * 0 = 0; omega
  | ⟨1, _⟩ => show win5_3.index t (1 : Fin 2) * 2048 + 1 * q.val = win5_5.index t (1 : Fin 2) * 2048 + 1 * q.val; omega

set_option maxHeartbeats 400000 in
/-- Parameter window 4's one block read at column `q` is the parameter array at row 0, the column of the output
    block's entry `(p, q)`. -/
theorem read_par4 (c : Dev nD) (t : Fin cfg5.N) (p : Fin 512) (q : Fin 2048) :
    iblk5 V c 4 t (ix2 (0 : Fin 1) q)
      = V c (Pipeline.arrRef spec5 4) (under (((cfg5.win 5).blk t).view.emb (ix2 p q))) := by
  obtain ⟨e00, e01, e50, e51, e10, e11, e20, e21, e30, e31, e40, e41⟩ := idx_facts t
  show V c (Pipeline.arrRef spec5 4) (((cfg5.win 4).blk t).view.emb (ix2 (0 : Fin 1) q)) = _
  refine congrArg (V c (Pipeline.arrRef spec5 4)) ?_
  funext a; apply Fin.ext
  match a with
  | ⟨0, _⟩ => show win5_4.index t (0 : Fin 2) * 1 + 1 * 0 = 0; omega
  | ⟨1, _⟩ => show win5_4.index t (1 : Fin 2) * 2048 + 1 * q.val = win5_5.index t (1 : Fin 2) * 2048 + 1 * q.val; omega

set_option maxHeartbeats 400000 in
/-- WHAT POINT `t` WRITES BACK is block `t` of `G` of the arrays the region finds. -/
theorem flushed_eq (c : Dev nD) (t : Fin cfg5.N) :
    (dat5 V c).flushed 5 t = ((cfg5.win 5).blk t).view.read (Elt Ideal)
      (G (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero hz]
  simp only [View.ld_unit_zero (S := S512x2048) hz, View.ld_unit_zero (S := S1x2048) hz]
  funext j
  obtain ⟨p, q, rfl⟩ : ∃ (p : Fin 512) (q : Fin 2048), j = ix2 p q := ⟨j 0, j 1, eq_ix2 j⟩
  show k5_pay1 (F := Ideal) (iblk5 V c 0 t) (iblk5 V c 1 t) (iblk5 V c 2 t) (iblk5 V c 3 t) (iblk5 V c 4 t) (ix2 p q)
    = G (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb (ix2 p q))
  refine (pay_at (iblk5 V c 0 t) (iblk5 V c 1 t) (iblk5 V c 2 t) (iblk5 V c 3 t) (iblk5 V c 4 t) p q).trans ?_
  rw [read_act V c t p q, read_par1 V c t p q, read_par2 V c t p q, read_par3 V c t p q, read_par4 V c t p q]
  rfl

/-- An index of the array is in point `t`'s block iff each coordinate is in the block's range on its axis. -/
theorem mem_blk (t : Fin cfg5.N) (i : S8192x2048.Idx) :
    i ∈ ((cfg5.win 5).blk t).view.set ↔ ∀ a : Fin 2, win5_5.index t a * S512x2048.size a ≤ (i a).val
      ∧ (i a).val < win5_5.index t a * S512x2048.size a + S512x2048.size a := by
  show i ∈ ((View.whole main_v80).slice (win5_5.rect t)).set ↔ _
  rw [View.set_slice_whole, Rect.mem_set_unit]
  exact Iff.rfl

/-- Every index of the output array is in some point's block: row `r` is in block `r / 512`. -/
theorem cover (i : S8192x2048.Idx) :
    ∃ t : Fin cfg5.N, (cfg5.win 5).flush t = true ∧ i ∈ ((cfg5.win 5).blk t).view.set := by
  have hi0 : (i 0).val < 8192 := (i 0).isLt
  have hi1 : (i 1).val < 2048 := (i 1).isLt
  have hN : cfg5.N = 16 := N_5
  refine ⟨⟨(i 0).val / 512, by rw [hN]; omega⟩, flush5_5 _, ?_⟩
  rw [mem_blk]
  obtain ⟨-, -, e50, e51, -⟩ := idx_facts ⟨(i 0).val / 512, by rw [hN]; omega⟩
  intro a
  match a with
  | ⟨0, _⟩ =>
    show win5_5.index _ (0 : Fin 2) * 512 ≤ (i 0).val ∧ (i 0).val < win5_5.index _ (0 : Fin 2) * 512 + 512
    rw [e50]; show (i 0).val / 512 * 512 ≤ (i 0).val ∧ (i 0).val < (i 0).val / 512 * 512 + 512; omega
  | ⟨1, _⟩ =>
    show win5_5.index _ (1 : Fin 2) * 2048 ≤ (i 1).val ∧ (i 1).val < win5_5.index _ (1 : Fin 2) * 2048 + 2048
    rw [e51]; omega

/-- THE OUTPUT ARRAY after the region: `G` of the arrays the region finds. -/
theorem final (c : Dev nD) :
    (dat5 V c).arrAt 5 cfg5.N
      = G (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => flushed_eq V c t) (cover)

end Cert.KernelIdeal.NormRelu5

end
-- ==== Proof.NormRelu7.lean ====
/-
  Region 7 of the idealized kernel (normalise, scale, shift, clamp at zero, written transposed) as one function of the
  arrays it finds.

  Grid point `t` takes rows `512·t … 512·t + 511` of the activation array and the four parameter rows, forms
  `max (((y − mean) · invstd) · gamma + beta) 0` entry by entry, and writes the block TRANSPOSED: feature `a`, row `b`
  of the tile goes to row `a`, column `512·t + b` of the 2048×8192 result. The sixteen blocks tile the result's columns.
-/
import proofs.«152490_j70686571758165_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.NormRelu7

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- One entry: `max (((y − mean) · invstd) · gamma + beta) 0`, the zero the f32 zero word. -/
def entry (y mean inv g be : EReal) : EReal :=
  max (((y - mean) * inv) * g + be) (Ideal.ofBits .f32 0x00000000#32)

/-- The activation's index behind an entry of the transposed result: (its column, its row). -/
abbrev behind (i : S2048x8192.Idx) : S8192x2048.Idx :=
  ix2 (⟨(i 1).val, idx2_lt1 i⟩ : Fin 8192) (⟨(i 0).val, idx2_lt0 i⟩ : Fin 2048)

/-- The parameter rows' index behind an entry of the transposed result: row 0, the entry's ROW (its feature). -/
abbrev under (i : S2048x8192.Idx) : S1x2048.Idx := ix2 (0 : Fin 1) (⟨(i 0).val, idx2_lt0 i⟩ : Fin 2048)

/-- The region's output array as a function of the arrays it finds, index by index. -/
def G (y : S8192x2048.Idx → EReal) (mean inv g be : S1x2048.Idx → EReal) : S2048x8192.Idx → EReal :=
  fun i => entry (y (behind i)) (mean (under i)) (inv (under i)) (g (under i)) (be (under i))

/-- The body's stored value at `(a, b)` of the transposed block: the entry of the activation block at `(b, a)` and the
    parameter rows at column `a`. -/
theorem pay_at (x0 : FVec Ideal S512x2048 .bf16) (x1 x2 x3 x4 : FVec Ideal S1x2048 .f32) (a : Fin 2048) (b : Fin 512) :
    k7_pay1 (F := Ideal) x0 x1 x2 x3 x4 (ix2 a b)
      = entry (x0 (ix2 b a)) (x1 (ix2 0 a)) (x2 (ix2 0 a)) (x3 (ix2 0 a)) (x4 (ix2 0 a)) := by
  unfold k7_pay1 entry
  simp only [shapeCast_self]
  rw [transpose_ix2_apply, maximumf_apply, addf_apply, mulf_apply, mulf_apply, subf_apply, extf_apply,
    broadcastTo_1b_ab_apply, broadcastTo_1b_ab_apply, broadcastTo_1b_ab_apply, broadcastTo_1b_ab_apply]
  rfl

theorem hz : (![0, 0] : Fin 2 → Nat) = fun _ => 0 := funext fun a => by fin_cases a <;> rfl

/-- The printed index maps over the grid. -/
theorem idx_facts : ∀ t : Fin cfg7.N,
    win7_0.index t (0 : Fin 2) = t.val ∧ win7_0.index t (1 : Fin 2) = 0
    ∧ win7_5.index t (0 : Fin 2) = 0 ∧ win7_5.index t (1 : Fin 2) = t.val
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

set_option maxHeartbeats 400000 in
/-- The activation window's block at point `t` read at `(b, a)` is the activation array behind the output entry. -/
theorem read_act (c : Dev nD) (t : Fin cfg7.N) (a : Fin 2048) (b : Fin 512) :
    iblk7 V c 0 t (ix2 b a) = V c (Pipeline.arrRef spec7 0) (behind (((cfg7.win 5).blk t).view.emb (ix2 a b))) := by
  obtain ⟨e00, e01, e50, e51, e10, e11, e20, e21, e30, e31, e40, e41⟩ := idx_facts t
  show V c (Pipeline.arrRef spec7 0) (((cfg7.win 0).blk t).view.emb (ix2 b a)) = _
  refine congrArg (V c (Pipeline.arrRef spec7 0)) ?_
  funext ax; apply Fin.ext
  match ax with
  | ⟨0, _⟩ => show win7_0.index t (0 : Fin 2) * 512 + 1 * b.val = win7_5.index t (1 : Fin 2) * 512 + 1 * b.val; omega
  | ⟨1, _⟩ => show win7_0.index t (1 : Fin 2) * 2048 + 1 * a.val = win7_5.index t (0 : Fin 2) * 2048 + 1 * a.val; omega

set_option maxHeartbeats 400000 in
/-- Parameter window 1's one block read at column `a` is the parameter array behind the output entry. -/
theorem read_par1 (c : Dev nD) (t : Fin cfg7.N) (a : Fin 2048) (b : Fin 512) :
    iblk7 V c 1 t (ix2 (0 : Fin 1) a)
      = V c (Pipeline.arrRef spec7 1) (under (((cfg7.win 5).blk t).view.emb (ix2 a b))) := by
  obtain ⟨e00, e01, e50, e51, e10, e11, e20, e21, e30, e31, e40, e41⟩ := idx_facts t
  show V c (Pipeline.arrRef spec7 1) (((cfg7.win 1).blk t).view.emb (ix2 (0 : Fin 1) a)) = _
  refine congrArg (V c (Pipeline.arrRef spec7 1)) ?_
  funext ax; apply Fin.ext
  match ax with
  | ⟨0, _⟩ => show win7_1.index t (0 : Fin 2) * 1 + 1 * 0 = 0; omega
  | ⟨1, _⟩ => show win7_1.index t (1 : Fin 2) * 2048 + 1 * a.val = win7_5.index t (0 : Fin 2) * 2048 + 1 * a.val; omega

set_option maxHeartbeats 400000 in
/-- Parameter window 2's one block read at column `a` is the parameter array behind the output entry. -/
theorem read_par2 (c : Dev nD) (t : Fin cfg7.N) (a : Fin 2048) (b : Fin 512) :
    iblk7 V c 2 t (ix2 (0 : Fin 1) a)
      = V c (Pipeline.arrRef spec7 2) (under (((cfg7.win 5).blk t).view.emb (ix2 a b))) := by
  obtain ⟨e00, e01, e50, e51, e10, e11, e20, e21, e30, e31, e40, e41⟩ := idx_facts t
  show V c (Pipeline.arrRef spec7 2) (((cfg7.win 2).blk t).view.emb (ix2 (0 : Fin 1) a)) = _
  refine congrArg (V c (Pipeline.arrRef spec7 2)) ?_
  funext ax; apply Fin.ext
  match ax with
  | ⟨0, _⟩ => show win7_2.index t (0 : Fin 2) * 1 + 1 * 0 = 0; omega
  | ⟨1, _⟩ => show win7_2.index t (1 : Fin 2) * 2048 + 1 * a.val = win7_5.index t (0 : Fin 2) * 2048 + 1 * a.val; omega

set_option maxHeartbeats 400000 in
/-- Parameter window 3's one block read at column `a` is the parameter array behind the output entry. -/
theorem read_par3 (c : Dev nD) (t : Fin cfg7.N) (a : Fin 2048) (b : Fin 512) :
    iblk7 V c 3 t (ix2 (0 : Fin 1) a)
      = V c (Pipeline.arrRef spec7 3) (under (((cfg7.win 5).blk t).view.emb (ix2 a b))) := by
  obtain ⟨e00, e01, e50, e51, e10, e11, e20, e21, e30, e31, e40, e41⟩ := idx_facts t
  show V c (Pipeline.arrRef spec7 3) (((cfg7.win 3).blk t).view.emb (ix2 (0 : Fin 1) a)) = _
  refine congrArg (V c (Pipeline.arrRef spec7 3)) ?_
  funext ax; apply Fin.ext
  match ax with
  | ⟨0, _⟩ => show win7_3.index t (0 : Fin 2) * 1 + 1 * 0 = 0; omega
  | ⟨1, _⟩ => show win7_3.index t (1 : Fin 2) * 2048 + 1 * a.val = win7_5.index t (0 : Fin 2) * 2048 + 1 * a.val; omega

set_option maxHeartbeats 400000 in
/-- Parameter window 4's one block read at column `a` is the parameter array behind the output entry. -/
theorem read_par4 (c : Dev nD) (t : Fin cfg7.N) (a : Fin 2048) (b : Fin 512) :
    iblk7 V c 4 t (ix2 (0 : Fin 1) a)
      = V c (Pipeline.arrRef spec7 4) (under (((cfg7.win 5).blk t).view.emb (ix2 a b))) := by
  obtain ⟨e00, e01, e50, e51, e10, e11, e20, e21, e30, e31, e40, e41⟩ := idx_facts t
  show V c (Pipeline.arrRef spec7 4) (((cfg7.win 4).blk t).view.emb (ix2 (0 : Fin 1) a)) = _
  refine congrArg (V c (Pipeline.arrRef spec7 4)) ?_
  funext ax; apply Fin.ext
  match ax with
  | ⟨0, _⟩ => show win7_4.index t (0 : Fin 2) * 1 + 1 * 0 = 0; omega
  | ⟨1, _⟩ => show win7_4.index t (1 : Fin 2) * 2048 + 1 * a.val = win7_5.index t (0 : Fin 2) * 2048 + 1 * a.val; omega

set_option maxHeartbeats 400000 in
/-- WHAT POINT `t` WRITES BACK is block `t` of `G` of the arrays the region finds. -/
theorem flushed_eq (c : Dev nD) (t : Fin cfg7.N) :
    (dat7 V c).flushed 5 t = ((cfg7.win 5).blk t).view.read (Elt Ideal)
      (G (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  unfold out7_5
  rw [View.canon_unit_zero hz]
  simp only [View.ld_unit_zero (S := S512x2048) hz, View.ld_unit_zero (S := S1x2048) hz]
  funext j
  obtain ⟨a, b, rfl⟩ : ∃ (a : Fin 2048) (b : Fin 512), j = ix2 a b := ⟨j 0, j 1, eq_ix2 j⟩
  show k7_pay1 (F := Ideal) (iblk7 V c 0 t) (iblk7 V c 1 t) (iblk7 V c 2 t) (iblk7 V c 3 t) (iblk7 V c 4 t) (ix2 a b)
    = G (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb (ix2 a b))
  refine (pay_at (iblk7 V c 0 t) (iblk7 V c 1 t) (iblk7 V c 2 t) (iblk7 V c 3 t) (iblk7 V c 4 t) a b).trans ?_
  rw [read_act V c t a b, read_par1 V c t a b, read_par2 V c t a b, read_par3 V c t a b, read_par4 V c t a b]
  rfl

/-- An index of the array is in point `t`'s block iff each coordinate is in the block's range on its axis. -/
theorem mem_blk (t : Fin cfg7.N) (i : S2048x8192.Idx) :
    i ∈ ((cfg7.win 5).blk t).view.set ↔ ∀ a : Fin 2, win7_5.index t a * S2048x512.size a ≤ (i a).val
      ∧ (i a).val < win7_5.index t a * S2048x512.size a + S2048x512.size a := by
  show i ∈ ((View.whole main_v101).slice (win7_5.rect t)).set ↔ _
  rw [View.set_slice_whole, Rect.mem_set_unit]
  exact Iff.rfl

/-- Every index of the result is in some point's block: column `r` is in block `r / 512`. -/
theorem cover (i : S2048x8192.Idx) :
    ∃ t : Fin cfg7.N, (cfg7.win 5).flush t = true ∧ i ∈ ((cfg7.win 5).blk t).view.set := by
  have hi0 : (i 0).val < 2048 := (i 0).isLt
  have hi1 : (i 1).val < 8192 := (i 1).isLt
  have hN : cfg7.N = 16 := N_7
  refine ⟨⟨(i 1).val / 512, by rw [hN]; omega⟩, flush7_5 _, ?_⟩
  rw [mem_blk]
  obtain ⟨-, -, e50, e51, -⟩ := idx_facts ⟨(i 1).val / 512, by rw [hN]; omega⟩
  intro a
  match a with
  | ⟨0, _⟩ =>
    show win7_5.index _ (0 : Fin 2) * 2048 ≤ (i 0).val ∧ (i 0).val < win7_5.index _ (0 : Fin 2) * 2048 + 2048
    rw [e50]; omega
  | ⟨1, _⟩ =>
    show win7_5.index _ (1 : Fin 2) * 512 ≤ (i 1).val ∧ (i 1).val < win7_5.index _ (1 : Fin 2) * 512 + 512
    rw [e51]; show (i 1).val / 512 * 512 ≤ (i 1).val ∧ (i 1).val < (i 1).val / 512 * 512 + 512; omega

/-- THE RESULT ARRAY after the region: `G` of the arrays the region finds. -/
theorem final (c : Dev nD) :
    (dat7 V c).arrAt 5 cfg7.N
      = G (V c (Pipeline.arrRef spec7 0)) (V c (Pipeline.arrRef spec7 1)) (V c (Pipeline.arrRef spec7 2))
          (V c (Pipeline.arrRef spec7 3)) (V c (Pipeline.arrRef spec7 4)) :=
  (dat7 V c).arrAt_eq_of_cover 5 _ (fun t _ => flushed_eq V c t) (cover)

end Cert.KernelIdeal.NormRelu7

end
-- ==== Proof.KernelChain.lean ====
/-
  The idealized kernel's result as one function of its argument arrays.

  @main alternates stretches of host operations with eight pipelined regions. The first stretch gathers the embedding
  rows and forms `2 · self + neighbour sum`; then four times: a region computes `y = x · w + b` with the column sums of
  `y` and `y · y`; a stretch turns the sums into the mean and `rsqrt (max (E[y²] − mean²) 0 + ε)` rows; a region
  normalises, scales, shifts and clamps at zero (the last one writing transposed). Each boundary's contents are read
  from the regions' whole-array posts and the stretches' folds; the arguments hold what was launched throughout.
-/
import proofs.«152490_j70686571758165_2_alg».proof.Proof.KernelKept
import proofs.«152490_j70686571758165_2_alg».proof.Proof.StatsValue0
import proofs.«152490_j70686571758165_2_alg».proof.Proof.StatsValue2
import proofs.«152490_j70686571758165_2_alg».proof.Proof.StatsValue4
import proofs.«152490_j70686571758165_2_alg».proof.Proof.StatsValue6
import proofs.«152490_j70686571758165_2_alg».proof.Proof.NormRelu1
import proofs.«152490_j70686571758165_2_alg».proof.Proof.NormRelu3
import proofs.«152490_j70686571758165_2_alg».proof.Proof.NormRelu5
import proofs.«152490_j70686571758165_2_alg».proof.Proof.NormRelu7

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-! ## The host operations between the regions, as pure functions -/

/-- The batch size 8192 as a vector (the f32 word of 8192.0 broadcast). -/
def nVec : FVec Ideal S2048 .f32 := broadcastInDim S2048 ![] bcast_S_S2048 (constant (F := Ideal) S_ .f32 0x46000000#32)

/-- The mean per column from the row of column sums. -/
def meanVec (s : FVec Ideal S1x2048 .f32) : FVec Ideal S2048 .f32 :=
  Host.divf (shapeCast S2048 s shapeCasts_S1x2048_S2048) nVec

/-- `rsqrt (max (E[y²] − mean²) 0 + ε)` per column from the rows of column sums and of column sums of squares. -/
def invVec (s q : FVec Ideal S1x2048 .f32) : FVec Ideal S2048 .f32 :=
  Host.rsqrt (addf (maximumf (subf (Host.divf (shapeCast S2048 q shapeCasts_S1x2048_S2048) nVec) (mulf (meanVec s) (meanVec s)))
      (broadcastInDim S2048 ![] bcast_S_S2048 (constant (F := Ideal) S_ .f32 0x00000000#32)))
    (broadcastInDim S2048 ![] bcast_S_S2048 (constant (F := Ideal) S_ .f32 0x3727C5AC#32)))

/-- A vector kept as a 1×2048 row. -/
def rowOf (v : FVec Ideal S2048 .f32) : FVec Ideal S1x2048 .f32 := shapeCast S1x2048 v shapeCasts_S2048_S1x2048

/-- The nodes' own embedding rows (negative indices wrapped, then the gather of whole rows). -/
def selfEmb (a0 : (⟨S8192, .i32⟩ : BufTy).Contents (Elt Ideal)) (a2 : FVec Ideal S4096x4096 .f32) : FVec Ideal S8192x4096 .f32 :=
  Host.gather gather_S4096x4096_S8192x1_S8192x4096_1_0_n_n_0_1_14096 a2
    (broadcastInDim S8192x1 ![0] bcast_S8192_S8192x1_0
      (select (cmpi .slt a0 (broadcastInDim S8192 ![] bcast_S_S8192 (constantI S_ 32 0#32)))
        (addi a0 (broadcastInDim S8192 ![] bcast_S_S8192 (constantI S_ 32 4096#32))) a0))

/-- The sum of the five sampled neighbours' embedding rows. -/
def nbrSum (a1 : (⟨S8192x5, .i32⟩ : BufTy).Contents (Elt Ideal)) (a2 : FVec Ideal S4096x4096 .f32) : FVec Ideal S8192x4096 .f32 :=
  Host.reduceAdd (Host.gather gather_S4096x4096_S8192x5x1_S8192x5x4096_2_0_n_n_0_2_14096 a2
      (broadcastInDim S8192x5x1 ![0, 1] bcast_S8192x5_S8192x5x1_0_1
        (select (cmpi .slt a1 (broadcastInDim S8192x5 ![] bcast_S_S8192x5 (constantI S_ 32 0#32)))
          (addi a1 (broadcastInDim S8192x5 ![] bcast_S_S8192x5 (constantI S_ 32 4096#32))) a1)))
    (constant (F := Ideal) S_ .f32 0x00000000#32) reducesTo_S8192x5x4096_S8192x4096_d1 h_S_

/-- The first activation: `2 · self + neighbour sum`. -/
def act0 (a0 : (⟨S8192, .i32⟩ : BufTy).Contents (Elt Ideal)) (a1 : (⟨S8192x5, .i32⟩ : BufTy).Contents (Elt Ideal)) (a2 : FVec Ideal S4096x4096 .f32) : FVec Ideal S8192x4096 .f32 :=
  addf (mulf (broadcastInDim S8192x4096 ![] bcast_S_S8192x4096 (constant (F := Ideal) S_ .f32 0x40000000#32)) (selfEmb a0 a2))
    (nbrSum a1 a2)

variable (m : (ℓ : Loc nD τ sig) → Buf (Elt Ideal) ℓ) (ρ : Dev nD → PrngReg)

/-! ## The first stretch -/

set_option maxHeartbeats 4000000 in
theorem W1_x (c : Dev nD) : W1 (F := Ideal) m ρ c (Proc.devRef .tc main_v17)
    = act0 (m ((c : Thread nD τ).loc main_arg0)) (m ((c : Thread nD τ).loc main_arg1)) (m ((c : Thread nD τ).loc main_arg2)) := by
  show StableHlo.after hostOps0 (W0 (F := Ideal) m ρ c) (Proc.devRef .tc main_v17) = _
  after_results_simp
  rfl
set_option maxHeartbeats 4000000 in
theorem W1_w (c : Dev nD) : @Eq (FVec Ideal S4096x2048 .bf16) (W1 (F := Ideal) m ρ c (Proc.devRef .tc main_v18))
    (truncf .bf16 (m ((c : Thread nD τ).loc main_arg3) : FVec Ideal S4096x2048 .f32) bitsLt_bf16_f32) := by
  show StableHlo.after hostOps0 (W0 (F := Ideal) m ρ c) (Proc.devRef .tc main_v18) = _
  after_results
  all_goals rfl
set_option maxHeartbeats 4000000 in
theorem W1_b (c : Dev nD) : W1 (F := Ideal) m ρ c (Proc.devRef .tc main_v19)
    = rowOf (m ((c : Thread nD τ).loc main_arg4)) := by
  show StableHlo.after hostOps0 (W0 (F := Ideal) m ρ c) (Proc.devRef .tc main_v19) = _
  after_results
  all_goals rfl

/-! ## Layer 0: region 0 (product, bias, column sums) -/

theorem W2_y (c : Dev nD) : W2 (F := Ideal) m ρ c (Proc.devRef .tc main_v20_0)
    = Stats0.yOf (W1 (F := Ideal) m ρ c (Proc.devRef .tc main_v17)) (W1 (F := Ideal) m ρ c (Proc.devRef .tc main_v18)) (W1 (F := Ideal) m ρ c (Proc.devRef .tc main_v19)) :=
  (W2_arr m ρ c 3).trans (Stats0.final3 (V1 m ρ) c)
theorem W2_s (c : Dev nD) : W2 (F := Ideal) m ρ c (Proc.devRef .tc main_v20_1)
    = Stats0.colSum (Stats0.yOf (W1 (F := Ideal) m ρ c (Proc.devRef .tc main_v17)) (W1 (F := Ideal) m ρ c (Proc.devRef .tc main_v18)) (W1 (F := Ideal) m ρ c (Proc.devRef .tc main_v19))) :=
  (W2_arr m ρ c 4).trans (Stats0.final4 (V1 m ρ) c)
theorem W2_q (c : Dev nD) : W2 (F := Ideal) m ρ c (Proc.devRef .tc main_v20_2)
    = Stats0.colSumSq (Stats0.yOf (W1 (F := Ideal) m ρ c (Proc.devRef .tc main_v17)) (W1 (F := Ideal) m ρ c (Proc.devRef .tc main_v18)) (W1 (F := Ideal) m ρ c (Proc.devRef .tc main_v19))) :=
  (W2_arr m ρ c 5).trans (Stats0.final5 (V1 m ρ) c)

/-! ## Layer 0: the stretch of statistics -/

theorem W3_y (c : Dev nD) : W3 (F := Ideal) m ρ c (Proc.devRef .tc main_v20_0) = W2 (F := Ideal) m ρ c (Proc.devRef .tc main_v20_0) := by
  kept_by hostOps1
theorem W3_mean (c : Dev nD) : W3 (F := Ideal) m ρ c (Proc.devRef .tc main_v34)
    = rowOf (meanVec (W2 (F := Ideal) m ρ c (Proc.devRef .tc main_v20_1))) := by
  show StableHlo.after hostOps1 (W2 (F := Ideal) m ρ c) (Proc.devRef .tc main_v34) = _
  after_results
  all_goals rfl
theorem W3_inv (c : Dev nD) : W3 (F := Ideal) m ρ c (Proc.devRef .tc main_v35)
    = rowOf (invVec (W2 (F := Ideal) m ρ c (Proc.devRef .tc main_v20_1)) (W2 (F := Ideal) m ρ c (Proc.devRef .tc main_v20_2))) := by
  show StableHlo.after hostOps1 (W2 (F := Ideal) m ρ c) (Proc.devRef .tc main_v35) = _
  after_results
  all_goals rfl
theorem W3_g (c : Dev nD) : W3 (F := Ideal) m ρ c (Proc.devRef .tc main_v36) = rowOf (m ((c : Thread nD τ).loc main_arg5)) := by
  have e : W3 (F := Ideal) m ρ c (Proc.devRef .tc main_v36) = rowOf (W2 (F := Ideal) m ρ c (Proc.devRef .tc main_arg5)) := by
    show StableHlo.after hostOps1 (W2 (F := Ideal) m ρ c) (Proc.devRef .tc main_v36) = _
    after_results
    all_goals rfl
  rw [e, W2_arg5]
theorem W3_be (c : Dev nD) : W3 (F := Ideal) m ρ c (Proc.devRef .tc main_v37) = rowOf (m ((c : Thread nD τ).loc main_arg6)) := by
  have e : W3 (F := Ideal) m ρ c (Proc.devRef .tc main_v37) = rowOf (W2 (F := Ideal) m ρ c (Proc.devRef .tc main_arg6)) := by
    show StableHlo.after hostOps1 (W2 (F := Ideal) m ρ c) (Proc.devRef .tc main_v37) = _
    after_results
    all_goals rfl
  rw [e, W2_arg6]

/-! ## Layer 0: region 1 (normalise, scale, shift, clamp) -/

theorem W4_out (c : Dev nD) : W4 (F := Ideal) m ρ c (Proc.devRef .tc main_v38)
    = NormRelu1.G (W3 (F := Ideal) m ρ c (Proc.devRef .tc main_v20_0)) (W3 (F := Ideal) m ρ c (Proc.devRef .tc main_v34)) (W3 (F := Ideal) m ρ c (Proc.devRef .tc main_v35))
        (W3 (F := Ideal) m ρ c (Proc.devRef .tc main_v36)) (W3 (F := Ideal) m ρ c (Proc.devRef .tc main_v37)) :=
  (W4_arr m ρ c 5).trans (NormRelu1.final (V3 m ρ) c)

/-! ## Layer 1: the stretch before region 2 -/

theorem W5_x (c : Dev nD) : W5 (F := Ideal) m ρ c (Proc.devRef .tc main_v38) = W4 (F := Ideal) m ρ c (Proc.devRef .tc main_v38) := by
  kept_by hostOps2
theorem W5_w (c : Dev nD) : @Eq (FVec Ideal S2048x2048 .bf16) (W5 (F := Ideal) m ρ c (Proc.devRef .tc main_v39))
    (truncf .bf16 (m ((c : Thread nD τ).loc main_arg7) : FVec Ideal S2048x2048 .f32) bitsLt_bf16_f32) := by
  have e : @Eq (FVec Ideal S2048x2048 .bf16) (W5 (F := Ideal) m ρ c (Proc.devRef .tc main_v39))
      (truncf .bf16 (W4 (F := Ideal) m ρ c (Proc.devRef .tc main_arg7) : FVec Ideal S2048x2048 .f32) bitsLt_bf16_f32) := by
    show StableHlo.after hostOps2 (W4 (F := Ideal) m ρ c) (Proc.devRef .tc main_v39) = _
    after_results
    all_goals rfl
  rw [e, W4_arg7]
theorem W5_b (c : Dev nD) : W5 (F := Ideal) m ρ c (Proc.devRef .tc main_v40)
    = rowOf (m ((c : Thread nD τ).loc main_arg8)) := by
  have e : W5 (F := Ideal) m ρ c (Proc.devRef .tc main_v40) = rowOf (W4 (F := Ideal) m ρ c (Proc.devRef .tc main_arg8)) := by
    show StableHlo.after hostOps2 (W4 (F := Ideal) m ρ c) (Proc.devRef .tc main_v40) = _
    after_results
    all_goals rfl
  rw [e, W4_arg8]

/-! ## Layer 1: region 2 (product, bias, column sums) -/

theorem W6_y (c : Dev nD) : W6 (F := Ideal) m ρ c (Proc.devRef .tc main_v41_0)
    = Stats2.yOf (W5 (F := Ideal) m ρ c (Proc.devRef .tc main_v38)) (W5 (F := Ideal) m ρ c (Proc.devRef .tc main_v39)) (W5 (F := Ideal) m ρ c (Proc.devRef .tc main_v40)) :=
  (W6_arr m ρ c 3).trans (Stats2.final3 (V5 m ρ) c)
theorem W6_s (c : Dev nD) : W6 (F := Ideal) m ρ c (Proc.devRef .tc main_v41_1)
    = Stats2.colSum (Stats2.yOf (W5 (F := Ideal) m ρ c (Proc.devRef .tc main_v38)) (W5 (F := Ideal) m ρ c (Proc.devRef .tc main_v39)) (W5 (F := Ideal) m ρ c (Proc.devRef .tc main_v40))) :=
  (W6_arr m ρ c 4).trans (Stats2.final4 (V5 m ρ) c)
theorem W6_q (c : Dev nD) : W6 (F := Ideal) m ρ c (Proc.devRef .tc main_v41_2)
    = Stats2.colSumSq (Stats2.yOf (W5 (F := Ideal) m ρ c (Proc.devRef .tc main_v38)) (W5 (F := Ideal) m ρ c (Proc.devRef .tc main_v39)) (W5 (F := Ideal) m ρ c (Proc.devRef .tc main_v40))) :=
  (W6_arr m ρ c 5).trans (Stats2.final5 (V5 m ρ) c)

/-! ## Layer 1: the stretch of statistics -/

theorem W7_y (c : Dev nD) : W7 (F := Ideal) m ρ c (Proc.devRef .tc main_v41_0) = W6 (F := Ideal) m ρ c (Proc.devRef .tc main_v41_0) := by
  kept_by hostOps3
theorem W7_mean (c : Dev nD) : W7 (F := Ideal) m ρ c (Proc.devRef .tc main_v55)
    = rowOf (meanVec (W6 (F := Ideal) m ρ c (Proc.devRef .tc main_v41_1))) := by
  show StableHlo.after hostOps3 (W6 (F := Ideal) m ρ c) (Proc.devRef .tc main_v55) = _
  after_results
  all_goals rfl
theorem W7_inv (c : Dev nD) : W7 (F := Ideal) m ρ c (Proc.devRef .tc main_v56)
    = rowOf (invVec (W6 (F := Ideal) m ρ c (Proc.devRef .tc main_v41_1)) (W6 (F := Ideal) m ρ c (Proc.devRef .tc main_v41_2))) := by
  show StableHlo.after hostOps3 (W6 (F := Ideal) m ρ c) (Proc.devRef .tc main_v56) = _
  after_results
  all_goals rfl
theorem W7_g (c : Dev nD) : W7 (F := Ideal) m ρ c (Proc.devRef .tc main_v57) = rowOf (m ((c : Thread nD τ).loc main_arg9)) := by
  have e : W7 (F := Ideal) m ρ c (Proc.devRef .tc main_v57) = rowOf (W6 (F := Ideal) m ρ c (Proc.devRef .tc main_arg9)) := by
    show StableHlo.after hostOps3 (W6 (F := Ideal) m ρ c) (Proc.devRef .tc main_v57) = _
    after_results
    all_goals rfl
  rw [e, W6_arg9]
theorem W7_be (c : Dev nD) : W7 (F := Ideal) m ρ c (Proc.devRef .tc main_v58) = rowOf (m ((c : Thread nD τ).loc main_arg10)) := by
  have e : W7 (F := Ideal) m ρ c (Proc.devRef .tc main_v58) = rowOf (W6 (F := Ideal) m ρ c (Proc.devRef .tc main_arg10)) := by
    show StableHlo.after hostOps3 (W6 (F := Ideal) m ρ c) (Proc.devRef .tc main_v58) = _
    after_results
    all_goals rfl
  rw [e, W6_arg10]

/-! ## Layer 1: region 3 (normalise, scale, shift, clamp) -/

theorem W8_out (c : Dev nD) : W8 (F := Ideal) m ρ c (Proc.devRef .tc main_v59)
    = NormRelu3.G (W7 (F := Ideal) m ρ c (Proc.devRef .tc main_v41_0)) (W7 (F := Ideal) m ρ c (Proc.devRef .tc main_v55)) (W7 (F := Ideal) m ρ c (Proc.devRef .tc main_v56))
        (W7 (F := Ideal) m ρ c (Proc.devRef .tc main_v57)) (W7 (F := Ideal) m ρ c (Proc.devRef .tc main_v58)) :=
  (W8_arr m ρ c 5).trans (NormRelu3.final (V7 m ρ) c)

/-! ## Layer 2: the stretch before region 4 -/

theorem W9_x (c : Dev nD) : W9 (F := Ideal) m ρ c (Proc.devRef .tc main_v59) = W8 (F := Ideal) m ρ c (Proc.devRef .tc main_v59) := by
  kept_by hostOps4
theorem W9_w (c : Dev nD) : @Eq (FVec Ideal S2048x2048 .bf16) (W9 (F := Ideal) m ρ c (Proc.devRef .tc main_v60))
    (truncf .bf16 (m ((c : Thread nD τ).loc main_arg11) : FVec Ideal S2048x2048 .f32) bitsLt_bf16_f32) := by
  have e : @Eq (FVec Ideal S2048x2048 .bf16) (W9 (F := Ideal) m ρ c (Proc.devRef .tc main_v60))
      (truncf .bf16 (W8 (F := Ideal) m ρ c (Proc.devRef .tc main_arg11) : FVec Ideal S2048x2048 .f32) bitsLt_bf16_f32) := by
    show StableHlo.after hostOps4 (W8 (F := Ideal) m ρ c) (Proc.devRef .tc main_v60) = _
    after_results
    all_goals rfl
  rw [e, W8_arg11]
theorem W9_b (c : Dev nD) : W9 (F := Ideal) m ρ c (Proc.devRef .tc main_v61)
    = rowOf (m ((c : Thread nD τ).loc main_arg12)) := by
  have e : W9 (F := Ideal) m ρ c (Proc.devRef .tc main_v61) = rowOf (W8 (F := Ideal) m ρ c (Proc.devRef .tc main_arg12)) := by
    show StableHlo.after hostOps4 (W8 (F := Ideal) m ρ c) (Proc.devRef .tc main_v61) = _
    after_results
    all_goals rfl
  rw [e, W8_arg12]

/-! ## Layer 2: region 4 (product, bias, column sums) -/

theorem W10_y (c : Dev nD) : W10 (F := Ideal) m ρ c (Proc.devRef .tc main_v62_0)
    = Stats4.yOf (W9 (F := Ideal) m ρ c (Proc.devRef .tc main_v59)) (W9 (F := Ideal) m ρ c (Proc.devRef .tc main_v60)) (W9 (F := Ideal) m ρ c (Proc.devRef .tc main_v61)) :=
  (W10_arr m ρ c 3).trans (Stats4.final3 (V9 m ρ) c)
theorem W10_s (c : Dev nD) : W10 (F := Ideal) m ρ c (Proc.devRef .tc main_v62_1)
    = Stats4.colSum (Stats4.yOf (W9 (F := Ideal) m ρ c (Proc.devRef .tc main_v59)) (W9 (F := Ideal) m ρ c (Proc.devRef .tc main_v60)) (W9 (F := Ideal) m ρ c (Proc.devRef .tc main_v61))) :=
  (W10_arr m ρ c 4).trans (Stats4.final4 (V9 m ρ) c)
theorem W10_q (c : Dev nD) : W10 (F := Ideal) m ρ c (Proc.devRef .tc main_v62_2)
    = Stats4.colSumSq (Stats4.yOf (W9 (F := Ideal) m ρ c (Proc.devRef .tc main_v59)) (W9 (F := Ideal) m ρ c (Proc.devRef .tc main_v60)) (W9 (F := Ideal) m ρ c (Proc.devRef .tc main_v61))) :=
  (W10_arr m ρ c 5).trans (Stats4.final5 (V9 m ρ) c)

/-! ## Layer 2: the stretch of statistics -/

theorem W11_y (c : Dev nD) : W11 (F := Ideal) m ρ c (Proc.devRef .tc main_v62_0) = W10 (F := Ideal) m ρ c (Proc.devRef .tc main_v62_0) := by
  kept_by hostOps5
theorem W11_mean (c : Dev nD) : W11 (F := Ideal) m ρ c (Proc.devRef .tc main_v76)
    = rowOf (meanVec (W10 (F := Ideal) m ρ c (Proc.devRef .tc main_v62_1))) := by
  show StableHlo.after hostOps5 (W10 (F := Ideal) m ρ c) (Proc.devRef .tc main_v76) = _
  after_results
  all_goals rfl
theorem W11_inv (c : Dev nD) : W11 (F := Ideal) m ρ c (Proc.devRef .tc main_v77)
    = rowOf (invVec (W10 (F := Ideal) m ρ c (Proc.devRef .tc main_v62_1)) (W10 (F := Ideal) m ρ c (Proc.devRef .tc main_v62_2))) := by
  show StableHlo.after hostOps5 (W10 (F := Ideal) m ρ c) (Proc.devRef .tc main_v77) = _
  after_results
  all_goals rfl
theorem W11_g (c : Dev nD) : W11 (F := Ideal) m ρ c (Proc.devRef .tc main_v78) = rowOf (m ((c : Thread nD τ).loc main_arg13)) := by
  have e : W11 (F := Ideal) m ρ c (Proc.devRef .tc main_v78) = rowOf (W10 (F := Ideal) m ρ c (Proc.devRef .tc main_arg13)) := by
    show StableHlo.after hostOps5 (W10 (F := Ideal) m ρ c) (Proc.devRef .tc main_v78) = _
    after_results
    all_goals rfl
  rw [e, W10_arg13]
theorem W11_be (c : Dev nD) : W11 (F := Ideal) m ρ c (Proc.devRef .tc main_v79) = rowOf (m ((c : Thread nD τ).loc main_arg14)) := by
  have e : W11 (F := Ideal) m ρ c (Proc.devRef .tc main_v79) = rowOf (W10 (F := Ideal) m ρ c (Proc.devRef .tc main_arg14)) := by
    show StableHlo.after hostOps5 (W10 (F := Ideal) m ρ c) (Proc.devRef .tc main_v79) = _
    after_results
    all_goals rfl
  rw [e, W10_arg14]

/-! ## Layer 2: region 5 (normalise, scale, shift, clamp) -/

theorem W12_out (c : Dev nD) : W12 (F := Ideal) m ρ c (Proc.devRef .tc main_v80)
    = NormRelu5.G (W11 (F := Ideal) m ρ c (Proc.devRef .tc main_v62_0)) (W11 (F := Ideal) m ρ c (Proc.devRef .tc main_v76)) (W11 (F := Ideal) m ρ c (Proc.devRef .tc main_v77))
        (W11 (F := Ideal) m ρ c (Proc.devRef .tc main_v78)) (W11 (F := Ideal) m ρ c (Proc.devRef .tc main_v79)) :=
  (W12_arr m ρ c 5).trans (NormRelu5.final (V11 m ρ) c)

/-! ## Layer 3: the stretch before region 6 -/

theorem W13_x (c : Dev nD) : W13 (F := Ideal) m ρ c (Proc.devRef .tc main_v80) = W12 (F := Ideal) m ρ c (Proc.devRef .tc main_v80) := by
  kept_by hostOps6
theorem W13_w (c : Dev nD) : @Eq (FVec Ideal S2048x2048 .bf16) (W13 (F := Ideal) m ρ c (Proc.devRef .tc main_v81))
    (truncf .bf16 (m ((c : Thread nD τ).loc main_arg15) : FVec Ideal S2048x2048 .f32) bitsLt_bf16_f32) := by
  have e : @Eq (FVec Ideal S2048x2048 .bf16) (W13 (F := Ideal) m ρ c (Proc.devRef .tc main_v81))
      (truncf .bf16 (W12 (F := Ideal) m ρ c (Proc.devRef .tc main_arg15) : FVec Ideal S2048x2048 .f32) bitsLt_bf16_f32) := by
    show StableHlo.after hostOps6 (W12 (F := Ideal) m ρ c) (Proc.devRef .tc main_v81) = _
    after_results
    all_goals rfl
  rw [e, W12_arg15]
theorem W13_b (c : Dev nD) : W13 (F := Ideal) m ρ c (Proc.devRef .tc main_v82)
    = rowOf (m ((c : Thread nD τ).loc main_arg16)) := by
  have e : W13 (F := Ideal) m ρ c (Proc.devRef .tc main_v82) = rowOf (W12 (F := Ideal) m ρ c (Proc.devRef .tc main_arg16)) := by
    show StableHlo.after hostOps6 (W12 (F := Ideal) m ρ c) (Proc.devRef .tc main_v82) = _
    after_results
    all_goals rfl
  rw [e, W12_arg16]

/-! ## Layer 3: region 6 (product, bias, column sums) -/

theorem W14_y (c : Dev nD) : W14 (F := Ideal) m ρ c (Proc.devRef .tc main_v83_0)
    = Stats6.yOf (W13 (F := Ideal) m ρ c (Proc.devRef .tc main_v80)) (W13 (F := Ideal) m ρ c (Proc.devRef .tc main_v81)) (W13 (F := Ideal) m ρ c (Proc.devRef .tc main_v82)) :=
  (W14_arr m ρ c 3).trans (Stats6.final3 (V13 m ρ) c)
theorem W14_s (c : Dev nD) : W14 (F := Ideal) m ρ c (Proc.devRef .tc main_v83_1)
    = Stats6.colSum (Stats6.yOf (W13 (F := Ideal) m ρ c (Proc.devRef .tc main_v80)) (W13 (F := Ideal) m ρ c (Proc.devRef .tc main_v81)) (W13 (F := Ideal) m ρ c (Proc.devRef .tc main_v82))) :=
  (W14_arr m ρ c 4).trans (Stats6.final4 (V13 m ρ) c)
theorem W14_q (c : Dev nD) : W14 (F := Ideal) m ρ c (Proc.devRef .tc main_v83_2)
    = Stats6.colSumSq (Stats6.yOf (W13 (F := Ideal) m ρ c (Proc.devRef .tc main_v80)) (W13 (F := Ideal) m ρ c (Proc.devRef .tc main_v81)) (W13 (F := Ideal) m ρ c (Proc.devRef .tc main_v82))) :=
  (W14_arr m ρ c 5).trans (Stats6.final5 (V13 m ρ) c)

/-! ## Layer 3: the stretch of statistics -/

theorem W15_y (c : Dev nD) : W15 (F := Ideal) m ρ c (Proc.devRef .tc main_v83_0) = W14 (F := Ideal) m ρ c (Proc.devRef .tc main_v83_0) := by
  kept_by hostOps7
theorem W15_mean (c : Dev nD) : W15 (F := Ideal) m ρ c (Proc.devRef .tc main_v97)
    = rowOf (meanVec (W14 (F := Ideal) m ρ c (Proc.devRef .tc main_v83_1))) := by
  show StableHlo.after hostOps7 (W14 (F := Ideal) m ρ c) (Proc.devRef .tc main_v97) = _
  after_results
  all_goals rfl
theorem W15_inv (c : Dev nD) : W15 (F := Ideal) m ρ c (Proc.devRef .tc main_v98)
    = rowOf (invVec (W14 (F := Ideal) m ρ c (Proc.devRef .tc main_v83_1)) (W14 (F := Ideal) m ρ c (Proc.devRef .tc main_v83_2))) := by
  show StableHlo.after hostOps7 (W14 (F := Ideal) m ρ c) (Proc.devRef .tc main_v98) = _
  after_results
  all_goals rfl
theorem W15_g (c : Dev nD) : W15 (F := Ideal) m ρ c (Proc.devRef .tc main_v99) = rowOf (m ((c : Thread nD τ).loc main_arg17)) := by
  have e : W15 (F := Ideal) m ρ c (Proc.devRef .tc main_v99) = rowOf (W14 (F := Ideal) m ρ c (Proc.devRef .tc main_arg17)) := by
    show StableHlo.after hostOps7 (W14 (F := Ideal) m ρ c) (Proc.devRef .tc main_v99) = _
    after_results
    all_goals rfl
  rw [e, W14_arg17]
theorem W15_be (c : Dev nD) : W15 (F := Ideal) m ρ c (Proc.devRef .tc main_v100) = rowOf (m ((c : Thread nD τ).loc main_arg18)) := by
  have e : W15 (F := Ideal) m ρ c (Proc.devRef .tc main_v100) = rowOf (W14 (F := Ideal) m ρ c (Proc.devRef .tc main_arg18)) := by
    show StableHlo.after hostOps7 (W14 (F := Ideal) m ρ c) (Proc.devRef .tc main_v100) = _
    after_results
    all_goals rfl
  rw [e, W14_arg18]

/-! ## Layer 3: region 7 (normalise, scale, shift, clamp) -/

theorem W16_out (c : Dev nD) : W16 (F := Ideal) m ρ c (Proc.devRef .tc main_v101)
    = NormRelu7.G (W15 (F := Ideal) m ρ c (Proc.devRef .tc main_v83_0)) (W15 (F := Ideal) m ρ c (Proc.devRef .tc main_v97)) (W15 (F := Ideal) m ρ c (Proc.devRef .tc main_v98))
        (W15 (F := Ideal) m ρ c (Proc.devRef .tc main_v99)) (W15 (F := Ideal) m ρ c (Proc.devRef .tc main_v100)) :=
  (W16_arr m ρ c 5).trans (NormRelu7.final (V15 m ρ) c)

end Cert.KernelIdeal.Chain

end
-- ==== Proof.LibZscoreLaw.lean ====
/-
  Column statistics by moments against column statistics by centring, on the extended reals.

  A z-score over the rows of a column can be computed in one pass, from the two running moments
  `S = ∑ x k` and `Q = ∑ x k · x k`, as mean `μ = S / n` and sum of squared deviations `Q − (n · μ) · μ`;
  or in two passes, as the same mean and `∑ (x k − μ) · (x k − μ)`. Over the real numbers the two are one
  number, because `∑ (x k − μ)² = Q − 2 μ S + n μ²` and `S = n μ`. On the extended reals the law FAILS at an
  infinite entry (`⊤ − ⊤ = ⊥` on one side, `⊥ · ⊥ = ⊤` summed on the other), so it is stated for entries that are
  real numbers; everything here is for any finite index type, `n` the number of its elements as a real.

  Contents: the coercion of a finite real sum is the sum of the coercions; the mean of real entries is real;
  the law in the one-pass order of operations `Q − (n · μ) · μ`; and its form for an extended-real family each
  of whose entries is a real number.
-/
import Idealize.ShloMosaic.PureOps.Ideal

noncomputable section

namespace Cert.LibZscoreLaw

open Idealize.ShloMosaic

/-- The coercion of a finite sum of reals into the extended reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over the reals: the squared deviations from the mean add up to the second moment minus `(n · μ) · μ`,
    where `μ = S / n` and `n` is the number of entries. -/
theorem real_centred_eq_moments {ι : Type*} [Fintype ι] (x : ι → ℝ) (n : ℝ)
    (hn : n = (Fintype.card ι : ℝ)) (hn0 : n ≠ 0) :
    (∑ k, (x k - (∑ j, x j) / n) * (x k - (∑ j, x j) / n))
      = (∑ k, x k * x k) - (n * ((∑ j, x j) / n)) * ((∑ j, x j) / n) := by
  set S : ℝ := ∑ j, x j with hS
  set μ : ℝ := S / n with hμ
  have hSμ : S = n * μ := by rw [hμ]; field_simp
  have hexp : ∀ k, (x k - μ) * (x k - μ) = x k * x k - (2 * μ) * x k + μ * μ := fun k => by ring
  rw [Finset.sum_congr rfl (fun k _ => hexp k), Finset.sum_add_distrib, Finset.sum_sub_distrib,
    ← Finset.mul_sum, Finset.sum_const, Finset.card_univ, nsmul_eq_mul, ← hn, ← hS, hSμ]
  ring

/-- The mean of real entries is the real mean: the quotient of the coerced sum by a nonzero real `n` (the
    extended reals' division as the ideal instance defines it) is the coercion of `S / n`. -/
theorem mean_coe {ι : Type*} [Fintype ι] (x : ι → ℝ) (n : ℝ) (hn0 : n ≠ 0) :
    Ideal.div (∑ k, (x k : EReal)) (n : EReal) = (((∑ k, x k) / n : ℝ) : EReal) := by
  rw [Ideal.div_coe hn0, ← coe_sum, ← EReal.coe_mul]
  congr 1
  rw [one_div, div_eq_mul_inv]

/-- THE LAW, in the one-pass order of operations. For real entries `x k`, `n` their number and
    `μ = (∑ x k) / n` the mean (the ideal instance's division): the two-pass sum of squared deviations
    `∑ (x k − μ) · (x k − μ)` is the one-pass `(∑ x k · x k) − (n · μ) · μ`, as extended reals. -/
theorem centred_eq_moments {ι : Type*} [Fintype ι] (x : ι → ℝ) (n : ℝ)
    (hn : n = (Fintype.card ι : ℝ)) (hn0 : n ≠ 0) :
    (∑ k, ((x k : EReal) - Ideal.div (∑ j, (x j : EReal)) (n : EReal))
          * ((x k : EReal) - Ideal.div (∑ j, (x j : EReal)) (n : EReal)))
      = (∑ k, (x k : EReal) * (x k : EReal))
          - ((n : EReal) * Ideal.div (∑ j, (x j : EReal)) (n : EReal))
              * Ideal.div (∑ j, (x j : EReal)) (n : EReal) := by
  rw [mean_coe x n hn0]
  simp only [← EReal.coe_sub, ← EReal.coe_mul, ← coe_sum]
  rw [real_centred_eq_moments x n hn hn0]

/-- The same law for a family of extended reals each of whose entries is a real number. -/
theorem centred_eq_moments_of_real {ι : Type*} [Fintype ι] (y : ι → EReal) (hy : ∀ k, ∃ r : ℝ, y k = (r : EReal))
    (n : ℝ) (hn : n = (Fintype.card ι : ℝ)) (hn0 : n ≠ 0) :
    (∑ k, (y k - Ideal.div (∑ j, y j) (n : EReal)) * (y k - Ideal.div (∑ j, y j) (n : EReal)))
      = (∑ k, y k * y k) - ((n : EReal) * Ideal.div (∑ j, y j) (n : EReal)) * Ideal.div (∑ j, y j) (n : EReal) := by
  choose x hx using hy
  have hyx : y = fun k => (x k : EReal) := funext hx
  subst hyx
  exact centred_eq_moments x n hn hn0

end Cert.LibZscoreLaw

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.LibBatchNormMoments.lean ====
/-
  Batch normalisation by moments against batch normalisation by centring, on the extended reals.

  A column `y k` (k over the rows of a batch) is normalised with its mean `μ = (∑ y k) / n` and a variance. One
  program accumulates the two moments `S = ∑ y k` and `Q = ∑ y k · y k` and takes the variance as
  `max (Q / n − μ · μ) 0`; another centres first and takes `(∑ (y k − μ) · (y k − μ)) / n`. For real entries and
  `n` the number of rows these are one nonnegative real number: `∑ (y k − μ)² = Q − (n · μ) · μ`, so the quotient by
  `n` is `Q / n − μ · μ`, and a mean of squares is not negative, so the clamp at zero changes nothing. On the
  extended reals the law fails at an infinite entry, so everything is stated for entries that are real numbers.

  Contents: real-valuedness closed under −, max, a quotient by a nonzero real, and the reciprocal square root of a
  positive real; the variance law (`var_moments_eq_centred`); an affine layer `x · w + b` and the normalise, scale,
  shift and clamp-at-zero layer in both orders of operations as functions of a matrix of any finite extents
  (`affine`, `bnReluMoments`, `bnReluCentred`); the two layers are one function for real entries, and its
  values are real numbers, so layers compose.
-/
import proofs.«152490_j70686571758165_2_alg».proof.Proof.LibZscoreLaw
import proofs.«152490_j70686571758165_2_alg».proof.Proof.LibRealValued

noncomputable section

namespace Cert.LibBatchNormMoments

open Idealize.ShloMosaic Cert.RealValued

/-- The difference of two real numbers is a real number. -/
theorem isReal_sub {a b : EReal} (ha : IsReal a) (hb : IsReal b) : IsReal (a - b) := by
  obtain ⟨r, rfl⟩ := ha
  obtain ⟨s, rfl⟩ := hb
  exact ⟨r - s, (EReal.coe_sub r s).symm⟩

/-- The larger of two real numbers is a real number. -/
theorem isReal_max {a b : EReal} (ha : IsReal a) (hb : IsReal b) : IsReal (max a b) := by
  rcases max_choice a b with h | h <;> rw [h] <;> assumption

/-- A real number divided by a nonzero real number is a real number. -/
theorem isReal_div {a : EReal} (ha : IsReal a) {n : ℝ} (hn0 : n ≠ 0) : IsReal (Ideal.div a (n : EReal)) := by
  obtain ⟨r, rfl⟩ := ha
  rw [Ideal.div_coe hn0, ← EReal.coe_mul]
  exact ⟨_, rfl⟩

/-- The reciprocal square root of a positive real number is a real number. -/
theorem isReal_rsqrt_of_pos {r : ℝ} (h : 0 < r) : IsReal (Ideal.rsqrt (r : EReal)) := by
  rw [Ideal.rsqrt_coe, if_neg (not_lt.mpr h.le), if_neg h.ne']
  exact ⟨_, rfl⟩

/-- THE VARIANCE LAW. For real entries `y k`, `n` their number: the variance by moments, clamped at zero,
    `max (Q / n − μ · μ) 0`, and the variance by centring, `(∑ (y k − μ) · (y k − μ)) / n`, are one nonnegative real
    number `v` (`μ = (∑ y k) / n`, `Q = ∑ y k · y k`, the quotients the ideal instance's division). -/
theorem var_moments_eq_centred {ι : Type*} [Fintype ι] (y : ι → EReal) (hy : ∀ k, IsReal (y k))
    (n : ℝ) (hn : n = (Fintype.card ι : ℝ)) (hn0 : n ≠ 0) :
    ∃ v : ℝ, 0 ≤ v ∧
      max (Ideal.div (∑ k, y k * y k) (n : EReal)
            - Ideal.div (∑ k, y k) (n : EReal) * Ideal.div (∑ k, y k) (n : EReal)) 0 = (v : EReal) ∧
      Ideal.div (∑ k, (y k - Ideal.div (∑ j, y j) (n : EReal)) * (y k - Ideal.div (∑ j, y j) (n : EReal))) (n : EReal)
        = (v : EReal) := by
  choose x hx using hy
  obtain rfl : y = fun k => (x k : EReal) := funext hx
  have hnpos : 0 < n := by
    have h0 : (0 : ℝ) ≤ n := by rw [hn]; exact Nat.cast_nonneg _
    exact lt_of_le_of_ne h0 (Ne.symm hn0)
  have hlaw := LibZscoreLaw.real_centred_eq_moments x n hn hn0
  generalize hμ : (∑ j, x j) / n = μ at hlaw
  have hmean : Ideal.div (∑ k, (x k : EReal)) (n : EReal) = (μ : EReal) := by
    rw [LibZscoreLaw.mean_coe x n hn0, hμ]
  have hQ : Ideal.div (∑ k, (x k : EReal) * (x k : EReal)) (n : EReal)
      = (((∑ k, x k * x k) / n : ℝ) : EReal) := by
    simp only [← EReal.coe_mul]
    exact LibZscoreLaw.mean_coe (fun k => x k * x k) n hn0
  have hD : Ideal.div (∑ k, ((x k : EReal) - (μ : EReal)) * ((x k : EReal) - (μ : EReal))) (n : EReal)
      = (((∑ k, (x k - μ) * (x k - μ)) / n : ℝ) : EReal) := by
    simp only [← EReal.coe_sub, ← EReal.coe_mul]
    exact LibZscoreLaw.mean_coe (fun k => (x k - μ) * (x k - μ)) n hn0
  have hDnn : 0 ≤ (∑ k, (x k - μ) * (x k - μ)) / n :=
    div_nonneg (Finset.sum_nonneg fun k _ => mul_self_nonneg _) hnpos.le
  have hval : (∑ k, x k * x k) / n - μ * μ = (∑ k, (x k - μ) * (x k - μ)) / n := by
    rw [hlaw, sub_div, mul_assoc, mul_div_cancel_left₀ _ hn0]
  refine ⟨(∑ k, (x k - μ) * (x k - μ)) / n, hDnn, ?_, ?_⟩
  · rw [hmean, hQ, ← EReal.coe_mul, ← EReal.coe_sub, hval]
    exact max_eq_left (EReal.coe_nonneg.mpr hDnn)
  · rw [hmean]; exact hD

section Layers

variable {ι κ κ' : Type} [Fintype ι] [Fintype κ']

/-- An affine layer entry by entry: row `r` of `x` against column `j` of `w`, plus the bias at `j`. -/
def affine (x : ι → κ' → EReal) (w : κ' → κ → EReal) (b : κ → EReal) (r : ι) (j : κ) : EReal :=
  (∑ k, x r k * w k j) + b j

/-- An affine layer of real entries has real entries. -/
theorem isReal_affine {x : ι → κ' → EReal} {w : κ' → κ → EReal} {b : κ → EReal}
    (hx : ∀ r k, IsReal (x r k)) (hw : ∀ k j, IsReal (w k j)) (hb : ∀ j, IsReal (b j)) (r : ι) (j : κ) :
    IsReal (affine x w b r j) :=
  (isReal_sum _ _ fun k _ => (hx r k).mul (hw k j)).add (hb j)

/-- Normalise the columns of `y` over its rows, scale by `g`, shift by `β`, clamp at zero — the variance by
    MOMENTS: `max (Q / n − μ · μ) 0`. -/
def bnReluMoments (n ε : EReal) (y : ι → κ → EReal) (g β : κ → EReal) (r : ι) (j : κ) : EReal :=
  max (((y r j - Ideal.div (∑ k, y k j) n)
        * Ideal.rsqrt (max (Ideal.div (∑ k, y k j * y k j) n
                            - Ideal.div (∑ k, y k j) n * Ideal.div (∑ k, y k j) n) 0 + ε)) * g j + β j) 0

/-- The same layer with the variance by CENTRING: `(∑ (y k − μ) · (y k − μ)) / n`. -/
def bnReluCentred (n ε : EReal) (y : ι → κ → EReal) (g β : κ → EReal) (r : ι) (j : κ) : EReal :=
  max (((y r j - Ideal.div (∑ k, y k j) n)
        * Ideal.rsqrt (Ideal.div (∑ k, (y k j - Ideal.div (∑ i, y i j) n) * (y k j - Ideal.div (∑ i, y i j) n)) n + ε))
        * g j + β j) 0

/-- For real entries and `n` the number of rows the two layers are one function. -/
theorem bnReluMoments_eq_centred {y : ι → κ → EReal} (hy : ∀ r j, IsReal (y r j))
    (n : ℝ) (hn : n = (Fintype.card ι : ℝ)) (hn0 : n ≠ 0) (ε : EReal) (g β : κ → EReal) :
    bnReluMoments (n : EReal) ε y g β = bnReluCentred (n : EReal) ε y g β := by
  funext r j
  obtain ⟨v, -, h1, h2⟩ := var_moments_eq_centred (fun k => y k j) (fun k => hy k j) n hn hn0
  unfold bnReluMoments bnReluCentred
  rw [h1, h2]

/-- For real entries, real scale and shift, `n` the number of rows and a positive real `ε`, the layer's values
    are real numbers. -/
theorem isReal_bnReluMoments {y : ι → κ → EReal} (hy : ∀ r j, IsReal (y r j)) {g β : κ → EReal}
    (hg : ∀ j, IsReal (g j)) (hβ : ∀ j, IsReal (β j))
    (n : ℝ) (hn : n = (Fintype.card ι : ℝ)) (hn0 : n ≠ 0) {ε : ℝ} (hε : 0 < ε) (r : ι) (j : κ) :
    IsReal (bnReluMoments (n : EReal) (ε : EReal) y g β r j) := by
  obtain ⟨v, hv, h1, -⟩ := var_moments_eq_centred (fun k => y k j) (fun k => hy k j) n hn hn0
  unfold bnReluMoments
  rw [h1, ← EReal.coe_add]
  have hmean : IsReal (Ideal.div (∑ k, y k j) (n : EReal)) :=
    isReal_div (isReal_sum _ _ fun k _ => hy k j) hn0
  exact isReal_max
    ((((isReal_sub (hy r j) hmean).mul (isReal_rsqrt_of_pos (by linarith))).mul (hg j)).add (hβ j)) isReal_zero

end Layers

end Cert.LibBatchNormMoments

end
-- ==== Proof.LayerWords.lean ====
/-
  Words shared by the two programs' layers: the batch size and the variance floor's ε as the extended reals their f32
  words denote (8192, a positive real), arrays as matrices and vectors, and the host's sum down the rows of a two-axis
  array read at a column.
-/
import proofs.«152490_j70686571758165_2_alg».proof.Proof.LibBatchNormMoments
import Idealize.ShloMosaic.Lib.ValueIdx
import Idealize.ShloMosaic.PureOps.Ideal.Laws

noncomputable section

namespace Cert.Layer

open Idealize.ShloMosaic Idealize.ShloMosaic.ValueIdx

/-- The batch size and the variance floor's ε, as the extended reals the programs' words denote. -/
abbrev nE : EReal := Ideal.ofBits .f32 0x46000000#32
abbrev epsE : EReal := Ideal.ofBits .f32 0x3727C5AC#32

/-- A two-axis array as a matrix, a one-axis array as a vector. -/
abbrev mat {R C : ℕ} (x : (⟨2, ![R, C]⟩ : Shape).Idx → EReal) : Fin R → Fin C → EReal := fun r c => x (ix2 r c)
abbrev vec {n : ℕ} (v : (⟨1, ![n]⟩ : Shape).Idx → EReal) : Fin n → EReal := fun j => v (ix1 j)

/-- The word 0x46000000 is 8192. -/
theorem nE_eq : nE = ((8192 : ℝ) : EReal) := by
  simp [Ideal.ofBits, Ideal.ieee]
  rw [← EReal.coe_mul]
  congr 1
  norm_num

/-- The word 0x3727C5AC is a positive real number. -/
theorem epsE_pos : ∃ ε : ℝ, 0 < ε ∧ epsE = (ε : EReal) := by
  refine ⟨10995116 * (2 ^ 40)⁻¹, by positivity, ?_⟩
  simp [Ideal.ofBits, Ideal.ieee]

/-- The host's sum down the rows of a two-axis array, read at column `q`: the initial value plus the column's sum. -/
theorem hostRowsSum_apply {a b : ℕ} (x : FVec Ideal ⟨2, ![a, b]⟩ .f32) (init : (⟨0, ![]⟩ : Shape).Idx → EReal)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (q : Fin b) :
    Host.reduceAdd x init h' hu (ix1 q) = init (Shape.Idx.first hu) + ∑ p : Fin a, x (ix2 p q) := by
  show FloatOps.hostReduceAdd [0] h' .single x _ (ix1 q) = _
  rw [Ideal.hostReduceAdd_def]
  refine (Ideal.hostReduceAdd_single h' h x _ (ix1 q)).trans ?_
  refine congrArg (_ + ·) (Finset.sum_congr rfl fun p _ => congrArg x ?_)
  funext cc; apply Fin.ext
  match cc with
  | ⟨0, _⟩ => rfl
  | ⟨1, _⟩ => rfl

end Cert.Layer

end
-- ==== Proof.KernelLayer.lean ====
/-
  The idealized kernel's layers entry by entry, and its result as four nested batch-normalised layers of the first
  activation.

  One layer is: `y = x · w + b`; the column sums `S` of `y` and `Q` of `y · y` over the 8192 rows; the mean `S / 8192`;
  the reciprocal deviation `rsqrt (max (Q / 8192 − mean · mean) 0 + ε)`; and `max (((y − mean) · rdev) · γ + β) 0`. Read at
  row `r`, column `j`, that is the batch normalisation by moments of the affine layer's matrix, with the kernel's own words for
  8192, ε and 0 (the weights' change of float format is the identity on the extended reals).
-/
import proofs.«152490_j70686571758165_2_alg».proof.Proof.KernelChain
import proofs.«152490_j70686571758165_2_alg».proof.Proof.LayerWords

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.Dense Cert.LibBatchNormMoments Cert.Layer

theorem rowOf_apply (v : FVec Ideal S2048 .f32) (j : Fin 2048) : rowOf v (ix2 (0 : Fin 1) j) = v (ix1 j) := by
  unfold rowOf; exact shapeCast_a_1a_apply v _ 0 j

theorem splat_apply (b : BitVec 32) (j : S2048.Idx) :
    broadcastInDim S2048 ![] bcast_S_S2048 (constant (F := Ideal) S_ .f32 b) j = Ideal.ofBits .f32 b :=
  (broadcastInDim_apply _ bcast_S_S2048 _ j ix0 (fun a => a.elim0)).trans rfl

theorem meanVec_apply (s : FVec Ideal S1x2048 .f32) (j : Fin 2048) :
    meanVec s (ix1 j) = Ideal.div (s (ix2 (0 : Fin 1) j)) nE := by
  unfold meanVec nVec
  show FloatOps.hostDivf _ _ = _
  rw [Ideal.hostDivf_def, shapeCast_1a_a_apply, splat_apply]

theorem invVec_apply (s q : FVec Ideal S1x2048 .f32) (j : Fin 2048) :
    invVec s q (ix1 j)
      = Ideal.rsqrt (max (Ideal.div (q (ix2 (0 : Fin 1) j)) nE
          - Ideal.div (s (ix2 (0 : Fin 1) j)) nE * Ideal.div (s (ix2 (0 : Fin 1) j)) nE) 0 + epsE) := by
  unfold invVec
  show FloatOps.hostUnary .rsqrt (FloatOps.addf (FloatOps.maximumf (FloatOps.subf (FloatOps.hostDivf _ _) (FloatOps.mulf _ _)) _) _) = _
  rw [Ideal.hostUnary_rsqrt_def, Ideal.addf_def, Ideal.maximumf_def, Ideal.subf_def, Ideal.mulf_def, Ideal.hostDivf_def,
    meanVec_apply, shapeCast_1a_a_apply, splat_apply, splat_apply, Ideal.ofBits_zero_f32]
  unfold nVec
  rw [splat_apply]

/-- ONE LAYER at row `r`, column `j`: the normalise-scale-shift-clamp entry over `y = x · w + b` and the statistics rows
    the host operations make of `y`'s column sums is the batch normalisation by moments of the affine layer. -/
theorem layer_entry {K : ℕ} (x : (⟨2, ![8192, K]⟩ : Shape).Idx → EReal) (w : (⟨2, ![K, 2048]⟩ : Shape).Idx → EReal)
    (b g be : FVec Ideal S2048 .f32) (y : S8192x2048.Idx → EReal)
    (hy : ∀ (r : Fin 8192) (j : Fin 2048), y (ix2 r j) = affine (mat x) (mat w) (vec b) r j)
    (s q : S1x2048.Idx → EReal)
    (hs : ∀ j : Fin 2048, s (ix2 (0 : Fin 1) j) = ∑ r : Fin 8192, y (ix2 r j))
    (hq : ∀ j : Fin 2048, q (ix2 (0 : Fin 1) j) = ∑ r : Fin 8192, y (ix2 r j) * y (ix2 r j))
    (r : Fin 8192) (j : Fin 2048) :
    NormRelu1.entry (y (ix2 r j)) (rowOf (meanVec s) (ix2 (0 : Fin 1) j)) (rowOf (invVec s q) (ix2 (0 : Fin 1) j))
        (rowOf g (ix2 (0 : Fin 1) j)) (rowOf be (ix2 (0 : Fin 1) j))
      = bnReluMoments nE epsE (affine (mat x) (mat w) (vec b)) (vec g) (vec be) r j := by
  unfold NormRelu1.entry bnReluMoments
  rw [rowOf_apply, rowOf_apply, rowOf_apply, rowOf_apply, meanVec_apply, invVec_apply, hs, hq, Ideal.ofBits_zero_f32]
  simp only [hy]

end Cert.KernelIdeal.Chain

end
-- ==== Proof.KernelValue.lean ====
/-
  The idealized kernel's result, entry by entry, as four nested layers of the first activation.

  With `A₀ = 2 · self + neighbour sum` (8192 × 4096) and `A₁ … A₄` each the batch normalisation by moments, scaled,
  shifted and clamped at zero, of the affine layer `A · W + b` over the one before, the result buffer ends holding
  `A₄` transposed: entry `(a, r)` of the 2048 × 8192 result is `A₄ r a`.
-/
import proofs.«152490_j70686571758165_2_alg».proof.Proof.KernelLayer

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.Dense Cert.LibBatchNormMoments Cert.Layer

/-- One layer as the kernel computes it: batch normalisation BY MOMENTS of the affine layer, the programs' own words for
    8192 and ε. -/
def layerM {K : ℕ} (x : Fin 8192 → Fin K → EReal) (w : Fin K → Fin 2048 → EReal) (b g be : Fin 2048 → EReal) :
    Fin 8192 → Fin 2048 → EReal :=
  bnReluMoments nE epsE (affine x w b) g be

/-- Layer 0's region pair at an entry. -/
theorem layer0_out (x : (⟨2, ![8192, 4096]⟩ : Shape).Idx → EReal) (w : (⟨2, ![4096, 2048]⟩ : Shape).Idx → EReal)
    (b g be : FVec Ideal S2048 .f32) (r : Fin 8192) (j : Fin 2048) :
    NormRelu1.G (Stats0.yOf x w (rowOf b))
        (rowOf (meanVec (Stats0.colSum (Stats0.yOf x w (rowOf b)))))
        (rowOf (invVec (Stats0.colSum (Stats0.yOf x w (rowOf b))) (Stats0.colSumSq (Stats0.yOf x w (rowOf b)))))
        (rowOf g) (rowOf be) (ix2 r j)
      = layerM (mat x) (mat w) (vec b) (vec g) (vec be) r j := by
  refine Eq.trans ?_ (layer_entry x w b g be (Stats0.yOf x w (rowOf b)) (fun r' j' => ?_)
    (Stats0.colSum (Stats0.yOf x w (rowOf b))) (Stats0.colSumSq (Stats0.yOf x w (rowOf b))) (fun j' => rfl) (fun j' => rfl) r j)
  · rfl
  · show rowsTimes x w (ix2 r' j') + rowOf b (ix2 (0 : Fin 1) j') = _
    rw [rowOf_apply]
    rfl

/-- Layer 1's region pair at an entry. -/
theorem layer1_out (x : (⟨2, ![8192, 2048]⟩ : Shape).Idx → EReal) (w : (⟨2, ![2048, 2048]⟩ : Shape).Idx → EReal)
    (b g be : FVec Ideal S2048 .f32) (r : Fin 8192) (j : Fin 2048) :
    NormRelu3.G (Stats2.yOf x w (rowOf b))
        (rowOf (meanVec (Stats2.colSum (Stats2.yOf x w (rowOf b)))))
        (rowOf (invVec (Stats2.colSum (Stats2.yOf x w (rowOf b))) (Stats2.colSumSq (Stats2.yOf x w (rowOf b)))))
        (rowOf g) (rowOf be) (ix2 r j)
      = layerM (mat x) (mat w) (vec b) (vec g) (vec be) r j := by
  refine Eq.trans ?_ (layer_entry x w b g be (Stats2.yOf x w (rowOf b)) (fun r' j' => ?_)
    (Stats2.colSum (Stats2.yOf x w (rowOf b))) (Stats2.colSumSq (Stats2.yOf x w (rowOf b))) (fun j' => rfl) (fun j' => rfl) r j)
  · rfl
  · show rowsTimes x w (ix2 r' j') + rowOf b (ix2 (0 : Fin 1) j') = _
    rw [rowOf_apply]
    rfl

/-- Layer 2's region pair at an entry. -/
theorem layer2_out (x : (⟨2, ![8192, 2048]⟩ : Shape).Idx → EReal) (w : (⟨2, ![2048, 2048]⟩ : Shape).Idx → EReal)
    (b g be : FVec Ideal S2048 .f32) (r : Fin 8192) (j : Fin 2048) :
    NormRelu5.G (Stats4.yOf x w (rowOf b))
        (rowOf (meanVec (Stats4.colSum (Stats4.yOf x w (rowOf b)))))
        (rowOf (invVec (Stats4.colSum (Stats4.yOf x w (rowOf b))) (Stats4.colSumSq (Stats4.yOf x w (rowOf b)))))
        (rowOf g) (rowOf be) (ix2 r j)
      = layerM (mat x) (mat w) (vec b) (vec g) (vec be) r j := by
  refine Eq.trans ?_ (layer_entry x w b g be (Stats4.yOf x w (rowOf b)) (fun r' j' => ?_)
    (Stats4.colSum (Stats4.yOf x w (rowOf b))) (Stats4.colSumSq (Stats4.yOf x w (rowOf b))) (fun j' => rfl) (fun j' => rfl) r j)
  · rfl
  · show rowsTimes x w (ix2 r' j') + rowOf b (ix2 (0 : Fin 1) j') = _
    rw [rowOf_apply]
    rfl

/-- Layer 3's region pair at an entry. -/
theorem layer3_out (x : (⟨2, ![8192, 2048]⟩ : Shape).Idx → EReal) (w : (⟨2, ![2048, 2048]⟩ : Shape).Idx → EReal)
    (b g be : FVec Ideal S2048 .f32) (r : Fin 8192) (j : Fin 2048) :
    NormRelu7.G (Stats6.yOf x w (rowOf b))
        (rowOf (meanVec (Stats6.colSum (Stats6.yOf x w (rowOf b)))))
        (rowOf (invVec (Stats6.colSum (Stats6.yOf x w (rowOf b))) (Stats6.colSumSq (Stats6.yOf x w (rowOf b)))))
        (rowOf g) (rowOf be) (ix2 j r)
      = layerM (mat x) (mat w) (vec b) (vec g) (vec be) r j := by
  refine Eq.trans ?_ (layer_entry x w b g be (Stats6.yOf x w (rowOf b)) (fun r' j' => ?_)
    (Stats6.colSum (Stats6.yOf x w (rowOf b))) (Stats6.colSumSq (Stats6.yOf x w (rowOf b))) (fun j' => rfl) (fun j' => rfl) r j)
  · rfl
  · show rowsTimes x w (ix2 r' j') + rowOf b (ix2 (0 : Fin 1) j') = _
    rw [rowOf_apply]
    rfl

variable (m : (ℓ : Loc nD τ sig) → Buf (Elt Ideal) ℓ) (ρ : Dev nD → PrngReg)

/-- The first activation as a matrix. -/
def kA0 (c : Dev nD) : Fin 8192 → Fin 4096 → EReal :=
  mat (act0 (m ((c : Thread nD τ).loc main_arg0)) (m ((c : Thread nD τ).loc main_arg1)) (m ((c : Thread nD τ).loc main_arg2)))
/-- The activation after layer 0. -/
def kA1 (c : Dev nD) : Fin 8192 → Fin 2048 → EReal :=
  layerM (kA0 m c) (mat ((m ((c : Thread nD τ).loc main_arg3)) : FVec Ideal S4096x2048 .f32)) (vec (m ((c : Thread nD τ).loc main_arg4))) (vec (m ((c : Thread nD τ).loc main_arg5))) (vec (m ((c : Thread nD τ).loc main_arg6)))
/-- The activation after layer 1. -/
def kA2 (c : Dev nD) : Fin 8192 → Fin 2048 → EReal :=
  layerM (kA1 m c) (mat ((m ((c : Thread nD τ).loc main_arg7)) : FVec Ideal S2048x2048 .f32)) (vec (m ((c : Thread nD τ).loc main_arg8))) (vec (m ((c : Thread nD τ).loc main_arg9))) (vec (m ((c : Thread nD τ).loc main_arg10)))
/-- The activation after layer 2. -/
def kA3 (c : Dev nD) : Fin 8192 → Fin 2048 → EReal :=
  layerM (kA2 m c) (mat ((m ((c : Thread nD τ).loc main_arg11)) : FVec Ideal S2048x2048 .f32)) (vec (m ((c : Thread nD τ).loc main_arg12))) (vec (m ((c : Thread nD τ).loc main_arg13))) (vec (m ((c : Thread nD τ).loc main_arg14)))
/-- The activation after layer 3. -/
def kA4 (c : Dev nD) : Fin 8192 → Fin 2048 → EReal :=
  layerM (kA3 m c) (mat ((m ((c : Thread nD τ).loc main_arg15)) : FVec Ideal S2048x2048 .f32)) (vec (m ((c : Thread nD τ).loc main_arg16))) (vec (m ((c : Thread nD τ).loc main_arg17))) (vec (m ((c : Thread nD τ).loc main_arg18)))

set_option maxHeartbeats 1000000 in
/-- After region 1 its output array is `A1`. -/
theorem stage0 (c : Dev nD) : W4 (F := Ideal) m ρ c (Proc.devRef .tc main_v38)
    = fun i => kA1 m c (⟨(i 0).val, idx2_lt0 i⟩ : Fin 8192) (⟨(i 1).val, idx2_lt1 i⟩ : Fin 2048) := by
  have hx : W1 (F := Ideal) m ρ c (Proc.devRef .tc main_v17) = act0 (m ((c : Thread nD τ).loc main_arg0)) (m ((c : Thread nD τ).loc main_arg1)) (m ((c : Thread nD τ).loc main_arg2)) := W1_x m ρ c
  rw [W4_out, W3_y, W3_mean, W3_inv, W3_g, W3_be, W2_y, W2_s, W2_q, hx, W1_w, W1_b]
  funext i
  obtain ⟨r, j, rfl⟩ : ∃ (r : Fin 8192) (j : Fin 2048), i = ix2 r j := ⟨i 0, i 1, eq_ix2 i⟩
  refine (layer0_out _ _ _ _ _ r j).trans ?_
  rfl

set_option maxHeartbeats 1000000 in
/-- After region 3 its output array is `A2`. -/
theorem stage1 (c : Dev nD) : W8 (F := Ideal) m ρ c (Proc.devRef .tc main_v59)
    = fun i => kA2 m c (⟨(i 0).val, idx2_lt0 i⟩ : Fin 8192) (⟨(i 1).val, idx2_lt1 i⟩ : Fin 2048) := by
  have hx : W5 (F := Ideal) m ρ c (Proc.devRef .tc main_v38) = fun i => kA1 m c (⟨(i 0).val, idx2_lt0 i⟩ : Fin 8192) (⟨(i 1).val, idx2_lt1 i⟩ : Fin 2048) := (W5_x m ρ c).trans (stage0 m ρ c)
  rw [W8_out, W7_y, W7_mean, W7_inv, W7_g, W7_be, W6_y, W6_s, W6_q, hx, W5_w, W5_b]
  funext i
  obtain ⟨r, j, rfl⟩ : ∃ (r : Fin 8192) (j : Fin 2048), i = ix2 r j := ⟨i 0, i 1, eq_ix2 i⟩
  refine (layer1_out _ _ _ _ _ r j).trans ?_
  rfl

set_option maxHeartbeats 1000000 in
/-- After region 5 its output array is `A3`. -/
theorem stage2 (c : Dev nD) : W12 (F := Ideal) m ρ c (Proc.devRef .tc main_v80)
    = fun i => kA3 m c (⟨(i 0).val, idx2_lt0 i⟩ : Fin 8192) (⟨(i 1).val, idx2_lt1 i⟩ : Fin 2048) := by
  have hx : W9 (F := Ideal) m ρ c (Proc.devRef .tc main_v59) = fun i => kA2 m c (⟨(i 0).val, idx2_lt0 i⟩ : Fin 8192) (⟨(i 1).val, idx2_lt1 i⟩ : Fin 2048) := (W9_x m ρ c).trans (stage1 m ρ c)
  rw [W12_out, W11_y, W11_mean, W11_inv, W11_g, W11_be, W10_y, W10_s, W10_q, hx, W9_w, W9_b]
  funext i
  obtain ⟨r, j, rfl⟩ : ∃ (r : Fin 8192) (j : Fin 2048), i = ix2 r j := ⟨i 0, i 1, eq_ix2 i⟩
  refine (layer2_out _ _ _ _ _ r j).trans ?_
  rfl

set_option maxHeartbeats 1000000 in
/-- After region 7 its output array is `A4` transposed. -/
theorem stage3 (c : Dev nD) : W16 (F := Ideal) m ρ c (Proc.devRef .tc main_v101)
    = fun i => kA4 m c (⟨(i 1).val, idx2_lt1 i⟩ : Fin 8192) (⟨(i 0).val, idx2_lt0 i⟩ : Fin 2048) := by
  have hx : W13 (F := Ideal) m ρ c (Proc.devRef .tc main_v80) = fun i => kA3 m c (⟨(i 0).val, idx2_lt0 i⟩ : Fin 8192) (⟨(i 1).val, idx2_lt1 i⟩ : Fin 2048) := (W13_x m ρ c).trans (stage2 m ρ c)
  rw [W16_out, W15_y, W15_mean, W15_inv, W15_g, W15_be, W14_y, W14_s, W14_q, hx, W13_w, W13_b]
  funext i
  obtain ⟨j, r, rfl⟩ : ∃ (j : Fin 2048) (r : Fin 8192), i = ix2 j r := ⟨i 0, i 1, eq_ix2 i⟩
  refine (layer3_out _ _ _ _ _ r j).trans ?_
  rfl

end Cert.KernelIdeal.Chain

end
-- ==== Proof.RefRun.lean ====
/-
  The idealized reference's run, read back: @main is one straight line of host operations once its outlined
  functions (the variance, its `where`, the rectifier) are unfolded at their calls.

  The line is cut where the mathematics cuts it: the embedding gather and aggregation; four layers (product, bias,
  mean, variance, normalise, scale, shift, rectify), each one stretch; the final transposition. Every weakly fair
  execution of @main terminates with every buffer at the fold of these operations over the launch contents.
-/
import proofs.«152490_j70686571758165_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The embedding rows gathered and aggregated: 22 operations, in order. -/
abbrev opsPre : List (HloOp τ sig (Elt F)) :=
  [ StableHlo.nullary main_c (constantI S_ 32 0#32),
    StableHlo.unary main_c main_v0 (broadcastInDim S8192 ![] bcast_S_S8192 : (⟨S_, .i32⟩ : BufTy).Contents (Elt F) → (⟨S8192, .i32⟩ : BufTy).Contents (Elt F)),
    StableHlo.binary main_arg0 main_v0 main_v1 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 4096#32),
    StableHlo.unary main_c_0 main_v2 (broadcastInDim S8192 ![] bcast_S_S8192 : (⟨S_, .i32⟩ : BufTy).Contents (Elt F) → (⟨S8192, .i32⟩ : BufTy).Contents (Elt F)),
    StableHlo.binary main_arg0 main_v2 main_v3 (addi : (⟨S8192, .i32⟩ : BufTy).Contents (Elt F) → (⟨S8192, .i32⟩ : BufTy).Contents (Elt F) → (⟨S8192, .i32⟩ : BufTy).Contents (Elt F)),
    StableHlo.ternary main_v1 main_v3 main_arg0 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v4 main_v5 (broadcastInDim S8192x1 ![0] bcast_S8192_S8192x1_0 : (⟨S8192, .i32⟩ : BufTy).Contents (Elt F) → (⟨S8192x1, .i32⟩ : BufTy).Contents (Elt F)),
    StableHlo.binary main_arg2 main_v5 main_v6 ((fun x i => Host.gather gather_S4096x4096_S8192x1_S8192x4096_1_0_n_n_0_1_14096 x i) : (⟨S4096x4096, .f32⟩ : BufTy).Contents (Elt F) → (⟨S8192x1, .i32⟩ : BufTy).Contents (Elt F) → (⟨S8192x4096, .f32⟩ : BufTy).Contents (Elt F)),
    StableHlo.nullary main_c_1 (constantI S_ 32 0#32),
    StableHlo.unary main_c_1 main_v7 (broadcastInDim S8192x5 ![] bcast_S_S8192x5 : (⟨S_, .i32⟩ : BufTy).Contents (Elt F) → (⟨S8192x5, .i32⟩ : BufTy).Contents (Elt F)),
    StableHlo.binary main_arg1 main_v7 main_v8 (cmpi .slt : (⟨S8192x5, .i32⟩ : BufTy).Contents (Elt F) → (⟨S8192x5, .i32⟩ : BufTy).Contents (Elt F) → (⟨S8192x5, .i1⟩ : BufTy).Contents (Elt F)),
    StableHlo.nullary main_c_2 (constantI S_ 32 4096#32),
    StableHlo.unary main_c_2 main_v9 (broadcastInDim S8192x5 ![] bcast_S_S8192x5 : (⟨S_, .i32⟩ : BufTy).Contents (Elt F) → (⟨S8192x5, .i32⟩ : BufTy).Contents (Elt F)),
    StableHlo.binary main_arg1 main_v9 main_v10 (addi : (⟨S8192x5, .i32⟩ : BufTy).Contents (Elt F) → (⟨S8192x5, .i32⟩ : BufTy).Contents (Elt F) → (⟨S8192x5, .i32⟩ : BufTy).Contents (Elt F)),
    StableHlo.ternary main_v8 main_v10 main_arg1 main_v11 (select : (⟨S8192x5, .i1⟩ : BufTy).Contents (Elt F) → (⟨S8192x5, .i32⟩ : BufTy).Contents (Elt F) → (⟨S8192x5, .i32⟩ : BufTy).Contents (Elt F) → (⟨S8192x5, .i32⟩ : BufTy).Contents (Elt F)),
    StableHlo.unary main_v11 main_v12 (broadcastInDim S8192x5x1 ![0, 1] bcast_S8192x5_S8192x5x1_0_1 : (⟨S8192x5, .i32⟩ : BufTy).Contents (Elt F) → (⟨S8192x5x1, .i32⟩ : BufTy).Contents (Elt F)),
    StableHlo.binary main_arg2 main_v12 main_v13 ((fun x i => Host.gather gather_S4096x4096_S8192x5x1_S8192x5x4096_2_0_n_n_0_2_14096 x i) : (⟨S4096x4096, .f32⟩ : BufTy).Contents (Elt F) → (⟨S8192x5x1, .i32⟩ : BufTy).Contents (Elt F) → (⟨S8192x5x4096, .f32⟩ : BufTy).Contents (Elt F)),
    StableHlo.nullary main_cst (constant S_ .f32 0x00000000#32),
    StableHlo.binary main_v13 main_cst main_v14 ((fun x v => Host.reduceAdd x v reducesTo_S8192x5x4096_S8192x4096_d1 h_S_) : (⟨S8192x5x4096, .f32⟩ : BufTy).Contents (Elt F) → (⟨S_, .f32⟩ : BufTy).Contents (Elt F) → (⟨S8192x4096, .f32⟩ : BufTy).Contents (Elt F)),
    StableHlo.binary main_v6 main_v14 main_v15 (addf : (⟨S8192x4096, .f32⟩ : BufTy).Contents (Elt F) → (⟨S8192x4096, .f32⟩ : BufTy).Contents (Elt F) → (⟨S8192x4096, .f32⟩ : BufTy).Contents (Elt F)),
    StableHlo.binary main_v6 main_v15 main_v16 (addf : (⟨S8192x4096, .f32⟩ : BufTy).Contents (Elt F) → (⟨S8192x4096, .f32⟩ : BufTy).Contents (Elt F) → (⟨S8192x4096, .f32⟩ : BufTy).Contents (Elt F)) ]

/-- Layer 0: the product plus bias: 4 operations, in order. -/
abbrev opsL0a : List (HloOp τ sig (Elt F)) :=
  [ StableHlo.binary main_v16 main_arg3 main_v17 ((fun l r => Host.dotGeneral dot_S8192x4096_S4096x2048_S8192x2048_1_0_0_1_n_n none l r) : (⟨S8192x4096, .f32⟩ : BufTy).Contents (Elt F) → (⟨S4096x2048, .f32⟩ : BufTy).Contents (Elt F) → (⟨S8192x2048, .f32⟩ : BufTy).Contents (Elt F)),
    StableHlo.unary main_arg4 main_v18 (broadcastInDim S1x2048 ![1] bcast_S2048_S1x2048_1 : (⟨S2048, .f32⟩ : BufTy).Contents (Elt F) → (⟨S1x2048, .f32⟩ : BufTy).Contents (Elt F)),
    StableHlo.unary main_v18 main_v19 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v17 main_v19 main_v20 (addf : (⟨S8192x2048, .f32⟩ : BufTy).Contents (Elt F) → (⟨S8192x2048, .f32⟩ : BufTy).Contents (Elt F) → (⟨S8192x2048, .f32⟩ : BufTy).Contents (Elt F)) ]

/-- Layer 0: the mean and the variance of the columns: 28 operations, in order. -/
abbrev opsL0b : List (HloOp τ sig (Elt F)) :=
  [ StableHlo.nullary main_cst_3 (constant S_ .f32 0x00000000#32),
    StableHlo.binary main_v20 main_cst_3 main_v21 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    StableHlo.nullary main_cst_4 (constant S_ .f32 0x46000000#32),
    StableHlo.unary main_cst_4 main_v22 (broadcastInDim S2048 ![] bcast_S_S2048 : (⟨S_, .f32⟩ : BufTy).Contents (Elt F) → (⟨S2048, .f32⟩ : BufTy).Contents (Elt F)),
    StableHlo.binary main_v21 main_v22 main_v23 (Host.divf : (⟨S2048, .f32⟩ : BufTy).Contents (Elt F) → (⟨S2048, .f32⟩ : BufTy).Contents (Elt F) → (⟨S2048, .f32⟩ : BufTy).Contents (Elt F)),
    StableHlo.nullary main_c_5 (constantI S_ 32 0#32),
    StableHlo.TRef.nullary main_call0.cst (constant S_ .f32 0x00000000#32),
    StableHlo.TRef.binary (.of main_v20) main_call0.cst main_call0.v0 (fun x v => Host.reduceAdd x v reducesTo_S8192x2048_S2048_d0 h_S_),
    StableHlo.TRef.unary main_call0.v0 main_call0.v1 (broadcastInDim S1x2048 ![1] bcast_S2048_S1x2048_1),
    StableHlo.TRef.nullary main_call0.cst_0 (constant S_ .f32 0x46000000#32),
    StableHlo.TRef.unary main_call0.cst_0 main_call0.v2 (broadcastInDim S1x2048 ![] bcast_S_S1x2048),
    StableHlo.TRef.binary main_call0.v1 main_call0.v2 main_call0.v3 Host.divf,
    StableHlo.TRef.unary main_call0.v3 main_call0.v4 (broadcastInDim S8192x2048 ![0, 1] bcast_S1x2048_S8192x2048_0_1),
    StableHlo.TRef.binary (.of main_v20) main_call0.v4 main_call0.v5 subf,
    StableHlo.TRef.binary main_call0.v5 main_call0.v5 main_call0.v6 mulf,
    StableHlo.TRef.unary (.of main_c_5) main_call0.v7 (sitofp .f32),
    StableHlo.TRef.nullary main_call0.cst_1 (constant S_ .f32 0x46000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x2048_S2048_d0 h_S_),
    StableHlo.TRef.unary main_call0.v8 main_call0.v10 (broadcastInDim S2048 ![] bcast_S_S2048),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S2048 ![] bcast_S_S2048),
    StableHlo.TRef.ternary main_call0.v12 main_call0.v11 main_call0.call0.v1 main_call0.call0.v2 (fun p a b => select (broadcastInDim S2048 ![] bcast_S_S2048 p) a b) ]

/-- Layer 0: normalise, scale, shift, rectify: 19 operations, in order. -/
abbrev opsL0c : List (HloOp τ sig (Elt F)) :=
  [ StableHlo.unary main_v23 main_v25 (broadcastInDim S1x2048 ![1] bcast_S2048_S1x2048_1 : (⟨S2048, .f32⟩ : BufTy).Contents (Elt F) → (⟨S1x2048, .f32⟩ : BufTy).Contents (Elt F)),
    StableHlo.unary main_v25 main_v26 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v20 main_v26 main_v27 (subf : (⟨S8192x2048, .f32⟩ : BufTy).Contents (Elt F) → (⟨S8192x2048, .f32⟩ : BufTy).Contents (Elt F) → (⟨S8192x2048, .f32⟩ : BufTy).Contents (Elt F)),
    StableHlo.nullary main_cst_6 (constant S_ .f32 0x3727C5AC#32),
    StableHlo.unary main_cst_6 main_v28 (broadcastInDim S2048 ![] bcast_S_S2048 : (⟨S_, .f32⟩ : BufTy).Contents (Elt F) → (⟨S2048, .f32⟩ : BufTy).Contents (Elt F)),
    StableHlo.binary main_v24 main_v28 main_v29 (addf : (⟨S2048, .f32⟩ : BufTy).Contents (Elt F) → (⟨S2048, .f32⟩ : BufTy).Contents (Elt F) → (⟨S2048, .f32⟩ : BufTy).Contents (Elt F)),
    StableHlo.unary main_v29 main_v30 (Host.rsqrt : (⟨S2048, .f32⟩ : BufTy).Contents (Elt F) → (⟨S2048, .f32⟩ : BufTy).Contents (Elt F)),
    StableHlo.unary main_v30 main_v31 (broadcastInDim S1x2048 ![1] bcast_S2048_S1x2048_1 : (⟨S2048, .f32⟩ : BufTy).Contents (Elt F) → (⟨S1x2048, .f32⟩ : BufTy).Contents (Elt F)),
    StableHlo.unary main_v31 main_v32 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v27 main_v32 main_v33 (mulf : (⟨S8192x2048, .f32⟩ : BufTy).Contents (Elt F) → (⟨S8192x2048, .f32⟩ : BufTy).Contents (Elt F) → (⟨S8192x2048, .f32⟩ : BufTy).Contents (Elt F)),
    StableHlo.unary main_arg5 main_v34 (broadcastInDim S1x2048 ![1] bcast_S2048_S1x2048_1 : (⟨S2048, .f32⟩ : BufTy).Contents (Elt F) → (⟨S1x2048, .f32⟩ : BufTy).Contents (Elt F)),
    StableHlo.unary main_v34 main_v35 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v33 main_v35 main_v36 (mulf : (⟨S8192x2048, .f32⟩ : BufTy).Contents (Elt F) → (⟨S8192x2048, .f32⟩ : BufTy).Contents (Elt F) → (⟨S8192x2048, .f32⟩ : BufTy).Contents (Elt F)),
    StableHlo.unary main_arg6 main_v37 (broadcastInDim S1x2048 ![1] bcast_S2048_S1x2048_1 : (⟨S2048, .f32⟩ : BufTy).Contents (Elt F) → (⟨S1x2048, .f32⟩ : BufTy).Contents (Elt F)),
    StableHlo.unary main_v37 main_v38 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v36 main_v38 main_v39 (addf : (⟨S8192x2048, .f32⟩ : BufTy).Contents (Elt F) → (⟨S8192x2048, .f32⟩ : BufTy).Contents (Elt F) → (⟨S8192x2048, .f32⟩ : BufTy).Contents (Elt F)),
    StableHlo.TRef.nullary main_call1.cst (constant S_ .f32 0x00000000#32),
    StableHlo.TRef.unary main_call1.cst main_call1.v0 (broadcastInDim S8192x2048 ![] bcast_S_S8192x2048),
    StableHlo.TRef.binary (.of main_v39) main_call1.v0 main_call1.v1 maximumf ]

/-- Layer 1: the product plus bias: 4 operations, in order. -/
abbrev opsL1a : List (HloOp τ sig (Elt F)) :=
  [ StableHlo.binary main_v40 main_arg7 main_v41 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg8 main_v42 (broadcastInDim S1x2048 ![1] bcast_S2048_S1x2048_1 : (⟨S2048, .f32⟩ : BufTy).Contents (Elt F) → (⟨S1x2048, .f32⟩ : BufTy).Contents (Elt F)),
    StableHlo.unary main_v42 main_v43 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v41 main_v43 main_v44 (addf : (⟨S8192x2048, .f32⟩ : BufTy).Contents (Elt F) → (⟨S8192x2048, .f32⟩ : BufTy).Contents (Elt F) → (⟨S8192x2048, .f32⟩ : BufTy).Contents (Elt F)) ]

/-- Layer 1: the mean and the variance of the columns: 28 operations, in order. -/
abbrev opsL1b : List (HloOp τ sig (Elt F)) :=
  [ StableHlo.nullary main_cst_7 (constant S_ .f32 0x00000000#32),
    StableHlo.binary main_v44 main_cst_7 main_v45 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    StableHlo.nullary main_cst_8 (constant S_ .f32 0x46000000#32),
    StableHlo.unary main_cst_8 main_v46 (broadcastInDim S2048 ![] bcast_S_S2048 : (⟨S_, .f32⟩ : BufTy).Contents (Elt F) → (⟨S2048, .f32⟩ : BufTy).Contents (Elt F)),
    StableHlo.binary main_v45 main_v46 main_v47 (Host.divf : (⟨S2048, .f32⟩ : BufTy).Contents (Elt F) → (⟨S2048, .f32⟩ : BufTy).Contents (Elt F) → (⟨S2048, .f32⟩ : BufTy).Contents (Elt F)),
    StableHlo.nullary main_c_9 (constantI S_ 32 0#32),
    StableHlo.TRef.nullary main_call2.cst (constant S_ .f32 0x00000000#32),
    StableHlo.TRef.binary (.of main_v44) main_call2.cst main_call2.v0 (fun x v => Host.reduceAdd x v reducesTo_S8192x2048_S2048_d0 h_S_),
    StableHlo.TRef.unary main_call2.v0 main_call2.v1 (broadcastInDim S1x2048 ![1] bcast_S2048_S1x2048_1),
    StableHlo.TRef.nullary main_call2.cst_0 (constant S_ .f32 0x46000000#32),
    StableHlo.TRef.unary main_call2.cst_0 main_call2.v2 (broadcastInDim S1x2048 ![] bcast_S_S1x2048),
    StableHlo.TRef.binary main_call2.v1 main_call2.v2 main_call2.v3 Host.divf,
    StableHlo.TRef.unary main_call2.v3 main_call2.v4 (broadcastInDim S8192x2048 ![0, 1] bcast_S1x2048_S8192x2048_0_1),
    StableHlo.TRef.binary (.of main_v44) main_call2.v4 main_call2.v5 subf,
    StableHlo.TRef.binary main_call2.v5 main_call2.v5 main_call2.v6 mulf,
    StableHlo.TRef.unary (.of main_c_9) main_call2.v7 (sitofp .f32),
    StableHlo.TRef.nullary main_call2.cst_1 (constant S_ .f32 0x46000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8192x2048_S2048_d0 h_S_),
    StableHlo.TRef.unary main_call2.v8 main_call2.v10 (broadcastInDim S2048 ![] bcast_S_S2048),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S2048 ![] bcast_S_S2048),
    StableHlo.TRef.ternary main_call2.v12 main_call2.v11 main_call2.call0.v1 main_call2.call0.v2 (fun p a b => select (broadcastInDim S2048 ![] bcast_S_S2048 p) a b) ]

/-- Layer 1: normalise, scale, shift, rectify: 19 operations, in order. -/
abbrev opsL1c : List (HloOp τ sig (Elt F)) :=
  [ StableHlo.unary main_v47 main_v49 (broadcastInDim S1x2048 ![1] bcast_S2048_S1x2048_1 : (⟨S2048, .f32⟩ : BufTy).Contents (Elt F) → (⟨S1x2048, .f32⟩ : BufTy).Contents (Elt F)),
    StableHlo.unary main_v49 main_v50 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v44 main_v50 main_v51 (subf : (⟨S8192x2048, .f32⟩ : BufTy).Contents (Elt F) → (⟨S8192x2048, .f32⟩ : BufTy).Contents (Elt F) → (⟨S8192x2048, .f32⟩ : BufTy).Contents (Elt F)),
    StableHlo.nullary main_cst_10 (constant S_ .f32 0x3727C5AC#32),
    StableHlo.unary main_cst_10 main_v52 (broadcastInDim S2048 ![] bcast_S_S2048 : (⟨S_, .f32⟩ : BufTy).Contents (Elt F) → (⟨S2048, .f32⟩ : BufTy).Contents (Elt F)),
    StableHlo.binary main_v48 main_v52 main_v53 (addf : (⟨S2048, .f32⟩ : BufTy).Contents (Elt F) → (⟨S2048, .f32⟩ : BufTy).Contents (Elt F) → (⟨S2048, .f32⟩ : BufTy).Contents (Elt F)),
    StableHlo.unary main_v53 main_v54 (Host.rsqrt : (⟨S2048, .f32⟩ : BufTy).Contents (Elt F) → (⟨S2048, .f32⟩ : BufTy).Contents (Elt F)),
    StableHlo.unary main_v54 main_v55 (broadcastInDim S1x2048 ![1] bcast_S2048_S1x2048_1 : (⟨S2048, .f32⟩ : BufTy).Contents (Elt F) → (⟨S1x2048, .f32⟩ : BufTy).Contents (Elt F)),
    StableHlo.unary main_v55 main_v56 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v51 main_v56 main_v57 (mulf : (⟨S8192x2048, .f32⟩ : BufTy).Contents (Elt F) → (⟨S8192x2048, .f32⟩ : BufTy).Contents (Elt F) → (⟨S8192x2048, .f32⟩ : BufTy).Contents (Elt F)),
    StableHlo.unary main_arg9 main_v58 (broadcastInDim S1x2048 ![1] bcast_S2048_S1x2048_1 : (⟨S2048, .f32⟩ : BufTy).Contents (Elt F) → (⟨S1x2048, .f32⟩ : BufTy).Contents (Elt F)),
    StableHlo.unary main_v58 main_v59 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v57 main_v59 main_v60 (mulf : (⟨S8192x2048, .f32⟩ : BufTy).Contents (Elt F) → (⟨S8192x2048, .f32⟩ : BufTy).Contents (Elt F) → (⟨S8192x2048, .f32⟩ : BufTy).Contents (Elt F)),
    StableHlo.unary main_arg10 main_v61 (broadcastInDim S1x2048 ![1] bcast_S2048_S1x2048_1 : (⟨S2048, .f32⟩ : BufTy).Contents (Elt F) → (⟨S1x2048, .f32⟩ : BufTy).Contents (Elt F)),
    StableHlo.unary main_v61 main_v62 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v60 main_v62 main_v63 (addf : (⟨S8192x2048, .f32⟩ : BufTy).Contents (Elt F) → (⟨S8192x2048, .f32⟩ : BufTy).Contents (Elt F) → (⟨S8192x2048, .f32⟩ : BufTy).Contents (Elt F)),
    StableHlo.TRef.nullary main_call3.cst (constant S_ .f32 0x00000000#32),
    StableHlo.TRef.unary main_call3.cst main_call3.v0 (broadcastInDim S8192x2048 ![] bcast_S_S8192x2048),
    StableHlo.TRef.binary (.of main_v63) main_call3.v0 main_call3.v1 maximumf ]

/-- Layer 2: the product plus bias: 4 operations, in order. -/
abbrev opsL2a : List (HloOp τ sig (Elt F)) :=
  [ StableHlo.binary main_v64 main_arg11 main_v65 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg12 main_v66 (broadcastInDim S1x2048 ![1] bcast_S2048_S1x2048_1 : (⟨S2048, .f32⟩ : BufTy).Contents (Elt F) → (⟨S1x2048, .f32⟩ : BufTy).Contents (Elt F)),
    StableHlo.unary main_v66 main_v67 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v65 main_v67 main_v68 (addf : (⟨S8192x2048, .f32⟩ : BufTy).Contents (Elt F) → (⟨S8192x2048, .f32⟩ : BufTy).Contents (Elt F) → (⟨S8192x2048, .f32⟩ : BufTy).Contents (Elt F)) ]

/-- Layer 2: the mean and the variance of the columns: 28 operations, in order. -/
abbrev opsL2b : List (HloOp τ sig (Elt F)) :=
  [ StableHlo.nullary main_cst_11 (constant S_ .f32 0x00000000#32),
    StableHlo.binary main_v68 main_cst_11 main_v69 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    StableHlo.nullary main_cst_12 (constant S_ .f32 0x46000000#32),
    StableHlo.unary main_cst_12 main_v70 (broadcastInDim S2048 ![] bcast_S_S2048 : (⟨S_, .f32⟩ : BufTy).Contents (Elt F) → (⟨S2048, .f32⟩ : BufTy).Contents (Elt F)),
    StableHlo.binary main_v69 main_v70 main_v71 (Host.divf : (⟨S2048, .f32⟩ : BufTy).Contents (Elt F) → (⟨S2048, .f32⟩ : BufTy).Contents (Elt F) → (⟨S2048, .f32⟩ : BufTy).Contents (Elt F)),
    StableHlo.nullary main_c_13 (constantI S_ 32 0#32),
    StableHlo.TRef.nullary main_call4.cst (constant S_ .f32 0x00000000#32),
    StableHlo.TRef.binary (.of main_v68) main_call4.cst main_call4.v0 (fun x v => Host.reduceAdd x v reducesTo_S8192x2048_S2048_d0 h_S_),
    StableHlo.TRef.unary main_call4.v0 main_call4.v1 (broadcastInDim S1x2048 ![1] bcast_S2048_S1x2048_1),
    StableHlo.TRef.nullary main_call4.cst_0 (constant S_ .f32 0x46000000#32),
    StableHlo.TRef.unary main_call4.cst_0 main_call4.v2 (broadcastInDim S1x2048 ![] bcast_S_S1x2048),
    StableHlo.TRef.binary main_call4.v1 main_call4.v2 main_call4.v3 Host.divf,
    StableHlo.TRef.unary main_call4.v3 main_call4.v4 (broadcastInDim S8192x2048 ![0, 1] bcast_S1x2048_S8192x2048_0_1),
    StableHlo.TRef.binary (.of main_v68) main_call4.v4 main_call4.v5 subf,
    StableHlo.TRef.binary main_call4.v5 main_call4.v5 main_call4.v6 mulf,
    StableHlo.TRef.unary (.of main_c_13) main_call4.v7 (sitofp .f32),
    StableHlo.TRef.nullary main_call4.cst_1 (constant S_ .f32 0x46000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S8192x2048_S2048_d0 h_S_),
    StableHlo.TRef.unary main_call4.v8 main_call4.v10 (broadcastInDim S2048 ![] bcast_S_S2048),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S2048 ![] bcast_S_S2048),
    StableHlo.TRef.ternary main_call4.v12 main_call4.v11 main_call4.call0.v1 main_call4.call0.v2 (fun p a b => select (broadcastInDim S2048 ![] bcast_S_S2048 p) a b) ]

/-- Layer 2: normalise, scale, shift, rectify: 19 operations, in order. -/
abbrev opsL2c : List (HloOp τ sig (Elt F)) :=
  [ StableHlo.unary main_v71 main_v73 (broadcastInDim S1x2048 ![1] bcast_S2048_S1x2048_1 : (⟨S2048, .f32⟩ : BufTy).Contents (Elt F) → (⟨S1x2048, .f32⟩ : BufTy).Contents (Elt F)),
    StableHlo.unary main_v73 main_v74 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v68 main_v74 main_v75 (subf : (⟨S8192x2048, .f32⟩ : BufTy).Contents (Elt F) → (⟨S8192x2048, .f32⟩ : BufTy).Contents (Elt F) → (⟨S8192x2048, .f32⟩ : BufTy).Contents (Elt F)),
    StableHlo.nullary main_cst_14 (constant S_ .f32 0x3727C5AC#32),
    StableHlo.unary main_cst_14 main_v76 (broadcastInDim S2048 ![] bcast_S_S2048 : (⟨S_, .f32⟩ : BufTy).Contents (Elt F) → (⟨S2048, .f32⟩ : BufTy).Contents (Elt F)),
    StableHlo.binary main_v72 main_v76 main_v77 (addf : (⟨S2048, .f32⟩ : BufTy).Contents (Elt F) → (⟨S2048, .f32⟩ : BufTy).Contents (Elt F) → (⟨S2048, .f32⟩ : BufTy).Contents (Elt F)),
    StableHlo.unary main_v77 main_v78 (Host.rsqrt : (⟨S2048, .f32⟩ : BufTy).Contents (Elt F) → (⟨S2048, .f32⟩ : BufTy).Contents (Elt F)),
    StableHlo.unary main_v78 main_v79 (broadcastInDim S1x2048 ![1] bcast_S2048_S1x2048_1 : (⟨S2048, .f32⟩ : BufTy).Contents (Elt F) → (⟨S1x2048, .f32⟩ : BufTy).Contents (Elt F)),
    StableHlo.unary main_v79 main_v80 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v75 main_v80 main_v81 (mulf : (⟨S8192x2048, .f32⟩ : BufTy).Contents (Elt F) → (⟨S8192x2048, .f32⟩ : BufTy).Contents (Elt F) → (⟨S8192x2048, .f32⟩ : BufTy).Contents (Elt F)),
    StableHlo.unary main_arg13 main_v82 (broadcastInDim S1x2048 ![1] bcast_S2048_S1x2048_1 : (⟨S2048, .f32⟩ : BufTy).Contents (Elt F) → (⟨S1x2048, .f32⟩ : BufTy).Contents (Elt F)),
    StableHlo.unary main_v82 main_v83 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v81 main_v83 main_v84 (mulf : (⟨S8192x2048, .f32⟩ : BufTy).Contents (Elt F) → (⟨S8192x2048, .f32⟩ : BufTy).Contents (Elt F) → (⟨S8192x2048, .f32⟩ : BufTy).Contents (Elt F)),
    StableHlo.unary main_arg14 main_v85 (broadcastInDim S1x2048 ![1] bcast_S2048_S1x2048_1 : (⟨S2048, .f32⟩ : BufTy).Contents (Elt F) → (⟨S1x2048, .f32⟩ : BufTy).Contents (Elt F)),
    StableHlo.unary main_v85 main_v86 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v84 main_v86 main_v87 (addf : (⟨S8192x2048, .f32⟩ : BufTy).Contents (Elt F) → (⟨S8192x2048, .f32⟩ : BufTy).Contents (Elt F) → (⟨S8192x2048, .f32⟩ : BufTy).Contents (Elt F)),
    StableHlo.TRef.nullary main_call5.cst (constant S_ .f32 0x00000000#32),
    StableHlo.TRef.unary main_call5.cst main_call5.v0 (broadcastInDim S8192x2048 ![] bcast_S_S8192x2048),
    StableHlo.TRef.binary (.of main_v87) main_call5.v0 main_call5.v1 maximumf ]

/-- Layer 3: the product plus bias: 4 operations, in order. -/
abbrev opsL3a : List (HloOp τ sig (Elt F)) :=
  [ StableHlo.binary main_v88 main_arg15 main_v89 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg16 main_v90 (broadcastInDim S1x2048 ![1] bcast_S2048_S1x2048_1 : (⟨S2048, .f32⟩ : BufTy).Contents (Elt F) → (⟨S1x2048, .f32⟩ : BufTy).Contents (Elt F)),
    StableHlo.unary main_v90 main_v91 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v89 main_v91 main_v92 (addf : (⟨S8192x2048, .f32⟩ : BufTy).Contents (Elt F) → (⟨S8192x2048, .f32⟩ : BufTy).Contents (Elt F) → (⟨S8192x2048, .f32⟩ : BufTy).Contents (Elt F)) ]

/-- Layer 3: the mean and the variance of the columns: 28 operations, in order. -/
abbrev opsL3b : List (HloOp τ sig (Elt F)) :=
  [ StableHlo.nullary main_cst_15 (constant S_ .f32 0x00000000#32),
    StableHlo.binary main_v92 main_cst_15 main_v93 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    StableHlo.nullary main_cst_16 (constant S_ .f32 0x46000000#32),
    StableHlo.unary main_cst_16 main_v94 (broadcastInDim S2048 ![] bcast_S_S2048 : (⟨S_, .f32⟩ : BufTy).Contents (Elt F) → (⟨S2048, .f32⟩ : BufTy).Contents (Elt F)),
    StableHlo.binary main_v93 main_v94 main_v95 (Host.divf : (⟨S2048, .f32⟩ : BufTy).Contents (Elt F) → (⟨S2048, .f32⟩ : BufTy).Contents (Elt F) → (⟨S2048, .f32⟩ : BufTy).Contents (Elt F)),
    StableHlo.nullary main_c_17 (constantI S_ 32 0#32),
    StableHlo.TRef.nullary main_call6.cst (constant S_ .f32 0x00000000#32),
    StableHlo.TRef.binary (.of main_v92) main_call6.cst main_call6.v0 (fun x v => Host.reduceAdd x v reducesTo_S8192x2048_S2048_d0 h_S_),
    StableHlo.TRef.unary main_call6.v0 main_call6.v1 (broadcastInDim S1x2048 ![1] bcast_S2048_S1x2048_1),
    StableHlo.TRef.nullary main_call6.cst_0 (constant S_ .f32 0x46000000#32),
    StableHlo.TRef.unary main_call6.cst_0 main_call6.v2 (broadcastInDim S1x2048 ![] bcast_S_S1x2048),
    StableHlo.TRef.binary main_call6.v1 main_call6.v2 main_call6.v3 Host.divf,
    StableHlo.TRef.unary main_call6.v3 main_call6.v4 (broadcastInDim S8192x2048 ![0, 1] bcast_S1x2048_S8192x2048_0_1),
    StableHlo.TRef.binary (.of main_v92) main_call6.v4 main_call6.v5 subf,
    StableHlo.TRef.binary main_call6.v5 main_call6.v5 main_call6.v6 mulf,
    StableHlo.TRef.unary (.of main_c_17) main_call6.v7 (sitofp .f32),
    StableHlo.TRef.nullary main_call6.cst_1 (constant S_ .f32 0x46000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S8192x2048_S2048_d0 h_S_),
    StableHlo.TRef.unary main_call6.v8 main_call6.v10 (broadcastInDim S2048 ![] bcast_S_S2048),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S2048 ![] bcast_S_S2048),
    StableHlo.TRef.ternary main_call6.v12 main_call6.v11 main_call6.call0.v1 main_call6.call0.v2 (fun p a b => select (broadcastInDim S2048 ![] bcast_S_S2048 p) a b) ]

/-- Layer 3: normalise, scale, shift, rectify: 19 operations, in order. -/
abbrev opsL3c : List (HloOp τ sig (Elt F)) :=
  [ StableHlo.unary main_v95 main_v97 (broadcastInDim S1x2048 ![1] bcast_S2048_S1x2048_1 : (⟨S2048, .f32⟩ : BufTy).Contents (Elt F) → (⟨S1x2048, .f32⟩ : BufTy).Contents (Elt F)),
    StableHlo.unary main_v97 main_v98 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v92 main_v98 main_v99 (subf : (⟨S8192x2048, .f32⟩ : BufTy).Contents (Elt F) → (⟨S8192x2048, .f32⟩ : BufTy).Contents (Elt F) → (⟨S8192x2048, .f32⟩ : BufTy).Contents (Elt F)),
    StableHlo.nullary main_cst_18 (constant S_ .f32 0x3727C5AC#32),
    StableHlo.unary main_cst_18 main_v100 (broadcastInDim S2048 ![] bcast_S_S2048 : (⟨S_, .f32⟩ : BufTy).Contents (Elt F) → (⟨S2048, .f32⟩ : BufTy).Contents (Elt F)),
    StableHlo.binary main_v96 main_v100 main_v101 (addf : (⟨S2048, .f32⟩ : BufTy).Contents (Elt F) → (⟨S2048, .f32⟩ : BufTy).Contents (Elt F) → (⟨S2048, .f32⟩ : BufTy).Contents (Elt F)),
    StableHlo.unary main_v101 main_v102 (Host.rsqrt : (⟨S2048, .f32⟩ : BufTy).Contents (Elt F) → (⟨S2048, .f32⟩ : BufTy).Contents (Elt F)),
    StableHlo.unary main_v102 main_v103 (broadcastInDim S1x2048 ![1] bcast_S2048_S1x2048_1 : (⟨S2048, .f32⟩ : BufTy).Contents (Elt F) → (⟨S1x2048, .f32⟩ : BufTy).Contents (Elt F)),
    StableHlo.unary main_v103 main_v104 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v99 main_v104 main_v105 (mulf : (⟨S8192x2048, .f32⟩ : BufTy).Contents (Elt F) → (⟨S8192x2048, .f32⟩ : BufTy).Contents (Elt F) → (⟨S8192x2048, .f32⟩ : BufTy).Contents (Elt F)),
    StableHlo.unary main_arg17 main_v106 (broadcastInDim S1x2048 ![1] bcast_S2048_S1x2048_1 : (⟨S2048, .f32⟩ : BufTy).Contents (Elt F) → (⟨S1x2048, .f32⟩ : BufTy).Contents (Elt F)),
    StableHlo.unary main_v106 main_v107 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v105 main_v107 main_v108 (mulf : (⟨S8192x2048, .f32⟩ : BufTy).Contents (Elt F) → (⟨S8192x2048, .f32⟩ : BufTy).Contents (Elt F) → (⟨S8192x2048, .f32⟩ : BufTy).Contents (Elt F)),
    StableHlo.unary main_arg18 main_v109 (broadcastInDim S1x2048 ![1] bcast_S2048_S1x2048_1 : (⟨S2048, .f32⟩ : BufTy).Contents (Elt F) → (⟨S1x2048, .f32⟩ : BufTy).Contents (Elt F)),
    StableHlo.unary main_v109 main_v110 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v108 main_v110 main_v111 (addf : (⟨S8192x2048, .f32⟩ : BufTy).Contents (Elt F) → (⟨S8192x2048, .f32⟩ : BufTy).Contents (Elt F) → (⟨S8192x2048, .f32⟩ : BufTy).Contents (Elt F)),
    StableHlo.TRef.nullary main_call7.cst (constant S_ .f32 0x00000000#32),
    StableHlo.TRef.unary main_call7.cst main_call7.v0 (broadcastInDim S8192x2048 ![] bcast_S_S8192x2048),
    StableHlo.TRef.binary (.of main_v111) main_call7.v0 main_call7.v1 maximumf ]

/-- The final transposition: 1 operation, in order. -/
abbrev opsT : List (HloOp τ sig (Elt F)) :=
  [ StableHlo.unary main_v112 main_v113 ((transpose S2048x8192 [1, 0] · transposes_S8192x2048_S2048x8192_1_0) : (⟨S8192x2048, .f32⟩ : BufTy).Contents (Elt F) → (⟨S2048x8192, .f32⟩ : BufTy).Contents (Elt F)) ]

/-- @main's 227 operations, in order. -/
abbrev ops : List (HloOp τ sig (Elt F)) := opsPre ++ opsL0a ++ opsL0b ++ opsL0c ++ opsL1a ++ opsL1b ++ opsL1c ++ opsL2a ++ opsL2b ++ opsL2c ++ opsL3a ++ opsL3b ++ opsL3c ++ opsT

/-- The operations of @main's statements in its first printed window. -/
abbrev part0 : List (HloOp τ sig (Elt F)) :=
  [ StableHlo.nullary main_c (constantI S_ 32 0#32),
    StableHlo.unary main_c main_v0 (broadcastInDim S8192 ![] bcast_S_S8192 : (⟨S_, .i32⟩ : BufTy).Contents (Elt F) → (⟨S8192, .i32⟩ : BufTy).Contents (Elt F)),
    StableHlo.binary main_arg0 main_v0 main_v1 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 4096#32),
    StableHlo.unary main_c_0 main_v2 (broadcastInDim S8192 ![] bcast_S_S8192 : (⟨S_, .i32⟩ : BufTy).Contents (Elt F) → (⟨S8192, .i32⟩ : BufTy).Contents (Elt F)),
    StableHlo.binary main_arg0 main_v2 main_v3 (addi : (⟨S8192, .i32⟩ : BufTy).Contents (Elt F) → (⟨S8192, .i32⟩ : BufTy).Contents (Elt F) → (⟨S8192, .i32⟩ : BufTy).Contents (Elt F)),
    StableHlo.ternary main_v1 main_v3 main_arg0 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v4 main_v5 (broadcastInDim S8192x1 ![0] bcast_S8192_S8192x1_0 : (⟨S8192, .i32⟩ : BufTy).Contents (Elt F) → (⟨S8192x1, .i32⟩ : BufTy).Contents (Elt F)),
    StableHlo.binary main_arg2 main_v5 main_v6 ((fun x i => Host.gather gather_S4096x4096_S8192x1_S8192x4096_1_0_n_n_0_1_14096 x i) : (⟨S4096x4096, .f32⟩ : BufTy).Contents (Elt F) → (⟨S8192x1, .i32⟩ : BufTy).Contents (Elt F) → (⟨S8192x4096, .f32⟩ : BufTy).Contents (Elt F)),
    StableHlo.nullary main_c_1 (constantI S_ 32 0#32),
    StableHlo.unary main_c_1 main_v7 (broadcastInDim S8192x5 ![] bcast_S_S8192x5 : (⟨S_, .i32⟩ : BufTy).Contents (Elt F) → (⟨S8192x5, .i32⟩ : BufTy).Contents (Elt F)),
    StableHlo.binary main_arg1 main_v7 main_v8 (cmpi .slt : (⟨S8192x5, .i32⟩ : BufTy).Contents (Elt F) → (⟨S8192x5, .i32⟩ : BufTy).Contents (Elt F) → (⟨S8192x5, .i1⟩ : BufTy).Contents (Elt F)),
    StableHlo.nullary main_c_2 (constantI S_ 32 4096#32),
    StableHlo.unary main_c_2 main_v9 (broadcastInDim S8192x5 ![] bcast_S_S8192x5 : (⟨S_, .i32⟩ : BufTy).Contents (Elt F) → (⟨S8192x5, .i32⟩ : BufTy).Contents (Elt F)),
    StableHlo.binary main_arg1 main_v9 main_v10 (addi : (⟨S8192x5, .i32⟩ : BufTy).Contents (Elt F) → (⟨S8192x5, .i32⟩ : BufTy).Contents (Elt F) → (⟨S8192x5, .i32⟩ : BufTy).Contents (Elt F)),
    StableHlo.ternary main_v8 main_v10 main_arg1 main_v11 (select : (⟨S8192x5, .i1⟩ : BufTy).Contents (Elt F) → (⟨S8192x5, .i32⟩ : BufTy).Contents (Elt F) → (⟨S8192x5, .i32⟩ : BufTy).Contents (Elt F) → (⟨S8192x5, .i32⟩ : BufTy).Contents (Elt F)),
    StableHlo.unary main_v11 main_v12 (broadcastInDim S8192x5x1 ![0, 1] bcast_S8192x5_S8192x5x1_0_1 : (⟨S8192x5, .i32⟩ : BufTy).Contents (Elt F) → (⟨S8192x5x1, .i32⟩ : BufTy).Contents (Elt F)),
    StableHlo.binary main_arg2 main_v12 main_v13 ((fun x i => Host.gather gather_S4096x4096_S8192x5x1_S8192x5x4096_2_0_n_n_0_2_14096 x i) : (⟨S4096x4096, .f32⟩ : BufTy).Contents (Elt F) → (⟨S8192x5x1, .i32⟩ : BufTy).Contents (Elt F) → (⟨S8192x5x4096, .f32⟩ : BufTy).Contents (Elt F)),
    StableHlo.nullary main_cst (constant S_ .f32 0x00000000#32),
    StableHlo.binary main_v13 main_cst main_v14 ((fun x v => Host.reduceAdd x v reducesTo_S8192x5x4096_S8192x4096_d1 h_S_) : (⟨S8192x5x4096, .f32⟩ : BufTy).Contents (Elt F) → (⟨S_, .f32⟩ : BufTy).Contents (Elt F) → (⟨S8192x4096, .f32⟩ : BufTy).Contents (Elt F)),
    StableHlo.binary main_v6 main_v14 main_v15 (addf : (⟨S8192x4096, .f32⟩ : BufTy).Contents (Elt F) → (⟨S8192x4096, .f32⟩ : BufTy).Contents (Elt F) → (⟨S8192x4096, .f32⟩ : BufTy).Contents (Elt F)),
    StableHlo.binary main_v6 main_v15 main_v16 (addf : (⟨S8192x4096, .f32⟩ : BufTy).Contents (Elt F) → (⟨S8192x4096, .f32⟩ : BufTy).Contents (Elt F) → (⟨S8192x4096, .f32⟩ : BufTy).Contents (Elt F)),
    StableHlo.binary main_v16 main_arg3 main_v17 ((fun l r => Host.dotGeneral dot_S8192x4096_S4096x2048_S8192x2048_1_0_0_1_n_n none l r) : (⟨S8192x4096, .f32⟩ : BufTy).Contents (Elt F) → (⟨S4096x2048, .f32⟩ : BufTy).Contents (Elt F) → (⟨S8192x2048, .f32⟩ : BufTy).Contents (Elt F)),
    StableHlo.unary main_arg4 main_v18 (broadcastInDim S1x2048 ![1] bcast_S2048_S1x2048_1 : (⟨S2048, .f32⟩ : BufTy).Contents (Elt F) → (⟨S1x2048, .f32⟩ : BufTy).Contents (Elt F)),
    StableHlo.unary main_v18 main_v19 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v17 main_v19 main_v20 (addf : (⟨S8192x2048, .f32⟩ : BufTy).Contents (Elt F) → (⟨S8192x2048, .f32⟩ : BufTy).Contents (Elt F) → (⟨S8192x2048, .f32⟩ : BufTy).Contents (Elt F)),
    StableHlo.nullary main_cst_3 (constant S_ .f32 0x00000000#32),
    StableHlo.binary main_v20 main_cst_3 main_v21 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    StableHlo.nullary main_cst_4 (constant S_ .f32 0x46000000#32),
    StableHlo.unary main_cst_4 main_v22 (broadcastInDim S2048 ![] bcast_S_S2048 : (⟨S_, .f32⟩ : BufTy).Contents (Elt F) → (⟨S2048, .f32⟩ : BufTy).Contents (Elt F)),
    StableHlo.binary main_v21 main_v22 main_v23 (Host.divf : (⟨S2048, .f32⟩ : BufTy).Contents (Elt F) → (⟨S2048, .f32⟩ : BufTy).Contents (Elt F) → (⟨S2048, .f32⟩ : BufTy).Contents (Elt F)),
    StableHlo.nullary main_c_5 (constantI S_ 32 0#32),
    StableHlo.TRef.nullary main_call0.cst (constant S_ .f32 0x00000000#32),
    StableHlo.TRef.binary (.of main_v20) main_call0.cst main_call0.v0 (fun x v => Host.reduceAdd x v reducesTo_S8192x2048_S2048_d0 h_S_),
    StableHlo.TRef.unary main_call0.v0 main_call0.v1 (broadcastInDim S1x2048 ![1] bcast_S2048_S1x2048_1),
    StableHlo.TRef.nullary main_call0.cst_0 (constant S_ .f32 0x46000000#32),
    StableHlo.TRef.unary main_call0.cst_0 main_call0.v2 (broadcastInDim S1x2048 ![] bcast_S_S1x2048),
    StableHlo.TRef.binary main_call0.v1 main_call0.v2 main_call0.v3 Host.divf,
    StableHlo.TRef.unary main_call0.v3 main_call0.v4 (broadcastInDim S8192x2048 ![0, 1] bcast_S1x2048_S8192x2048_0_1),
    StableHlo.TRef.binary (.of main_v20) main_call0.v4 main_call0.v5 subf,
    StableHlo.TRef.binary main_call0.v5 main_call0.v5 main_call0.v6 mulf,
    StableHlo.TRef.unary (.of main_c_5) main_call0.v7 (sitofp .f32),
    StableHlo.TRef.nullary main_call0.cst_1 (constant S_ .f32 0x46000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x2048_S2048_d0 h_S_),
    StableHlo.TRef.unary main_call0.v8 main_call0.v10 (broadcastInDim S2048 ![] bcast_S_S2048),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S2048 ![] bcast_S_S2048),
    StableHlo.TRef.ternary main_call0.v12 main_call0.v11 main_call0.call0.v1 main_call0.call0.v2 (fun p a b => select (broadcastInDim S2048 ![] bcast_S_S2048 p) a b),
    StableHlo.unary main_v23 main_v25 (broadcastInDim S1x2048 ![1] bcast_S2048_S1x2048_1 : (⟨S2048, .f32⟩ : BufTy).Contents (Elt F) → (⟨S1x2048, .f32⟩ : BufTy).Contents (Elt F)),
    StableHlo.unary main_v25 main_v26 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v20 main_v26 main_v27 (subf : (⟨S8192x2048, .f32⟩ : BufTy).Contents (Elt F) → (⟨S8192x2048, .f32⟩ : BufTy).Contents (Elt F) → (⟨S8192x2048, .f32⟩ : BufTy).Contents (Elt F)),
    StableHlo.nullary main_cst_6 (constant S_ .f32 0x3727C5AC#32),
    StableHlo.unary main_cst_6 main_v28 (broadcastInDim S2048 ![] bcast_S_S2048 : (⟨S_, .f32⟩ : BufTy).Contents (Elt F) → (⟨S2048, .f32⟩ : BufTy).Contents (Elt F)),
    StableHlo.binary main_v24 main_v28 main_v29 (addf : (⟨S2048, .f32⟩ : BufTy).Contents (Elt F) → (⟨S2048, .f32⟩ : BufTy).Contents (Elt F) → (⟨S2048, .f32⟩ : BufTy).Contents (Elt F)),
    StableHlo.unary main_v29 main_v30 (Host.rsqrt : (⟨S2048, .f32⟩ : BufTy).Contents (Elt F) → (⟨S2048, .f32⟩ : BufTy).Contents (Elt F)),
    StableHlo.unary main_v30 main_v31 (broadcastInDim S1x2048 ![1] bcast_S2048_S1x2048_1 : (⟨S2048, .f32⟩ : BufTy).Contents (Elt F) → (⟨S1x2048, .f32⟩ : BufTy).Contents (Elt F)),
    StableHlo.unary main_v31 main_v32 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v27 main_v32 main_v33 (mulf : (⟨S8192x2048, .f32⟩ : BufTy).Contents (Elt F) → (⟨S8192x2048, .f32⟩ : BufTy).Contents (Elt F) → (⟨S8192x2048, .f32⟩ : BufTy).Contents (Elt F)),
    StableHlo.unary main_arg5 main_v34 (broadcastInDim S1x2048 ![1] bcast_S2048_S1x2048_1 : (⟨S2048, .f32⟩ : BufTy).Contents (Elt F) → (⟨S1x2048, .f32⟩ : BufTy).Contents (Elt F)),
    StableHlo.unary main_v34 main_v35 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v33 main_v35 main_v36 (mulf : (⟨S8192x2048, .f32⟩ : BufTy).Contents (Elt F) → (⟨S8192x2048, .f32⟩ : BufTy).Contents (Elt F) → (⟨S8192x2048, .f32⟩ : BufTy).Contents (Elt F)),
    StableHlo.unary main_arg6 main_v37 (broadcastInDim S1x2048 ![1] bcast_S2048_S1x2048_1 : (⟨S2048, .f32⟩ : BufTy).Contents (Elt F) → (⟨S1x2048, .f32⟩ : BufTy).Contents (Elt F)),
    StableHlo.unary main_v37 main_v38 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v36 main_v38 main_v39 (addf : (⟨S8192x2048, .f32⟩ : BufTy).Contents (Elt F) → (⟨S8192x2048, .f32⟩ : BufTy).Contents (Elt F) → (⟨S8192x2048, .f32⟩ : BufTy).Contents (Elt F)),
    StableHlo.TRef.nullary main_call1.cst (constant S_ .f32 0x00000000#32),
    StableHlo.TRef.unary main_call1.cst main_call1.v0 (broadcastInDim S8192x2048 ![] bcast_S_S8192x2048),
    StableHlo.TRef.binary (.of main_v39) main_call1.v0 main_call1.v1 maximumf,
    StableHlo.binary main_v40 main_arg7 main_v41 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg8 main_v42 (broadcastInDim S1x2048 ![1] bcast_S2048_S1x2048_1 : (⟨S2048, .f32⟩ : BufTy).Contents (Elt F) → (⟨S1x2048, .f32⟩ : BufTy).Contents (Elt F)),
    StableHlo.unary main_v42 main_v43 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v41 main_v43 main_v44 (addf : (⟨S8192x2048, .f32⟩ : BufTy).Contents (Elt F) → (⟨S8192x2048, .f32⟩ : BufTy).Contents (Elt F) → (⟨S8192x2048, .f32⟩ : BufTy).Contents (Elt F)),
    StableHlo.nullary main_cst_7 (constant S_ .f32 0x00000000#32),
    StableHlo.binary main_v44 main_cst_7 main_v45 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    StableHlo.nullary main_cst_8 (constant S_ .f32 0x46000000#32),
    StableHlo.unary main_cst_8 main_v46 (broadcastInDim S2048 ![] bcast_S_S2048 : (⟨S_, .f32⟩ : BufTy).Contents (Elt F) → (⟨S2048, .f32⟩ : BufTy).Contents (Elt F)),
    StableHlo.binary main_v45 main_v46 main_v47 (Host.divf : (⟨S2048, .f32⟩ : BufTy).Contents (Elt F) → (⟨S2048, .f32⟩ : BufTy).Contents (Elt F) → (⟨S2048, .f32⟩ : BufTy).Contents (Elt F)),
    StableHlo.nullary main_c_9 (constantI S_ 32 0#32) ]

set_option maxRecDepth 65536 in
set_option maxHeartbeats 4000000 in
theorem part0_eq (c : Dev nD) : main_part0 (F := F) c = seq part0 := by
  simp only [main_part0, fn_var.body, fn_where.body, fn_relu.body, seq, bind_assoc, pure_bind]
  rfl

/-- The operations of @main's statements in its second printed window. -/
abbrev part1 : List (HloOp τ sig (Elt F)) :=
  [ StableHlo.TRef.nullary main_call2.cst (constant S_ .f32 0x00000000#32),
    StableHlo.TRef.binary (.of main_v44) main_call2.cst main_call2.v0 (fun x v => Host.reduceAdd x v reducesTo_S8192x2048_S2048_d0 h_S_),
    StableHlo.TRef.unary main_call2.v0 main_call2.v1 (broadcastInDim S1x2048 ![1] bcast_S2048_S1x2048_1),
    StableHlo.TRef.nullary main_call2.cst_0 (constant S_ .f32 0x46000000#32),
    StableHlo.TRef.unary main_call2.cst_0 main_call2.v2 (broadcastInDim S1x2048 ![] bcast_S_S1x2048),
    StableHlo.TRef.binary main_call2.v1 main_call2.v2 main_call2.v3 Host.divf,
    StableHlo.TRef.unary main_call2.v3 main_call2.v4 (broadcastInDim S8192x2048 ![0, 1] bcast_S1x2048_S8192x2048_0_1),
    StableHlo.TRef.binary (.of main_v44) main_call2.v4 main_call2.v5 subf,
    StableHlo.TRef.binary main_call2.v5 main_call2.v5 main_call2.v6 mulf,
    StableHlo.TRef.unary (.of main_c_9) main_call2.v7 (sitofp .f32),
    StableHlo.TRef.nullary main_call2.cst_1 (constant S_ .f32 0x46000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8192x2048_S2048_d0 h_S_),
    StableHlo.TRef.unary main_call2.v8 main_call2.v10 (broadcastInDim S2048 ![] bcast_S_S2048),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S2048 ![] bcast_S_S2048),
    StableHlo.TRef.ternary main_call2.v12 main_call2.v11 main_call2.call0.v1 main_call2.call0.v2 (fun p a b => select (broadcastInDim S2048 ![] bcast_S_S2048 p) a b),
    StableHlo.unary main_v47 main_v49 (broadcastInDim S1x2048 ![1] bcast_S2048_S1x2048_1 : (⟨S2048, .f32⟩ : BufTy).Contents (Elt F) → (⟨S1x2048, .f32⟩ : BufTy).Contents (Elt F)),
    StableHlo.unary main_v49 main_v50 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v44 main_v50 main_v51 (subf : (⟨S8192x2048, .f32⟩ : BufTy).Contents (Elt F) → (⟨S8192x2048, .f32⟩ : BufTy).Contents (Elt F) → (⟨S8192x2048, .f32⟩ : BufTy).Contents (Elt F)),
    StableHlo.nullary main_cst_10 (constant S_ .f32 0x3727C5AC#32),
    StableHlo.unary main_cst_10 main_v52 (broadcastInDim S2048 ![] bcast_S_S2048 : (⟨S_, .f32⟩ : BufTy).Contents (Elt F) → (⟨S2048, .f32⟩ : BufTy).Contents (Elt F)),
    StableHlo.binary main_v48 main_v52 main_v53 (addf : (⟨S2048, .f32⟩ : BufTy).Contents (Elt F) → (⟨S2048, .f32⟩ : BufTy).Contents (Elt F) → (⟨S2048, .f32⟩ : BufTy).Contents (Elt F)),
    StableHlo.unary main_v53 main_v54 (Host.rsqrt : (⟨S2048, .f32⟩ : BufTy).Contents (Elt F) → (⟨S2048, .f32⟩ : BufTy).Contents (Elt F)),
    StableHlo.unary main_v54 main_v55 (broadcastInDim S1x2048 ![1] bcast_S2048_S1x2048_1 : (⟨S2048, .f32⟩ : BufTy).Contents (Elt F) → (⟨S1x2048, .f32⟩ : BufTy).Contents (Elt F)),
    StableHlo.unary main_v55 main_v56 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v51 main_v56 main_v57 (mulf : (⟨S8192x2048, .f32⟩ : BufTy).Contents (Elt F) → (⟨S8192x2048, .f32⟩ : BufTy).Contents (Elt F) → (⟨S8192x2048, .f32⟩ : BufTy).Contents (Elt F)),
    StableHlo.unary main_arg9 main_v58 (broadcastInDim S1x2048 ![1] bcast_S2048_S1x2048_1 : (⟨S2048, .f32⟩ : BufTy).Contents (Elt F) → (⟨S1x2048, .f32⟩ : BufTy).Contents (Elt F)),
    StableHlo.unary main_v58 main_v59 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v57 main_v59 main_v60 (mulf : (⟨S8192x2048, .f32⟩ : BufTy).Contents (Elt F) → (⟨S8192x2048, .f32⟩ : BufTy).Contents (Elt F) → (⟨S8192x2048, .f32⟩ : BufTy).Contents (Elt F)),
    StableHlo.unary main_arg10 main_v61 (broadcastInDim S1x2048 ![1] bcast_S2048_S1x2048_1 : (⟨S2048, .f32⟩ : BufTy).Contents (Elt F) → (⟨S1x2048, .f32⟩ : BufTy).Contents (Elt F)),
    StableHlo.unary main_v61 main_v62 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v60 main_v62 main_v63 (addf : (⟨S8192x2048, .f32⟩ : BufTy).Contents (Elt F) → (⟨S8192x2048, .f32⟩ : BufTy).Contents (Elt F) → (⟨S8192x2048, .f32⟩ : BufTy).Contents (Elt F)),
    StableHlo.TRef.nullary main_call3.cst (constant S_ .f32 0x00000000#32),
    StableHlo.TRef.unary main_call3.cst main_call3.v0 (broadcastInDim S8192x2048 ![] bcast_S_S8192x2048),
    StableHlo.TRef.binary (.of main_v63) main_call3.v0 main_call3.v1 maximumf,
    StableHlo.binary main_v64 main_arg11 main_v65 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg12 main_v66 (broadcastInDim S1x2048 ![1] bcast_S2048_S1x2048_1 : (⟨S2048, .f32⟩ : BufTy).Contents (Elt F) → (⟨S1x2048, .f32⟩ : BufTy).Contents (Elt F)),
    StableHlo.unary main_v66 main_v67 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v65 main_v67 main_v68 (addf : (⟨S8192x2048, .f32⟩ : BufTy).Contents (Elt F) → (⟨S8192x2048, .f32⟩ : BufTy).Contents (Elt F) → (⟨S8192x2048, .f32⟩ : BufTy).Contents (Elt F)),
    StableHlo.nullary main_cst_11 (constant S_ .f32 0x00000000#32),
    StableHlo.binary main_v68 main_cst_11 main_v69 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    StableHlo.nullary main_cst_12 (constant S_ .f32 0x46000000#32),
    StableHlo.unary main_cst_12 main_v70 (broadcastInDim S2048 ![] bcast_S_S2048 : (⟨S_, .f32⟩ : BufTy).Contents (Elt F) → (⟨S2048, .f32⟩ : BufTy).Contents (Elt F)),
    StableHlo.binary main_v69 main_v70 main_v71 (Host.divf : (⟨S2048, .f32⟩ : BufTy).Contents (Elt F) → (⟨S2048, .f32⟩ : BufTy).Contents (Elt F) → (⟨S2048, .f32⟩ : BufTy).Contents (Elt F)),
    StableHlo.nullary main_c_13 (constantI S_ 32 0#32),
    StableHlo.TRef.nullary main_call4.cst (constant S_ .f32 0x00000000#32),
    StableHlo.TRef.binary (.of main_v68) main_call4.cst main_call4.v0 (fun x v => Host.reduceAdd x v reducesTo_S8192x2048_S2048_d0 h_S_),
    StableHlo.TRef.unary main_call4.v0 main_call4.v1 (broadcastInDim S1x2048 ![1] bcast_S2048_S1x2048_1),
    StableHlo.TRef.nullary main_call4.cst_0 (constant S_ .f32 0x46000000#32),
    StableHlo.TRef.unary main_call4.cst_0 main_call4.v2 (broadcastInDim S1x2048 ![] bcast_S_S1x2048),
    StableHlo.TRef.binary main_call4.v1 main_call4.v2 main_call4.v3 Host.divf,
    StableHlo.TRef.unary main_call4.v3 main_call4.v4 (broadcastInDim S8192x2048 ![0, 1] bcast_S1x2048_S8192x2048_0_1),
    StableHlo.TRef.binary (.of main_v68) main_call4.v4 main_call4.v5 subf,
    StableHlo.TRef.binary main_call4.v5 main_call4.v5 main_call4.v6 mulf,
    StableHlo.TRef.unary (.of main_c_13) main_call4.v7 (sitofp .f32),
    StableHlo.TRef.nullary main_call4.cst_1 (constant S_ .f32 0x46000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S8192x2048_S2048_d0 h_S_),
    StableHlo.TRef.unary main_call4.v8 main_call4.v10 (broadcastInDim S2048 ![] bcast_S_S2048),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S2048 ![] bcast_S_S2048),
    StableHlo.TRef.ternary main_call4.v12 main_call4.v11 main_call4.call0.v1 main_call4.call0.v2 (fun p a b => select (broadcastInDim S2048 ![] bcast_S_S2048 p) a b),
    StableHlo.unary main_v71 main_v73 (broadcastInDim S1x2048 ![1] bcast_S2048_S1x2048_1 : (⟨S2048, .f32⟩ : BufTy).Contents (Elt F) → (⟨S1x2048, .f32⟩ : BufTy).Contents (Elt F)),
    StableHlo.unary main_v73 main_v74 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v68 main_v74 main_v75 (subf : (⟨S8192x2048, .f32⟩ : BufTy).Contents (Elt F) → (⟨S8192x2048, .f32⟩ : BufTy).Contents (Elt F) → (⟨S8192x2048, .f32⟩ : BufTy).Contents (Elt F)),
    StableHlo.nullary main_cst_14 (constant S_ .f32 0x3727C5AC#32),
    StableHlo.unary main_cst_14 main_v76 (broadcastInDim S2048 ![] bcast_S_S2048 : (⟨S_, .f32⟩ : BufTy).Contents (Elt F) → (⟨S2048, .f32⟩ : BufTy).Contents (Elt F)),
    StableHlo.binary main_v72 main_v76 main_v77 (addf : (⟨S2048, .f32⟩ : BufTy).Contents (Elt F) → (⟨S2048, .f32⟩ : BufTy).Contents (Elt F) → (⟨S2048, .f32⟩ : BufTy).Contents (Elt F)),
    StableHlo.unary main_v77 main_v78 (Host.rsqrt : (⟨S2048, .f32⟩ : BufTy).Contents (Elt F) → (⟨S2048, .f32⟩ : BufTy).Contents (Elt F)),
    StableHlo.unary main_v78 main_v79 (broadcastInDim S1x2048 ![1] bcast_S2048_S1x2048_1 : (⟨S2048, .f32⟩ : BufTy).Contents (Elt F) → (⟨S1x2048, .f32⟩ : BufTy).Contents (Elt F)),
    StableHlo.unary main_v79 main_v80 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v75 main_v80 main_v81 (mulf : (⟨S8192x2048, .f32⟩ : BufTy).Contents (Elt F) → (⟨S8192x2048, .f32⟩ : BufTy).Contents (Elt F) → (⟨S8192x2048, .f32⟩ : BufTy).Contents (Elt F)),
    StableHlo.unary main_arg13 main_v82 (broadcastInDim S1x2048 ![1] bcast_S2048_S1x2048_1 : (⟨S2048, .f32⟩ : BufTy).Contents (Elt F) → (⟨S1x2048, .f32⟩ : BufTy).Contents (Elt F)),
    StableHlo.unary main_v82 main_v83 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v81 main_v83 main_v84 (mulf : (⟨S8192x2048, .f32⟩ : BufTy).Contents (Elt F) → (⟨S8192x2048, .f32⟩ : BufTy).Contents (Elt F) → (⟨S8192x2048, .f32⟩ : BufTy).Contents (Elt F)),
    StableHlo.unary main_arg14 main_v85 (broadcastInDim S1x2048 ![1] bcast_S2048_S1x2048_1 : (⟨S2048, .f32⟩ : BufTy).Contents (Elt F) → (⟨S1x2048, .f32⟩ : BufTy).Contents (Elt F)),
    StableHlo.unary main_v85 main_v86 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v84 main_v86 main_v87 (addf : (⟨S8192x2048, .f32⟩ : BufTy).Contents (Elt F) → (⟨S8192x2048, .f32⟩ : BufTy).Contents (Elt F) → (⟨S8192x2048, .f32⟩ : BufTy).Contents (Elt F)),
    StableHlo.TRef.nullary main_call5.cst (constant S_ .f32 0x00000000#32),
    StableHlo.TRef.unary main_call5.cst main_call5.v0 (broadcastInDim S8192x2048 ![] bcast_S_S8192x2048),
    StableHlo.TRef.binary (.of main_v87) main_call5.v0 main_call5.v1 maximumf,
    StableHlo.binary main_v88 main_arg15 main_v89 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg16 main_v90 (broadcastInDim S1x2048 ![1] bcast_S2048_S1x2048_1 : (⟨S2048, .f32⟩ : BufTy).Contents (Elt F) → (⟨S1x2048, .f32⟩ : BufTy).Contents (Elt F)),
    StableHlo.unary main_v90 main_v91 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v89 main_v91 main_v92 (addf : (⟨S8192x2048, .f32⟩ : BufTy).Contents (Elt F) → (⟨S8192x2048, .f32⟩ : BufTy).Contents (Elt F) → (⟨S8192x2048, .f32⟩ : BufTy).Contents (Elt F)),
    StableHlo.nullary main_cst_15 (constant S_ .f32 0x00000000#32),
    StableHlo.binary main_v92 main_cst_15 main_v93 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    StableHlo.nullary main_cst_16 (constant S_ .f32 0x46000000#32),
    StableHlo.unary main_cst_16 main_v94 (broadcastInDim S2048 ![] bcast_S_S2048 : (⟨S_, .f32⟩ : BufTy).Contents (Elt F) → (⟨S2048, .f32⟩ : BufTy).Contents (Elt F)),
    StableHlo.binary main_v93 main_v94 main_v95 (Host.divf : (⟨S2048, .f32⟩ : BufTy).Contents (Elt F) → (⟨S2048, .f32⟩ : BufTy).Contents (Elt F) → (⟨S2048, .f32⟩ : BufTy).Contents (Elt F)),
    StableHlo.nullary main_c_17 (constantI S_ 32 0#32),
    StableHlo.TRef.nullary main_call6.cst (constant S_ .f32 0x00000000#32),
    StableHlo.TRef.binary (.of main_v92) main_call6.cst main_call6.v0 (fun x v => Host.reduceAdd x v reducesTo_S8192x2048_S2048_d0 h_S_),
    StableHlo.TRef.unary main_call6.v0 main_call6.v1 (broadcastInDim S1x2048 ![1] bcast_S2048_S1x2048_1),
    StableHlo.TRef.nullary main_call6.cst_0 (constant S_ .f32 0x46000000#32),
    StableHlo.TRef.unary main_call6.cst_0 main_call6.v2 (broadcastInDim S1x2048 ![] bcast_S_S1x2048),
    StableHlo.TRef.binary main_call6.v1 main_call6.v2 main_call6.v3 Host.divf,
    StableHlo.TRef.unary main_call6.v3 main_call6.v4 (broadcastInDim S8192x2048 ![0, 1] bcast_S1x2048_S8192x2048_0_1),
    StableHlo.TRef.binary (.of main_v92) main_call6.v4 main_call6.v5 subf,
    StableHlo.TRef.binary main_call6.v5 main_call6.v5 main_call6.v6 mulf,
    StableHlo.TRef.unary (.of main_c_17) main_call6.v7 (sitofp .f32),
    StableHlo.TRef.nullary main_call6.cst_1 (constant S_ .f32 0x46000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S8192x2048_S2048_d0 h_S_),
    StableHlo.TRef.unary main_call6.v8 main_call6.v10 (broadcastInDim S2048 ![] bcast_S_S2048),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S2048 ![] bcast_S_S2048),
    StableHlo.TRef.ternary main_call6.v12 main_call6.v11 main_call6.call0.v1 main_call6.call0.v2 (fun p a b => select (broadcastInDim S2048 ![] bcast_S_S2048 p) a b),
    StableHlo.unary main_v95 main_v97 (broadcastInDim S1x2048 ![1] bcast_S2048_S1x2048_1 : (⟨S2048, .f32⟩ : BufTy).Contents (Elt F) → (⟨S1x2048, .f32⟩ : BufTy).Contents (Elt F)),
    StableHlo.unary main_v97 main_v98 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v92 main_v98 main_v99 (subf : (⟨S8192x2048, .f32⟩ : BufTy).Contents (Elt F) → (⟨S8192x2048, .f32⟩ : BufTy).Contents (Elt F) → (⟨S8192x2048, .f32⟩ : BufTy).Contents (Elt F)) ]

set_option maxRecDepth 65536 in
set_option maxHeartbeats 4000000 in
theorem part1_eq (c : Dev nD) : main_part1 (F := F) c = seq part1 := by
  simp only [main_part1, fn_var.body, fn_where.body, fn_relu.body, seq, bind_assoc, pure_bind]
  rfl

/-- The operations of @main's statements in its third printed window. -/
abbrev part2 : List (HloOp τ sig (Elt F)) :=
  [ StableHlo.nullary main_cst_18 (constant S_ .f32 0x3727C5AC#32),
    StableHlo.unary main_cst_18 main_v100 (broadcastInDim S2048 ![] bcast_S_S2048 : (⟨S_, .f32⟩ : BufTy).Contents (Elt F) → (⟨S2048, .f32⟩ : BufTy).Contents (Elt F)),
    StableHlo.binary main_v96 main_v100 main_v101 (addf : (⟨S2048, .f32⟩ : BufTy).Contents (Elt F) → (⟨S2048, .f32⟩ : BufTy).Contents (Elt F) → (⟨S2048, .f32⟩ : BufTy).Contents (Elt F)),
    StableHlo.unary main_v101 main_v102 (Host.rsqrt : (⟨S2048, .f32⟩ : BufTy).Contents (Elt F) → (⟨S2048, .f32⟩ : BufTy).Contents (Elt F)),
    StableHlo.unary main_v102 main_v103 (broadcastInDim S1x2048 ![1] bcast_S2048_S1x2048_1 : (⟨S2048, .f32⟩ : BufTy).Contents (Elt F) → (⟨S1x2048, .f32⟩ : BufTy).Contents (Elt F)),
    StableHlo.unary main_v103 main_v104 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v99 main_v104 main_v105 (mulf : (⟨S8192x2048, .f32⟩ : BufTy).Contents (Elt F) → (⟨S8192x2048, .f32⟩ : BufTy).Contents (Elt F) → (⟨S8192x2048, .f32⟩ : BufTy).Contents (Elt F)),
    StableHlo.unary main_arg17 main_v106 (broadcastInDim S1x2048 ![1] bcast_S2048_S1x2048_1 : (⟨S2048, .f32⟩ : BufTy).Contents (Elt F) → (⟨S1x2048, .f32⟩ : BufTy).Contents (Elt F)),
    StableHlo.unary main_v106 main_v107 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v105 main_v107 main_v108 (mulf : (⟨S8192x2048, .f32⟩ : BufTy).Contents (Elt F) → (⟨S8192x2048, .f32⟩ : BufTy).Contents (Elt F) → (⟨S8192x2048, .f32⟩ : BufTy).Contents (Elt F)),
    StableHlo.unary main_arg18 main_v109 (broadcastInDim S1x2048 ![1] bcast_S2048_S1x2048_1 : (⟨S2048, .f32⟩ : BufTy).Contents (Elt F) → (⟨S1x2048, .f32⟩ : BufTy).Contents (Elt F)),
    StableHlo.unary main_v109 main_v110 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v108 main_v110 main_v111 (addf : (⟨S8192x2048, .f32⟩ : BufTy).Contents (Elt F) → (⟨S8192x2048, .f32⟩ : BufTy).Contents (Elt F) → (⟨S8192x2048, .f32⟩ : BufTy).Contents (Elt F)),
    StableHlo.TRef.nullary main_call7.cst (constant S_ .f32 0x00000000#32),
    StableHlo.TRef.unary main_call7.cst main_call7.v0 (broadcastInDim S8192x2048 ![] bcast_S_S8192x2048),
    StableHlo.TRef.binary (.of main_v111) main_call7.v0 main_call7.v1 maximumf,
    StableHlo.unary main_v112 main_v113 ((transpose S2048x8192 [1, 0] · transposes_S8192x2048_S2048x8192_1_0) : (⟨S8192x2048, .f32⟩ : BufTy).Contents (Elt F) → (⟨S2048x8192, .f32⟩ : BufTy).Contents (Elt F)) ]

set_option maxRecDepth 65536 in
set_option maxHeartbeats 4000000 in
theorem part2_eq (c : Dev nD) : main_part2 (F := F) c = seq part2 := by
  simp only [main_part2, fn_var.body, fn_where.body, fn_relu.body, seq, bind_assoc, pure_bind]

set_option maxRecDepth 65536 in
set_option maxHeartbeats 4000000 in
/-- The two cuts of the line are one list. -/
theorem ops_eq_parts : (ops : List (HloOp τ sig (Elt F))) = part0 ++ part1 ++ part2 := by
  simp only [ops, opsPre, opsL0a, opsL0b, opsL0c, opsL1a, opsL1b, opsL1c, opsL2a, opsL2b, opsL2c, opsL3a, opsL3b, opsL3c, opsT, part0, part1, part2, List.cons_append, List.nil_append]

theorem main_eq (c : Dev nD) : main (F := F) c = seq ops := by
  rw [ops_eq_parts, seq_append, seq_append, ← part0_eq c, ← part1_eq c, ← part2_eq c]
  simp only [main, bind_assoc]

theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of their concatenation. -/
theorem forall_append {α : Type} {p : α → Prop} {l₁ l₂ : List α} (h1 : l₁.Forall p) (h2 : l₂.Forall p) : (l₁ ++ l₂).Forall p :=
  List.forall_iff_forall_mem.mpr fun x hx =>
    (List.mem_append.mp hx).elim (List.forall_iff_forall_mem.mp h1 x) (List.forall_iff_forall_mem.mp h2 x)

theorem opsPre_sub : (opsPre : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., binary_bufs_sub .., binary_bufs_sub ..⟩
theorem opsPre_fresh : (opsPre : List (HloOp τ sig (Elt F))).Forall fun op => op.fresh = ∅ := by
  simp only [List.Forall]; repeat' constructor

theorem opsL0a_sub : (opsL0a : List (HloOp τ sig (Elt F))).Forall fun op => op.bufs ⊆ tcRefs τ sig :=
  ⟨binary_bufs_sub .., unary_bufs_sub .., unary_bufs_sub .., binary_bufs_sub ..⟩
theorem opsL0a_fresh : (opsL0a : List (HloOp τ sig (Elt F))).Forall fun op => op.fresh = ∅ := by
  simp only [List.Forall]; repeat' constructor

theorem opsL0b_sub : (opsL0b : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsL0b_fresh : (opsL0b : List (HloOp τ sig (Elt F))).Forall fun op => op.fresh = ∅ := by
  simp only [List.Forall]; repeat' constructor

theorem opsL0c_sub : (opsL0c : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsL0c_fresh : (opsL0c : List (HloOp τ sig (Elt F))).Forall fun op => op.fresh = ∅ := by
  simp only [List.Forall]; repeat' constructor

theorem opsL1a_sub : (opsL1a : List (HloOp τ sig (Elt F))).Forall fun op => op.bufs ⊆ tcRefs τ sig :=
  ⟨binary_bufs_sub .., unary_bufs_sub .., unary_bufs_sub .., binary_bufs_sub ..⟩
theorem opsL1a_fresh : (opsL1a : List (HloOp τ sig (Elt F))).Forall fun op => op.fresh = ∅ := by
  simp only [List.Forall]; repeat' constructor

theorem opsL1b_sub : (opsL1b : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsL1b_fresh : (opsL1b : List (HloOp τ sig (Elt F))).Forall fun op => op.fresh = ∅ := by
  simp only [List.Forall]; repeat' constructor

theorem opsL1c_sub : (opsL1c : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsL1c_fresh : (opsL1c : List (HloOp τ sig (Elt F))).Forall fun op => op.fresh = ∅ := by
  simp only [List.Forall]; repeat' constructor

theorem opsL2a_sub : (opsL2a : List (HloOp τ sig (Elt F))).Forall fun op => op.bufs ⊆ tcRefs τ sig :=
  ⟨binary_bufs_sub .., unary_bufs_sub .., unary_bufs_sub .., binary_bufs_sub ..⟩
theorem opsL2a_fresh : (opsL2a : List (HloOp τ sig (Elt F))).Forall fun op => op.fresh = ∅ := by
  simp only [List.Forall]; repeat' constructor

theorem opsL2b_sub : (opsL2b : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsL2b_fresh : (opsL2b : List (HloOp τ sig (Elt F))).Forall fun op => op.fresh = ∅ := by
  simp only [List.Forall]; repeat' constructor

theorem opsL2c_sub : (opsL2c : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsL2c_fresh : (opsL2c : List (HloOp τ sig (Elt F))).Forall fun op => op.fresh = ∅ := by
  simp only [List.Forall]; repeat' constructor

theorem opsL3a_sub : (opsL3a : List (HloOp τ sig (Elt F))).Forall fun op => op.bufs ⊆ tcRefs τ sig :=
  ⟨binary_bufs_sub .., unary_bufs_sub .., unary_bufs_sub .., binary_bufs_sub ..⟩
theorem opsL3a_fresh : (opsL3a : List (HloOp τ sig (Elt F))).Forall fun op => op.fresh = ∅ := by
  simp only [List.Forall]; repeat' constructor

theorem opsL3b_sub : (opsL3b : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsL3b_fresh : (opsL3b : List (HloOp τ sig (Elt F))).Forall fun op => op.fresh = ∅ := by
  simp only [List.Forall]; repeat' constructor

theorem opsL3c_sub : (opsL3c : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsL3c_fresh : (opsL3c : List (HloOp τ sig (Elt F))).Forall fun op => op.fresh = ∅ := by
  simp only [List.Forall]; repeat' constructor

theorem opsT_sub : (opsT : List (HloOp τ sig (Elt F))).Forall fun op => op.bufs ⊆ tcRefs τ sig :=
  unary_bufs_sub ..
theorem opsT_fresh : (opsT : List (HloOp τ sig (Elt F))).Forall fun op => op.fresh = ∅ := by
  simp only [List.Forall]; repeat' constructor

theorem ops_sub : (ops : List (HloOp τ sig (Elt F))).Forall fun op => op.bufs ⊆ tcRefs τ sig :=
  forall_append (forall_append (forall_append (forall_append (forall_append (forall_append (forall_append (forall_append (forall_append (forall_append (forall_append (forall_append (forall_append (opsPre_sub) opsL0a_sub) opsL0b_sub) opsL0c_sub) opsL1a_sub) opsL1b_sub) opsL1c_sub) opsL2a_sub) opsL2b_sub) opsL2c_sub) opsL3a_sub) opsL3b_sub) opsL3c_sub) opsT_sub
theorem ops_fresh : (ops : List (HloOp τ sig (Elt F))).Forall fun op => op.fresh = ∅ :=
  forall_append (forall_append (forall_append (forall_append (forall_append (forall_append (forall_append (forall_append (forall_append (forall_append (forall_append (forall_append (forall_append (opsPre_fresh) opsL0a_fresh) opsL0b_fresh) opsL0c_fresh) opsL1a_fresh) opsL1b_fresh) opsL1c_fresh) opsL2a_fresh) opsL2b_fresh) opsL2c_fresh) opsL3a_fresh) opsL3b_fresh) opsL3c_fresh) opsT_fresh

/-- At the compiled mesh, from any memory with zero counters: every weakly fair execution of @main terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => List.forall_iff_forall_mem.mp ops_fresh op h)

end Cert.ReferenceIdeal.RefRun

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«152490_j70686571758165_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.RefLayer.lean ====
/-
  The idealized reference's layers: each stretch of its line as a pure function of the buffers it starts from, and one
  layer entry by entry.

  A layer is `y = x · W + b` (the host's dot_general, the bias repeated down the rows); the mean `(0 + ∑ y) / 8192` per
  column; the variance as the outlined function computes it — the column's mean again, the deviations, their squares'
  sum over `8192 − ddof` with `ddof = 0`, kept where that divisor is positive —; and `max (((y − mean) ·
  rsqrt (var + ε)) · γ + β) 0`. Read at row `r`, column `j`, that is the batch normalisation by CENTRING of the affine
  layer's matrix.
-/
import proofs.«152490_j70686571758165_2_alg».proof.Proof.RefRun
import proofs.«152490_j70686571758165_2_alg».proof.Proof.LayerWords
import proofs.«152490_j70686571758165_2_alg».proof.Proof.LibRowsCols
import proofs.«152490_j70686571758165_2_alg».proof.Proof.LibHostColumn
import proofs.«152490_j70686571758165_2_alg».proof.Proof.LibHostStretches
import Idealize.ShloMosaic.Lib.ValueLayout
import Idealize.ShloMosaic.Lib.Pipeline.Value

set_option maxRecDepth 16384

noncomputable section

namespace Cert.ReferenceIdeal.RefLayer

open Cert.ReferenceIdeal Cert.ReferenceIdeal.Gen Cert.ReferenceIdeal.RefRun
open Idealize.ShloMosaic Idealize.ShloMosaic.TcCoe Idealize.SL.Sem Idealize.ShloMosaic.StableHlo Idealize.ShloMosaic.ValueIdx
open Cert.Layer Cert.LibBatchNormMoments Cert.Dense Cert.HostLine

/-! ## The stretches as pure functions -/

/-- A vector repeated down the 8192 rows. -/
def rows (v : FVec Ideal S2048 .f32) : FVec Ideal S8192x2048 .f32 :=
  broadcastInDim S8192x2048 ![0, 1] bcast_S1x2048_S8192x2048_0_1 (broadcastInDim S1x2048 ![1] bcast_S2048_S1x2048_1 v)

/-- The column means: `(0 + ∑ y) / 8192`. -/
def refMean (y : FVec Ideal S8192x2048 .f32) : FVec Ideal S2048 .f32 :=
  Host.divf (Host.reduceAdd y (constant (F := Ideal) S_ .f32 0x00000000#32) reducesTo_S8192x2048_S2048_d0 h_S_)
    (broadcastInDim S2048 ![] bcast_S_S2048 (constant (F := Ideal) S_ .f32 0x46000000#32))

/-- The deviations from the column means, as the outlined variance forms them (the mean kept as a 1×2048 row). -/
def refDev (y : FVec Ideal S8192x2048 .f32) : FVec Ideal S8192x2048 .f32 :=
  subf y (broadcastInDim S8192x2048 ![0, 1] bcast_S1x2048_S8192x2048_0_1
    (Host.divf (broadcastInDim S1x2048 ![1] bcast_S2048_S1x2048_1
        (Host.reduceAdd y (constant (F := Ideal) S_ .f32 0x00000000#32) reducesTo_S8192x2048_S2048_d0 h_S_))
      (broadcastInDim S1x2048 ![] bcast_S_S1x2048 (constant (F := Ideal) S_ .f32 0x46000000#32))))

/-- The divisor `8192 − ddof` at `ddof = 0`. -/
def refDivisor : FVec Ideal S_ .f32 :=
  subf (constant (F := Ideal) S_ .f32 0x46000000#32) (sitofp .f32 (constantI S_ 32 0#32))

/-- The column variances as the outlined function computes them. -/
def refVar (y : FVec Ideal S8192x2048 .f32) : FVec Ideal S2048 .f32 :=
  select (broadcastInDim S2048 ![] bcast_S_S2048 (cmpf .ogt refDivisor (constant (F := Ideal) S_ .f32 0x00000000#32)))
    (Host.divf (Host.reduceAdd (mulf (refDev y) (refDev y)) (constant (F := Ideal) S_ .f32 0x00000000#32) reducesTo_S8192x2048_S2048_d0 h_S_)
      (broadcastInDim S2048 ![] bcast_S_S2048 refDivisor))
    (broadcastInDim S2048 ![] bcast_S_S2048 (id (constant (F := Ideal) S_ .f32 0x7FC00000#32)))

/-- Normalise, scale, shift, rectify. -/
def refNorm (y : FVec Ideal S8192x2048 .f32) (mean var g be : FVec Ideal S2048 .f32) : FVec Ideal S8192x2048 .f32 :=
  maximumf (addf (mulf (mulf (subf y (rows mean))
      (rows (Host.rsqrt (addf var (broadcastInDim S2048 ![] bcast_S_S2048 (constant (F := Ideal) S_ .f32 0x3727C5AC#32))))))
      (rows g)) (rows be))
    (broadcastInDim S8192x2048 ![] bcast_S_S8192x2048 (constant (F := Ideal) S_ .f32 0x00000000#32))

variable (V : Valuation τ sig (Elt Ideal))

/-! ## Layer 0's three stretches -/

set_option maxHeartbeats 2000000 in
theorem L0a_y : after (opsL0a (F := Ideal)) V (Proc.devRef .tc main_v20)
    = addf (Host.dotGeneral (φ₁ := .f32) (φ₂ := .f32) dot_S8192x4096_S4096x2048_S8192x2048_1_0_0_1_n_n none (V (Proc.devRef .tc main_v16) : FVec Ideal S8192x4096 .f32) (V (Proc.devRef .tc main_arg3) : FVec Ideal S4096x2048 .f32)) (rows (V (Proc.devRef .tc main_arg4))) := by
  after_results
  all_goals rfl
theorem L0a_arg5 : after (opsL0a (F := Ideal)) V (Proc.devRef .tc main_arg5) = V (Proc.devRef .tc main_arg5) := by
  after_results
  all_goals rfl
theorem L0a_arg6 : after (opsL0a (F := Ideal)) V (Proc.devRef .tc main_arg6) = V (Proc.devRef .tc main_arg6) := by
  after_results
  all_goals rfl

set_option maxHeartbeats 4000000 in
theorem L0b_mean : after (opsL0b (F := Ideal)) V (Proc.devRef .tc main_v23) = refMean (V (Proc.devRef .tc main_v20)) := by
  after_results_simp
  try simp only [ofBuf_toBuf]
  rfl
set_option maxHeartbeats 4000000 in
theorem L0b_var : after (opsL0b (F := Ideal)) V (Proc.devRef .tc main_v24) = refVar (V (Proc.devRef .tc main_v20)) := by
  after_results_simp
  try simp only [ofBuf_toBuf]
  rfl
set_option maxHeartbeats 4000000 in
theorem L0b_main_v20 : after (opsL0b (F := Ideal)) V (Proc.devRef .tc main_v20) = V (Proc.devRef .tc main_v20) := by
  after_results_simp
  all_goals rfl
set_option maxHeartbeats 4000000 in
theorem L0b_main_arg5 : after (opsL0b (F := Ideal)) V (Proc.devRef .tc main_arg5) = V (Proc.devRef .tc main_arg5) := by
  after_results_simp
  all_goals rfl
set_option maxHeartbeats 4000000 in
theorem L0b_main_arg6 : after (opsL0b (F := Ideal)) V (Proc.devRef .tc main_arg6) = V (Proc.devRef .tc main_arg6) := by
  after_results_simp
  all_goals rfl

set_option maxHeartbeats 4000000 in
theorem L0c_out : after (opsL0c (F := Ideal)) V (Proc.devRef .tc main_v40)
    = refNorm (V (Proc.devRef .tc main_v20)) (V (Proc.devRef .tc main_v23)) (V (Proc.devRef .tc main_v24)) (V (Proc.devRef .tc main_arg5)) (V (Proc.devRef .tc main_arg6)) := by
  after_results_simp
  try simp only [ofBuf_toBuf]
  rfl

/-! ## Layer 1's three stretches -/

set_option maxHeartbeats 2000000 in
theorem L1a_y : after (opsL1a (F := Ideal)) V (Proc.devRef .tc main_v44)
    = addf (Host.dotGeneral (φ₁ := .f32) (φ₂ := .f32) dot_S8192x2048_S2048x2048_S8192x2048_1_0_0_1_n_n none (V (Proc.devRef .tc main_v40) : FVec Ideal S8192x2048 .f32) (V (Proc.devRef .tc main_arg7) : FVec Ideal S2048x2048 .f32)) (rows (V (Proc.devRef .tc main_arg8))) := by
  after_results
  all_goals rfl
theorem L1a_arg9 : after (opsL1a (F := Ideal)) V (Proc.devRef .tc main_arg9) = V (Proc.devRef .tc main_arg9) := by
  after_results
  all_goals rfl
theorem L1a_arg10 : after (opsL1a (F := Ideal)) V (Proc.devRef .tc main_arg10) = V (Proc.devRef .tc main_arg10) := by
  after_results
  all_goals rfl

set_option maxHeartbeats 4000000 in
theorem L1b_mean : after (opsL1b (F := Ideal)) V (Proc.devRef .tc main_v47) = refMean (V (Proc.devRef .tc main_v44)) := by
  after_results_simp
  try simp only [ofBuf_toBuf]
  rfl
set_option maxHeartbeats 4000000 in
theorem L1b_var : after (opsL1b (F := Ideal)) V (Proc.devRef .tc main_v48) = refVar (V (Proc.devRef .tc main_v44)) := by
  after_results_simp
  try simp only [ofBuf_toBuf]
  rfl
set_option maxHeartbeats 4000000 in
theorem L1b_main_v44 : after (opsL1b (F := Ideal)) V (Proc.devRef .tc main_v44) = V (Proc.devRef .tc main_v44) := by
  after_results_simp
  all_goals rfl
set_option maxHeartbeats 4000000 in
theorem L1b_main_arg9 : after (opsL1b (F := Ideal)) V (Proc.devRef .tc main_arg9) = V (Proc.devRef .tc main_arg9) := by
  after_results_simp
  all_goals rfl
set_option maxHeartbeats 4000000 in
theorem L1b_main_arg10 : after (opsL1b (F := Ideal)) V (Proc.devRef .tc main_arg10) = V (Proc.devRef .tc main_arg10) := by
  after_results_simp
  all_goals rfl

set_option maxHeartbeats 4000000 in
theorem L1c_out : after (opsL1c (F := Ideal)) V (Proc.devRef .tc main_v64)
    = refNorm (V (Proc.devRef .tc main_v44)) (V (Proc.devRef .tc main_v47)) (V (Proc.devRef .tc main_v48)) (V (Proc.devRef .tc main_arg9)) (V (Proc.devRef .tc main_arg10)) := by
  after_results_simp
  try simp only [ofBuf_toBuf]
  rfl

/-! ## Layer 2's three stretches -/

set_option maxHeartbeats 2000000 in
theorem L2a_y : after (opsL2a (F := Ideal)) V (Proc.devRef .tc main_v68)
    = addf (Host.dotGeneral (φ₁ := .f32) (φ₂ := .f32) dot_S8192x2048_S2048x2048_S8192x2048_1_0_0_1_n_n none (V (Proc.devRef .tc main_v64) : FVec Ideal S8192x2048 .f32) (V (Proc.devRef .tc main_arg11) : FVec Ideal S2048x2048 .f32)) (rows (V (Proc.devRef .tc main_arg12))) := by
  after_results
  all_goals rfl
theorem L2a_arg13 : after (opsL2a (F := Ideal)) V (Proc.devRef .tc main_arg13) = V (Proc.devRef .tc main_arg13) := by
  after_results
  all_goals rfl
theorem L2a_arg14 : after (opsL2a (F := Ideal)) V (Proc.devRef .tc main_arg14) = V (Proc.devRef .tc main_arg14) := by
  after_results
  all_goals rfl

set_option maxHeartbeats 4000000 in
theorem L2b_mean : after (opsL2b (F := Ideal)) V (Proc.devRef .tc main_v71) = refMean (V (Proc.devRef .tc main_v68)) := by
  after_results_simp
  try simp only [ofBuf_toBuf]
  rfl
set_option maxHeartbeats 4000000 in
theorem L2b_var : after (opsL2b (F := Ideal)) V (Proc.devRef .tc main_v72) = refVar (V (Proc.devRef .tc main_v68)) := by
  after_results_simp
  try simp only [ofBuf_toBuf]
  rfl
set_option maxHeartbeats 4000000 in
theorem L2b_main_v68 : after (opsL2b (F := Ideal)) V (Proc.devRef .tc main_v68) = V (Proc.devRef .tc main_v68) := by
  after_results_simp
  all_goals rfl
set_option maxHeartbeats 4000000 in
theorem L2b_main_arg13 : after (opsL2b (F := Ideal)) V (Proc.devRef .tc main_arg13) = V (Proc.devRef .tc main_arg13) := by
  after_results_simp
  all_goals rfl
set_option maxHeartbeats 4000000 in
theorem L2b_main_arg14 : after (opsL2b (F := Ideal)) V (Proc.devRef .tc main_arg14) = V (Proc.devRef .tc main_arg14) := by
  after_results_simp
  all_goals rfl

set_option maxHeartbeats 4000000 in
theorem L2c_out : after (opsL2c (F := Ideal)) V (Proc.devRef .tc main_v88)
    = refNorm (V (Proc.devRef .tc main_v68)) (V (Proc.devRef .tc main_v71)) (V (Proc.devRef .tc main_v72)) (V (Proc.devRef .tc main_arg13)) (V (Proc.devRef .tc main_arg14)) := by
  after_results_simp
  try simp only [ofBuf_toBuf]
  rfl

/-! ## Layer 3's three stretches -/

set_option maxHeartbeats 2000000 in
theorem L3a_y : after (opsL3a (F := Ideal)) V (Proc.devRef .tc main_v92)
    = addf (Host.dotGeneral (φ₁ := .f32) (φ₂ := .f32) dot_S8192x2048_S2048x2048_S8192x2048_1_0_0_1_n_n none (V (Proc.devRef .tc main_v88) : FVec Ideal S8192x2048 .f32) (V (Proc.devRef .tc main_arg15) : FVec Ideal S2048x2048 .f32)) (rows (V (Proc.devRef .tc main_arg16))) := by
  after_results
  all_goals rfl
theorem L3a_arg17 : after (opsL3a (F := Ideal)) V (Proc.devRef .tc main_arg17) = V (Proc.devRef .tc main_arg17) := by
  after_results
  all_goals rfl
theorem L3a_arg18 : after (opsL3a (F := Ideal)) V (Proc.devRef .tc main_arg18) = V (Proc.devRef .tc main_arg18) := by
  after_results
  all_goals rfl

set_option maxHeartbeats 4000000 in
theorem L3b_mean : after (opsL3b (F := Ideal)) V (Proc.devRef .tc main_v95) = refMean (V (Proc.devRef .tc main_v92)) := by
  after_results_simp
  try simp only [ofBuf_toBuf]
  rfl
set_option maxHeartbeats 4000000 in
theorem L3b_var : after (opsL3b (F := Ideal)) V (Proc.devRef .tc main_v96) = refVar (V (Proc.devRef .tc main_v92)) := by
  after_results_simp
  try simp only [ofBuf_toBuf]
  rfl
set_option maxHeartbeats 4000000 in
theorem L3b_main_v92 : after (opsL3b (F := Ideal)) V (Proc.devRef .tc main_v92) = V (Proc.devRef .tc main_v92) := by
  after_results_simp
  all_goals rfl
set_option maxHeartbeats 4000000 in
theorem L3b_main_arg17 : after (opsL3b (F := Ideal)) V (Proc.devRef .tc main_arg17) = V (Proc.devRef .tc main_arg17) := by
  after_results_simp
  all_goals rfl
set_option maxHeartbeats 4000000 in
theorem L3b_main_arg18 : after (opsL3b (F := Ideal)) V (Proc.devRef .tc main_arg18) = V (Proc.devRef .tc main_arg18) := by
  after_results_simp
  all_goals rfl

set_option maxHeartbeats 4000000 in
theorem L3c_out : after (opsL3c (F := Ideal)) V (Proc.devRef .tc main_v112)
    = refNorm (V (Proc.devRef .tc main_v92)) (V (Proc.devRef .tc main_v95)) (V (Proc.devRef .tc main_v96)) (V (Proc.devRef .tc main_arg17)) (V (Proc.devRef .tc main_arg18)) := by
  after_results_simp
  try simp only [ofBuf_toBuf]
  rfl

/-! ## One layer entry by entry -/

/-- One layer as the reference computes it: batch normalisation BY CENTRING of the affine layer, the programs' own words
    for 8192 and ε. -/
def layerC {K : ℕ} (x : Fin 8192 → Fin K → EReal) (w : Fin K → Fin 2048 → EReal) (b g be : Fin 2048 → EReal) :
    Fin 8192 → Fin 2048 → EReal :=
  bnReluCentred nE epsE (affine x w b) g be

theorem splat_at {α : Type} {T : Shape} (h : S_.BroadcastsInDim T ![]) (x : S_.Idx → α) (i : T.Idx) :
    broadcastInDim T ![] h x i = x ix0 :=
  broadcastInDim_apply _ h x i ix0 (fun a => a.elim0)

theorem rows_apply (v : FVec Ideal S2048 .f32) (r : Fin 8192) (j : Fin 2048) : rows v (ix2 r j) = v (ix1 j) := by
  unfold rows; exact HostColumn.row_apply v _ _ r j

theorem lift_apply (v : FVec Ideal S2048 .f32) (j : Fin 2048) :
    broadcastInDim S1x2048 ![1] bcast_S2048_S1x2048_1 v (ix2 (0 : Fin 1) j) = v (ix1 j) :=
  broadcastInDim_apply _ _ v (ix2 (0 : Fin 1) j) (ix1 j) fun a => match a with
    | ⟨0, _⟩ => by show j.val = if (2048 : ℕ) = 1 then 0 else j.val; rw [if_neg (by decide)]

theorem down_apply (v : FVec Ideal S1x2048 .f32) (r : Fin 8192) (j : Fin 2048) :
    broadcastInDim S8192x2048 ![0, 1] bcast_S1x2048_S8192x2048_0_1 v (ix2 r j) = v (ix2 (0 : Fin 1) j) :=
  broadcastInDim_apply _ _ v (ix2 r j) (ix2 (0 : Fin 1) j) fun a => match a with
    | ⟨0, _⟩ => rfl
    | ⟨1, _⟩ => by show j.val = if (2048 : ℕ) = 1 then 0 else j.val; rw [if_neg (by decide)]

theorem hred : (⟨2, ![8192, 2048]⟩ : Shape).Reduces [0] ⟨1, ![2048]⟩ := by decide

/-- The host's sum down the rows from the zero word, at column `j`. -/
theorem colsum_apply (y : FVec Ideal S8192x2048 .f32) (j : Fin 2048) :
    Host.reduceAdd y (constant (F := Ideal) S_ .f32 0x00000000#32) reducesTo_S8192x2048_S2048_d0 h_S_ (ix1 j)
      = ∑ r : Fin 8192, y (ix2 r j) := by
  rw [hostRowsSum_apply y _ reducesTo_S8192x2048_S2048_d0 hred h_S_ j]
  show Ideal.ofBits .f32 0x00000000#32 + _ = _
  rw [Ideal.ofBits_zero_f32, zero_add]

theorem refMean_apply (y : FVec Ideal S8192x2048 .f32) (j : Fin 2048) :
    refMean y (ix1 j) = Ideal.div (∑ r : Fin 8192, y (ix2 r j)) nE := by
  unfold refMean
  show FloatOps.hostDivf _ _ = _
  rw [Ideal.hostDivf_def, splat_at, colsum_apply]
  rfl

theorem refDev_apply (y : FVec Ideal S8192x2048 .f32) (r : Fin 8192) (j : Fin 2048) :
    refDev y (ix2 r j) = y (ix2 r j) - Ideal.div (∑ r' : Fin 8192, y (ix2 r' j)) nE := by
  unfold refDev
  rw [subf_apply, down_apply]
  show _ - FloatOps.hostDivf _ _ = _
  rw [Ideal.hostDivf_def, lift_apply, splat_at, colsum_apply]
  rfl

/-- The divisor `8192 − 0` is 8192. -/
theorem refDivisor_eq : refDivisor ix0 = nE := by
  show Ideal.ofBits .f32 0x46000000#32 - ((((0#32 : BitVec 32).toInt : ℝ)) : EReal) = nE
  rw [show ((0#32 : BitVec 32).toInt : ℝ) = 0 by simp, EReal.coe_zero, sub_zero]

theorem refVar_apply (y : FVec Ideal S8192x2048 .f32) (j : Fin 2048) :
    refVar y (ix1 j) = Ideal.div (∑ r : Fin 8192, refDev y (ix2 r j) * refDev y (ix2 r j)) nE := by
  unfold refVar
  rw [select_apply, splat_at, splat_at]
  have hc : cmpf .ogt refDivisor (constant (F := Ideal) S_ .f32 0x00000000#32) ix0 = 1#1 := by
    show Ideal.cmp .ogt (refDivisor ix0) (Ideal.ofBits .f32 0x00000000#32) = 1#1
    rw [refDivisor_eq, nE_eq, Ideal.ofBits_zero_f32]
    simp [Ideal.cmp]
  rw [hc, select_one]
  show FloatOps.hostDivf _ _ = _
  rw [Ideal.hostDivf_def, splat_at, refDivisor_eq, colsum_apply]
  rfl

theorem rsqrtRow_apply (var : FVec Ideal S2048 .f32) (j : Fin 2048) :
    Host.rsqrt (addf var (broadcastInDim S2048 ![] bcast_S_S2048 (constant (F := Ideal) S_ .f32 0x3727C5AC#32))) (ix1 j)
      = Ideal.rsqrt (var (ix1 j) + epsE) := by
  show FloatOps.hostUnary .rsqrt (FloatOps.addf _ _) = _
  rw [Ideal.hostUnary_rsqrt_def, Ideal.addf_def, splat_at]
  rfl

/-- ONE LAYER at row `r`, column `j`. -/
theorem layer_apply {K : ℕ} (d : DotDims ⟨2, ![8192, K]⟩ ⟨2, ![K, 2048]⟩ ⟨2, ![8192, 2048]⟩) (hd : RowsCols d)
    (x : FVec Ideal ⟨2, ![8192, K]⟩ .f32) (w : FVec Ideal ⟨2, ![K, 2048]⟩ .f32) (b g be : FVec Ideal S2048 .f32)
    (r : Fin 8192) (j : Fin 2048) :
    refNorm (addf (Host.dotGeneral d none x w) (rows b)) (refMean (addf (Host.dotGeneral d none x w) (rows b)))
        (refVar (addf (Host.dotGeneral d none x w) (rows b))) g be (ix2 r j)
      = layerC (mat x) (mat w) (vec b) (vec g) (vec be) r j := by
  have hY : ∀ (r' : Fin 8192) (j' : Fin 2048),
      addf (Host.dotGeneral d none x w) (rows b) (ix2 r' j') = affine (mat x) (mat w) (vec b) r' j' := fun r' j' => by
    rw [addf_apply, dotGeneral_apply hd, rows_apply]
    rfl
  unfold refNorm
  rw [maximumf_apply, addf_apply, mulf_apply, mulf_apply, subf_apply, rows_apply, rows_apply, rows_apply, rows_apply,
    splat_at, rsqrtRow_apply, refMean_apply, refVar_apply]
  simp only [refDev_apply, hY]
  show max _ (Ideal.ofBits .f32 0x00000000#32) = _
  rw [Ideal.ofBits_zero_f32]
  rfl

end Cert.ReferenceIdeal.RefLayer

end
-- ==== Proof.RefValue.lean ====
/-
  The idealized reference's result, entry by entry, as four nested layers of the first activation.

  The line is read a stretch at a time: the gathers and the aggregation `self + (self + neighbour sum)`; then per layer
  the product plus bias, the column means and variances, and the normalised, scaled, shifted, rectified array; last the
  transposition. With `A₀` the first activation and `A₁ … A₄` each the batch normalisation by centring of the affine layer
  over the one before, entry `(a, r)` of the 2048 × 8192 result is `A₄ r a`. The arguments are written by no operation.
-/
import proofs.«152490_j70686571758165_2_alg».proof.Proof.RefLayer

set_option maxRecDepth 16384

noncomputable section

namespace Cert.ReferenceIdeal.RefLayer

open Cert.ReferenceIdeal Cert.ReferenceIdeal.Gen Cert.ReferenceIdeal.RefRun
open Idealize.ShloMosaic Idealize.ShloMosaic.TcCoe Idealize.SL.Sem Idealize.ShloMosaic.StableHlo Idealize.ShloMosaic.ValueIdx
open Cert.Layer Cert.LibBatchNormMoments Cert.Dense Cert.HostLine

/-! ## The first stretch -/

/-- The nodes' own embedding rows (negative indices wrapped, then the gather of whole rows). -/
def rSelf (a0 : (⟨S8192, .i32⟩ : BufTy).Contents (Elt Ideal)) (a2 : FVec Ideal S4096x4096 .f32) : FVec Ideal S8192x4096 .f32 :=
  Host.gather gather_S4096x4096_S8192x1_S8192x4096_1_0_n_n_0_1_14096 a2
    (broadcastInDim S8192x1 ![0] bcast_S8192_S8192x1_0
      (select (cmpi .slt a0 (broadcastInDim S8192 ![] bcast_S_S8192 (constantI S_ 32 0#32)))
        (addi a0 (broadcastInDim S8192 ![] bcast_S_S8192 (constantI S_ 32 4096#32))) a0))

/-- The sum of the five sampled neighbours' embedding rows. -/
def rNbr (a1 : (⟨S8192x5, .i32⟩ : BufTy).Contents (Elt Ideal)) (a2 : FVec Ideal S4096x4096 .f32) : FVec Ideal S8192x4096 .f32 :=
  Host.reduceAdd (Host.gather gather_S4096x4096_S8192x5x1_S8192x5x4096_2_0_n_n_0_2_14096 a2
      (broadcastInDim S8192x5x1 ![0, 1] bcast_S8192x5_S8192x5x1_0_1
        (select (cmpi .slt a1 (broadcastInDim S8192x5 ![] bcast_S_S8192x5 (constantI S_ 32 0#32)))
          (addi a1 (broadcastInDim S8192x5 ![] bcast_S_S8192x5 (constantI S_ 32 4096#32))) a1)))
    (constant (F := Ideal) S_ .f32 0x00000000#32) reducesTo_S8192x5x4096_S8192x4096_d1 h_S_

/-- The first activation: `self + (self + neighbour sum)`. -/
def rAct0 (a0 : (⟨S8192, .i32⟩ : BufTy).Contents (Elt Ideal)) (a1 : (⟨S8192x5, .i32⟩ : BufTy).Contents (Elt Ideal))
    (a2 : FVec Ideal S4096x4096 .f32) : FVec Ideal S8192x4096 .f32 :=
  addf (rSelf a0 a2) (addf (rSelf a0 a2) (rNbr a1 a2))

variable (V : Valuation τ sig (Elt Ideal))

set_option maxHeartbeats 4000000 in
theorem pre_x : after (opsPre (F := Ideal)) V (Proc.devRef .tc main_v16)
    = rAct0 (V (Proc.devRef .tc main_arg0)) (V (Proc.devRef .tc main_arg1)) (V (Proc.devRef .tc main_arg2)) := by
  after_results_simp
  all_goals rfl

/-! ## The arguments are written by no operation -/
set_option maxHeartbeats 4000000 in
theorem opsPre_keeps3 : after (opsPre (F := Ideal)) V (Proc.devRef .tc main_arg3) = V (Proc.devRef .tc main_arg3) := by
  after_results_simp
  all_goals rfl
set_option maxHeartbeats 4000000 in
theorem opsPre_keeps4 : after (opsPre (F := Ideal)) V (Proc.devRef .tc main_arg4) = V (Proc.devRef .tc main_arg4) := by
  after_results_simp
  all_goals rfl
set_option maxHeartbeats 4000000 in
theorem opsPre_keeps5 : after (opsPre (F := Ideal)) V (Proc.devRef .tc main_arg5) = V (Proc.devRef .tc main_arg5) := by
  after_results_simp
  all_goals rfl
set_option maxHeartbeats 4000000 in
theorem opsPre_keeps6 : after (opsPre (F := Ideal)) V (Proc.devRef .tc main_arg6) = V (Proc.devRef .tc main_arg6) := by
  after_results_simp
  all_goals rfl
set_option maxHeartbeats 4000000 in
theorem opsPre_keeps7 : after (opsPre (F := Ideal)) V (Proc.devRef .tc main_arg7) = V (Proc.devRef .tc main_arg7) := by
  after_results_simp
  all_goals rfl
set_option maxHeartbeats 4000000 in
theorem opsPre_keeps8 : after (opsPre (F := Ideal)) V (Proc.devRef .tc main_arg8) = V (Proc.devRef .tc main_arg8) := by
  after_results_simp
  all_goals rfl
set_option maxHeartbeats 4000000 in
theorem opsPre_keeps9 : after (opsPre (F := Ideal)) V (Proc.devRef .tc main_arg9) = V (Proc.devRef .tc main_arg9) := by
  after_results_simp
  all_goals rfl
set_option maxHeartbeats 4000000 in
theorem opsPre_keeps10 : after (opsPre (F := Ideal)) V (Proc.devRef .tc main_arg10) = V (Proc.devRef .tc main_arg10) := by
  after_results_simp
  all_goals rfl
set_option maxHeartbeats 4000000 in
theorem opsPre_keeps11 : after (opsPre (F := Ideal)) V (Proc.devRef .tc main_arg11) = V (Proc.devRef .tc main_arg11) := by
  after_results_simp
  all_goals rfl
set_option maxHeartbeats 4000000 in
theorem opsPre_keeps12 : after (opsPre (F := Ideal)) V (Proc.devRef .tc main_arg12) = V (Proc.devRef .tc main_arg12) := by
  after_results_simp
  all_goals rfl
set_option maxHeartbeats 4000000 in
theorem opsPre_keeps13 : after (opsPre (F := Ideal)) V (Proc.devRef .tc main_arg13) = V (Proc.devRef .tc main_arg13) := by
  after_results_simp
  all_goals rfl
set_option maxHeartbeats 4000000 in
theorem opsPre_keeps14 : after (opsPre (F := Ideal)) V (Proc.devRef .tc main_arg14) = V (Proc.devRef .tc main_arg14) := by
  after_results_simp
  all_goals rfl
set_option maxHeartbeats 4000000 in
theorem opsPre_keeps15 : after (opsPre (F := Ideal)) V (Proc.devRef .tc main_arg15) = V (Proc.devRef .tc main_arg15) := by
  after_results_simp
  all_goals rfl
set_option maxHeartbeats 4000000 in
theorem opsPre_keeps16 : after (opsPre (F := Ideal)) V (Proc.devRef .tc main_arg16) = V (Proc.devRef .tc main_arg16) := by
  after_results_simp
  all_goals rfl
set_option maxHeartbeats 4000000 in
theorem opsPre_keeps17 : after (opsPre (F := Ideal)) V (Proc.devRef .tc main_arg17) = V (Proc.devRef .tc main_arg17) := by
  after_results_simp
  all_goals rfl
set_option maxHeartbeats 4000000 in
theorem opsPre_keeps18 : after (opsPre (F := Ideal)) V (Proc.devRef .tc main_arg18) = V (Proc.devRef .tc main_arg18) := by
  after_results_simp
  all_goals rfl
set_option maxHeartbeats 4000000 in
theorem opsL0a_keeps5 : after (opsL0a (F := Ideal)) V (Proc.devRef .tc main_arg5) = V (Proc.devRef .tc main_arg5) := by
  after_results_simp
  all_goals rfl
set_option maxHeartbeats 4000000 in
theorem opsL0a_keeps6 : after (opsL0a (F := Ideal)) V (Proc.devRef .tc main_arg6) = V (Proc.devRef .tc main_arg6) := by
  after_results_simp
  all_goals rfl
set_option maxHeartbeats 4000000 in
theorem opsL0a_keeps7 : after (opsL0a (F := Ideal)) V (Proc.devRef .tc main_arg7) = V (Proc.devRef .tc main_arg7) := by
  after_results_simp
  all_goals rfl
set_option maxHeartbeats 4000000 in
theorem opsL0a_keeps8 : after (opsL0a (F := Ideal)) V (Proc.devRef .tc main_arg8) = V (Proc.devRef .tc main_arg8) := by
  after_results_simp
  all_goals rfl
set_option maxHeartbeats 4000000 in
theorem opsL0a_keeps9 : after (opsL0a (F := Ideal)) V (Proc.devRef .tc main_arg9) = V (Proc.devRef .tc main_arg9) := by
  after_results_simp
  all_goals rfl
set_option maxHeartbeats 4000000 in
theorem opsL0a_keeps10 : after (opsL0a (F := Ideal)) V (Proc.devRef .tc main_arg10) = V (Proc.devRef .tc main_arg10) := by
  after_results_simp
  all_goals rfl
set_option maxHeartbeats 4000000 in
theorem opsL0a_keeps11 : after (opsL0a (F := Ideal)) V (Proc.devRef .tc main_arg11) = V (Proc.devRef .tc main_arg11) := by
  after_results_simp
  all_goals rfl
set_option maxHeartbeats 4000000 in
theorem opsL0a_keeps12 : after (opsL0a (F := Ideal)) V (Proc.devRef .tc main_arg12) = V (Proc.devRef .tc main_arg12) := by
  after_results_simp
  all_goals rfl
set_option maxHeartbeats 4000000 in
theorem opsL0a_keeps13 : after (opsL0a (F := Ideal)) V (Proc.devRef .tc main_arg13) = V (Proc.devRef .tc main_arg13) := by
  after_results_simp
  all_goals rfl
set_option maxHeartbeats 4000000 in
theorem opsL0a_keeps14 : after (opsL0a (F := Ideal)) V (Proc.devRef .tc main_arg14) = V (Proc.devRef .tc main_arg14) := by
  after_results_simp
  all_goals rfl
set_option maxHeartbeats 4000000 in
theorem opsL0a_keeps15 : after (opsL0a (F := Ideal)) V (Proc.devRef .tc main_arg15) = V (Proc.devRef .tc main_arg15) := by
  after_results_simp
  all_goals rfl
set_option maxHeartbeats 4000000 in
theorem opsL0a_keeps16 : after (opsL0a (F := Ideal)) V (Proc.devRef .tc main_arg16) = V (Proc.devRef .tc main_arg16) := by
  after_results_simp
  all_goals rfl
set_option maxHeartbeats 4000000 in
theorem opsL0a_keeps17 : after (opsL0a (F := Ideal)) V (Proc.devRef .tc main_arg17) = V (Proc.devRef .tc main_arg17) := by
  after_results_simp
  all_goals rfl
set_option maxHeartbeats 4000000 in
theorem opsL0a_keeps18 : after (opsL0a (F := Ideal)) V (Proc.devRef .tc main_arg18) = V (Proc.devRef .tc main_arg18) := by
  after_results_simp
  all_goals rfl
set_option maxHeartbeats 4000000 in
theorem opsL0b_keeps5 : after (opsL0b (F := Ideal)) V (Proc.devRef .tc main_arg5) = V (Proc.devRef .tc main_arg5) := by
  after_results_simp
  all_goals rfl
set_option maxHeartbeats 4000000 in
theorem opsL0b_keeps6 : after (opsL0b (F := Ideal)) V (Proc.devRef .tc main_arg6) = V (Proc.devRef .tc main_arg6) := by
  after_results_simp
  all_goals rfl
set_option maxHeartbeats 4000000 in
theorem opsL0b_keeps7 : after (opsL0b (F := Ideal)) V (Proc.devRef .tc main_arg7) = V (Proc.devRef .tc main_arg7) := by
  after_results_simp
  all_goals rfl
set_option maxHeartbeats 4000000 in
theorem opsL0b_keeps8 : after (opsL0b (F := Ideal)) V (Proc.devRef .tc main_arg8) = V (Proc.devRef .tc main_arg8) := by
  after_results_simp
  all_goals rfl
set_option maxHeartbeats 4000000 in
theorem opsL0b_keeps9 : after (opsL0b (F := Ideal)) V (Proc.devRef .tc main_arg9) = V (Proc.devRef .tc main_arg9) := by
  after_results_simp
  all_goals rfl
set_option maxHeartbeats 4000000 in
theorem opsL0b_keeps10 : after (opsL0b (F := Ideal)) V (Proc.devRef .tc main_arg10) = V (Proc.devRef .tc main_arg10) := by
  after_results_simp
  all_goals rfl
set_option maxHeartbeats 4000000 in
theorem opsL0b_keeps11 : after (opsL0b (F := Ideal)) V (Proc.devRef .tc main_arg11) = V (Proc.devRef .tc main_arg11) := by
  after_results_simp
  all_goals rfl
set_option maxHeartbeats 4000000 in
theorem opsL0b_keeps12 : after (opsL0b (F := Ideal)) V (Proc.devRef .tc main_arg12) = V (Proc.devRef .tc main_arg12) := by
  after_results_simp
  all_goals rfl
set_option maxHeartbeats 4000000 in
theorem opsL0b_keeps13 : after (opsL0b (F := Ideal)) V (Proc.devRef .tc main_arg13) = V (Proc.devRef .tc main_arg13) := by
  after_results_simp
  all_goals rfl
set_option maxHeartbeats 4000000 in
theorem opsL0b_keeps14 : after (opsL0b (F := Ideal)) V (Proc.devRef .tc main_arg14) = V (Proc.devRef .tc main_arg14) := by
  after_results_simp
  all_goals rfl
set_option maxHeartbeats 4000000 in
theorem opsL0b_keeps15 : after (opsL0b (F := Ideal)) V (Proc.devRef .tc main_arg15) = V (Proc.devRef .tc main_arg15) := by
  after_results_simp
  all_goals rfl
set_option maxHeartbeats 4000000 in
theorem opsL0b_keeps16 : after (opsL0b (F := Ideal)) V (Proc.devRef .tc main_arg16) = V (Proc.devRef .tc main_arg16) := by
  after_results_simp
  all_goals rfl
set_option maxHeartbeats 4000000 in
theorem opsL0b_keeps17 : after (opsL0b (F := Ideal)) V (Proc.devRef .tc main_arg17) = V (Proc.devRef .tc main_arg17) := by
  after_results_simp
  all_goals rfl
set_option maxHeartbeats 4000000 in
theorem opsL0b_keeps18 : after (opsL0b (F := Ideal)) V (Proc.devRef .tc main_arg18) = V (Proc.devRef .tc main_arg18) := by
  after_results_simp
  all_goals rfl
set_option maxHeartbeats 4000000 in
theorem opsL0c_keeps7 : after (opsL0c (F := Ideal)) V (Proc.devRef .tc main_arg7) = V (Proc.devRef .tc main_arg7) := by
  after_results_simp
  all_goals rfl
set_option maxHeartbeats 4000000 in
theorem opsL0c_keeps8 : after (opsL0c (F := Ideal)) V (Proc.devRef .tc main_arg8) = V (Proc.devRef .tc main_arg8) := by
  after_results_simp
  all_goals rfl
set_option maxHeartbeats 4000000 in
theorem opsL0c_keeps9 : after (opsL0c (F := Ideal)) V (Proc.devRef .tc main_arg9) = V (Proc.devRef .tc main_arg9) := by
  after_results_simp
  all_goals rfl
set_option maxHeartbeats 4000000 in
theorem opsL0c_keeps10 : after (opsL0c (F := Ideal)) V (Proc.devRef .tc main_arg10) = V (Proc.devRef .tc main_arg10) := by
  after_results_simp
  all_goals rfl
set_option maxHeartbeats 4000000 in
theorem opsL0c_keeps11 : after (opsL0c (F := Ideal)) V (Proc.devRef .tc main_arg11) = V (Proc.devRef .tc main_arg11) := by
  after_results_simp
  all_goals rfl
set_option maxHeartbeats 4000000 in
theorem opsL0c_keeps12 : after (opsL0c (F := Ideal)) V (Proc.devRef .tc main_arg12) = V (Proc.devRef .tc main_arg12) := by
  after_results_simp
  all_goals rfl
set_option maxHeartbeats 4000000 in
theorem opsL0c_keeps13 : after (opsL0c (F := Ideal)) V (Proc.devRef .tc main_arg13) = V (Proc.devRef .tc main_arg13) := by
  after_results_simp
  all_goals rfl
set_option maxHeartbeats 4000000 in
theorem opsL0c_keeps14 : after (opsL0c (F := Ideal)) V (Proc.devRef .tc main_arg14) = V (Proc.devRef .tc main_arg14) := by
  after_results_simp
  all_goals rfl
set_option maxHeartbeats 4000000 in
theorem opsL0c_keeps15 : after (opsL0c (F := Ideal)) V (Proc.devRef .tc main_arg15) = V (Proc.devRef .tc main_arg15) := by
  after_results_simp
  all_goals rfl
set_option maxHeartbeats 4000000 in
theorem opsL0c_keeps16 : after (opsL0c (F := Ideal)) V (Proc.devRef .tc main_arg16) = V (Proc.devRef .tc main_arg16) := by
  after_results_simp
  all_goals rfl
set_option maxHeartbeats 4000000 in
theorem opsL0c_keeps17 : after (opsL0c (F := Ideal)) V (Proc.devRef .tc main_arg17) = V (Proc.devRef .tc main_arg17) := by
  after_results_simp
  all_goals rfl
set_option maxHeartbeats 4000000 in
theorem opsL0c_keeps18 : after (opsL0c (F := Ideal)) V (Proc.devRef .tc main_arg18) = V (Proc.devRef .tc main_arg18) := by
  after_results_simp
  all_goals rfl
set_option maxHeartbeats 4000000 in
theorem opsL1a_keeps9 : after (opsL1a (F := Ideal)) V (Proc.devRef .tc main_arg9) = V (Proc.devRef .tc main_arg9) := by
  after_results_simp
  all_goals rfl
set_option maxHeartbeats 4000000 in
theorem opsL1a_keeps10 : after (opsL1a (F := Ideal)) V (Proc.devRef .tc main_arg10) = V (Proc.devRef .tc main_arg10) := by
  after_results_simp
  all_goals rfl
set_option maxHeartbeats 4000000 in
theorem opsL1a_keeps11 : after (opsL1a (F := Ideal)) V (Proc.devRef .tc main_arg11) = V (Proc.devRef .tc main_arg11) := by
  after_results_simp
  all_goals rfl
set_option maxHeartbeats 4000000 in
theorem opsL1a_keeps12 : after (opsL1a (F := Ideal)) V (Proc.devRef .tc main_arg12) = V (Proc.devRef .tc main_arg12) := by
  after_results_simp
  all_goals rfl
set_option maxHeartbeats 4000000 in
theorem opsL1a_keeps13 : after (opsL1a (F := Ideal)) V (Proc.devRef .tc main_arg13) = V (Proc.devRef .tc main_arg13) := by
  after_results_simp
  all_goals rfl
set_option maxHeartbeats 4000000 in
theorem opsL1a_keeps14 : after (opsL1a (F := Ideal)) V (Proc.devRef .tc main_arg14) = V (Proc.devRef .tc main_arg14) := by
  after_results_simp
  all_goals rfl
set_option maxHeartbeats 4000000 in
theorem opsL1a_keeps15 : after (opsL1a (F := Ideal)) V (Proc.devRef .tc main_arg15) = V (Proc.devRef .tc main_arg15) := by
  after_results_simp
  all_goals rfl
set_option maxHeartbeats 4000000 in
theorem opsL1a_keeps16 : after (opsL1a (F := Ideal)) V (Proc.devRef .tc main_arg16) = V (Proc.devRef .tc main_arg16) := by
  after_results_simp
  all_goals rfl
set_option maxHeartbeats 4000000 in
theorem opsL1a_keeps17 : after (opsL1a (F := Ideal)) V (Proc.devRef .tc main_arg17) = V (Proc.devRef .tc main_arg17) := by
  after_results_simp
  all_goals rfl
set_option maxHeartbeats 4000000 in
theorem opsL1a_keeps18 : after (opsL1a (F := Ideal)) V (Proc.devRef .tc main_arg18) = V (Proc.devRef .tc main_arg18) := by
  after_results_simp
  all_goals rfl
set_option maxHeartbeats 4000000 in
theorem opsL1b_keeps9 : after (opsL1b (F := Ideal)) V (Proc.devRef .tc main_arg9) = V (Proc.devRef .tc main_arg9) := by
  after_results_simp
  all_goals rfl
set_option maxHeartbeats 4000000 in
theorem opsL1b_keeps10 : after (opsL1b (F := Ideal)) V (Proc.devRef .tc main_arg10) = V (Proc.devRef .tc main_arg10) := by
  after_results_simp
  all_goals rfl
set_option maxHeartbeats 4000000 in
theorem opsL1b_keeps11 : after (opsL1b (F := Ideal)) V (Proc.devRef .tc main_arg11) = V (Proc.devRef .tc main_arg11) := by
  after_results_simp
  all_goals rfl
set_option maxHeartbeats 4000000 in
theorem opsL1b_keeps12 : after (opsL1b (F := Ideal)) V (Proc.devRef .tc main_arg12) = V (Proc.devRef .tc main_arg12) := by
  after_results_simp
  all_goals rfl
set_option maxHeartbeats 4000000 in
theorem opsL1b_keeps13 : after (opsL1b (F := Ideal)) V (Proc.devRef .tc main_arg13) = V (Proc.devRef .tc main_arg13) := by
  after_results_simp
  all_goals rfl
set_option maxHeartbeats 4000000 in
theorem opsL1b_keeps14 : after (opsL1b (F := Ideal)) V (Proc.devRef .tc main_arg14) = V (Proc.devRef .tc main_arg14) := by
  after_results_simp
  all_goals rfl
set_option maxHeartbeats 4000000 in
theorem opsL1b_keeps15 : after (opsL1b (F := Ideal)) V (Proc.devRef .tc main_arg15) = V (Proc.devRef .tc main_arg15) := by
  after_results_simp
  all_goals rfl
set_option maxHeartbeats 4000000 in
theorem opsL1b_keeps16 : after (opsL1b (F := Ideal)) V (Proc.devRef .tc main_arg16) = V (Proc.devRef .tc main_arg16) := by
  after_results_simp
  all_goals rfl
set_option maxHeartbeats 4000000 in
theorem opsL1b_keeps17 : after (opsL1b (F := Ideal)) V (Proc.devRef .tc main_arg17) = V (Proc.devRef .tc main_arg17) := by
  after_results_simp
  all_goals rfl
set_option maxHeartbeats 4000000 in
theorem opsL1b_keeps18 : after (opsL1b (F := Ideal)) V (Proc.devRef .tc main_arg18) = V (Proc.devRef .tc main_arg18) := by
  after_results_simp
  all_goals rfl
set_option maxHeartbeats 4000000 in
theorem opsL1c_keeps11 : after (opsL1c (F := Ideal)) V (Proc.devRef .tc main_arg11) = V (Proc.devRef .tc main_arg11) := by
  after_results_simp
  all_goals rfl
set_option maxHeartbeats 4000000 in
theorem opsL1c_keeps12 : after (opsL1c (F := Ideal)) V (Proc.devRef .tc main_arg12) = V (Proc.devRef .tc main_arg12) := by
  after_results_simp
  all_goals rfl
set_option maxHeartbeats 4000000 in
theorem opsL1c_keeps13 : after (opsL1c (F := Ideal)) V (Proc.devRef .tc main_arg13) = V (Proc.devRef .tc main_arg13) := by
  after_results_simp
  all_goals rfl
set_option maxHeartbeats 4000000 in
theorem opsL1c_keeps14 : after (opsL1c (F := Ideal)) V (Proc.devRef .tc main_arg14) = V (Proc.devRef .tc main_arg14) := by
  after_results_simp
  all_goals rfl
set_option maxHeartbeats 4000000 in
theorem opsL1c_keeps15 : after (opsL1c (F := Ideal)) V (Proc.devRef .tc main_arg15) = V (Proc.devRef .tc main_arg15) := by
  after_results_simp
  all_goals rfl
set_option maxHeartbeats 4000000 in
theorem opsL1c_keeps16 : after (opsL1c (F := Ideal)) V (Proc.devRef .tc main_arg16) = V (Proc.devRef .tc main_arg16) := by
  after_results_simp
  all_goals rfl
set_option maxHeartbeats 4000000 in
theorem opsL1c_keeps17 : after (opsL1c (F := Ideal)) V (Proc.devRef .tc main_arg17) = V (Proc.devRef .tc main_arg17) := by
  after_results_simp
  all_goals rfl
set_option maxHeartbeats 4000000 in
theorem opsL1c_keeps18 : after (opsL1c (F := Ideal)) V (Proc.devRef .tc main_arg18) = V (Proc.devRef .tc main_arg18) := by
  after_results_simp
  all_goals rfl
set_option maxHeartbeats 4000000 in
theorem opsL2a_keeps13 : after (opsL2a (F := Ideal)) V (Proc.devRef .tc main_arg13) = V (Proc.devRef .tc main_arg13) := by
  after_results_simp
  all_goals rfl
set_option maxHeartbeats 4000000 in
theorem opsL2a_keeps14 : after (opsL2a (F := Ideal)) V (Proc.devRef .tc main_arg14) = V (Proc.devRef .tc main_arg14) := by
  after_results_simp
  all_goals rfl
set_option maxHeartbeats 4000000 in
theorem opsL2a_keeps15 : after (opsL2a (F := Ideal)) V (Proc.devRef .tc main_arg15) = V (Proc.devRef .tc main_arg15) := by
  after_results_simp
  all_goals rfl
set_option maxHeartbeats 4000000 in
theorem opsL2a_keeps16 : after (opsL2a (F := Ideal)) V (Proc.devRef .tc main_arg16) = V (Proc.devRef .tc main_arg16) := by
  after_results_simp
  all_goals rfl
set_option maxHeartbeats 4000000 in
theorem opsL2a_keeps17 : after (opsL2a (F := Ideal)) V (Proc.devRef .tc main_arg17) = V (Proc.devRef .tc main_arg17) := by
  after_results_simp
  all_goals rfl
set_option maxHeartbeats 4000000 in
theorem opsL2a_keeps18 : after (opsL2a (F := Ideal)) V (Proc.devRef .tc main_arg18) = V (Proc.devRef .tc main_arg18) := by
  after_results_simp
  all_goals rfl
set_option maxHeartbeats 4000000 in
theorem opsL2b_keeps13 : after (opsL2b (F := Ideal)) V (Proc.devRef .tc main_arg13) = V (Proc.devRef .tc main_arg13) := by
  after_results_simp
  all_goals rfl
set_option maxHeartbeats 4000000 in
theorem opsL2b_keeps14 : after (opsL2b (F := Ideal)) V (Proc.devRef .tc main_arg14) = V (Proc.devRef .tc main_arg14) := by
  after_results_simp
  all_goals rfl
set_option maxHeartbeats 4000000 in
theorem opsL2b_keeps15 : after (opsL2b (F := Ideal)) V (Proc.devRef .tc main_arg15) = V (Proc.devRef .tc main_arg15) := by
  after_results_simp
  all_goals rfl
set_option maxHeartbeats 4000000 in
theorem opsL2b_keeps16 : after (opsL2b (F := Ideal)) V (Proc.devRef .tc main_arg16) = V (Proc.devRef .tc main_arg16) := by
  after_results_simp
  all_goals rfl
set_option maxHeartbeats 4000000 in
theorem opsL2b_keeps17 : after (opsL2b (F := Ideal)) V (Proc.devRef .tc main_arg17) = V (Proc.devRef .tc main_arg17) := by
  after_results_simp
  all_goals rfl
set_option maxHeartbeats 4000000 in
theorem opsL2b_keeps18 : after (opsL2b (F := Ideal)) V (Proc.devRef .tc main_arg18) = V (Proc.devRef .tc main_arg18) := by
  after_results_simp
  all_goals rfl
set_option maxHeartbeats 4000000 in
theorem opsL2c_keeps15 : after (opsL2c (F := Ideal)) V (Proc.devRef .tc main_arg15) = V (Proc.devRef .tc main_arg15) := by
  after_results_simp
  all_goals rfl
set_option maxHeartbeats 4000000 in
theorem opsL2c_keeps16 : after (opsL2c (F := Ideal)) V (Proc.devRef .tc main_arg16) = V (Proc.devRef .tc main_arg16) := by
  after_results_simp
  all_goals rfl
set_option maxHeartbeats 4000000 in
theorem opsL2c_keeps17 : after (opsL2c (F := Ideal)) V (Proc.devRef .tc main_arg17) = V (Proc.devRef .tc main_arg17) := by
  after_results_simp
  all_goals rfl
set_option maxHeartbeats 4000000 in
theorem opsL2c_keeps18 : after (opsL2c (F := Ideal)) V (Proc.devRef .tc main_arg18) = V (Proc.devRef .tc main_arg18) := by
  after_results_simp
  all_goals rfl
set_option maxHeartbeats 4000000 in
theorem opsL3a_keeps17 : after (opsL3a (F := Ideal)) V (Proc.devRef .tc main_arg17) = V (Proc.devRef .tc main_arg17) := by
  after_results_simp
  all_goals rfl
set_option maxHeartbeats 4000000 in
theorem opsL3a_keeps18 : after (opsL3a (F := Ideal)) V (Proc.devRef .tc main_arg18) = V (Proc.devRef .tc main_arg18) := by
  after_results_simp
  all_goals rfl
set_option maxHeartbeats 4000000 in
theorem opsL3b_keeps17 : after (opsL3b (F := Ideal)) V (Proc.devRef .tc main_arg17) = V (Proc.devRef .tc main_arg17) := by
  after_results_simp
  all_goals rfl
set_option maxHeartbeats 4000000 in
theorem opsL3b_keeps18 : after (opsL3b (F := Ideal)) V (Proc.devRef .tc main_arg18) = V (Proc.devRef .tc main_arg18) := by
  after_results_simp
  all_goals rfl

/-! ## The contents after each stretch -/

def U0 : Valuation τ sig (Elt Ideal) := V
def U1 : Valuation τ sig (Elt Ideal) := after (opsPre (F := Ideal)) (U0 V)
def U2 : Valuation τ sig (Elt Ideal) := after (opsL0a (F := Ideal)) (U1 V)
def U3 : Valuation τ sig (Elt Ideal) := after (opsL0b (F := Ideal)) (U2 V)
def U4 : Valuation τ sig (Elt Ideal) := after (opsL0c (F := Ideal)) (U3 V)
def U5 : Valuation τ sig (Elt Ideal) := after (opsL1a (F := Ideal)) (U4 V)
def U6 : Valuation τ sig (Elt Ideal) := after (opsL1b (F := Ideal)) (U5 V)
def U7 : Valuation τ sig (Elt Ideal) := after (opsL1c (F := Ideal)) (U6 V)
def U8 : Valuation τ sig (Elt Ideal) := after (opsL2a (F := Ideal)) (U7 V)
def U9 : Valuation τ sig (Elt Ideal) := after (opsL2b (F := Ideal)) (U8 V)
def U10 : Valuation τ sig (Elt Ideal) := after (opsL2c (F := Ideal)) (U9 V)
def U11 : Valuation τ sig (Elt Ideal) := after (opsL3a (F := Ideal)) (U10 V)
def U12 : Valuation τ sig (Elt Ideal) := after (opsL3b (F := Ideal)) (U11 V)
def U13 : Valuation τ sig (Elt Ideal) := after (opsL3c (F := Ideal)) (U12 V)
def U14 : Valuation τ sig (Elt Ideal) := after (opsT (F := Ideal)) (U13 V)

set_option maxHeartbeats 4000000 in
/-- The whole line is the stretches one after the other. -/
theorem after_ops : after (ops (F := Ideal)) V = U14 V := by
  unfold U14 U13 U12 U11 U10 U9 U8 U7 U6 U5 U4 U3 U2 U1 U0
  simp only [ops, StableHlo.after_append]

theorem U1_arg3 : U1 V (Proc.devRef .tc main_arg3) = V (Proc.devRef .tc main_arg3) :=
  (opsPre_keeps3 (U0 V)).trans rfl
theorem U1_arg4 : U1 V (Proc.devRef .tc main_arg4) = V (Proc.devRef .tc main_arg4) :=
  (opsPre_keeps4 (U0 V)).trans rfl
theorem U1_arg5 : U1 V (Proc.devRef .tc main_arg5) = V (Proc.devRef .tc main_arg5) :=
  (opsPre_keeps5 (U0 V)).trans rfl
theorem U2_arg5 : U2 V (Proc.devRef .tc main_arg5) = V (Proc.devRef .tc main_arg5) :=
  (opsL0a_keeps5 (U1 V)).trans (U1_arg5 V)
theorem U3_arg5 : U3 V (Proc.devRef .tc main_arg5) = V (Proc.devRef .tc main_arg5) :=
  (opsL0b_keeps5 (U2 V)).trans (U2_arg5 V)
theorem U1_arg6 : U1 V (Proc.devRef .tc main_arg6) = V (Proc.devRef .tc main_arg6) :=
  (opsPre_keeps6 (U0 V)).trans rfl
theorem U2_arg6 : U2 V (Proc.devRef .tc main_arg6) = V (Proc.devRef .tc main_arg6) :=
  (opsL0a_keeps6 (U1 V)).trans (U1_arg6 V)
theorem U3_arg6 : U3 V (Proc.devRef .tc main_arg6) = V (Proc.devRef .tc main_arg6) :=
  (opsL0b_keeps6 (U2 V)).trans (U2_arg6 V)
theorem U1_arg7 : U1 V (Proc.devRef .tc main_arg7) = V (Proc.devRef .tc main_arg7) :=
  (opsPre_keeps7 (U0 V)).trans rfl
theorem U2_arg7 : U2 V (Proc.devRef .tc main_arg7) = V (Proc.devRef .tc main_arg7) :=
  (opsL0a_keeps7 (U1 V)).trans (U1_arg7 V)
theorem U3_arg7 : U3 V (Proc.devRef .tc main_arg7) = V (Proc.devRef .tc main_arg7) :=
  (opsL0b_keeps7 (U2 V)).trans (U2_arg7 V)
theorem U4_arg7 : U4 V (Proc.devRef .tc main_arg7) = V (Proc.devRef .tc main_arg7) :=
  (opsL0c_keeps7 (U3 V)).trans (U3_arg7 V)
theorem U1_arg8 : U1 V (Proc.devRef .tc main_arg8) = V (Proc.devRef .tc main_arg8) :=
  (opsPre_keeps8 (U0 V)).trans rfl
theorem U2_arg8 : U2 V (Proc.devRef .tc main_arg8) = V (Proc.devRef .tc main_arg8) :=
  (opsL0a_keeps8 (U1 V)).trans (U1_arg8 V)
theorem U3_arg8 : U3 V (Proc.devRef .tc main_arg8) = V (Proc.devRef .tc main_arg8) :=
  (opsL0b_keeps8 (U2 V)).trans (U2_arg8 V)
theorem U4_arg8 : U4 V (Proc.devRef .tc main_arg8) = V (Proc.devRef .tc main_arg8) :=
  (opsL0c_keeps8 (U3 V)).trans (U3_arg8 V)
theorem U1_arg9 : U1 V (Proc.devRef .tc main_arg9) = V (Proc.devRef .tc main_arg9) :=
  (opsPre_keeps9 (U0 V)).trans rfl
theorem U2_arg9 : U2 V (Proc.devRef .tc main_arg9) = V (Proc.devRef .tc main_arg9) :=
  (opsL0a_keeps9 (U1 V)).trans (U1_arg9 V)
theorem U3_arg9 : U3 V (Proc.devRef .tc main_arg9) = V (Proc.devRef .tc main_arg9) :=
  (opsL0b_keeps9 (U2 V)).trans (U2_arg9 V)
theorem U4_arg9 : U4 V (Proc.devRef .tc main_arg9) = V (Proc.devRef .tc main_arg9) :=
  (opsL0c_keeps9 (U3 V)).trans (U3_arg9 V)
theorem U5_arg9 : U5 V (Proc.devRef .tc main_arg9) = V (Proc.devRef .tc main_arg9) :=
  (opsL1a_keeps9 (U4 V)).trans (U4_arg9 V)
theorem U6_arg9 : U6 V (Proc.devRef .tc main_arg9) = V (Proc.devRef .tc main_arg9) :=
  (opsL1b_keeps9 (U5 V)).trans (U5_arg9 V)
theorem U1_arg10 : U1 V (Proc.devRef .tc main_arg10) = V (Proc.devRef .tc main_arg10) :=
  (opsPre_keeps10 (U0 V)).trans rfl
theorem U2_arg10 : U2 V (Proc.devRef .tc main_arg10) = V (Proc.devRef .tc main_arg10) :=
  (opsL0a_keeps10 (U1 V)).trans (U1_arg10 V)
theorem U3_arg10 : U3 V (Proc.devRef .tc main_arg10) = V (Proc.devRef .tc main_arg10) :=
  (opsL0b_keeps10 (U2 V)).trans (U2_arg10 V)
theorem U4_arg10 : U4 V (Proc.devRef .tc main_arg10) = V (Proc.devRef .tc main_arg10) :=
  (opsL0c_keeps10 (U3 V)).trans (U3_arg10 V)
theorem U5_arg10 : U5 V (Proc.devRef .tc main_arg10) = V (Proc.devRef .tc main_arg10) :=
  (opsL1a_keeps10 (U4 V)).trans (U4_arg10 V)
theorem U6_arg10 : U6 V (Proc.devRef .tc main_arg10) = V (Proc.devRef .tc main_arg10) :=
  (opsL1b_keeps10 (U5 V)).trans (U5_arg10 V)
theorem U1_arg11 : U1 V (Proc.devRef .tc main_arg11) = V (Proc.devRef .tc main_arg11) :=
  (opsPre_keeps11 (U0 V)).trans rfl
theorem U2_arg11 : U2 V (Proc.devRef .tc main_arg11) = V (Proc.devRef .tc main_arg11) :=
  (opsL0a_keeps11 (U1 V)).trans (U1_arg11 V)
theorem U3_arg11 : U3 V (Proc.devRef .tc main_arg11) = V (Proc.devRef .tc main_arg11) :=
  (opsL0b_keeps11 (U2 V)).trans (U2_arg11 V)
theorem U4_arg11 : U4 V (Proc.devRef .tc main_arg11) = V (Proc.devRef .tc main_arg11) :=
  (opsL0c_keeps11 (U3 V)).trans (U3_arg11 V)
theorem U5_arg11 : U5 V (Proc.devRef .tc main_arg11) = V (Proc.devRef .tc main_arg11) :=
  (opsL1a_keeps11 (U4 V)).trans (U4_arg11 V)
theorem U6_arg11 : U6 V (Proc.devRef .tc main_arg11) = V (Proc.devRef .tc main_arg11) :=
  (opsL1b_keeps11 (U5 V)).trans (U5_arg11 V)
theorem U7_arg11 : U7 V (Proc.devRef .tc main_arg11) = V (Proc.devRef .tc main_arg11) :=
  (opsL1c_keeps11 (U6 V)).trans (U6_arg11 V)
theorem U1_arg12 : U1 V (Proc.devRef .tc main_arg12) = V (Proc.devRef .tc main_arg12) :=
  (opsPre_keeps12 (U0 V)).trans rfl
theorem U2_arg12 : U2 V (Proc.devRef .tc main_arg12) = V (Proc.devRef .tc main_arg12) :=
  (opsL0a_keeps12 (U1 V)).trans (U1_arg12 V)
theorem U3_arg12 : U3 V (Proc.devRef .tc main_arg12) = V (Proc.devRef .tc main_arg12) :=
  (opsL0b_keeps12 (U2 V)).trans (U2_arg12 V)
theorem U4_arg12 : U4 V (Proc.devRef .tc main_arg12) = V (Proc.devRef .tc main_arg12) :=
  (opsL0c_keeps12 (U3 V)).trans (U3_arg12 V)
theorem U5_arg12 : U5 V (Proc.devRef .tc main_arg12) = V (Proc.devRef .tc main_arg12) :=
  (opsL1a_keeps12 (U4 V)).trans (U4_arg12 V)
theorem U6_arg12 : U6 V (Proc.devRef .tc main_arg12) = V (Proc.devRef .tc main_arg12) :=
  (opsL1b_keeps12 (U5 V)).trans (U5_arg12 V)
theorem U7_arg12 : U7 V (Proc.devRef .tc main_arg12) = V (Proc.devRef .tc main_arg12) :=
  (opsL1c_keeps12 (U6 V)).trans (U6_arg12 V)
theorem U1_arg13 : U1 V (Proc.devRef .tc main_arg13) = V (Proc.devRef .tc main_arg13) :=
  (opsPre_keeps13 (U0 V)).trans rfl
theorem U2_arg13 : U2 V (Proc.devRef .tc main_arg13) = V (Proc.devRef .tc main_arg13) :=
  (opsL0a_keeps13 (U1 V)).trans (U1_arg13 V)
theorem U3_arg13 : U3 V (Proc.devRef .tc main_arg13) = V (Proc.devRef .tc main_arg13) :=
  (opsL0b_keeps13 (U2 V)).trans (U2_arg13 V)
theorem U4_arg13 : U4 V (Proc.devRef .tc main_arg13) = V (Proc.devRef .tc main_arg13) :=
  (opsL0c_keeps13 (U3 V)).trans (U3_arg13 V)
theorem U5_arg13 : U5 V (Proc.devRef .tc main_arg13) = V (Proc.devRef .tc main_arg13) :=
  (opsL1a_keeps13 (U4 V)).trans (U4_arg13 V)
theorem U6_arg13 : U6 V (Proc.devRef .tc main_arg13) = V (Proc.devRef .tc main_arg13) :=
  (opsL1b_keeps13 (U5 V)).trans (U5_arg13 V)
theorem U7_arg13 : U7 V (Proc.devRef .tc main_arg13) = V (Proc.devRef .tc main_arg13) :=
  (opsL1c_keeps13 (U6 V)).trans (U6_arg13 V)
theorem U8_arg13 : U8 V (Proc.devRef .tc main_arg13) = V (Proc.devRef .tc main_arg13) :=
  (opsL2a_keeps13 (U7 V)).trans (U7_arg13 V)
theorem U9_arg13 : U9 V (Proc.devRef .tc main_arg13) = V (Proc.devRef .tc main_arg13) :=
  (opsL2b_keeps13 (U8 V)).trans (U8_arg13 V)
theorem U1_arg14 : U1 V (Proc.devRef .tc main_arg14) = V (Proc.devRef .tc main_arg14) :=
  (opsPre_keeps14 (U0 V)).trans rfl
theorem U2_arg14 : U2 V (Proc.devRef .tc main_arg14) = V (Proc.devRef .tc main_arg14) :=
  (opsL0a_keeps14 (U1 V)).trans (U1_arg14 V)
theorem U3_arg14 : U3 V (Proc.devRef .tc main_arg14) = V (Proc.devRef .tc main_arg14) :=
  (opsL0b_keeps14 (U2 V)).trans (U2_arg14 V)
theorem U4_arg14 : U4 V (Proc.devRef .tc main_arg14) = V (Proc.devRef .tc main_arg14) :=
  (opsL0c_keeps14 (U3 V)).trans (U3_arg14 V)
theorem U5_arg14 : U5 V (Proc.devRef .tc main_arg14) = V (Proc.devRef .tc main_arg14) :=
  (opsL1a_keeps14 (U4 V)).trans (U4_arg14 V)
theorem U6_arg14 : U6 V (Proc.devRef .tc main_arg14) = V (Proc.devRef .tc main_arg14) :=
  (opsL1b_keeps14 (U5 V)).trans (U5_arg14 V)
theorem U7_arg14 : U7 V (Proc.devRef .tc main_arg14) = V (Proc.devRef .tc main_arg14) :=
  (opsL1c_keeps14 (U6 V)).trans (U6_arg14 V)
theorem U8_arg14 : U8 V (Proc.devRef .tc main_arg14) = V (Proc.devRef .tc main_arg14) :=
  (opsL2a_keeps14 (U7 V)).trans (U7_arg14 V)
theorem U9_arg14 : U9 V (Proc.devRef .tc main_arg14) = V (Proc.devRef .tc main_arg14) :=
  (opsL2b_keeps14 (U8 V)).trans (U8_arg14 V)
theorem U1_arg15 : U1 V (Proc.devRef .tc main_arg15) = V (Proc.devRef .tc main_arg15) :=
  (opsPre_keeps15 (U0 V)).trans rfl
theorem U2_arg15 : U2 V (Proc.devRef .tc main_arg15) = V (Proc.devRef .tc main_arg15) :=
  (opsL0a_keeps15 (U1 V)).trans (U1_arg15 V)
theorem U3_arg15 : U3 V (Proc.devRef .tc main_arg15) = V (Proc.devRef .tc main_arg15) :=
  (opsL0b_keeps15 (U2 V)).trans (U2_arg15 V)
theorem U4_arg15 : U4 V (Proc.devRef .tc main_arg15) = V (Proc.devRef .tc main_arg15) :=
  (opsL0c_keeps15 (U3 V)).trans (U3_arg15 V)
theorem U5_arg15 : U5 V (Proc.devRef .tc main_arg15) = V (Proc.devRef .tc main_arg15) :=
  (opsL1a_keeps15 (U4 V)).trans (U4_arg15 V)
theorem U6_arg15 : U6 V (Proc.devRef .tc main_arg15) = V (Proc.devRef .tc main_arg15) :=
  (opsL1b_keeps15 (U5 V)).trans (U5_arg15 V)
theorem U7_arg15 : U7 V (Proc.devRef .tc main_arg15) = V (Proc.devRef .tc main_arg15) :=
  (opsL1c_keeps15 (U6 V)).trans (U6_arg15 V)
theorem U8_arg15 : U8 V (Proc.devRef .tc main_arg15) = V (Proc.devRef .tc main_arg15) :=
  (opsL2a_keeps15 (U7 V)).trans (U7_arg15 V)
theorem U9_arg15 : U9 V (Proc.devRef .tc main_arg15) = V (Proc.devRef .tc main_arg15) :=
  (opsL2b_keeps15 (U8 V)).trans (U8_arg15 V)
theorem U10_arg15 : U10 V (Proc.devRef .tc main_arg15) = V (Proc.devRef .tc main_arg15) :=
  (opsL2c_keeps15 (U9 V)).trans (U9_arg15 V)
theorem U1_arg16 : U1 V (Proc.devRef .tc main_arg16) = V (Proc.devRef .tc main_arg16) :=
  (opsPre_keeps16 (U0 V)).trans rfl
theorem U2_arg16 : U2 V (Proc.devRef .tc main_arg16) = V (Proc.devRef .tc main_arg16) :=
  (opsL0a_keeps16 (U1 V)).trans (U1_arg16 V)
theorem U3_arg16 : U3 V (Proc.devRef .tc main_arg16) = V (Proc.devRef .tc main_arg16) :=
  (opsL0b_keeps16 (U2 V)).trans (U2_arg16 V)
theorem U4_arg16 : U4 V (Proc.devRef .tc main_arg16) = V (Proc.devRef .tc main_arg16) :=
  (opsL0c_keeps16 (U3 V)).trans (U3_arg16 V)
theorem U5_arg16 : U5 V (Proc.devRef .tc main_arg16) = V (Proc.devRef .tc main_arg16) :=
  (opsL1a_keeps16 (U4 V)).trans (U4_arg16 V)
theorem U6_arg16 : U6 V (Proc.devRef .tc main_arg16) = V (Proc.devRef .tc main_arg16) :=
  (opsL1b_keeps16 (U5 V)).trans (U5_arg16 V)
theorem U7_arg16 : U7 V (Proc.devRef .tc main_arg16) = V (Proc.devRef .tc main_arg16) :=
  (opsL1c_keeps16 (U6 V)).trans (U6_arg16 V)
theorem U8_arg16 : U8 V (Proc.devRef .tc main_arg16) = V (Proc.devRef .tc main_arg16) :=
  (opsL2a_keeps16 (U7 V)).trans (U7_arg16 V)
theorem U9_arg16 : U9 V (Proc.devRef .tc main_arg16) = V (Proc.devRef .tc main_arg16) :=
  (opsL2b_keeps16 (U8 V)).trans (U8_arg16 V)
theorem U10_arg16 : U10 V (Proc.devRef .tc main_arg16) = V (Proc.devRef .tc main_arg16) :=
  (opsL2c_keeps16 (U9 V)).trans (U9_arg16 V)
theorem U1_arg17 : U1 V (Proc.devRef .tc main_arg17) = V (Proc.devRef .tc main_arg17) :=
  (opsPre_keeps17 (U0 V)).trans rfl
theorem U2_arg17 : U2 V (Proc.devRef .tc main_arg17) = V (Proc.devRef .tc main_arg17) :=
  (opsL0a_keeps17 (U1 V)).trans (U1_arg17 V)
theorem U3_arg17 : U3 V (Proc.devRef .tc main_arg17) = V (Proc.devRef .tc main_arg17) :=
  (opsL0b_keeps17 (U2 V)).trans (U2_arg17 V)
theorem U4_arg17 : U4 V (Proc.devRef .tc main_arg17) = V (Proc.devRef .tc main_arg17) :=
  (opsL0c_keeps17 (U3 V)).trans (U3_arg17 V)
theorem U5_arg17 : U5 V (Proc.devRef .tc main_arg17) = V (Proc.devRef .tc main_arg17) :=
  (opsL1a_keeps17 (U4 V)).trans (U4_arg17 V)
theorem U6_arg17 : U6 V (Proc.devRef .tc main_arg17) = V (Proc.devRef .tc main_arg17) :=
  (opsL1b_keeps17 (U5 V)).trans (U5_arg17 V)
theorem U7_arg17 : U7 V (Proc.devRef .tc main_arg17) = V (Proc.devRef .tc main_arg17) :=
  (opsL1c_keeps17 (U6 V)).trans (U6_arg17 V)
theorem U8_arg17 : U8 V (Proc.devRef .tc main_arg17) = V (Proc.devRef .tc main_arg17) :=
  (opsL2a_keeps17 (U7 V)).trans (U7_arg17 V)
theorem U9_arg17 : U9 V (Proc.devRef .tc main_arg17) = V (Proc.devRef .tc main_arg17) :=
  (opsL2b_keeps17 (U8 V)).trans (U8_arg17 V)
theorem U10_arg17 : U10 V (Proc.devRef .tc main_arg17) = V (Proc.devRef .tc main_arg17) :=
  (opsL2c_keeps17 (U9 V)).trans (U9_arg17 V)
theorem U11_arg17 : U11 V (Proc.devRef .tc main_arg17) = V (Proc.devRef .tc main_arg17) :=
  (opsL3a_keeps17 (U10 V)).trans (U10_arg17 V)
theorem U12_arg17 : U12 V (Proc.devRef .tc main_arg17) = V (Proc.devRef .tc main_arg17) :=
  (opsL3b_keeps17 (U11 V)).trans (U11_arg17 V)
theorem U1_arg18 : U1 V (Proc.devRef .tc main_arg18) = V (Proc.devRef .tc main_arg18) :=
  (opsPre_keeps18 (U0 V)).trans rfl
theorem U2_arg18 : U2 V (Proc.devRef .tc main_arg18) = V (Proc.devRef .tc main_arg18) :=
  (opsL0a_keeps18 (U1 V)).trans (U1_arg18 V)
theorem U3_arg18 : U3 V (Proc.devRef .tc main_arg18) = V (Proc.devRef .tc main_arg18) :=
  (opsL0b_keeps18 (U2 V)).trans (U2_arg18 V)
theorem U4_arg18 : U4 V (Proc.devRef .tc main_arg18) = V (Proc.devRef .tc main_arg18) :=
  (opsL0c_keeps18 (U3 V)).trans (U3_arg18 V)
theorem U5_arg18 : U5 V (Proc.devRef .tc main_arg18) = V (Proc.devRef .tc main_arg18) :=
  (opsL1a_keeps18 (U4 V)).trans (U4_arg18 V)
theorem U6_arg18 : U6 V (Proc.devRef .tc main_arg18) = V (Proc.devRef .tc main_arg18) :=
  (opsL1b_keeps18 (U5 V)).trans (U5_arg18 V)
theorem U7_arg18 : U7 V (Proc.devRef .tc main_arg18) = V (Proc.devRef .tc main_arg18) :=
  (opsL1c_keeps18 (U6 V)).trans (U6_arg18 V)
theorem U8_arg18 : U8 V (Proc.devRef .tc main_arg18) = V (Proc.devRef .tc main_arg18) :=
  (opsL2a_keeps18 (U7 V)).trans (U7_arg18 V)
theorem U9_arg18 : U9 V (Proc.devRef .tc main_arg18) = V (Proc.devRef .tc main_arg18) :=
  (opsL2b_keeps18 (U8 V)).trans (U8_arg18 V)
theorem U10_arg18 : U10 V (Proc.devRef .tc main_arg18) = V (Proc.devRef .tc main_arg18) :=
  (opsL2c_keeps18 (U9 V)).trans (U9_arg18 V)
theorem U11_arg18 : U11 V (Proc.devRef .tc main_arg18) = V (Proc.devRef .tc main_arg18) :=
  (opsL3a_keeps18 (U10 V)).trans (U10_arg18 V)
theorem U12_arg18 : U12 V (Proc.devRef .tc main_arg18) = V (Proc.devRef .tc main_arg18) :=
  (opsL3b_keeps18 (U11 V)).trans (U11_arg18 V)

/-! ## The activations -/

/-- The first activation as a matrix. -/
def rA0 : Fin 8192 → Fin 4096 → EReal :=
  mat (rAct0 (V (Proc.devRef .tc main_arg0)) (V (Proc.devRef .tc main_arg1)) (V (Proc.devRef .tc main_arg2)))
/-- The activation after layer 0. -/
def rA1 : Fin 8192 → Fin 2048 → EReal :=
  layerC (rA0 V) (mat (V (Proc.devRef .tc main_arg3) : FVec Ideal S4096x2048 .f32)) (vec (V (Proc.devRef .tc main_arg4))) (vec (V (Proc.devRef .tc main_arg5))) (vec (V (Proc.devRef .tc main_arg6)))
/-- The activation after layer 1. -/
def rA2 : Fin 8192 → Fin 2048 → EReal :=
  layerC (rA1 V) (mat (V (Proc.devRef .tc main_arg7) : FVec Ideal S2048x2048 .f32)) (vec (V (Proc.devRef .tc main_arg8))) (vec (V (Proc.devRef .tc main_arg9))) (vec (V (Proc.devRef .tc main_arg10)))
/-- The activation after layer 2. -/
def rA3 : Fin 8192 → Fin 2048 → EReal :=
  layerC (rA2 V) (mat (V (Proc.devRef .tc main_arg11) : FVec Ideal S2048x2048 .f32)) (vec (V (Proc.devRef .tc main_arg12))) (vec (V (Proc.devRef .tc main_arg13))) (vec (V (Proc.devRef .tc main_arg14)))
/-- The activation after layer 3. -/
def rA4 : Fin 8192 → Fin 2048 → EReal :=
  layerC (rA3 V) (mat (V (Proc.devRef .tc main_arg15) : FVec Ideal S2048x2048 .f32)) (vec (V (Proc.devRef .tc main_arg16))) (vec (V (Proc.devRef .tc main_arg17))) (vec (V (Proc.devRef .tc main_arg18)))

theorem rc0 : RowsCols dot_S8192x4096_S4096x2048_S8192x2048_1_0_0_1_n_n :=
  ⟨rfl, rfl, fun _ _ => rfl, fun _ _ => rfl, fun _ _ => rfl, fun _ _ => rfl⟩
theorem rc1 : RowsCols dot_S8192x2048_S2048x2048_S8192x2048_1_0_0_1_n_n :=
  ⟨rfl, rfl, fun _ _ => rfl, fun _ _ => rfl, fun _ _ => rfl, fun _ _ => rfl⟩

set_option maxHeartbeats 1000000 in
/-- After layer 0 its output buffer holds `A1`. -/
theorem stage0 : U4 V (Proc.devRef .tc main_v40)
    = fun i => rA1 V (⟨(i 0).val, idx2_lt0 i⟩ : Fin 8192) (⟨(i 1).val, idx2_lt1 i⟩ : Fin 2048) := by
  have hx : U1 V (Proc.devRef .tc main_v16) = rAct0 (V (Proc.devRef .tc main_arg0)) (V (Proc.devRef .tc main_arg1)) (V (Proc.devRef .tc main_arg2)) := pre_x (U0 V)
  have hy : U2 V (Proc.devRef .tc main_v20) = addf (Host.dotGeneral (φ₁ := .f32) (φ₂ := .f32) dot_S8192x4096_S4096x2048_S8192x2048_1_0_0_1_n_n none (U1 V (Proc.devRef .tc main_v16)) (V (Proc.devRef .tc main_arg3))) (rows (V (Proc.devRef .tc main_arg4))) := by
    rw [show U2 V = after (opsL0a (F := Ideal)) (U1 V) from rfl, L0a_y, U1_arg3, U1_arg4]
  have hyb : U3 V (Proc.devRef .tc main_v20) = U2 V (Proc.devRef .tc main_v20) := L0b_main_v20 (U2 V)
  have hm : U3 V (Proc.devRef .tc main_v23) = refMean (U2 V (Proc.devRef .tc main_v20)) := L0b_mean (U2 V)
  have hv : U3 V (Proc.devRef .tc main_v24) = refVar (U2 V (Proc.devRef .tc main_v20)) := L0b_var (U2 V)
  rw [show U4 V = after (opsL0c (F := Ideal)) (U3 V) from rfl, L0c_out, hyb, hm, hv, U3_arg5, U3_arg6, hy, hx]
  funext i
  obtain ⟨r, j, rfl⟩ : ∃ (r : Fin 8192) (j : Fin 2048), i = ix2 r j := ⟨i 0, i 1, eq_ix2 i⟩
  refine (layer_apply dot_S8192x4096_S4096x2048_S8192x2048_1_0_0_1_n_n rc0 _ _ _ _ _ r j).trans ?_
  rfl

set_option maxHeartbeats 1000000 in
/-- After layer 1 its output buffer holds `A2`. -/
theorem stage1 : U7 V (Proc.devRef .tc main_v64)
    = fun i => rA2 V (⟨(i 0).val, idx2_lt0 i⟩ : Fin 8192) (⟨(i 1).val, idx2_lt1 i⟩ : Fin 2048) := by
  have hx : U4 V (Proc.devRef .tc main_v40) = fun i => rA1 V (⟨(i 0).val, idx2_lt0 i⟩ : Fin 8192) (⟨(i 1).val, idx2_lt1 i⟩ : Fin 2048) := stage0 V
  have hy : U5 V (Proc.devRef .tc main_v44) = addf (Host.dotGeneral (φ₁ := .f32) (φ₂ := .f32) dot_S8192x2048_S2048x2048_S8192x2048_1_0_0_1_n_n none (U4 V (Proc.devRef .tc main_v40)) (V (Proc.devRef .tc main_arg7))) (rows (V (Proc.devRef .tc main_arg8))) := by
    rw [show U5 V = after (opsL1a (F := Ideal)) (U4 V) from rfl, L1a_y, U4_arg7, U4_arg8]
  have hyb : U6 V (Proc.devRef .tc main_v44) = U5 V (Proc.devRef .tc main_v44) := L1b_main_v44 (U5 V)
  have hm : U6 V (Proc.devRef .tc main_v47) = refMean (U5 V (Proc.devRef .tc main_v44)) := L1b_mean (U5 V)
  have hv : U6 V (Proc.devRef .tc main_v48) = refVar (U5 V (Proc.devRef .tc main_v44)) := L1b_var (U5 V)
  rw [show U7 V = after (opsL1c (F := Ideal)) (U6 V) from rfl, L1c_out, hyb, hm, hv, U6_arg9, U6_arg10, hy, hx]
  funext i
  obtain ⟨r, j, rfl⟩ : ∃ (r : Fin 8192) (j : Fin 2048), i = ix2 r j := ⟨i 0, i 1, eq_ix2 i⟩
  refine (layer_apply dot_S8192x2048_S2048x2048_S8192x2048_1_0_0_1_n_n rc1 _ _ _ _ _ r j).trans ?_
  rfl

set_option maxHeartbeats 1000000 in
/-- After layer 2 its output buffer holds `A3`. -/
theorem stage2 : U10 V (Proc.devRef .tc main_v88)
    = fun i => rA3 V (⟨(i 0).val, idx2_lt0 i⟩ : Fin 8192) (⟨(i 1).val, idx2_lt1 i⟩ : Fin 2048) := by
  have hx : U7 V (Proc.devRef .tc main_v64) = fun i => rA2 V (⟨(i 0).val, idx2_lt0 i⟩ : Fin 8192) (⟨(i 1).val, idx2_lt1 i⟩ : Fin 2048) := stage1 V
  have hy : U8 V (Proc.devRef .tc main_v68) = addf (Host.dotGeneral (φ₁ := .f32) (φ₂ := .f32) dot_S8192x2048_S2048x2048_S8192x2048_1_0_0_1_n_n none (U7 V (Proc.devRef .tc main_v64)) (V (Proc.devRef .tc main_arg11))) (rows (V (Proc.devRef .tc main_arg12))) := by
    rw [show U8 V = after (opsL2a (F := Ideal)) (U7 V) from rfl, L2a_y, U7_arg11, U7_arg12]
  have hyb : U9 V (Proc.devRef .tc main_v68) = U8 V (Proc.devRef .tc main_v68) := L2b_main_v68 (U8 V)
  have hm : U9 V (Proc.devRef .tc main_v71) = refMean (U8 V (Proc.devRef .tc main_v68)) := L2b_mean (U8 V)
  have hv : U9 V (Proc.devRef .tc main_v72) = refVar (U8 V (Proc.devRef .tc main_v68)) := L2b_var (U8 V)
  rw [show U10 V = after (opsL2c (F := Ideal)) (U9 V) from rfl, L2c_out, hyb, hm, hv, U9_arg13, U9_arg14, hy, hx]
  funext i
  obtain ⟨r, j, rfl⟩ : ∃ (r : Fin 8192) (j : Fin 2048), i = ix2 r j := ⟨i 0, i 1, eq_ix2 i⟩
  refine (layer_apply dot_S8192x2048_S2048x2048_S8192x2048_1_0_0_1_n_n rc1 _ _ _ _ _ r j).trans ?_
  rfl

set_option maxHeartbeats 1000000 in
/-- After layer 3 its output buffer holds `A4`. -/
theorem stage3 : U13 V (Proc.devRef .tc main_v112)
    = fun i => rA4 V (⟨(i 0).val, idx2_lt0 i⟩ : Fin 8192) (⟨(i 1).val, idx2_lt1 i⟩ : Fin 2048) := by
  have hx : U10 V (Proc.devRef .tc main_v88) = fun i => rA3 V (⟨(i 0).val, idx2_lt0 i⟩ : Fin 8192) (⟨(i 1).val, idx2_lt1 i⟩ : Fin 2048) := stage2 V
  have hy : U11 V (Proc.devRef .tc main_v92) = addf (Host.dotGeneral (φ₁ := .f32) (φ₂ := .f32) dot_S8192x2048_S2048x2048_S8192x2048_1_0_0_1_n_n none (U10 V (Proc.devRef .tc main_v88)) (V (Proc.devRef .tc main_arg15))) (rows (V (Proc.devRef .tc main_arg16))) := by
    rw [show U11 V = after (opsL3a (F := Ideal)) (U10 V) from rfl, L3a_y, U10_arg15, U10_arg16]
  have hyb : U12 V (Proc.devRef .tc main_v92) = U11 V (Proc.devRef .tc main_v92) := L3b_main_v92 (U11 V)
  have hm : U12 V (Proc.devRef .tc main_v95) = refMean (U11 V (Proc.devRef .tc main_v92)) := L3b_mean (U11 V)
  have hv : U12 V (Proc.devRef .tc main_v96) = refVar (U11 V (Proc.devRef .tc main_v92)) := L3b_var (U11 V)
  rw [show U13 V = after (opsL3c (F := Ideal)) (U12 V) from rfl, L3c_out, hyb, hm, hv, U12_arg17, U12_arg18, hy, hx]
  funext i
  obtain ⟨r, j, rfl⟩ : ∃ (r : Fin 8192) (j : Fin 2048), i = ix2 r j := ⟨i 0, i 1, eq_ix2 i⟩
  refine (layer_apply dot_S8192x2048_S2048x2048_S8192x2048_1_0_0_1_n_n rc1 _ _ _ _ _ r j).trans ?_
  rfl

/-- THE RESULT: entry `(a, r)` is `A₄ r a`. -/
theorem result_apply (a : Fin 2048) (r : Fin 8192) :
    after (ops (F := Ideal)) V (Proc.devRef .tc main_v113) (ix2 a r) = rA4 V r a := by
  rw [after_ops]
  have e : U14 V (Proc.devRef .tc main_v113) = transpose S2048x8192 [1, 0] (U13 V (Proc.devRef .tc main_v112)) transposes_S8192x2048_S2048x8192_1_0 := by
    rw [show U14 V = after (opsT (F := Ideal)) (U13 V) from rfl]
    after_results
    all_goals rfl
  rw [e, transpose_ix2_apply, stage3]

/-! ## No operation writes an argument -/

set_option maxHeartbeats 8000000 in
theorem ops_arg0 : after (ops (F := Ideal)) V (Proc.devRef .tc main_arg0) = V (Proc.devRef .tc main_arg0) := by
  rw [after_ops]
  unfold U14 U13 U12 U11 U10 U9 U8 U7 U6 U5 U4 U3 U2 U1 U0
  after_results_simp
  all_goals rfl
set_option maxHeartbeats 8000000 in
theorem ops_arg1 : after (ops (F := Ideal)) V (Proc.devRef .tc main_arg1) = V (Proc.devRef .tc main_arg1) := by
  rw [after_ops]
  unfold U14 U13 U12 U11 U10 U9 U8 U7 U6 U5 U4 U3 U2 U1 U0
  after_results_simp
  all_goals rfl
set_option maxHeartbeats 8000000 in
theorem ops_arg2 : after (ops (F := Ideal)) V (Proc.devRef .tc main_arg2) = V (Proc.devRef .tc main_arg2) := by
  rw [after_ops]
  unfold U14 U13 U12 U11 U10 U9 U8 U7 U6 U5 U4 U3 U2 U1 U0
  after_results_simp
  all_goals rfl
set_option maxHeartbeats 8000000 in
theorem ops_arg3 : after (ops (F := Ideal)) V (Proc.devRef .tc main_arg3) = V (Proc.devRef .tc main_arg3) := by
  rw [after_ops]
  unfold U14 U13 U12 U11 U10 U9 U8 U7 U6 U5 U4 U3 U2 U1 U0
  after_results_simp
  all_goals rfl
set_option maxHeartbeats 8000000 in
theorem ops_arg4 : after (ops (F := Ideal)) V (Proc.devRef .tc main_arg4) = V (Proc.devRef .tc main_arg4) := by
  rw [after_ops]
  unfold U14 U13 U12 U11 U10 U9 U8 U7 U6 U5 U4 U3 U2 U1 U0
  after_results_simp
  all_goals rfl
set_option maxHeartbeats 8000000 in
theorem ops_arg5 : after (ops (F := Ideal)) V (Proc.devRef .tc main_arg5) = V (Proc.devRef .tc main_arg5) := by
  rw [after_ops]
  unfold U14 U13 U12 U11 U10 U9 U8 U7 U6 U5 U4 U3 U2 U1 U0
  after_results_simp
  all_goals rfl
set_option maxHeartbeats 8000000 in
theorem ops_arg6 : after (ops (F := Ideal)) V (Proc.devRef .tc main_arg6) = V (Proc.devRef .tc main_arg6) := by
  rw [after_ops]
  unfold U14 U13 U12 U11 U10 U9 U8 U7 U6 U5 U4 U3 U2 U1 U0
  after_results_simp
  all_goals rfl
set_option maxHeartbeats 8000000 in
theorem ops_arg7 : after (ops (F := Ideal)) V (Proc.devRef .tc main_arg7) = V (Proc.devRef .tc main_arg7) := by
  rw [after_ops]
  unfold U14 U13 U12 U11 U10 U9 U8 U7 U6 U5 U4 U3 U2 U1 U0
  after_results_simp
  all_goals rfl
set_option maxHeartbeats 8000000 in
theorem ops_arg8 : after (ops (F := Ideal)) V (Proc.devRef .tc main_arg8) = V (Proc.devRef .tc main_arg8) := by
  rw [after_ops]
  unfold U14 U13 U12 U11 U10 U9 U8 U7 U6 U5 U4 U3 U2 U1 U0
  after_results_simp
  all_goals rfl
set_option maxHeartbeats 8000000 in
theorem ops_arg9 : after (ops (F := Ideal)) V (Proc.devRef .tc main_arg9) = V (Proc.devRef .tc main_arg9) := by
  rw [after_ops]
  unfold U14 U13 U12 U11 U10 U9 U8 U7 U6 U5 U4 U3 U2 U1 U0
  after_results_simp
  all_goals rfl
set_option maxHeartbeats 8000000 in
theorem ops_arg10 : after (ops (F := Ideal)) V (Proc.devRef .tc main_arg10) = V (Proc.devRef .tc main_arg10) := by
  rw [after_ops]
  unfold U14 U13 U12 U11 U10 U9 U8 U7 U6 U5 U4 U3 U2 U1 U0
  after_results_simp
  all_goals rfl
set_option maxHeartbeats 8000000 in
theorem ops_arg11 : after (ops (F := Ideal)) V (Proc.devRef .tc main_arg11) = V (Proc.devRef .tc main_arg11) := by
  rw [after_ops]
  unfold U14 U13 U12 U11 U10 U9 U8 U7 U6 U5 U4 U3 U2 U1 U0
  after_results_simp
  all_goals rfl
set_option maxHeartbeats 8000000 in
theorem ops_arg12 : after (ops (F := Ideal)) V (Proc.devRef .tc main_arg12) = V (Proc.devRef .tc main_arg12) := by
  rw [after_ops]
  unfold U14 U13 U12 U11 U10 U9 U8 U7 U6 U5 U4 U3 U2 U1 U0
  after_results_simp
  all_goals rfl
set_option maxHeartbeats 8000000 in
theorem ops_arg13 : after (ops (F := Ideal)) V (Proc.devRef .tc main_arg13) = V (Proc.devRef .tc main_arg13) := by
  rw [after_ops]
  unfold U14 U13 U12 U11 U10 U9 U8 U7 U6 U5 U4 U3 U2 U1 U0
  after_results_simp
  all_goals rfl
set_option maxHeartbeats 8000000 in
theorem ops_arg14 : after (ops (F := Ideal)) V (Proc.devRef .tc main_arg14) = V (Proc.devRef .tc main_arg14) := by
  rw [after_ops]
  unfold U14 U13 U12 U11 U10 U9 U8 U7 U6 U5 U4 U3 U2 U1 U0
  after_results_simp
  all_goals rfl
set_option maxHeartbeats 8000000 in
theorem ops_arg15 : after (ops (F := Ideal)) V (Proc.devRef .tc main_arg15) = V (Proc.devRef .tc main_arg15) := by
  rw [after_ops]
  unfold U14 U13 U12 U11 U10 U9 U8 U7 U6 U5 U4 U3 U2 U1 U0
  after_results_simp
  all_goals rfl
set_option maxHeartbeats 8000000 in
theorem ops_arg16 : after (ops (F := Ideal)) V (Proc.devRef .tc main_arg16) = V (Proc.devRef .tc main_arg16) := by
  rw [after_ops]
  unfold U14 U13 U12 U11 U10 U9 U8 U7 U6 U5 U4 U3 U2 U1 U0
  after_results_simp
  all_goals rfl
set_option maxHeartbeats 8000000 in
theorem ops_arg17 : after (ops (F := Ideal)) V (Proc.devRef .tc main_arg17) = V (Proc.devRef .tc main_arg17) := by
  rw [after_ops]
  unfold U14 U13 U12 U11 U10 U9 U8 U7 U6 U5 U4 U3 U2 U1 U0
  after_results_simp
  all_goals rfl
set_option maxHeartbeats 8000000 in
theorem ops_arg18 : after (ops (F := Ideal)) V (Proc.devRef .tc main_arg18) = V (Proc.devRef .tc main_arg18) := by
  rw [after_ops]
  unfold U14 U13 U12 U11 U10 U9 U8 U7 U6 U5 U4 U3 U2 U1 U0
  after_results_simp
  all_goals rfl

end Cert.ReferenceIdeal.RefLayer

end
-- ==== Proof.GinLaw.lean ====
/-
  The law that joins the two programs: a layer normalised by moments is the layer normalised by centring.

  For real inputs, weights, biases, scales and shifts an affine layer's entries are real, so its column statistics by
  moments (clamped at zero) and by centring are one real number, and the normalised, scaled, shifted, rectified layer is
  again real: four such layers compose. The first activation is `2 · s + t` in one program and `s + (s + t)` in the other,
  equal for real `s` and `t`.
-/
import proofs.«152490_j70686571758165_2_alg».proof.Proof.LayerWords

noncomputable section

namespace Cert.GinLaw

open Idealize.ShloMosaic Cert.RealValued Cert.LibBatchNormMoments Cert.Layer

theorem card8192 : (8192 : ℝ) = (Fintype.card (Fin 8192) : ℝ) := by rw [Fintype.card_fin]; norm_num

/-- ONE LAYER: by moments and by centring it is one function, with real values. -/
theorem layer_agree {K : ℕ} {x : Fin 8192 → Fin K → EReal} {w : Fin K → Fin 2048 → EReal} {b g be : Fin 2048 → EReal}
    (hx : ∀ r k, IsReal (x r k)) (hw : ∀ k j, IsReal (w k j)) (hb : ∀ j, IsReal (b j)) (hg : ∀ j, IsReal (g j))
    (hbe : ∀ j, IsReal (be j)) :
    bnReluMoments nE epsE (affine x w b) g be = bnReluCentred nE epsE (affine x w b) g be
      ∧ ∀ r j, IsReal (bnReluMoments nE epsE (affine x w b) g be r j) := by
  obtain ⟨ε, hε, he⟩ := epsE_pos
  have hy : ∀ r j, IsReal (affine x w b r j) := isReal_affine hx hw hb
  rw [nE_eq, he]
  exact ⟨bnReluMoments_eq_centred hy 8192 card8192 (by norm_num) _ g be,
    isReal_bnReluMoments hy hg hbe 8192 card8192 (by norm_num) hε⟩

/-- The first activation: `2 · s + t = s + (s + t)` for real `s`, `t`, and it is real. -/
theorem first_agree {s t : EReal} (hs : IsReal s) (ht : IsReal t) :
    Ideal.ofBits .f32 0x40000000#32 * s + t = s + (s + t) ∧ IsReal (s + (s + t)) := by
  obtain ⟨a, rfl⟩ := hs
  obtain ⟨c, rfl⟩ := ht
  have h2 : Ideal.ofBits .f32 0x40000000#32 = ((2 : ℝ) : EReal) := by
    simp [Ideal.ofBits, Ideal.ieee]
    rw [← EReal.coe_mul]
    congr 1
    norm_num
  refine ⟨?_, ⟨a + (a + c), by rw [EReal.coe_add, EReal.coe_add]⟩⟩
  rw [h2, ← EReal.coe_mul, ← EReal.coe_add, ← EReal.coe_add, ← EReal.coe_add]
  congr 1
  ring

end Cert.GinLaw

end
-- ==== Proof.Bridge.lean ====
/-
  The two idealized programs compute one function of the arguments.

  Both results are the fourth activation transposed. The first activations agree (`2 · s + t = s + (s + t)`) and are real,
  because a gathered entry is an entry of the real embedding table and a sum of five of them is real. Each later
  activation is a batch-normalised layer of the one before — by moments in one program, by centring in the other — over
  the same real weights, so they agree and stay real, layer after layer.
-/
import proofs.«152490_j70686571758165_2_alg».proof.Proof.KernelValue
import proofs.«152490_j70686571758165_2_alg».proof.Proof.RefValue
import proofs.«152490_j70686571758165_2_alg».proof.Proof.GinLaw

set_option maxRecDepth 16384

noncomputable section

namespace Cert.Bridge

open Idealize.ShloMosaic Idealize.ShloMosaic.TcCoe Idealize.SL.Sem Idealize.ShloMosaic.StableHlo Idealize.ShloMosaic.ValueIdx
open Cert.Layer Cert.LibBatchNormMoments Cert.RealValued Cert.GinLaw

/-! ## The first activation -/

theorem hred3 : (⟨3, ![8192, 5, 4096]⟩ : Shape).Reduces [1] ⟨2, ![8192, 4096]⟩ := by decide

/-- The neighbour sum of a real table is real. -/
theorem nbr_isReal (a1 : (⟨Cert.KernelIdeal.S8192x5, .i32⟩ : BufTy).Contents (Elt Ideal)) (a2 : FVec Ideal Cert.KernelIdeal.S4096x4096 .f32)
    (h2 : ∀ i, IsReal (a2 i)) (i : Cert.KernelIdeal.S8192x4096.Idx) : IsReal (Cert.KernelIdeal.Chain.nbrSum a1 a2 i) := by
  unfold Cert.KernelIdeal.Chain.nbrSum Host.reduceAdd
  rw [Ideal.hostReduceAdd_def, Ideal.hostReduceAdd_single _ hred3]
  refine IsReal.add ?_ (isReal_sum _ _ fun k _ => h2 _)
  show IsReal (Ideal.ofBits .f32 0x00000000#32)
  rw [Ideal.ofBits_zero_f32]; exact isReal_zero

/-- The two programs' first activations agree entry by entry and are real. -/
theorem act0_agree (a0 : (⟨Cert.KernelIdeal.S8192, .i32⟩ : BufTy).Contents (Elt Ideal)) (a1 : (⟨Cert.KernelIdeal.S8192x5, .i32⟩ : BufTy).Contents (Elt Ideal))
    (a2 : FVec Ideal Cert.KernelIdeal.S4096x4096 .f32) (h2 : ∀ i, IsReal (a2 i)) (r : Fin 8192) (k : Fin 4096) :
    Cert.KernelIdeal.Chain.act0 a0 a1 a2 (ix2 r k) = Cert.ReferenceIdeal.RefLayer.rAct0 a0 a1 a2 (ix2 r k)
      ∧ IsReal (Cert.KernelIdeal.Chain.act0 a0 a1 a2 (ix2 r k)) := by
  have hs : IsReal (Cert.KernelIdeal.Chain.selfEmb a0 a2 (ix2 r k)) := h2 _
  have ht : IsReal (Cert.KernelIdeal.Chain.nbrSum a1 a2 (ix2 r k)) := nbr_isReal a1 a2 h2 _
  obtain ⟨e, hr⟩ := first_agree hs ht
  have hk : Cert.KernelIdeal.Chain.act0 a0 a1 a2 (ix2 r k)
      = Ideal.ofBits .f32 0x40000000#32 * Cert.KernelIdeal.Chain.selfEmb a0 a2 (ix2 r k) + Cert.KernelIdeal.Chain.nbrSum a1 a2 (ix2 r k) := by
    unfold Cert.KernelIdeal.Chain.act0
    rw [addf_apply, mulf_apply]
    rfl
  have hrf : Cert.ReferenceIdeal.RefLayer.rAct0 a0 a1 a2 (ix2 r k)
      = Cert.KernelIdeal.Chain.selfEmb a0 a2 (ix2 r k) + (Cert.KernelIdeal.Chain.selfEmb a0 a2 (ix2 r k) + Cert.KernelIdeal.Chain.nbrSum a1 a2 (ix2 r k)) := rfl
  rw [hk, hrf]
  exact ⟨e, e ▸ hr⟩

/-! ## The four layers -/

section Net

variable (m : (ℓ : Loc Cert.KernelIdeal.nD Cert.KernelIdeal.τ Cert.KernelIdeal.sig) → Buf (Elt Ideal) ℓ) (c : Dev Cert.KernelIdeal.nD)
  (V : Valuation Cert.ReferenceIdeal.τ Cert.ReferenceIdeal.sig (Elt Ideal))
  (e0 : V (Proc.devRef .tc Cert.ReferenceIdeal.main_arg0) = m ((c : Thread Cert.KernelIdeal.nD Cert.KernelIdeal.τ).loc Cert.KernelIdeal.main_arg0))
  (e1 : V (Proc.devRef .tc Cert.ReferenceIdeal.main_arg1) = m ((c : Thread Cert.KernelIdeal.nD Cert.KernelIdeal.τ).loc Cert.KernelIdeal.main_arg1))
  (e2 : V (Proc.devRef .tc Cert.ReferenceIdeal.main_arg2) = m ((c : Thread Cert.KernelIdeal.nD Cert.KernelIdeal.τ).loc Cert.KernelIdeal.main_arg2))
  (e3 : V (Proc.devRef .tc Cert.ReferenceIdeal.main_arg3) = m ((c : Thread Cert.KernelIdeal.nD Cert.KernelIdeal.τ).loc Cert.KernelIdeal.main_arg3))
  (e4 : V (Proc.devRef .tc Cert.ReferenceIdeal.main_arg4) = m ((c : Thread Cert.KernelIdeal.nD Cert.KernelIdeal.τ).loc Cert.KernelIdeal.main_arg4))
  (e5 : V (Proc.devRef .tc Cert.ReferenceIdeal.main_arg5) = m ((c : Thread Cert.KernelIdeal.nD Cert.KernelIdeal.τ).loc Cert.KernelIdeal.main_arg5))
  (e6 : V (Proc.devRef .tc Cert.ReferenceIdeal.main_arg6) = m ((c : Thread Cert.KernelIdeal.nD Cert.KernelIdeal.τ).loc Cert.KernelIdeal.main_arg6))
  (e7 : V (Proc.devRef .tc Cert.ReferenceIdeal.main_arg7) = m ((c : Thread Cert.KernelIdeal.nD Cert.KernelIdeal.τ).loc Cert.KernelIdeal.main_arg7))
  (e8 : V (Proc.devRef .tc Cert.ReferenceIdeal.main_arg8) = m ((c : Thread Cert.KernelIdeal.nD Cert.KernelIdeal.τ).loc Cert.KernelIdeal.main_arg8))
  (e9 : V (Proc.devRef .tc Cert.ReferenceIdeal.main_arg9) = m ((c : Thread Cert.KernelIdeal.nD Cert.KernelIdeal.τ).loc Cert.KernelIdeal.main_arg9))
  (e10 : V (Proc.devRef .tc Cert.ReferenceIdeal.main_arg10) = m ((c : Thread Cert.KernelIdeal.nD Cert.KernelIdeal.τ).loc Cert.KernelIdeal.main_arg10))
  (e11 : V (Proc.devRef .tc Cert.ReferenceIdeal.main_arg11) = m ((c : Thread Cert.KernelIdeal.nD Cert.KernelIdeal.τ).loc Cert.KernelIdeal.main_arg11))
  (e12 : V (Proc.devRef .tc Cert.ReferenceIdeal.main_arg12) = m ((c : Thread Cert.KernelIdeal.nD Cert.KernelIdeal.τ).loc Cert.KernelIdeal.main_arg12))
  (e13 : V (Proc.devRef .tc Cert.ReferenceIdeal.main_arg13) = m ((c : Thread Cert.KernelIdeal.nD Cert.KernelIdeal.τ).loc Cert.KernelIdeal.main_arg13))
  (e14 : V (Proc.devRef .tc Cert.ReferenceIdeal.main_arg14) = m ((c : Thread Cert.KernelIdeal.nD Cert.KernelIdeal.τ).loc Cert.KernelIdeal.main_arg14))
  (e15 : V (Proc.devRef .tc Cert.ReferenceIdeal.main_arg15) = m ((c : Thread Cert.KernelIdeal.nD Cert.KernelIdeal.τ).loc Cert.KernelIdeal.main_arg15))
  (e16 : V (Proc.devRef .tc Cert.ReferenceIdeal.main_arg16) = m ((c : Thread Cert.KernelIdeal.nD Cert.KernelIdeal.τ).loc Cert.KernelIdeal.main_arg16))
  (e17 : V (Proc.devRef .tc Cert.ReferenceIdeal.main_arg17) = m ((c : Thread Cert.KernelIdeal.nD Cert.KernelIdeal.τ).loc Cert.KernelIdeal.main_arg17))
  (e18 : V (Proc.devRef .tc Cert.ReferenceIdeal.main_arg18) = m ((c : Thread Cert.KernelIdeal.nD Cert.KernelIdeal.τ).loc Cert.KernelIdeal.main_arg18))
  (r2 : ∀ i, IsReal (m ((c : Thread Cert.KernelIdeal.nD Cert.KernelIdeal.τ).loc Cert.KernelIdeal.main_arg2) i))
  (r3 : ∀ i, IsReal (m ((c : Thread Cert.KernelIdeal.nD Cert.KernelIdeal.τ).loc Cert.KernelIdeal.main_arg3) i))
  (r4 : ∀ i, IsReal (m ((c : Thread Cert.KernelIdeal.nD Cert.KernelIdeal.τ).loc Cert.KernelIdeal.main_arg4) i))
  (r5 : ∀ i, IsReal (m ((c : Thread Cert.KernelIdeal.nD Cert.KernelIdeal.τ).loc Cert.KernelIdeal.main_arg5) i))
  (r6 : ∀ i, IsReal (m ((c : Thread Cert.KernelIdeal.nD Cert.KernelIdeal.τ).loc Cert.KernelIdeal.main_arg6) i))
  (r7 : ∀ i, IsReal (m ((c : Thread Cert.KernelIdeal.nD Cert.KernelIdeal.τ).loc Cert.KernelIdeal.main_arg7) i))
  (r8 : ∀ i, IsReal (m ((c : Thread Cert.KernelIdeal.nD Cert.KernelIdeal.τ).loc Cert.KernelIdeal.main_arg8) i))
  (r9 : ∀ i, IsReal (m ((c : Thread Cert.KernelIdeal.nD Cert.KernelIdeal.τ).loc Cert.KernelIdeal.main_arg9) i))
  (r10 : ∀ i, IsReal (m ((c : Thread Cert.KernelIdeal.nD Cert.KernelIdeal.τ).loc Cert.KernelIdeal.main_arg10) i))
  (r11 : ∀ i, IsReal (m ((c : Thread Cert.KernelIdeal.nD Cert.KernelIdeal.τ).loc Cert.KernelIdeal.main_arg11) i))
  (r12 : ∀ i, IsReal (m ((c : Thread Cert.KernelIdeal.nD Cert.KernelIdeal.τ).loc Cert.KernelIdeal.main_arg12) i))
  (r13 : ∀ i, IsReal (m ((c : Thread Cert.KernelIdeal.nD Cert.KernelIdeal.τ).loc Cert.KernelIdeal.main_arg13) i))
  (r14 : ∀ i, IsReal (m ((c : Thread Cert.KernelIdeal.nD Cert.KernelIdeal.τ).loc Cert.KernelIdeal.main_arg14) i))
  (r15 : ∀ i, IsReal (m ((c : Thread Cert.KernelIdeal.nD Cert.KernelIdeal.τ).loc Cert.KernelIdeal.main_arg15) i))
  (r16 : ∀ i, IsReal (m ((c : Thread Cert.KernelIdeal.nD Cert.KernelIdeal.τ).loc Cert.KernelIdeal.main_arg16) i))
  (r17 : ∀ i, IsReal (m ((c : Thread Cert.KernelIdeal.nD Cert.KernelIdeal.τ).loc Cert.KernelIdeal.main_arg17) i))
  (r18 : ∀ i, IsReal (m ((c : Thread Cert.KernelIdeal.nD Cert.KernelIdeal.τ).loc Cert.KernelIdeal.main_arg18) i))

include e0 e1 e2 r2 in
theorem A0_agree : Cert.KernelIdeal.Chain.kA0 m c = Cert.ReferenceIdeal.RefLayer.rA0 V ∧ ∀ r k, IsReal (Cert.KernelIdeal.Chain.kA0 m c r k) := by
  refine ⟨funext fun r => funext fun k => ?_, fun r k => (act0_agree _ _ _ r2 r k).2⟩
  unfold Cert.KernelIdeal.Chain.kA0 Cert.ReferenceIdeal.RefLayer.rA0
  show Cert.KernelIdeal.Chain.act0 _ _ _ (ix2 r k) = Cert.ReferenceIdeal.RefLayer.rAct0 _ _ _ (ix2 r k)
  rw [e0, e1, e2]
  exact (act0_agree _ _ _ r2 r k).1

include e0 e1 e2 r2 e3 r3 e4 r4 e5 r5 e6 r6 in
theorem A1_agree : Cert.KernelIdeal.Chain.kA1 m c = Cert.ReferenceIdeal.RefLayer.rA1 V ∧ ∀ r j, IsReal (Cert.KernelIdeal.Chain.kA1 m c r j) := by
  obtain ⟨hA, hR⟩ := A0_agree m c V e0 e1 e2 r2
  obtain ⟨hL, hLR⟩ := layer_agree (x := Cert.KernelIdeal.Chain.kA0 m c) (w := mat (m ((c : Thread Cert.KernelIdeal.nD Cert.KernelIdeal.τ).loc Cert.KernelIdeal.main_arg3)))
    (b := vec (m ((c : Thread Cert.KernelIdeal.nD Cert.KernelIdeal.τ).loc Cert.KernelIdeal.main_arg4))) (g := vec (m ((c : Thread Cert.KernelIdeal.nD Cert.KernelIdeal.τ).loc Cert.KernelIdeal.main_arg5)))
    (be := vec (m ((c : Thread Cert.KernelIdeal.nD Cert.KernelIdeal.τ).loc Cert.KernelIdeal.main_arg6))) hR (fun k j => r3 _) (fun j => r4 _) (fun j => r5 _) (fun j => r6 _)
  refine ⟨?_, hLR⟩
  unfold Cert.KernelIdeal.Chain.kA1 Cert.ReferenceIdeal.RefLayer.rA1 Cert.KernelIdeal.Chain.layerM Cert.ReferenceIdeal.RefLayer.layerC
  rw [← hA, e3, e4, e5, e6]
  exact hL

include e0 e1 e2 r2 e3 r3 e4 r4 e5 r5 e6 r6 e7 r7 e8 r8 e9 r9 e10 r10 in
theorem A2_agree : Cert.KernelIdeal.Chain.kA2 m c = Cert.ReferenceIdeal.RefLayer.rA2 V ∧ ∀ r j, IsReal (Cert.KernelIdeal.Chain.kA2 m c r j) := by
  obtain ⟨hA, hR⟩ := A1_agree m c V e0 e1 e2 e3 e4 e5 e6 r2 r3 r4 r5 r6
  obtain ⟨hL, hLR⟩ := layer_agree (x := Cert.KernelIdeal.Chain.kA1 m c) (w := mat (m ((c : Thread Cert.KernelIdeal.nD Cert.KernelIdeal.τ).loc Cert.KernelIdeal.main_arg7)))
    (b := vec (m ((c : Thread Cert.KernelIdeal.nD Cert.KernelIdeal.τ).loc Cert.KernelIdeal.main_arg8))) (g := vec (m ((c : Thread Cert.KernelIdeal.nD Cert.KernelIdeal.τ).loc Cert.KernelIdeal.main_arg9)))
    (be := vec (m ((c : Thread Cert.KernelIdeal.nD Cert.KernelIdeal.τ).loc Cert.KernelIdeal.main_arg10))) hR (fun k j => r7 _) (fun j => r8 _) (fun j => r9 _) (fun j => r10 _)
  refine ⟨?_, hLR⟩
  unfold Cert.KernelIdeal.Chain.kA2 Cert.ReferenceIdeal.RefLayer.rA2 Cert.KernelIdeal.Chain.layerM Cert.ReferenceIdeal.RefLayer.layerC
  rw [← hA, e7, e8, e9, e10]
  exact hL

include e0 e1 e2 r2 e3 r3 e4 r4 e5 r5 e6 r6 e7 r7 e8 r8 e9 r9 e10 r10 e11 r11 e12 r12 e13 r13 e14 r14 in
theorem A3_agree : Cert.KernelIdeal.Chain.kA3 m c = Cert.ReferenceIdeal.RefLayer.rA3 V ∧ ∀ r j, IsReal (Cert.KernelIdeal.Chain.kA3 m c r j) := by
  obtain ⟨hA, hR⟩ := A2_agree m c V e0 e1 e2 e3 e4 e5 e6 e7 e8 e9 e10 r2 r3 r4 r5 r6 r7 r8 r9 r10
  obtain ⟨hL, hLR⟩ := layer_agree (x := Cert.KernelIdeal.Chain.kA2 m c) (w := mat (m ((c : Thread Cert.KernelIdeal.nD Cert.KernelIdeal.τ).loc Cert.KernelIdeal.main_arg11)))
    (b := vec (m ((c : Thread Cert.KernelIdeal.nD Cert.KernelIdeal.τ).loc Cert.KernelIdeal.main_arg12))) (g := vec (m ((c : Thread Cert.KernelIdeal.nD Cert.KernelIdeal.τ).loc Cert.KernelIdeal.main_arg13)))
    (be := vec (m ((c : Thread Cert.KernelIdeal.nD Cert.KernelIdeal.τ).loc Cert.KernelIdeal.main_arg14))) hR (fun k j => r11 _) (fun j => r12 _) (fun j => r13 _) (fun j => r14 _)
  refine ⟨?_, hLR⟩
  unfold Cert.KernelIdeal.Chain.kA3 Cert.ReferenceIdeal.RefLayer.rA3 Cert.KernelIdeal.Chain.layerM Cert.ReferenceIdeal.RefLayer.layerC
  rw [← hA, e11, e12, e13, e14]
  exact hL

include e0 e1 e2 r2 e3 r3 e4 r4 e5 r5 e6 r6 e7 r7 e8 r8 e9 r9 e10 r10 e11 r11 e12 r12 e13 r13 e14 r14 e15 r15 e16 r16 e17 r17 e18 r18 in
theorem A4_agree : Cert.KernelIdeal.Chain.kA4 m c = Cert.ReferenceIdeal.RefLayer.rA4 V ∧ ∀ r j, IsReal (Cert.KernelIdeal.Chain.kA4 m c r j) := by
  obtain ⟨hA, hR⟩ := A3_agree m c V e0 e1 e2 e3 e4 e5 e6 e7 e8 e9 e10 e11 e12 e13 e14 r2 r3 r4 r5 r6 r7 r8 r9 r10 r11 r12 r13 r14
  obtain ⟨hL, hLR⟩ := layer_agree (x := Cert.KernelIdeal.Chain.kA3 m c) (w := mat (m ((c : Thread Cert.KernelIdeal.nD Cert.KernelIdeal.τ).loc Cert.KernelIdeal.main_arg15)))
    (b := vec (m ((c : Thread Cert.KernelIdeal.nD Cert.KernelIdeal.τ).loc Cert.KernelIdeal.main_arg16))) (g := vec (m ((c : Thread Cert.KernelIdeal.nD Cert.KernelIdeal.τ).loc Cert.KernelIdeal.main_arg17)))
    (be := vec (m ((c : Thread Cert.KernelIdeal.nD Cert.KernelIdeal.τ).loc Cert.KernelIdeal.main_arg18))) hR (fun k j => r15 _) (fun j => r16 _) (fun j => r17 _) (fun j => r18 _)
  refine ⟨?_, hLR⟩
  unfold Cert.KernelIdeal.Chain.kA4 Cert.ReferenceIdeal.RefLayer.rA4 Cert.KernelIdeal.Chain.layerM Cert.ReferenceIdeal.RefLayer.layerC
  rw [← hA, e15, e16, e17, e18]
  exact hL

end Net

end Cert.Bridge

end
-- ==== Proof.Finite.lean ====
/-
  The precondition read back: every float argument's entries are real numbers.

  "Every float input is finite" is printed as one conjunction, over the seventeen float arguments, of "all entries have
  |a| < +inf" (a reduction by `and` of the comparison with the +inf word). Each conjunct gives that every entry of its
  argument is neither infinity.
-/
import proofs.«152490_j70686571758165_2_alg».proof.Pre_finite_inputs
import proofs.«152490_j70686571758165_2_alg».proof.Proof.LibRealValued
import Idealize.ShloMosaic.Lib.Affine

set_option maxRecDepth 16384

noncomputable section

namespace Cert.Finite

open Idealize.ShloMosaic Idealize.ShloMosaic.ValueIdx Cert.RealValued Cert.Pre_finite_inputs

variable [Cert.Pre_finite_inputs.Facts]

set_option maxHeartbeats 2000000 in
/-- All seventeen float arguments have real entries. -/
theorem reals_of_pre (a0 : IVec S8192 32) (a1 : IVec S8192x5 32)
    (a2 : FVec Ideal S4096x4096 .f32) (a3 : FVec Ideal S4096x2048 .f32) (a4 : FVec Ideal S2048 .f32) (a5 : FVec Ideal S2048 .f32) (a6 : FVec Ideal S2048 .f32) (a7 : FVec Ideal S2048x2048 .f32) (a8 : FVec Ideal S2048 .f32) (a9 : FVec Ideal S2048 .f32) (a10 : FVec Ideal S2048 .f32) (a11 : FVec Ideal S2048x2048 .f32) (a12 : FVec Ideal S2048 .f32) (a13 : FVec Ideal S2048 .f32) (a14 : FVec Ideal S2048 .f32) (a15 : FVec Ideal S2048x2048 .f32) (a16 : FVec Ideal S2048 .f32) (a17 : FVec Ideal S2048 .f32) (a18 : FVec Ideal S2048 .f32)
    (h : Cert.Pre_finite_inputs.fn (F := Ideal) a0 a1 a2 a3 a4 a5 a6 a7 a8 a9 a10 a11 a12 a13 a14 a15 a16 a17 a18 = fun _ => 1#1) :
    (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) := by
  have e := congrFun h ix0
  unfold Cert.Pre_finite_inputs.fn Cert.Pre_finite_inputs.fn_part1 Cert.Pre_finite_inputs.fn_part2 Cert.Pre_finite_inputs.fn_part3 Cert.Pre_finite_inputs.fn_part4 at e
  simp only [andi, IntOp.andi_eq_one] at e
  obtain ⟨⟨⟨⟨⟨⟨⟨⟨⟨⟨⟨⟨⟨⟨⟨⟨h2, h3⟩, h4⟩, h5⟩, h6⟩, h7⟩, h8⟩, h9⟩, h10⟩, h11⟩, h12⟩, h13⟩, h14⟩, h15⟩, h16⟩, h17⟩, h18⟩ := e
  exact ⟨all_isReal a2 _ _ _ _ h2, all_isReal a3 _ _ _ _ h3, all_isReal a4 _ _ _ _ h4, all_isReal a5 _ _ _ _ h5, all_isReal a6 _ _ _ _ h6, all_isReal a7 _ _ _ _ h7, all_isReal a8 _ _ _ _ h8, all_isReal a9 _ _ _ _ h9, all_isReal a10 _ _ _ _ h10, all_isReal a11 _ _ _ _ h11, all_isReal a12 _ _ _ _ h12, all_isReal a13 _ _ _ _ h13, all_isReal a14 _ _ _ _ h14, all_isReal a15 _ _ _ _ h15, all_isReal a16 _ _ _ _ h16, all_isReal a17 _ _ _ _ h17, all_isReal a18 _ _ _ _ h18⟩

end Cert.Finite

end
-- ==== Proof.lean ====
/-
  The certificate: the Pallas GIN-embedding kernel (gathered embeddings aggregated, then four linear layers each
  batch-normalised over the 8192-row batch, scaled, shifted and rectified, the last written transposed) against its
  plain reference, on the extended reals.

  The kernel accumulates each layer's column sums of `y` and `y · y` over row tiles and normalises with the variance by
  moments clamped at zero, `max (E[y²] − mean²) 0`; the reference centres first and averages the squared deviations.
  For real inputs the two variances are one nonnegative real number, so every layer agrees and stays real; the first
  activations agree because `2 · s + t = s + (s + t)`. The precondition (every float input finite) is what makes every
  entry real: a gathered entry is an entry of the embedding table.

  Frames: the two kernels' are the generated frame certificates; the reference's is its run with the result dropped.
  The idealization rewrote nothing, so it preserves trivially.
-/
import proofs.«152490_j70686571758165_2_alg».proof.Defs
import proofs.«152490_j70686571758165_2_alg».proof.Proof.Gen.Kernel
import proofs.«152490_j70686571758165_2_alg».proof.Proof.Gen.Kernel.Skeleton
import proofs.«152490_j70686571758165_2_alg».proof.Proof.Gen.Kernel.Launch
import proofs.«152490_j70686571758165_2_alg».proof.Proof.Gen.Kernel.Points
import proofs.«152490_j70686571758165_2_alg».proof.Proof.Gen.Kernel.Frame
import proofs.«152490_j70686571758165_2_alg».proof.Proof.Gen.KernelIdeal
import proofs.«152490_j70686571758165_2_alg».proof.Proof.Gen.KernelIdeal.Skeleton
import proofs.«152490_j70686571758165_2_alg».proof.Proof.Gen.KernelIdeal.Launch
import proofs.«152490_j70686571758165_2_alg».proof.Proof.Gen.KernelIdeal.Points
import proofs.«152490_j70686571758165_2_alg».proof.Proof.Gen.KernelIdeal.Frame
import proofs.«152490_j70686571758165_2_alg».proof.Proof.Gen.ReferenceIdeal
import proofs.«152490_j70686571758165_2_alg».proof.Proof.Gen.Pre_finite_inputs
import proofs.«152490_j70686571758165_2_alg».proof.Proof.KernelRun
import proofs.«152490_j70686571758165_2_alg».proof.Proof.Bridge
import proofs.«152490_j70686571758165_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and no operation of its line writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun r h c => ⟨(h c Cert.ReferenceIdeal.main_arg0).trans (Cert.ReferenceIdeal.RefLayer.ops_arg0 _),
      (h c Cert.ReferenceIdeal.main_arg1).trans (Cert.ReferenceIdeal.RefLayer.ops_arg1 _),
      (h c Cert.ReferenceIdeal.main_arg2).trans (Cert.ReferenceIdeal.RefLayer.ops_arg2 _),
      (h c Cert.ReferenceIdeal.main_arg3).trans (Cert.ReferenceIdeal.RefLayer.ops_arg3 _),
      (h c Cert.ReferenceIdeal.main_arg4).trans (Cert.ReferenceIdeal.RefLayer.ops_arg4 _),
      (h c Cert.ReferenceIdeal.main_arg5).trans (Cert.ReferenceIdeal.RefLayer.ops_arg5 _),
      (h c Cert.ReferenceIdeal.main_arg6).trans (Cert.ReferenceIdeal.RefLayer.ops_arg6 _),
      (h c Cert.ReferenceIdeal.main_arg7).trans (Cert.ReferenceIdeal.RefLayer.ops_arg7 _),
      (h c Cert.ReferenceIdeal.main_arg8).trans (Cert.ReferenceIdeal.RefLayer.ops_arg8 _),
      (h c Cert.ReferenceIdeal.main_arg9).trans (Cert.ReferenceIdeal.RefLayer.ops_arg9 _),
      (h c Cert.ReferenceIdeal.main_arg10).trans (Cert.ReferenceIdeal.RefLayer.ops_arg10 _),
      (h c Cert.ReferenceIdeal.main_arg11).trans (Cert.ReferenceIdeal.RefLayer.ops_arg11 _),
      (h c Cert.ReferenceIdeal.main_arg12).trans (Cert.ReferenceIdeal.RefLayer.ops_arg12 _),
      (h c Cert.ReferenceIdeal.main_arg13).trans (Cert.ReferenceIdeal.RefLayer.ops_arg13 _),
      (h c Cert.ReferenceIdeal.main_arg14).trans (Cert.ReferenceIdeal.RefLayer.ops_arg14 _),
      (h c Cert.ReferenceIdeal.main_arg15).trans (Cert.ReferenceIdeal.RefLayer.ops_arg15 _),
      (h c Cert.ReferenceIdeal.main_arg16).trans (Cert.ReferenceIdeal.RefLayer.ops_arg16 _),
      (h c Cert.ReferenceIdeal.main_arg17).trans (Cert.ReferenceIdeal.RefLayer.ops_arg17 _),
      (h c Cert.ReferenceIdeal.main_arg18).trans (Cert.ReferenceIdeal.RefLayer.ops_arg18 _)⟩)
    (Cert.ReferenceIdeal.RefRun.run_main (F := Ideal) m ρ)

set_option maxHeartbeats 1000000 in
/-- From memories agreeing on the arguments both idealized programs end with the fourth activation transposed. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W16 (F := Ideal) m ρ c (Proc.devRef .tc Cert.KernelIdeal.main_v101),
    Cert.KernelIdeal.RunValue.run_result m ρ, ?_⟩
  refine (θ_run Cert.ReferenceIdeal.defs _ _).mono (fun r h c => ⟨?_,
      (h c Cert.ReferenceIdeal.main_arg0).trans (Cert.ReferenceIdeal.RefLayer.ops_arg0 _),
      (h c Cert.ReferenceIdeal.main_arg1).trans (Cert.ReferenceIdeal.RefLayer.ops_arg1 _),
      (h c Cert.ReferenceIdeal.main_arg2).trans (Cert.ReferenceIdeal.RefLayer.ops_arg2 _),
      (h c Cert.ReferenceIdeal.main_arg3).trans (Cert.ReferenceIdeal.RefLayer.ops_arg3 _),
      (h c Cert.ReferenceIdeal.main_arg4).trans (Cert.ReferenceIdeal.RefLayer.ops_arg4 _),
      (h c Cert.ReferenceIdeal.main_arg5).trans (Cert.ReferenceIdeal.RefLayer.ops_arg5 _),
      (h c Cert.ReferenceIdeal.main_arg6).trans (Cert.ReferenceIdeal.RefLayer.ops_arg6 _),
      (h c Cert.ReferenceIdeal.main_arg7).trans (Cert.ReferenceIdeal.RefLayer.ops_arg7 _),
      (h c Cert.ReferenceIdeal.main_arg8).trans (Cert.ReferenceIdeal.RefLayer.ops_arg8 _),
      (h c Cert.ReferenceIdeal.main_arg9).trans (Cert.ReferenceIdeal.RefLayer.ops_arg9 _),
      (h c Cert.ReferenceIdeal.main_arg10).trans (Cert.ReferenceIdeal.RefLayer.ops_arg10 _),
      (h c Cert.ReferenceIdeal.main_arg11).trans (Cert.ReferenceIdeal.RefLayer.ops_arg11 _),
      (h c Cert.ReferenceIdeal.main_arg12).trans (Cert.ReferenceIdeal.RefLayer.ops_arg12 _),
      (h c Cert.ReferenceIdeal.main_arg13).trans (Cert.ReferenceIdeal.RefLayer.ops_arg13 _),
      (h c Cert.ReferenceIdeal.main_arg14).trans (Cert.ReferenceIdeal.RefLayer.ops_arg14 _),
      (h c Cert.ReferenceIdeal.main_arg15).trans (Cert.ReferenceIdeal.RefLayer.ops_arg15 _),
      (h c Cert.ReferenceIdeal.main_arg16).trans (Cert.ReferenceIdeal.RefLayer.ops_arg16 _),
      (h c Cert.ReferenceIdeal.main_arg17).trans (Cert.ReferenceIdeal.RefLayer.ops_arg17 _),
      (h c Cert.ReferenceIdeal.main_arg18).trans (Cert.ReferenceIdeal.RefLayer.ops_arg18 _)⟩)
    (Cert.ReferenceIdeal.RefRun.run_main (F := Ideal) m' ρ')
  obtain ⟨a0, a1, a2, a3, a4, a5, a6, a7, a8, a9, a10, a11, a12, a13, a14, a15, a16, a17, a18⟩ := hagree c
  obtain ⟨q2, q3, q4, q5, q6, q7, q8, q9, q10, q11, q12, q13, q14, q15, q16, q17, q18⟩ := Cert.Finite.reals_of_pre _ _ _ _ _ _ _ _ _ _ _ _ _ _ _ _ _ _ _ (hpre c)
  refine (h c Cert.ReferenceIdeal.main_v113).trans ?_
  show _ = Cert.KernelIdeal.Gen.W16 (F := Ideal) m ρ c (Proc.devRef .tc Cert.KernelIdeal.main_v101)
  rw [Cert.KernelIdeal.Chain.stage3 m ρ c]
  funext i
  obtain ⟨a, r, rfl⟩ : ∃ (a : Fin 2048) (r : Fin 8192), i = ix2 a r := ⟨i 0, i 1, eq_ix2 i⟩
  rw [Cert.ReferenceIdeal.RefLayer.result_apply]
  exact (congrFun (congrFun (Cert.Bridge.A4_agree m c (launchContents m' c) a0 a1 a2 a3 a4 a5 a6 a7 a8 a9 a10 a11 a12 a13 a14 a15 a16 a17 a18 q2 q3 q4 q5 q6 q7 q8 q9 q10 q11 q12 q13 q14 q15 q16 q17 q18).1 r) a).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
